-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.sign_bit.Statement Cert.KernelIdeal.S1024x896 .f32
  ∧ IdealRules.truncf_extf.Statement Cert.KernelIdeal.S512x896 .f32 .bf16
  ∧ IdealRules.truncf_extf.Statement Cert.KernelIdeal.S512x896 .f32 .bf16
  ∧ IdealRules.truncf_extf.Statement Cert.KernelIdeal.S1024x896 .f32 .bf16
  ∧ IdealRules.sign_bit.Statement Cert.KernelIdeal.S512x1024 .f32
  ∧ IdealRules.sign_bit.Statement Cert.KernelIdeal.S768x768 .f32
  ∧ IdealRules.truncf_extf.Statement Cert.KernelIdeal.S512x768 .f32 .bf16
  ∧ IdealRules.truncf_extf.Statement Cert.KernelIdeal.S768x768 .f32 .bf16
  ∧ IdealRules.sign_bit.Statement Cert.KernelIdeal.S512x768 .f32
  ∧ IdealRules.sign_bit.Statement Cert.KernelIdeal.S768x768 .f32
  ∧ IdealRules.truncf_extf.Statement Cert.KernelIdeal.S512x768 .f32 .bf16
  ∧ IdealRules.truncf_extf.Statement Cert.KernelIdeal.S768x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v3_0)) (v5 : (c : Dev Cert.KernelIdeal.nD) → Buf (Elt Ideal) ((c.tc : Thread Cert.KernelIdeal.nD Cert.KernelIdeal.τ).loc Cert.KernelIdeal.main_v3_1)) (v6 : (c : Dev Cert.KernelIdeal.nD) → Buf (Elt Ideal) ((c.tc : Thread Cert.KernelIdeal.nD Cert.KernelIdeal.τ).loc Cert.KernelIdeal.main_v4_0)) (v7 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v3_0) = v4 c
          ∧ r.2.mem ((c.tc : Thread Cert.KernelIdeal.nD Cert.KernelIdeal.τ).loc Cert.KernelIdeal.main_v3_1) = v5 c
          ∧ r.2.mem ((c.tc : Thread Cert.KernelIdeal.nD Cert.KernelIdeal.τ).loc Cert.KernelIdeal.main_v4_0) = v6 c
          ∧ r.2.mem ((c.tc : Thread Cert.KernelIdeal.nD Cert.KernelIdeal.τ).loc Cert.KernelIdeal.main_v4_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v106) = v4 c
          ∧ r.2.mem ((c.tc : Thread Cert.ReferenceIdeal.nD Cert.ReferenceIdeal.τ).loc Cert.ReferenceIdeal.main_v132) = v5 c
          ∧ r.2.mem ((c.tc : Thread Cert.ReferenceIdeal.nD Cert.ReferenceIdeal.τ).loc Cert.ReferenceIdeal.main_v179) = v6 c
          ∧ r.2.mem ((c.tc : Thread Cert.ReferenceIdeal.nD Cert.ReferenceIdeal.τ).loc Cert.ReferenceIdeal.main_v210) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S512x6144 : Shape := ⟨2, ![512, 6144]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S512x6144 : S_.BroadcastsInDim S512x6144 (![] : Fin 0 → Fin S512x6144.rank)
  reducesTo_S512x6144_S_d0_1 : S512x6144.ReducesTo [0, 1] S_
  bcast_S_S6144x784 : S_.BroadcastsInDim S6144x784 (![] : Fin 0 → Fin S6144x784.rank)
  reducesTo_S6144x784_S_d0_1 : S6144x784.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S10x6144 : S_.BroadcastsInDim S10x6144 (![] : Fin 0 → Fin S10x6144.rank)
  reducesTo_S10x6144_S_d0_1 : S10x6144.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S6144 .f32) (main_arg15 : FVec F S6144 .f32) (main_arg16 : FVec F S6144 .f32) (main_v63 : IVec S_ 1) (main_v67 : IVec S_ 1) : IVec S_ 1 :=
  let main_v68 : IVec S_ 1 := andi main_v63 main_v67
  let main_v69 : FVec F S6144 .f32 := Host.absf main_arg14
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg15
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S6144 .f32 := Host.absf main_arg16
  let main_cst_30 : FVec F S_ .f32 := constant S_ .f32 0x7F800000#32
  let main_v80 : FVec F S6144 .f32 := broadcastInDim S6144 ![] bcast_S_S6144 main_cst_30
  let main_v81 : IVec S6144 1 := cmpf .olt main_v79 main_v80
  let main_c_31 : IVec S_ 1 := constantI S_ 1 1#1
  let main_v82 : IVec S_ 1 := (fun x v => Host.reduce IntOp.andi x v reducesTo_S6144_S_d0 h_S_) main_v81 main_c_31
  let main_v83 : IVec S_ 1 := andi main_v78 main_v82
  main_v83

def fn_part3 {F : FTy → Type} [FloatOps F] (main_arg11 : FVec F S6144 .f32) (main_arg12 : FVec F S6144 .f32) (main_arg13 : FVec F S6144 .f32) (main_arg14 : FVec F S6144 .f32) (main_arg15 : FVec F S6144 .f32) (main_arg16 : FVec F S6144 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144 .f32 := Host.absf main_arg13
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg14 main_arg15 main_arg16 main_v63 main_v67

def fn_part2 {F : FTy → Type} [FloatOps F] (main_arg7 : FVec F S6144x6144 .f32) (main_arg8 : FVec F S6144 .f32) (main_arg9 : FVec F S10x6144 .f32) (main_arg10 : FVec F S10 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_v33 : IVec S_ 1) : IVec S_ 1 :=
  let main_v34 : FVec F S6144x6144 .f32 := Host.absf main_arg7
  let main_cst_12 : FVec F S_ .f32 := constant S_ .f32 0x7F800000#32
  let main_v35 : FVec F S6144x6144 .f32 := broadcastInDim S6144x6144 ![] bcast_S_S6144x6144 main_cst_12
  let main_v36 : IVec S6144x6144 1 := cmpf .olt main_v34 main_v35
  let main_c_13 : IVec S_ 1 := constantI S_ 1 1#1
  let main_v37 : IVec S_ 1 := (fun x v => Host.reduce IntOp.andi x v reducesTo_S6144x6144_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S10x6144 .f32 := Host.absf main_arg9
  let main_cst_16 : FVec F S_ .f32 := constant S_ .f32 0x7F800000#32
  let main_v45 : FVec F S10x6144 .f32 := broadcastInDim S10x6144 ![] bcast_S_S10x6144 main_cst_16
  let main_v46 : IVec S10x6144 1 := cmpf .olt main_v44 main_v45
  let main_c_17 : IVec S_ 1 := constantI S_ 1 1#1
  let main_v47 : IVec S_ 1 := (fun x v => Host.reduce IntOp.andi x v reducesTo_S10x6144_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_v48 main_v49 main_v50

def fn_part1 {F : FTy → Type} [FloatOps F] (main_arg4 : FVec F S6144 .f32) (main_arg5 : FVec F S6144x6144 .f32) (main_arg6 : FVec F S6144 .f32) (main_arg7 : FVec F S6144x6144 .f32) (main_arg8 : FVec F S6144 .f32) (main_arg9 : FVec F S10x6144 .f32) (main_arg10 : FVec F S10 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_v13 : IVec S_ 1) (main_v16 : IVec S6144x784 1) : IVec S_ 1 :=
  let main_c_5 : IVec S_ 1 := constantI S_ 1 1#1
  let main_v17 : IVec S_ 1 := (fun x v => Host.reduce IntOp.andi x v reducesTo_S6144x784_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144x6144 .f32 := Host.absf main_arg5
  let main_cst_8 : FVec F S_ .f32 := constant S_ .f32 0x7F800000#32
  let main_v25 : FVec F S6144x6144 .f32 := broadcastInDim S6144x6144 ![] bcast_S_S6144x6144 main_cst_8
  let main_v26 : IVec S6144x6144 1 := cmpf .olt main_v24 main_v25
  let main_c_9 : IVec S_ 1 := constantI S_ 1 1#1
  let main_v27 : IVec S_ 1 := (fun x v => Host.reduce IntOp.andi x v reducesTo_S6144x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S512x784 .f32) (main_arg1 : FVec F S512x6144 .f32) (main_arg2 : FVec F S512x6144 .f32) (main_arg3 : FVec F S6144x784 .f32) (main_arg4 : FVec F S6144 .f32) (main_arg5 : FVec F S6144x6144 .f32) (main_arg6 : FVec F S6144 .f32) (main_arg7 : FVec F S6144x6144 .f32) (main_arg8 : FVec F S6144 .f32) (main_arg9 : FVec F S10x6144 .f32) (main_arg10 : FVec F S10 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S512x6144 .f32 := Host.absf main_arg1
  let main_cst_0 : FVec F S_ .f32 := constant S_ .f32 0x7F800000#32
  let main_v5 : FVec F S512x6144 .f32 := broadcastInDim S512x6144 ![] bcast_S_S512x6144 main_cst_0
  let main_v6 : IVec S512x6144 1 := cmpf .olt main_v4 main_v5
  let main_c_1 : IVec S_ 1 := constantI S_ 1 1#1
  let main_v7 : IVec S_ 1 := (fun x v => Host.reduce IntOp.andi x v reducesTo_S512x6144_S_d0_1 h_S_) main_v6 main_c_1
  let main_v8 : IVec S_ 1 := andi main_v3 main_v7
  let main_v9 : FVec F S512x6144 .f32 := Host.absf main_arg2
  let main_cst_2 : FVec F S_ .f32 := constant S_ .f32 0x7F800000#32
  let main_v10 : FVec F S512x6144 .f32 := broadcastInDim S512x6144 ![] bcast_S_S512x6144 main_cst_2
  let main_v11 : IVec S512x6144 1 := cmpf .olt main_v9 main_v10
  let main_c_3 : IVec S_ 1 := constantI S_ 1 1#1
  let main_v12 : IVec S_ 1 := (fun x v => Host.reduce IntOp.andi x v reducesTo_S512x6144_S_d0_1 h_S_) main_v11 main_c_3
  let main_v13 : IVec S_ 1 := andi main_v8 main_v12
  let main_v14 : FVec F S6144x784 .f32 := Host.absf main_arg3
  let main_cst_4 : FVec F S_ .f32 := constant S_ .f32 0x7F800000#32
  let main_v15 : FVec F S6144x784 .f32 := broadcastInDim S6144x784 ![] bcast_S_S6144x784 main_cst_4
  let main_v16 : IVec S6144x784 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S512x784 : Shape := ⟨2, ![512, 784]⟩
abbrev S512x6144 : Shape := ⟨2, ![512, 6144]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩
abbrev S512x896 : Shape := ⟨2, ![512, 896]⟩
abbrev S6144x896 : Shape := ⟨2, ![6144, 896]⟩
abbrev S1024x896 : Shape := ⟨2, ![1024, 896]⟩
abbrev S512x1024 : Shape := ⟨2, ![512, 1024]⟩
abbrev S896x1024 : Shape := ⟨2, ![896, 1024]⟩
abbrev S1024 : Shape := ⟨1, ![1024]⟩
abbrev S1x1024 : Shape := ⟨2, ![1, 1024]⟩
abbrev S768x768 : Shape := ⟨2, ![768, 768]⟩
abbrev S512x768 : Shape := ⟨2, ![512, 768]⟩
abbrev S768 : Shape := ⟨1, ![768]⟩
abbrev S1x768 : Shape := ⟨2, ![1, 768]⟩
abbrev S6144x10 : Shape := ⟨2, ![6144, 10]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 51
  | .vmem => 44
  | .smem => 0
  | _ => 0

abbrev bufTy : (tb : Table) → Fin (tcTables nBuf tb) → BufTy
  | .hbm, ⟨0, _⟩ => ⟨S512x784, .f32⟩
  | .hbm, ⟨1, _⟩ => ⟨S512x6144, .f32⟩
  | .hbm, ⟨2, _⟩ => ⟨S512x6144, .f32⟩
  | .hbm, ⟨3, _⟩ => ⟨S6144x784, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S10x6144, .f32⟩
  | .hbm, ⟨10, _⟩ => ⟨S10, .f32⟩
  | .hbm, ⟨11, _⟩ => ⟨S6144, .f32⟩
  | .hbm, ⟨12, _⟩ => ⟨S6144, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S_, .i32⟩
  | .hbm, ⟨18, _⟩ => ⟨S_, .f32⟩
  | .hbm, ⟨19, _⟩ => ⟨S512x896, .f32⟩
  | .hbm, ⟨20, _⟩ => ⟨S_, .i32⟩
  | .hbm, ⟨21, _⟩ => ⟨S_, .f32⟩
  | .hbm, ⟨22, _⟩ => ⟨S6144x896, .f32⟩
  | .hbm, ⟨23, _⟩ => ⟨S512x6144, .f32⟩
  | .hbm, ⟨24, _⟩ => ⟨S512x6144, .f32⟩
  | .hbm, ⟨25, _⟩ => ⟨S512x6144, .bf16⟩
  | .hbm, ⟨26, _⟩ => ⟨S512x6144, .f32⟩
  | .hbm, ⟨27, _⟩ => ⟨S512x6144, .f32⟩
  | .hbm, ⟨28, _⟩ => ⟨S512x6144, .bf16⟩
  | .hbm, ⟨29, _⟩ => ⟨S512x6144, .f32⟩
  | .hbm, ⟨30, _⟩ => ⟨S512x6144, .f32⟩
  | .hbm, ⟨31, _⟩ => ⟨S6144x10, .f32⟩
  | .hbm, ⟨32, _⟩ => ⟨S512x10, .f32⟩
  | .hbm, ⟨33, _⟩ => ⟨S1x10, .f32⟩
  | .hbm, ⟨34, _⟩ => ⟨S512x10, .f32⟩
  | .hbm, ⟨35, _⟩ => ⟨S512x10, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512x1, .f32⟩
  | .hbm, ⟨42, _⟩ => ⟨S512x10, .f32⟩
  | .hbm, ⟨43, _⟩ => ⟨S512x10, .f32⟩
  | .hbm, ⟨44, _⟩ => ⟨S512x10, .f32⟩
  | .hbm, ⟨45, _⟩ => ⟨S_, .f32⟩
  | .hbm, ⟨46, _⟩ => ⟨S512, .f32⟩
  | .hbm, ⟨47, _⟩ => ⟨S512x1, .f32⟩
  | .hbm, ⟨48, _⟩ => ⟨S512x1, .f32⟩
  | .hbm, ⟨49, _⟩ => ⟨S512x10, .f32⟩
  | .hbm, ⟨50, _⟩ => ⟨S512x10, .f32⟩
  | .local _ .vmem, ⟨0, _⟩ => ⟨S512x896, .f32⟩
  | .local _ .vmem, ⟨1, _⟩ => ⟨S1024x896, .f32⟩
  | .local _ .vmem, ⟨2, _⟩ => ⟨S1024x896, .f32⟩
  | .local _ .vmem, ⟨3, _⟩ => ⟨S6144, .f32⟩
  | .local _ .vmem, ⟨4, _⟩ => ⟨S6144, .f32⟩
  | .local _ .vmem, ⟨5, _⟩ => ⟨S6144, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x6144, .bf16⟩
  | .local _ .vmem, ⟨13, _⟩ => ⟨S512x6144, .f32⟩
  | .local _ .vmem, ⟨14, _⟩ => ⟨S768x768, .f32⟩
  | .local _ .vmem, ⟨15, _⟩ => ⟨S768x768, .f32⟩
  | .local _ .vmem, ⟨16, _⟩ => ⟨S6144, .f32⟩
  | .local _ .vmem, ⟨17, _⟩ => ⟨S6144, .f32⟩
  | .local _ .vmem, ⟨18, _⟩ => ⟨S6144, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S512x768, .f32⟩
  | .local _ .vmem, ⟨23, _⟩ => ⟨S512x768, .bf16⟩
  | .local _ .vmem, ⟨24, _⟩ => ⟨S512x768, .bf16⟩
  | .local _ .vmem, ⟨25, _⟩ => ⟨S512x768, .f32⟩
  | .local _ .vmem, ⟨26, _⟩ => ⟨S512x768, .f32⟩
  | .local _ .vmem, ⟨27, _⟩ => ⟨S512x6144, .bf16⟩
  | .local _ .vmem, ⟨28, _⟩ => ⟨S512x6144, .f32⟩
  | .local _ .vmem, ⟨29, _⟩ => ⟨S768x768, .f32⟩
  | .local _ .vmem, ⟨30, _⟩ => ⟨S768x768, .f32⟩
  | .local _ .vmem, ⟨31, _⟩ => ⟨S6144, .f32⟩
  | .local _ .vmem, ⟨32, _⟩ => ⟨S6144, .f32⟩
  | .local _ .vmem, ⟨33, _⟩ => ⟨S6144, .f32⟩
  | .local _ .vmem, ⟨34, _⟩ => ⟨S512x768, .f32⟩
  | .local _ .vmem, ⟨35, _⟩ => ⟨S512x768, .f32⟩
  | .local _ .vmem, ⟨36, _⟩ => ⟨S512x768, .f32⟩
  | .local _ .vmem, ⟨37, _⟩ => ⟨S512x768, .f32⟩
  | .local _ .vmem, ⟨38, _⟩ => ⟨S512x768, .f32⟩
  | .local _ .vmem, ⟨39, _⟩ => ⟨S512x768, .f32⟩
  | .local _ .vmem, ⟨40, _⟩ => ⟨S512x768, .f32⟩
  | .local _ .vmem, ⟨41, _⟩ => ⟨S512x768, .f32⟩
  | .local _ .vmem, ⟨42, _⟩ => ⟨S512x768, .f32⟩
  | .local _ .vmem, ⟨43, _⟩ => ⟨S512x768, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v3_0 : Ref sig .tc := ⟨.hbm, 26, rfl⟩
abbrev main_v3_1 : Ref sig .tc := ⟨.hbm, 27, rfl⟩
abbrev main_v3_2 : Ref sig .tc := ⟨.hbm, 28, rfl⟩
abbrev main_v4_0 : Ref sig .tc := ⟨.hbm, 29, rfl⟩
abbrev main_v4_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v10 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc2_scratch0 : Ref sig .tc := ⟨.vmem, 42, rfl⟩
abbrev cc2_scratch1 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39

abbrev nD : Nat := 1
abbrev τ : Topo := Topo.v7x

variable {F : FTy → Type} [BitOps F]

abbrev grid0 : Pipeline.Grid := ⟨1, ![6], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_off1 (i : grid0.Coords) : Fin 1 → Nat :=
  let arg0 : BitVec 32 := BitVec.ofNat 32 (i 0).val
  let c1024_i32 : BitVec 32 := 1024#32
  let v0 : BitVec 32 := Scalar.muli arg0 c1024_i32
  let v1 : BitVec 32 := v0
  let v42 : Index := Scalar.indexCast v1
  ![v42.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c768_i32 : BitVec 32 := 768#32
  let v0 : BitVec 32 := Scalar.muli arg1 c768_i32
  v0
def k1_mult2 (i : grid1.Coords) : BitVec 32 :=
  let arg0 : BitVec 32 := BitVec.ofNat 32 (i 0).val
  let c768_i32_0 : BitVec 32 := 768#32
  let v2 : BitVec 32 := Scalar.muli arg0 c768_i32_0
  v2
def k1_off1 (i : grid1.Coords) : Fin 2 → Nat :=
  let c0 : Index := 0#32
  let arg1 : BitVec 32 := BitVec.ofNat 32 (i 1).val
  let c768_i32 : BitVec 32 := 768#32
  let v0 : BitVec 32 := Scalar.muli arg1 c768_i32
  let v1 : BitVec 32 := v0
  let v7 : Index := Scalar.indexCast v1
  ![0, v7.toNat]
def k1_cond2 (i : grid1.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_17 : BitVec 32 := 0#32
  let v55 : BitVec 1 := Scalar.cmpi .ne v54 c0_i32_17
  v55

def k1_off2 (i : grid1.Coords) : Fin 1 → Nat :=
  let arg0 : BitVec 32 := BitVec.ofNat 32 (i 0).val
  let c768_i32_0 : BitVec 32 := 768#32
  let v2 : BitVec 32 := Scalar.muli arg0 c768_i32_0
  let v3 : BitVec 32 := v2
  let v56 : Index := Scalar.indexCast v3
  ![v56.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S512x6144 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S512x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S768x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S6144 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S6144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S6144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x768 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c768_i32 : BitVec 32 := 768#32
  let v0 : BitVec 32 := Scalar.muli arg1 c768_i32
  v0
def k2_mult2 (i : grid2.Coords) : BitVec 32 :=
  let arg0 : BitVec 32 := BitVec.ofNat 32 (i 0).val
  let c768_i32_0 : BitVec 32 := 768#32
  let v2 : BitVec 32 := Scalar.muli arg0 c768_i32_0
  v2
def k2_off1 (i : grid2.Coords) : Fin 2 → Nat :=
  let c0 : Index := 0#32
  let arg1 : BitVec 32 := BitVec.ofNat 32 (i 1).val
  let c768_i32 : BitVec 32 := 768#32
  let v0 : BitVec 32 := Scalar.muli arg1 c768_i32
  let v1 : BitVec 32 := v0
  let v7 : Index := Scalar.indexCast v1
  ![0, v7.toNat]
def k2_cond2 (i : grid2.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_17 : BitVec 32 := 0#32
  let v55 : BitVec 1 := Scalar.cmpi .ne v54 c0_i32_17
  v55

def k2_off2 (i : grid2.Coords) : Fin 1 → Nat :=
  let arg0 : BitVec 32 := BitVec.ofNat 32 (i 0).val
  let c768_i32_0 : BitVec 32 := 768#32
  let v2 : BitVec 32 := Scalar.muli arg0 c768_i32_0
  let v3 : BitVec 32 := v2
  let v56 : Index := Scalar.indexCast v3
  ![v56.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S512x6144 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S512x6144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S768x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S6144 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S6144 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S6144 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S512x768 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S512x768 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

class Facts₀ : Prop where
  pads_S512x784_S512x896_000_01120 : S512x784.Pads (![0, 0] : Fin 2 → Nat) ![0, 112] ![0, 0] S512x896
  h_S_ : 0 < S_.numel
  pads_S6144x784_S6144x896_000_01120 : S6144x784.Pads (![0, 0] : Fin 2 → Nat) ![0, 112] ![0, 0] S6144x896
  inb_S512x896_S512x896_0_0 : ∀ a, (![0, 0] : Fin 2 → Nat) a + S512x896.size a ≤ S512x896.size a
  h_S512x896 : 0 < S512x896.numel
  shapeCasts_S512x896_S512x896 : S512x896.ShapeCasts S512x896
  inb_S1024x896_S1024x896_0_0 : ∀ a, (![0, 0] : Fin 2 → Nat) a + S1024x896.size a ≤ S1024x896.size a
  h_S1024x896 : 0 < S1024x896.numel
  shapeCasts_S1024x896_S1024x896 : S1024x896.ShapeCasts S1024x896
  bitsLt_bf16_f32 : FTy.bits .bf16 < FTy.bits .f32
  transposes_S1024x896_p1_0_S896x1024 : S1024x896.Transposes [1, 0] S896x1024
  h_S1024 : 0 < S1024.numel
  shapeCasts_S1024_S1x1024 : S1024.ShapeCasts S1x1024
  broadcasts_S1x1024_S512x1024 : S1x1024.Broadcasts S512x1024
  reduces_S512x1024_S1024 : S512x1024.Reduces [0] S1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  transposes_S768x768_p1_0_S768x768 : S768x768.Transposes [1, 0] S768x768
  h_S768 : 0 < S768.numel
  shapeCasts_S768_S1x768 : S768.ShapeCasts S1x768
  broadcasts_S1x768_S512x768 : S1x768.Broadcasts S512x768
  reduces_S512x768_S768 : S512x768.Reduces [0] S768
  packedbf16_S512x768_S512x768_0_0 : (Rect.unit (s := S512x768) ![0, 0] S512x768.size inb_S512x768_S512x768_0_0).PackedRows (EltTy.packing .bf16)
  transposes_S10x6144_S6144x10_1_0 : S10x6144.Transposes [1, 0] S6144x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  dot_S512x896_S896x1024_S512x1024_1_0_0_1_n_n_wf : DotDims.WF S512x896 S896x1024 S512x1024 [1] [0] [0] [1] [] []
  dot_S512x768_S768x768_S512x768_1_0_0_1_n_n_wf : DotDims.WF S512x768 S768x768 S512x768 [1] [0] [0] [1] [] []
  dot_S512x6144_S6144x10_S512x10_1_0_0_1_n_n_wf : DotDims.WF S512x6144 S6144x10 S512x10 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024.size a ≤ S6144.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S512x896.size a
  hwx0_0 : ∀ i : grid0.Coords, EltTy.bits .f32 = 32 ∨ (Rect.block (s := S512x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x896.size a ≤ S6144x896.size a
  hwx0_1 : ∀ i : grid0.Coords, EltTy.bits .f32 = 32 ∨ (Rect.block (s := S6144x896) S1024x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144.size a ≤ S6144.size a
  hwx0_2 : ∀ i : grid0.Coords, EltTy.bits .f32 = 32 ∨ (Rect.block (s := S6144) S6144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6144.size a ≤ S6144.size a
  hwx0_3 : ∀ i : grid0.Coords, EltTy.bits .f32 = 32 ∨ (Rect.block (s := S6144) S6144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144.size a ≤ S6144.size a
  hwx0_4 : ∀ i : grid0.Coords, EltTy.bits .f32 = 32 ∨ (Rect.block (s := S6144) S6144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x6144.size a
  hwx0_5 : ∀ i : grid0.Coords, EltTy.bits .f32 = 32 ∨ (Rect.block (s := S512x6144) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x6144.size a
  hwx0_6 : ∀ i : grid0.Coords, EltTy.bits .f32 = 32 ∨ (Rect.block (s := S512x6144) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x6144.size a
  hwx0_7 : ∀ i : grid0.Coords, EltTy.bits .bf16 = 32 ∨ (Rect.block (s := S512x6144) S512x1024.size (cc0_transform_7 i) (hinb0_7 i)).WholeWords (EltTy.packing .bf16)
  hrank1 : 0 < grid1.rank
  k1_mult1_dvd : ∀ i : grid1.Coords, 768 ∣ (k1_mult1 i).toNat
  k1_mult2_dvd : ∀ i : grid1.Coords, 768 ∣ (k1_mult2 i).toNat
  k1_off1_inb : ∀ i : grid1.Coords, ∀ a, (k1_off1 i) a + S512x768.size a ≤ S512x6144.size a
  k1_off2_inb : ∀ i : grid1.Coords, ∀ (k1_h2 : k1_cond2 i = 1#1), ∀ a, (k1_off2 i) a + S768.size a ≤ S6144.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x6144.size a ≤ S512x6144.size a
  hwx1_0 : ∀ i : grid1.Coords, EltTy.bits .bf16 = 32 ∨ (Rect.block (s := S512x6144) S512x6144.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x6144.size a ≤ S512x6144.size a
  hwx1_1 : ∀ i : grid1.Coords, EltTy.bits .f32 = 32 ∨ (Rect.block (s := S512x6144) S512x6144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S6144x6144.size a
  hwx1_2 : ∀ i : grid1.Coords, EltTy.bits .f32 = 32 ∨ (Rect.block (s := S6144x6144) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6144.size a ≤ S6144.size a
  hwx1_3 : ∀ i : grid1.Coords, EltTy.bits .f32 = 32 ∨ (Rect.block (s := S6144) S6144.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6144.size a ≤ S6144.size a
  hwx1_4 : ∀ i : grid1.Coords, EltTy.bits .f32 = 32 ∨ (Rect.block (s := S6144) S6144.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S6144.size a ≤ S6144.size a
  hwx1_5 : ∀ i : grid1.Coords, EltTy.bits .f32 = 32 ∨ (Rect.block (s := S6144) S6144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x768.size a ≤ S512x6144.size a
  hwx1_6 : ∀ i : grid1.Coords, EltTy.bits .f32 = 32 ∨ (Rect.block (s := S512x6144) S512x768.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x768.size a ≤ S512x6144.size a
  hwx1_7 : ∀ i : grid1.Coords, EltTy.bits .f32 = 32 ∨ (Rect.block (s := S512x6144) S512x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x768.size a ≤ S512x6144.size a
  hwx1_8 : ∀ i : grid1.Coords, EltTy.bits .bf16 = 32 ∨ (Rect.block (s := S512x6144) S512x768.size (cc1_transform_8 i) (hinb1_8 i)).WholeWords (EltTy.packing .bf16)
  hrank2 : 0 < grid2.rank
  k2_mult1_dvd : ∀ i : grid2.Coords, 768 ∣ (k2_mult1 i).toNat
  k2_mult2_dvd : ∀ i : grid2.Coords, 768 ∣ (k2_mult2 i).toNat
  k2_off1_inb : ∀ i : grid2.Coords, ∀ a, (k2_off1 i) a + S512x768.size a ≤ S512x6144.size a
  k2_off2_inb : ∀ i : grid2.Coords, ∀ (k2_h2 : k2_cond2 i = 1#1), ∀ a, (k2_off2 i) a + S768.size a ≤ S6144.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x6144.size a ≤ S512x6144.size a
  hwx2_0 : ∀ i : grid2.Coords, EltTy.bits .bf16 = 32 ∨ (Rect.block (s := S512x6144) S512x6144.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x6144.size a ≤ S512x6144.size a
  hwx2_1 : ∀ i : grid2.Coords, EltTy.bits .f32 = 32 ∨ (Rect.block (s := S512x6144) S512x6144.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S6144x6144.size a
  hwx2_2 : ∀ i : grid2.Coords, EltTy.bits .f32 = 32 ∨ (Rect.block (s := S6144x6144) S768x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S6144.size a ≤ S6144.size a
  hwx2_3 : ∀ i : grid2.Coords, EltTy.bits .f32 = 32 ∨ (Rect.block (s := S6144) S6144.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S6144.size a ≤ S6144.size a
  hwx2_4 : ∀ i : grid2.Coords, EltTy.bits .f32 = 32 ∨ (Rect.block (s := S6144) S6144.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S6144.size a ≤ S6144.size a
  hwx2_5 : ∀ i : grid2.Coords, EltTy.bits .f32 = 32 ∨ (Rect.block (s := S6144) S6144.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x768.size a ≤ S512x6144.size a
  hwx2_6 : ∀ i : grid2.Coords, EltTy.bits .f32 = 32 ∨ (Rect.block (s := S512x6144) S512x768.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x768.size a ≤ S512x6144.size a
  hwx2_7 : ∀ i : grid2.Coords, EltTy.bits .f32 = 32 ∨ (Rect.block (s := S512x6144) S512x768.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x768.size a ≤ S512x6144.size a
  hwx2_8 : ∀ i : grid2.Coords, EltTy.bits .f32 = 32 ∨ (Rect.block (s := S512x6144) S512x768.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x768.size a ≤ S512x6144.size a
  hwx2_9 : ∀ i : grid2.Coords, EltTy.bits .f32 = 32 ∨ (Rect.block (s := S512x6144) S512x768.size (cc2_transform_9 i) (hinb2_9 i)).WholeWords (EltTy.packing .f32)

variable [Facts₀]

def dot_S512x896_S896x1024_S512x1024_1_0_0_1_n_n : DotDims S512x896 S896x1024 S512x1024 where
  lhsContracting := [1]
  rhsContracting := [0]
  lhsNonContracting := [0]
  rhsNonContracting := [1]
  lhsBatch := []
  rhsBatch := []
  wf := dot_S512x896_S896x1024_S512x1024_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x6144_S6144x10_S512x10_1_0_0_1_n_n : DotDims S512x6144 S6144x10 S512x10 where
  lhsContracting := [1]
  rhsContracting := [0]
  lhsNonContracting := [0]
  rhsNonContracting := [1]
  lhsBatch := []
  rhsBatch := []
  wf := dot_S512x6144_S6144x10_S512x10_1_0_0_1_n_n_wf

abbrev win0_0 : Pipeline.Window sig grid0 :=
  Pipeline.Window.ofSpec (Memref.whole main_v0) S512x896.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S6144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_2) S512x6144.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S512x6144.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S768x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S6144.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S6144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S6144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_0) S512x768.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_1) S512x768.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3_2) S512x768.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v3_2) S512x6144.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S512x6144.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S768x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S6144.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S6144.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S6144.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg1) S512x768.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg2) S512x768.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v4_0) S512x768.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v4_1) S512x768.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

class Facts : Prop extends Facts₀ where

variable [Facts]
-- ==== ReferenceIdeal.lean ====
abbrev S512x784 : Shape := ⟨2, ![512, 784]⟩
abbrev S512x6144 : Shape := ⟨2, ![512, 6144]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S784x6144 : Shape := ⟨2, ![784, 6144]⟩
abbrev S1x6144 : Shape := ⟨2, ![1, 6144]⟩
abbrev S_ : Shape := ⟨0, ![]⟩
abbrev S6144x10 : Shape := ⟨2, ![6144, 10]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 330
  | .vmem => 0
  | .smem => 0
  | _ => 0

abbrev hbmTy0_0 (i : Nat) : BufTy := match i % 128 with
  | 0 => ⟨S512x784, .f32⟩
  | 1 => ⟨S512x6144, .f32⟩
  | 2 => ⟨S512x6144, .f32⟩
  | 3 => ⟨S6144x784, .f32⟩
  | 4 => ⟨S6144, .f32⟩
  | 5 => ⟨S6144x6144, .f32⟩
  | 6 => ⟨S6144, .f32⟩
  | 7 => ⟨S6144x6144, .f32⟩
  | 8 => ⟨S6144, .f32⟩
  | 9 => ⟨S10x6144, .f32⟩
  | 10 => ⟨S10, .f32⟩
  | 11 => ⟨S6144, .f32⟩
  | 12 => ⟨S6144, .f32⟩
  | 13 => ⟨S6144, .f32⟩
  | 14 => ⟨S6144, .f32⟩
  | 15 => ⟨S6144, .f32⟩
  | 16 => ⟨S6144, .f32⟩
  | 17 => ⟨S6144x784, .f32⟩
  | 18 => ⟨S6144x784, .f32⟩
  | 19 => ⟨S6144x784, .f32⟩
  | 20 => ⟨S784x6144, .f32⟩
  | 21 => ⟨S512x6144, .f32⟩
  | 22 => ⟨S1x6144, .f32⟩
  | 23 => ⟨S512x6144, .f32⟩
  | 24 => ⟨S512x6144, .f32⟩
  | 25 => ⟨S784x6144, .f32⟩
  | 26 => ⟨S512x6144, .f32⟩
  | 27 => ⟨S1x6144, .f32⟩
  | 28 => ⟨S512x6144, .f32⟩
  | 29 => ⟨S512x6144, .f32⟩
  | 30 => ⟨S_, .f32⟩
  | 31 => ⟨S6144, .f32⟩
  | 32 => ⟨S_, .f32⟩
  | 33 => ⟨S6144, .f32⟩
  | 34 => ⟨S6144, .f32⟩
  | 35 => ⟨S1x6144, .f32⟩
  | 36 => ⟨S512x6144, .f32⟩
  | 37 => ⟨S512x6144, .f32⟩
  | 38 => ⟨S512x6144, .f32⟩
  | 39 => ⟨S_, .f32⟩
  | 40 => ⟨S6144, .f32⟩
  | 41 => ⟨S_, .f32⟩
  | 42 => ⟨S6144, .f32⟩
  | 43 => ⟨S6144, .f32⟩
  | 44 => ⟨S1x6144, .f32⟩
  | 45 => ⟨S512x6144, .f32⟩
  | 46 => ⟨S512x6144, .f32⟩
  | 47 => ⟨S1x6144, .f32⟩
  | 48 => ⟨S512x6144, .f32⟩
  | 49 => ⟨S512x6144, .f32⟩
  | 50 => ⟨S_, .f32⟩
  | 51 => ⟨S6144, .f32⟩
  | 52 => ⟨S6144, .f32⟩
  | 53 => ⟨S6144, .f32⟩
  | 54 => ⟨S1x6144, .f32⟩
  | 55 => ⟨S512x6144, .f32⟩
  | 56 => ⟨S512x6144, .f32⟩
  | 57 => ⟨S1x6144, .f32⟩
  | 58 => ⟨S512x6144, .f32⟩
  | 59 => ⟨S512x6144, .f32⟩
  | 60 => ⟨S_, .f32⟩
  | 61 => ⟨S_, .f32⟩
  | 62 => ⟨S_, .f32⟩
  | 63 => ⟨S512x6144, .f32⟩
  | 64 => ⟨S512x6144, .f32⟩
  | 65 => ⟨S_, .f32⟩
  | 66 => ⟨S512x6144, .f32⟩
  | 67 => ⟨S512x6144, .f32⟩
  | 68 => ⟨S_, .f32⟩
  | 69 => ⟨S6144, .f32⟩
  | 70 => ⟨S_, .f32⟩
  | 71 => ⟨S6144, .f32⟩
  | 72 => ⟨S6144, .f32⟩
  | 73 => ⟨S1x6144, .f32⟩
  | 74 => ⟨S512x6144, .f32⟩
  | 75 => ⟨S512x6144, .f32⟩
  | 76 => ⟨S512x6144, .f32⟩
  | 77 => ⟨S_, .f32⟩
  | 78 => ⟨S6144, .f32⟩
  | 79 => ⟨S_, .f32⟩
  | 80 => ⟨S6144, .f32⟩
  | 81 => ⟨S6144, .f32⟩
  | 82 => ⟨S1x6144, .f32⟩
  | 83 => ⟨S512x6144, .f32⟩
  | 84 => ⟨S512x6144, .f32⟩
  | 85 => ⟨S1x6144, .f32⟩
  | 86 => ⟨S512x6144, .f32⟩
  | 87 => ⟨S512x6144, .f32⟩
  | 88 => ⟨S_, .f32⟩
  | 89 => ⟨S6144, .f32⟩
  | 90 => ⟨S6144, .f32⟩
  | 91 => ⟨S6144, .f32⟩
  | 92 => ⟨S1x6144, .f32⟩
  | 93 => ⟨S512x6144, .f32⟩
  | 94 => ⟨S512x6144, .f32⟩
  | 95 => ⟨S1x6144, .f32⟩
  | 96 => ⟨S512x6144, .f32⟩
  | 97 => ⟨S512x6144, .f32⟩
  | 98 => ⟨S_, .f32⟩
  | 99 => ⟨S_, .f32⟩
  | 100 => ⟨S_, .f32⟩
  | 101 => ⟨S512x6144, .f32⟩
  | 102 => ⟨S512x6144, .f32⟩
  | 103 => ⟨S_, .f32⟩
  | 104 => ⟨S512x6144, .f32⟩
  | 105 => ⟨S512x6144, .f32⟩
  | 106 => ⟨S512x6144, .f32⟩
  | 107 => ⟨S512x6144, .f32⟩
  | 108 => ⟨S512x6144, .f32⟩
  | 109 => ⟨S6144x6144, .f32⟩
  | 110 => ⟨S6144x6144, .f32⟩
  | 111 => ⟨S6144x6144, .f32⟩
  | 112 => ⟨S6144x6144, .f32⟩
  | 113 => ⟨S512x6144, .f32⟩
  | 114 => ⟨S1x6144, .f32⟩
  | 115 => ⟨S512x6144, .f32⟩
  | 116 => ⟨S512x6144, .f32⟩
  | 117 => ⟨S6144x6144, .f32⟩
  | 118 => ⟨S512x6144, .f32⟩
  | 119 => ⟨S1x6144, .f32⟩
  | 120 => ⟨S512x6144, .f32⟩
  | 121 => ⟨S512x6144, .f32⟩
  | 122 => ⟨S_, .f32⟩
  | 123 => ⟨S6144, .f32⟩
  | 124 => ⟨S_, .f32⟩
  | 125 => ⟨S6144, .f32⟩
  | 126 => ⟨S6144, .f32⟩
  | 127 => ⟨S1x6144, .f32⟩
  | _ => ⟨S512x784, .f32⟩

abbrev hbmTy0_1 (i : Nat) : BufTy := match i % 128 with
  | 0 => ⟨S512x6144, .f32⟩
  | 1 => ⟨S512x6144, .f32⟩
  | 2 => ⟨S512x6144, .f32⟩
  | 3 => ⟨S_, .f32⟩
  | 4 => ⟨S6144, .f32⟩
  | 5 => ⟨S_, .f32⟩
  | 6 => ⟨S6144, .f32⟩
  | 7 => ⟨S6144, .f32⟩
  | 8 => ⟨S1x6144, .f32⟩
  | 9 => ⟨S512x6144, .f32⟩
  | 10 => ⟨S512x6144, .f32⟩
  | 11 => ⟨S1x6144, .f32⟩
  | 12 => ⟨S512x6144, .f32⟩
  | 13 => ⟨S512x6144, .f32⟩
  | 14 => ⟨S_, .f32⟩
  | 15 => ⟨S6144, .f32⟩
  | 16 => ⟨S6144, .f32⟩
  | 17 => ⟨S6144, .f32⟩
  | 18 => ⟨S1x6144, .f32⟩
  | 19 => ⟨S512x6144, .f32⟩
  | 20 => ⟨S512x6144, .f32⟩
  | 21 => ⟨S1x6144, .f32⟩
  | 22 => ⟨S512x6144, .f32⟩
  | 23 => ⟨S512x6144, .f32⟩
  | 24 => ⟨S_, .f32⟩
  | 25 => ⟨S_, .f32⟩
  | 26 => ⟨S_, .f32⟩
  | 27 => ⟨S512x6144, .f32⟩
  | 28 => ⟨S512x6144, .f32⟩
  | 29 => ⟨S_, .f32⟩
  | 30 => ⟨S512x6144, .f32⟩
  | 31 => ⟨S512x6144, .f32⟩
  | 32 => ⟨S_, .f32⟩
  | 33 => ⟨S6144, .f32⟩
  | 34 => ⟨S_, .f32⟩
  | 35 => ⟨S6144, .f32⟩
  | 36 => ⟨S6144, .f32⟩
  | 37 => ⟨S1x6144, .f32⟩
  | 38 => ⟨S512x6144, .f32⟩
  | 39 => ⟨S512x6144, .f32⟩
  | 40 => ⟨S512x6144, .f32⟩
  | 41 => ⟨S_, .f32⟩
  | 42 => ⟨S6144, .f32⟩
  | 43 => ⟨S_, .f32⟩
  | 44 => ⟨S6144, .f32⟩
  | 45 => ⟨S6144, .f32⟩
  | 46 => ⟨S1x6144, .f32⟩
  | 47 => ⟨S512x6144, .f32⟩
  | 48 => ⟨S512x6144, .f32⟩
  | 49 => ⟨S1x6144, .f32⟩
  | 50 => ⟨S512x6144, .f32⟩
  | 51 => ⟨S512x6144, .f32⟩
  | 52 => ⟨S_, .f32⟩
  | 53 => ⟨S6144, .f32⟩
  | 54 => ⟨S6144, .f32⟩
  | 55 => ⟨S6144, .f32⟩
  | 56 => ⟨S1x6144, .f32⟩
  | 57 => ⟨S512x6144, .f32⟩
  | 58 => ⟨S512x6144, .f32⟩
  | 59 => ⟨S1x6144, .f32⟩
  | 60 => ⟨S512x6144, .f32⟩
  | 61 => ⟨S512x6144, .f32⟩
  | 62 => ⟨S_, .f32⟩
  | 63 => ⟨S_, .f32⟩
  | 64 => ⟨S_, .f32⟩
  | 65 => ⟨S512x6144, .f32⟩
  | 66 => ⟨S512x6144, .f32⟩
  | 67 => ⟨S_, .f32⟩
  | 68 => ⟨S512x6144, .f32⟩
  | 69 => ⟨S512x6144, .f32⟩
  | 70 => ⟨S512x6144, .f32⟩
  | 71 => ⟨S512x6144, .f32⟩
  | 72 => ⟨S512x6144, .f32⟩
  | 73 => ⟨S6144x6144, .f32⟩
  | 74 => ⟨S6144x6144, .f32⟩
  | 75 => ⟨S6144x6144, .f32⟩
  | 76 => ⟨S6144x6144, .f32⟩
  | 77 => ⟨S512x6144, .f32⟩
  | 78 => ⟨S1x6144, .f32⟩
  | 79 => ⟨S512x6144, .f32⟩
  | 80 => ⟨S512x6144, .f32⟩
  | 81 => ⟨S6144x6144, .f32⟩
  | 82 => ⟨S512x6144, .f32⟩
  | 83 => ⟨S1x6144, .f32⟩
  | 84 => ⟨S512x6144, .f32⟩
  | 85 => ⟨S512x6144, .f32⟩
  | 86 => ⟨S_, .f32⟩
  | 87 => ⟨S512x6144, .f32⟩
  | 88 => ⟨S512x6144, .i1⟩
  | 89 => ⟨S_, .f32⟩
  | 90 => ⟨S512x6144, .f32⟩
  | 91 => ⟨S512x6144, .f32⟩
  | 92 => ⟨S_, .f32⟩
  | 93 => ⟨S_, .f32⟩
  | 94 => ⟨S512x6144, .f32⟩
  | 95 => ⟨S512x6144, .f32⟩
  | 96 => ⟨S_, .f32⟩
  | 97 => ⟨S6144, .f32⟩
  | 98 => ⟨S_, .f32⟩
  | 99 => ⟨S6144, .f32⟩
  | 100 => ⟨S6144, .f32⟩
  | 101 => ⟨S1x6144, .f32⟩
  | 102 => ⟨S512x6144, .f32⟩
  | 103 => ⟨S512x6144, .f32⟩
  | 104 => ⟨S512x6144, .f32⟩
  | 105 => ⟨S_, .f32⟩
  | 106 => ⟨S6144, .f32⟩
  | 107 => ⟨S_, .f32⟩
  | 108 => ⟨S6144, .f32⟩
  | 109 => ⟨S6144, .f32⟩
  | 110 => ⟨S1x6144, .f32⟩
  | 111 => ⟨S512x6144, .f32⟩
  | 112 => ⟨S512x6144, .f32⟩
  | 113 => ⟨S1x6144, .f32⟩
  | 114 => ⟨S512x6144, .f32⟩
  | 115 => ⟨S512x6144, .f32⟩
  | 116 => ⟨S_, .f32⟩
  | 117 => ⟨S6144, .f32⟩
  | 118 => ⟨S6144, .f32⟩
  | 119 => ⟨S6144, .f32⟩
  | 120 => ⟨S1x6144, .f32⟩
  | 121 => ⟨S512x6144, .f32⟩
  | 122 => ⟨S512x6144, .f32⟩
  | 123 => ⟨S1x6144, .f32⟩
  | 124 => ⟨S512x6144, .f32⟩
  | 125 => ⟨S512x6144, .f32⟩
  | 126 => ⟨S_, .f32⟩
  | 127 => ⟨S_, .f32⟩
  | _ => ⟨S512x784, .f32⟩

abbrev hbmTy0_2 (i : Nat) : BufTy := match i % 128 with
  | 0 => ⟨S_, .f32⟩
  | 1 => ⟨S512x6144, .f32⟩
  | 2 => ⟨S512x6144, .f32⟩
  | 3 => ⟨S_, .f32⟩
  | 4 => ⟨S512x6144, .f32⟩
  | 5 => ⟨S512x6144, .f32⟩
  | 6 => ⟨S_, .f32⟩
  | 7 => ⟨S512x6144, .f32⟩
  | 8 => ⟨S512x6144, .i1⟩
  | 9 => ⟨S_, .f32⟩
  | 10 => ⟨S512x6144, .f32⟩
  | 11 => ⟨S512x6144, .f32⟩
  | 12 => ⟨S_, .f32⟩
  | 13 => ⟨S_, .f32⟩
  | 14 => ⟨S512x6144, .f32⟩
  | 15 => ⟨S512x6144, .f32⟩
  | 16 => ⟨S_, .f32⟩
  | 17 => ⟨S6144, .f32⟩
  | 18 => ⟨S_, .f32⟩
  | 19 => ⟨S6144, .f32⟩
  | 20 => ⟨S6144, .f32⟩
  | 21 => ⟨S1x6144, .f32⟩
  | 22 => ⟨S512x6144, .f32⟩
  | 23 => ⟨S512x6144, .f32⟩
  | 24 => ⟨S512x6144, .f32⟩
  | 25 => ⟨S_, .f32⟩
  | 26 => ⟨S6144, .f32⟩
  | 27 => ⟨S_, .f32⟩
  | 28 => ⟨S6144, .f32⟩
  | 29 => ⟨S6144, .f32⟩
  | 30 => ⟨S1x6144, .f32⟩
  | 31 => ⟨S512x6144, .f32⟩
  | 32 => ⟨S512x6144, .f32⟩
  | 33 => ⟨S1x6144, .f32⟩
  | 34 => ⟨S512x6144, .f32⟩
  | 35 => ⟨S512x6144, .f32⟩
  | 36 => ⟨S_, .f32⟩
  | 37 => ⟨S6144, .f32⟩
  | 38 => ⟨S6144, .f32⟩
  | 39 => ⟨S6144, .f32⟩
  | 40 => ⟨S1x6144, .f32⟩
  | 41 => ⟨S512x6144, .f32⟩
  | 42 => ⟨S512x6144, .f32⟩
  | 43 => ⟨S1x6144, .f32⟩
  | 44 => ⟨S512x6144, .f32⟩
  | 45 => ⟨S512x6144, .f32⟩
  | 46 => ⟨S_, .f32⟩
  | 47 => ⟨S_, .f32⟩
  | 48 => ⟨S_, .f32⟩
  | 49 => ⟨S512x6144, .f32⟩
  | 50 => ⟨S512x6144, .f32⟩
  | 51 => ⟨S_, .f32⟩
  | 52 => ⟨S512x6144, .f32⟩
  | 53 => ⟨S512x6144, .f32⟩
  | 54 => ⟨S6144x10, .f32⟩
  | 55 => ⟨S512x10, .f32⟩
  | 56 => ⟨S1x10, .f32⟩
  | 57 => ⟨S512x10, .f32⟩
  | 58 => ⟨S512x10, .f32⟩
  | 59 => ⟨S_, .f32⟩
  | 60 => ⟨S512, .f32⟩
  | 61 => ⟨S_, .f32⟩
  | 62 => ⟨S512, .f32⟩
  | 63 => ⟨S512, .f32⟩
  | 64 => ⟨S512x1, .f32⟩
  | 65 => ⟨S512x10, .f32⟩
  | 66 => ⟨S512x10, .f32⟩
  | 67 => ⟨S512x10, .f32⟩
  | 68 => ⟨S_, .f32⟩
  | 69 => ⟨S512, .f32⟩
  | 70 => ⟨S512x1, .f32⟩
  | 71 => ⟨S512x1, .f32⟩
  | 72 => ⟨S512x10, .f32⟩
  | 73 => ⟨S512x10, .f32⟩
  | _ => ⟨S512x784, .f32⟩

abbrev hbmTy (i : Nat) : BufTy := match i / 128 with
  | 0 => hbmTy0_0 i
  | 1 => hbmTy0_1 i
  | 2 => hbmTy0_2 i
  | _ => ⟨S512x784, .f32⟩

abbrev bufTy : (tb : Table) → Fin (tcTables nBuf tb) → BufTy
  | .hbm, ⟨i, _⟩ => hbmTy i
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_cst_12 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_13 : Ref sig .tc := ⟨.hbm, 122, rfl⟩
abbrev main_v81 : Ref sig .tc := ⟨.hbm, 123, rfl⟩
abbrev main_cst_14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_15 : Ref sig .tc := ⟨.hbm, 131, rfl⟩
abbrev main_v88 : Ref sig .tc := ⟨.hbm, 132, rfl⟩
abbrev main_cst_16 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_17 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_18 : Ref sig .tc := ⟨.hbm, 152, rfl⟩
abbrev main_cst_19 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_v106 : Ref sig .tc := ⟨.hbm, 159, rfl⟩
abbrev main_cst_20 : Ref sig .tc := ⟨.hbm, 160, rfl⟩
abbrev main_v107 : Ref sig .tc := ⟨.hbm, 161, rfl⟩
abbrev main_cst_21 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_22 : Ref sig .tc := ⟨.hbm, 169, rfl⟩
abbrev main_v114 : Ref sig .tc := ⟨.hbm, 170, rfl⟩
abbrev main_cst_23 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_24 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_25 : Ref sig .tc := ⟨.hbm, 190, rfl⟩
abbrev main_cst_26 : Ref sig .tc := ⟨.hbm, 191, rfl⟩
abbrev main_call3_v0 : Ref sig .tc := ⟨.hbm, 192, rfl⟩
abbrev main_call3_v1 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_cst_27 : Ref sig .tc := ⟨.hbm, 214, rfl⟩
abbrev main_v149 : Ref sig .tc := ⟨.hbm, 215, rfl⟩
abbrev main_v150 : Ref sig .tc := ⟨.hbm, 216, rfl⟩
abbrev main_cst_28 : Ref sig .tc := ⟨.hbm, 217, rfl⟩
abbrev main_v151 : Ref sig .tc := ⟨.hbm, 218, rfl⟩
abbrev main_v152 : Ref sig .tc := ⟨.hbm, 219, rfl⟩
abbrev main_cst_29 : Ref sig .tc := ⟨.hbm, 220, rfl⟩
abbrev main_call4_v0 : Ref sig .tc := ⟨.hbm, 221, rfl⟩
abbrev main_call4_v1 : Ref sig .tc := ⟨.hbm, 222, rfl⟩
abbrev main_v153 : Ref sig .tc := ⟨.hbm, 223, rfl⟩
abbrev main_cst_30 : Ref sig .tc := ⟨.hbm, 224, rfl⟩
abbrev main_v154 : Ref sig .tc := ⟨.hbm, 225, rfl⟩
abbrev main_cst_31 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_32 : Ref sig .tc := ⟨.hbm, 233, rfl⟩
abbrev main_v161 : Ref sig .tc := ⟨.hbm, 234, rfl⟩
abbrev main_cst_33 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_cst_34 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_cst_35 : Ref sig .tc := ⟨.hbm, 254, rfl⟩
abbrev main_cst_36 : Ref sig .tc := ⟨.hbm, 255, rfl⟩
abbrev main_call5_v0 : Ref sig .tc := ⟨.hbm, 256, rfl⟩
abbrev main_call5_v1 : Ref sig .tc := ⟨.hbm, 257, rfl⟩
abbrev main_call5_v2 : Ref sig .tc := ⟨.hbm, 258, rfl⟩
abbrev main_call5_v3 : Ref sig .tc := ⟨.hbm, 259, rfl⟩
abbrev main_call5_v4 : Ref sig .tc := ⟨.hbm, 260, rfl⟩
abbrev main_v179 : Ref sig .tc := ⟨.hbm, 261, rfl⟩
abbrev main_cst_37 : Ref sig .tc := ⟨.hbm, 262, rfl⟩
abbrev main_v180 : Ref sig .tc := ⟨.hbm, 263, rfl⟩
abbrev main_v181 : Ref sig .tc := ⟨.hbm, 264, rfl⟩
abbrev main_cst_38 : Ref sig .tc := ⟨.hbm, 265, rfl⟩
abbrev main_v182 : Ref sig .tc := ⟨.hbm, 266, rfl⟩
abbrev main_v183 : Ref sig .tc := ⟨.hbm, 267, rfl⟩
abbrev main_cst_39 : Ref sig .tc := ⟨.hbm, 268, rfl⟩
abbrev main_call6_v0 : Ref sig .tc := ⟨.hbm, 269, rfl⟩
abbrev main_call6_v1 : Ref sig .tc := ⟨.hbm, 270, rfl⟩
abbrev main_v184 : Ref sig .tc := ⟨.hbm, 271, rfl⟩
abbrev main_cst_40 : Ref sig .tc := ⟨.hbm, 272, rfl⟩
abbrev main_v185 : Ref sig .tc := ⟨.hbm, 273, rfl⟩
abbrev main_cst_41 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_42 : Ref sig .tc := ⟨.hbm, 281, rfl⟩
abbrev main_v192 : Ref sig .tc := ⟨.hbm, 282, rfl⟩
abbrev main_cst_43 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_cst_44 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_cst_45 : Ref sig .tc := ⟨.hbm, 302, rfl⟩
abbrev main_cst_46 : Ref sig .tc := ⟨.hbm, 303, rfl⟩
abbrev main_call7_v0 : Ref sig .tc := ⟨.hbm, 304, rfl⟩
abbrev main_call7_v1 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_call8_cst : Ref sig .tc := ⟨.hbm, 315, rfl⟩
abbrev main_call8_v0 : Ref sig .tc := ⟨.hbm, 316, rfl⟩
abbrev main_call8_cst_0 : Ref sig .tc := ⟨.hbm, 317, rfl⟩
abbrev main_call8_v1 : Ref sig .tc := ⟨.hbm, 318, rfl⟩
abbrev main_call8_v2 : Ref sig .tc := ⟨.hbm, 319, rfl⟩
abbrev main_call8_v3 : Ref sig .tc := ⟨.hbm, 320, rfl⟩
abbrev main_call8_v4 : Ref sig .tc := ⟨.hbm, 321, rfl⟩
abbrev main_call8_v5 : Ref sig .tc := ⟨.hbm, 322, rfl⟩
abbrev main_call8_v6 : Ref sig .tc := ⟨.hbm, 323, rfl⟩
abbrev main_call8_cst_1 : Ref sig .tc := ⟨.hbm, 324, rfl⟩
abbrev main_call8_v7 : Ref sig .tc := ⟨.hbm, 325, rfl⟩
abbrev main_call8_v8 : Ref sig .tc := ⟨.hbm, 326, rfl⟩
abbrev main_call8_v9 : Ref sig .tc := ⟨.hbm, 327, rfl⟩
abbrev main_call8_v10 : Ref sig .tc := ⟨.hbm, 328, rfl⟩
abbrev main_v216 : Ref sig .tc := ⟨.hbm, 329, rfl⟩

abbrev nD : Nat := 1
abbrev τ : Topo := Topo.v7x

variable {F : FTy → Type} [FloatOps F]

class Facts₀ : Prop where
  transposes_S6144x784_S784x6144_1_0 : S6144x784.Transposes [1, 0] S784x6144
  bcast_S6144_S1x6144_1 : S6144.BroadcastsInDim S1x6144 (![1] : Fin 1 → Fin S1x6144.rank)
  bcast_S1x6144_S512x6144_0_1 : S1x6144.BroadcastsInDim S512x6144 (![0, 1] : Fin 2 → Fin S512x6144.rank)
  reducesTo_S512x6144_S6144_d0 : S512x6144.ReducesTo [0] S6144
  h_S_ : 0 < S_.numel
  bcast_S_S6144 : S_.BroadcastsInDim S6144 (![] : Fin 0 → Fin S6144.rank)
  bcast_S_S512x6144 : S_.BroadcastsInDim S512x6144 (![] : Fin 0 → Fin S512x6144.rank)
  transposes_S6144x6144_S6144x6144_1_0 : S6144x6144.Transposes [1, 0] S6144x6144
  transposes_S10x6144_S6144x10_1_0 : S10x6144.Transposes [1, 0] S6144x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  dot_S512x784_S784x6144_S512x6144_1_0_0_1_n_n_wf : DotDims.WF S512x784 S784x6144 S512x6144 [1] [0] [0] [1] [] []
  dot_S512x6144_S6144x6144_S512x6144_1_0_0_1_n_n_wf : DotDims.WF S512x6144 S6144x6144 S512x6144 [1] [0] [0] [1] [] []
  dot_S512x6144_S6144x10_S512x10_1_0_0_1_n_n_wf : DotDims.WF S512x6144 S6144x10 S512x10 [1] [0] [0] [1] [] []

variable [Facts₀]

def dot_S512x784_S784x6144_S512x6144_1_0_0_1_n_n : DotDims S512x784 S784x6144 S512x6144 where
  lhsContracting := [1]
  rhsContracting := [0]
  lhsNonContracting := [0]
  rhsNonContracting := [1]
  lhsBatch := []
  rhsBatch := []
  wf := dot_S512x784_S784x6144_S512x6144_1_0_0_1_n_n_wf
def dot_S512x6144_S6144x6144_S512x6144_1_0_0_1_n_n : DotDims S512x6144 S6144x6144 S512x6144 where
  lhsContracting := [1]
  rhsContracting := [0]
  lhsNonContracting := [0]
  rhsNonContracting := [1]
  lhsBatch := []
  rhsBatch := []
  wf := dot_S512x6144_S6144x6144_S512x6144_1_0_0_1_n_n_wf
def dot_S512x6144_S6144x10_S512x10_1_0_0_1_n_n : DotDims S512x6144 S6144x10 S512x10 where
  lhsContracting := [1]
  rhsContracting := [0]
  lhsNonContracting := [0]
  rhsNonContracting := [1]
  lhsBatch := []
  rhsBatch := []
  wf := dot_S512x6144_S6144x10_S512x10_1_0_0_1_n_n_wf

class Facts : Prop extends Facts₀ where

variable [Facts]
-- ==== Proof.K_Run.lean ====
/-
  The run of @main, from three regional halves. @main is: four short host stretches (two zero paddings of the
  contraction axis from 784 to 896), three kernel regions, and two host stretches (the ten-column classifier and the
  row-wise log-softmax). Between two consecutive items every unscoped buffer of a core is held whole at a named
  valuation: the launch memory pushed through each host stretch, and at a region's exit the region's arrays replaced
  by what its write-backs leave. The theorem at the end reads every unscoped buffer of the final memory at the last
  valuation; the frame and the values are both read off it.
-/
import proofs.«130870_j71201967833887_2_alg».proof.Proof.Gen.Kernel.Launch
import proofs.«130870_j71201967833887_2_alg».proof.Proof.Gen.Kernel.Skeleton
import proofs.«130870_j71201967833887_2_alg».proof.Proof.Gen.Kernel.Points
import proofs.«130870_j71201967833887_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the run needs of region 0: its proof data at any entry contents `V`, the body obligation, and the region
    invariant's two ends. -/
structure Half0 (F : FTy → Type) [BitOps F] where
  dat : (V : (c : Dev nD) → (b : Ref sig .tc) → Buf (Elt F) ((c : Thread nD τ).loc b)) → (c : Dev nD) → Dat τ (Elt F) Unit ℕ (UR sig nD τ) ℕ cfg0 c
  A_eq : ∀ V c (w : Fin cfg0.W), (dat V c).A w = V c (Pipeline.arrRef spec0 w)
  q_eq : ∀ V c (w : Fin cfg0.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What the run needs of region 1: its proof data at any entry contents `V`, the body obligation, and the region
    invariant's two ends. -/
structure Half1 (F : FTy → Type) [BitOps F] where
  dat : (V : (c : Dev nD) → (b : Ref sig .tc) → Buf (Elt F) ((c : Thread nD τ).loc b)) → (c : Dev nD) → Dat τ (Elt F) Unit ℕ (UR sig nD τ) ℕ cfg1 c
  A_eq : ∀ V c (w : Fin cfg1.W), (dat V c).A w = V c (Pipeline.arrRef spec1 w)
  q_eq : ∀ V c (w : Fin cfg1.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What the run needs of region 2: its proof data at any entry contents `V`, the body obligation, and the region
    invariant's two ends. -/
structure Half2 (F : FTy → Type) [BitOps F] where
  dat : (V : (c : Dev nD) → (b : Ref sig .tc) → Buf (Elt F) ((c : Thread nD τ).loc b)) → (c : Dev nD) → Dat τ (Elt F) Unit ℕ (UR sig nD τ) ℕ cfg2 c
  A_eq : ∀ V c (w : Fin cfg2.W), (dat V c).A w = V c (Pipeline.arrRef spec2 w)
  q_eq : ∀ V c (w : Fin cfg2.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable {F : FTy → Type} [BitOps F]

local notation "𝕄" => MT nD τ sig Unit (Elt F) ℕ (UR sig nD τ) ℕ

variable (H0 : Half0 F) (H1 : Half1 F) (H2 : Half2 F)
variable (m : (ℓ : Loc nD τ sig) → Buf (Elt F) ℓ) (ρ : Dev nD → PrngReg)

/-! ## The valuations between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
/-- Region 0 is entered from `W4`, read at the TensorCore's references. -/
abbrev E0 : (c : Dev nD) → (b : Ref sig .tc) → Buf (Elt F) ((c : Thread nD τ).loc b) := fun c b => W4 m c b
def W5 (c : Dev nD) : Valuation τ sig (Elt F) :=
  Pipeline.withArrays spec0 c (W4 m c) fun w => (H0.dat (E0 m) c).arrAt w cfg0.N
abbrev E1 : (c : Dev nD) → (b : Ref sig .tc) → Buf (Elt F) ((c : Thread nD τ).loc b) := fun c b => W5 H0 m c b
def W6 (c : Dev nD) : Valuation τ sig (Elt F) :=
  Pipeline.withArrays spec1 c (W5 H0 m c) fun w => (H1.dat (E1 H0 m) c).arrAt w cfg1.N
abbrev E2 : (c : Dev nD) → (b : Ref sig .tc) → Buf (Elt F) ((c : Thread nD τ).loc b) := fun c b => W6 H0 H1 m c b
def W7 (c : Dev nD) : Valuation τ sig (Elt F) :=
  Pipeline.withArrays spec2 c (W6 H0 H1 m c) fun w => (H2.dat (E2 H0 H1 m) c).arrAt w cfg2.N
abbrev E3 : (c : Dev nD) → (b : Ref sig .tc) → Buf (Elt F) ((c : Thread nD τ).loc b) := fun c b => W7 H0 H1 H2 m c b
abbrev W8 : Dev nD → Valuation τ sig (Elt F) := fun c => StableHlo.after hostOps3 (W7 H0 H1 H2 m c)
abbrev W9 : Dev nD → Valuation τ sig (Elt F) := fun c => StableHlo.after hostOps3_1 (W8 H0 H1 H2 m c)

theorem W5_arr (c : Dev nD) (w : Fin cfg0.W) :
    W5 H0 m c (Proc.devRef .tc (Pipeline.arrRef spec0 w)) = (H0.dat (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 H0 m c (Proc.devRef .tc b) = W4 m c (Proc.devRef .tc b) := by
  unfold W5; exact Pipeline.withArrays_of_ne spec0 c _ _ b hb
theorem W6_arr (c : Dev nD) (w : Fin cfg1.W) :
    W6 H0 H1 m c (Proc.devRef .tc (Pipeline.arrRef spec1 w)) = (H1.dat (E1 H0 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 H0 H1 m c (Proc.devRef .tc b) = W5 H0 m c (Proc.devRef .tc b) := by
  unfold W6; exact Pipeline.withArrays_of_ne spec1 c _ _ b hb
theorem W7_arr (c : Dev nD) (w : Fin cfg2.W) :
    W7 H0 H1 H2 m c (Proc.devRef .tc (Pipeline.arrRef spec2 w)) = (H2.dat (E2 H0 H1 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 H0 H1 H2 m c (Proc.devRef .tc b) = W6 H0 H1 m c (Proc.devRef .tc b) := by
  unfold W7; exact Pipeline.withArrays_of_ne spec2 c _ _ b hb

theorem hF0 (c : Dev nD) (w : Fin cfg0.W) : (H0.dat (E0 m) c).arrAt w cfg0.N = E1 H0 m c (Pipeline.arrRef spec0 w) :=
  (W5_arr H0 m c w).symm
theorem hrest0 (c : Dev nD) : ∀ b, b ∉ Finset.univ.image (Pipeline.arrRef spec0) → E1 H0 m c b = E0 m c b :=
  fun b hb => W5_of_ne H0 m c b fun w e => hb (Finset.mem_image.mpr ⟨w, Finset.mem_univ _, e⟩)
theorem hF1 (c : Dev nD) (w : Fin cfg1.W) : (H1.dat (E1 H0 m) c).arrAt w cfg1.N = E2 H0 H1 m c (Pipeline.arrRef spec1 w) :=
  (W6_arr H0 H1 m c w).symm
theorem hrest1 (c : Dev nD) : ∀ b, b ∉ Finset.univ.image (Pipeline.arrRef spec1) → E2 H0 H1 m c b = E1 H0 m c b :=
  fun b hb => W6_of_ne H0 H1 m c b fun w e => hb (Finset.mem_image.mpr ⟨w, Finset.mem_univ _, e⟩)
theorem hF2 (c : Dev nD) (w : Fin cfg2.W) : (H2.dat (E2 H0 H1 m) c).arrAt w cfg2.N = E3 H0 H1 H2 m c (Pipeline.arrRef spec2 w) :=
  (W7_arr H0 H1 H2 m c w).symm
theorem hrest2 (c : Dev nD) : ∀ b, b ∉ Finset.univ.image (Pipeline.arrRef spec2) → E3 H0 H1 H2 m c b = E2 H0 H1 m c b :=
  fun b hb => W7_of_ne H0 H1 H2 m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H0.dat (E0 m) c
  | ⟨1, _⟩ => fun c => H1.dat (E1 H0 m) c
  | ⟨2, _⟩ => fun c => H2.dat (E2 H0 H1 m) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 H0 H1 H2 m c) ∗ ∃ r, prngReg c r)

set_option backward.isDefEq.respectTransparency.types false in
/-- Region 0 over the thread state: entered with every unscoped buffer at the valuation before it, left with the
    region's arrays at what its write-backs leave and every other buffer as entered. -/
def reg0 : Pipeline.RegionSeg (pcfgs (F := F)) adm (pdats H0 H1 H2 m) () defs₀ 𝒱₀ L lv 0 where
  win := launch0.win.to₀
  block_pos := launch0.block_pos
  stage_whole := launch0.stage_whole
  K := PEmpty
  osem k := k.elim
  ho := Pipeline.OwnSemFacts.none _
  hbody c := (H0.body (E0 m) c).loose
  hwaits := Pipeline.hwaits_of_owed_zero _ _ _ _ L lv 0 fun c t => H0.owed_eq (E0 m) c t
  pre c := iprop(StableHlo.held (c : Thread nD τ) (Pipeline.ucRefs τ sig) (W4 m c) ∗ R c)
  post c := iprop(StableHlo.held (c : Thread nD τ) (Pipeline.ucRefs τ sig) (W5 H0 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats H0 H1 H2 m) launch0.win launch0.arr_whole c
      ((pdats H0 H1 H2 m 0 c).share_full fun w => H0.q_eq (E0 m) c w) (E0 m c) fun w => H0.A_eq (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 0 c).owed 0 = 0 from H0.owed_eq (E0 m) c 0]
      icases HO with ⟨%W, HO⟩; iexists W; isplitr; · ipureintro; exact fun _ _ => Or.inl (by rw [show (pdats H0 H1 H2 m 0 c).recorded 0 = Set.univ from H0.recorded_eq (E0 m) c 0]; exact Set.mem_univ _)
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (H0.hin (E0 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (H0.hout (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m) ((pdats H0 H1 H2 m 0 c).share_full fun w => H0.q_eq (E0 m) c w)
      (E0 m c) (E1 H0 m c) ((pdats H0 H1 H2 m 0 c).arrAt · cfg0.N) (hF0 H0 m c) (hrest0 H0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 0 c).owed (Fin.last _) = 0 from H0.owed_eq (E0 m) c _]
    icases HO with ⟨%W, -, HO⟩; iexists W; iexact HO

set_option backward.isDefEq.respectTransparency.types false in
/-- Region 1 over the thread state: entered with every unscoped buffer at the valuation before it, left with the
    region's arrays at what its write-backs leave and every other buffer as entered. -/
def reg1 : Pipeline.RegionSeg (pcfgs (F := F)) adm (pdats H0 H1 H2 m) () defs₀ 𝒱₀ L lv 1 where
  win := launch1.win.to₀
  block_pos := launch1.block_pos
  stage_whole := launch1.stage_whole
  K := PEmpty
  osem k := k.elim
  ho := Pipeline.OwnSemFacts.none _
  hbody c := (H1.body (E1 H0 m) c).loose
  hwaits := Pipeline.hwaits_of_owed_zero _ _ _ _ L lv 1 fun c t => H1.owed_eq (E1 H0 m) c t
  pre c := iprop(StableHlo.held (c : Thread nD τ) (Pipeline.ucRefs τ sig) (W5 H0 m c) ∗ R c)
  post c := iprop(StableHlo.held (c : Thread nD τ) (Pipeline.ucRefs τ sig) (W6 H0 H1 m c) ∗ R c)
  X c := iprop(∃ r, prngReg c r)
  Y c := iprop(∃ r, prngReg c r)
  Z c := Pipeline.unscopedRest (Ix := Unit) (Name := ℕ) (U := UR sig nD τ) (Lvl := ℕ) spec1 c (E1 H0 m c)
  hentry c := by
    rw [Pipeline.ownSems0_none]
    have hsplit := Pipeline.arrays_of_unscopedBufs (p := 1) (pcfgs (F := F)) adm (pdats H0 H1 H2 m) launch1.win launch1.arr_whole c
      ((pdats H0 H1 H2 m 1 c).share_full fun w => H1.q_eq (E1 H0 m) c w) (E1 H0 m c) fun w => H1.A_eq (E1 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 1 c).owed 0 = 0 from H1.owed_eq (E1 H0 m) c 0]
      icases HO with ⟨%W, HO⟩; iexists W; isplitr; · ipureintro; exact fun _ _ => Or.inl (by rw [show (pdats H0 H1 H2 m 1 c).recorded 0 = Set.univ from H1.recorded_eq (E1 H0 m) c 0]; exact Set.mem_univ _)
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (H1.hin (E1 H0 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (H1.hout (E1 H0 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m) ((pdats H0 H1 H2 m 1 c).share_full fun w => H1.q_eq (E1 H0 m) c w)
      (E1 H0 m c) (E2 H0 H1 m c) ((pdats H0 H1 H2 m 1 c).arrAt · cfg1.N) (hF1 H0 H1 m c) (hrest1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 1 c).owed (Fin.last _) = 0 from H1.owed_eq (E1 H0 m) c _]
    icases HO with ⟨%W, -, HO⟩; iexists W; iexact HO

set_option backward.isDefEq.respectTransparency.types false in
/-- Region 2 over the thread state: entered with every unscoped buffer at the valuation before it, left with the
    region's arrays at what its write-backs leave and every other buffer as entered. -/
def reg2 : Pipeline.RegionSeg (pcfgs (F := F)) adm (pdats H0 H1 H2 m) () defs₀ 𝒱₀ L lv 2 where
  win := launch2.win.to₀
  block_pos := launch2.block_pos
  stage_whole := launch2.stage_whole
  K := PEmpty
  osem k := k.elim
  ho := Pipeline.OwnSemFacts.none _
  hbody c := (H2.body (E2 H0 H1 m) c).loose
  hwaits := Pipeline.hwaits_of_owed_zero _ _ _ _ L lv 2 fun c t => H2.owed_eq (E2 H0 H1 m) c t
  pre c := iprop(StableHlo.held (c : Thread nD τ) (Pipeline.ucRefs τ sig) (W6 H0 H1 m c) ∗ R c)
  post c := iprop(StableHlo.held (c : Thread nD τ) (Pipeline.ucRefs τ sig) (W7 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c (E2 H0 H1 m c)
  hentry c := by
    rw [Pipeline.ownSems0_none]
    have hsplit := Pipeline.arrays_of_unscopedBufs (p := 2) (pcfgs (F := F)) adm (pdats H0 H1 H2 m) launch2.win launch2.arr_whole c
      ((pdats H0 H1 H2 m 2 c).share_full fun w => H2.q_eq (E2 H0 H1 m) c w) (E2 H0 H1 m c) fun w => H2.A_eq (E2 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 2 c).owed 0 = 0 from H2.owed_eq (E2 H0 H1 m) c 0]
      icases HO with ⟨%W, HO⟩; iexists W; isplitr; · ipureintro; exact fun _ _ => Or.inl (by rw [show (pdats H0 H1 H2 m 2 c).recorded 0 = Set.univ from H2.recorded_eq (E2 H0 H1 m) c 0]; exact Set.mem_univ _)
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (H2.hin (E2 H0 H1 m) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (H2.hout (E2 H0 H1 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m) ((pdats H0 H1 H2 m 2 c).share_full fun w => H2.q_eq (E2 H0 H1 m) c w)
      (E2 H0 H1 m c) (E3 H0 H1 H2 m c) ((pdats H0 H1 H2 m 2 c).arrAt · cfg2.N) (hF2 H0 H1 H2 m c) (hrest2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 2 c).owed (Fin.last _) = 0 from H2.owed_eq (E2 H0 H1 m) c _]
    icases HO with ⟨%W, -, HO⟩; iexists W; iexact HO

/-- The last item's thread state is the final one beside the core owing nothing. -/
theorem last_chain (c : Dev nD) :
    (iprop(StableHlo.held (c : Thread nD τ) (Pipeline.ucRefs τ sig) (W9 H0 H1 H2 m c) ∗ R c) : sProp 𝕄)
      ⊢ iprop(Tₙ H0 H1 H2 m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as items, and the launch -/

abbrev segs : List (Pipeline.Seg (pcfgs (F := F)) adm (pdats H0 H1 H2 m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 H0 H1 H2 m),
    .region (reg1 H0 H1 H2 m),
    .region (reg2 H0 H1 H2 m),
    .host (hseg hostOps3 hostOps3_sub hostOps3_fresh (W7 H0 H1 H2 m)),
    .host (hseg hostOps3_1 hostOps3_1_sub hostOps3_1_fresh (W8 H0 H1 H2 m)) ]

set_option backward.isDefEq.respectTransparency.types false in
/-- THE RUN. From any memory with zero counters every weakly fair execution of @main on the TensorCores terminates,
    and every final memory holds each unscoped buffer of each core at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W9 H0 H1 H2 m c b) :=
  Pipeline.θ_run_regions_kit_dev (pcfgs (F := F)) adm (pdats H0 H1 H2 m) () cellOf_inj emb₁ defs₀ 𝒱₀ L lv m ρ main
    (fun _ => segs H0 H1 H2 m)
    (fun c Q => by
      rewrite [main_chain c, Pipeline.Seg.run_eq_chain,
        show (segs H0 H1 H2 m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ H0 H1 H2 m)
    (hch := fun c => ⟨.rfl, .rfl, .rfl, .rfl, .rfl, .rfl, .rfl, .rfl, .rfl, last_chain H0 H1 H2 m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 H0 H1 H2 m c b)
    (hfin := fun c s' => by
      iintro ⟨⟨Hh, -⟩, HSI⟩
      unfold StableHlo.held
      imodintro
      iapply (pointsTo_read_all (Pipeline.ucRefs τ sig) (fun b => (((c : Thread nD τ)).1, b)) (W9 H0 H1 H2 m c) s')
      isplitl [Hh] <;> iassumption)
    (hQ := fun s h c => h c)

/-! ## What an item leaves alone -/

/-- Region 0 changes only its output windows' arrays. -/
theorem W5_keep (c : Dev nD) (b : Ref sig .tc) (hb : ∀ w : Fin cfg0.W, (cfg0.win w).isOut = true → Pipeline.arrRef spec0 w ≠ b) :
    W5 H0 m c (Proc.devRef .tc b) = W4 m c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    rw [W5_arr]; exact ((H0.dat (E0 m) c).arrAt_in w hw _).trans (H0.A_eq (E0 m) c w)
  · exact W5_of_ne H0 m c b (fun w e => h ⟨w, e⟩)
theorem W6_keep (c : Dev nD) (b : Ref sig .tc) (hb : ∀ w : Fin cfg1.W, (cfg1.win w).isOut = true → Pipeline.arrRef spec1 w ≠ b) :
    W6 H0 H1 m c (Proc.devRef .tc b) = W5 H0 m c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    rw [W6_arr]; exact ((H1.dat (E1 H0 m) c).arrAt_in w hw _).trans (H1.A_eq (E1 H0 m) c w)
  · exact W6_of_ne H0 H1 m c b (fun w e => h ⟨w, e⟩)
theorem W7_keep (c : Dev nD) (b : Ref sig .tc) (hb : ∀ w : Fin cfg2.W, (cfg2.win w).isOut = true → Pipeline.arrRef spec2 w ≠ b) :
    W7 H0 H1 H2 m c (Proc.devRef .tc b) = W6 H0 H1 m c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    rw [W7_arr]; exact ((H2.dat (E2 H0 H1 m) c).arrAt_in w hw _).trans (H2.A_eq (E2 H0 H1 m) c w)
  · exact W7_of_ne H0 H1 H2 m c b (fun w e => h ⟨w, e⟩)

/-- A buffer that no host operation writes and that is no region's output array ends as launched. -/
theorem W9_launch (c : Dev nD) (b : Ref sig .tc)
    (h0 : b ∉ hostOps0_W) (h1 : b ∉ hostOps0_1_W) (h2 : b ∉ hostOps0_2_W) (h3 : b ∉ hostOps0_3_W)
    (r0 : ∀ w : Fin cfg0.W, (cfg0.win w).isOut = true → Pipeline.arrRef spec0 w ≠ b)
    (r1 : ∀ w : Fin cfg1.W, (cfg1.win w).isOut = true → Pipeline.arrRef spec1 w ≠ b)
    (r2 : ∀ w : Fin cfg2.W, (cfg2.win w).isOut = true → Pipeline.arrRef spec2 w ≠ b)
    (h7 : b ∉ hostOps3_W) (h8 : b ∉ hostOps3_1_W) :
    W9 H0 H1 H2 m c (Proc.devRef .tc b) = m ((c : Thread nD τ).loc b) :=
  (StableHlo.after_of_writes_sub hostOps3_1 _ hostOps3_1_writes h8).trans <|
  (StableHlo.after_of_writes_sub hostOps3 _ hostOps3_writes h7).trans <|
  (W7_keep H0 H1 H2 m c b r2).trans <| (W6_keep H0 H1 m c b r1).trans <| (W5_keep H0 m c b r0).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

include H0 H1 H2 in
/-- THE FRAME, from the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_launch H0 H1 H2 m c main_arg0 (by decide) (by decide) (by decide) (by decide) (by decide) (by decide) (by decide) (by decide) (by decide)),
     (h c _ (mem_uc main_arg1 (by decide))).trans (W9_launch H0 H1 H2 m c main_arg1 (by decide) (by decide) (by decide) (by decide) (by decide) (by decide) (by decide) (by decide) (by decide)),
     (h c _ (mem_uc main_arg2 (by decide))).trans (W9_launch H0 H1 H2 m c main_arg2 (by decide) (by decide) (by decide) (by decide) (by decide) (by decide) (by decide) (by decide) (by decide)),
     (h c _ (mem_uc main_arg3 (by decide))).trans (W9_launch H0 H1 H2 m c main_arg3 (by decide) (by decide) (by decide) (by decide) (by decide) (by decide) (by decide) (by decide) (by decide)),
     (h c _ (mem_uc main_arg4 (by decide))).trans (W9_launch H0 H1 H2 m c main_arg4 (by decide) (by decide) (by decide) (by decide) (by decide) (by decide) (by decide) (by decide) (by decide)),
     (h c _ (mem_uc main_arg5 (by decide))).trans (W9_launch H0 H1 H2 m c main_arg5 (by decide) (by decide) (by decide) (by decide) (by decide) (by decide) (by decide) (by decide) (by decide)),
     (h c _ (mem_uc main_arg6 (by decide))).trans (W9_launch H0 H1 H2 m c main_arg6 (by decide) (by decide) (by decide) (by decide) (by decide) (by decide) (by decide) (by decide) (by decide)),
     (h c _ (mem_uc main_arg7 (by decide))).trans (W9_launch H0 H1 H2 m c main_arg7 (by decide) (by decide) (by decide) (by decide) (by decide) (by decide) (by decide) (by decide) (by decide)),
     (h c _ (mem_uc main_arg8 (by decide))).trans (W9_launch H0 H1 H2 m c main_arg8 (by decide) (by decide) (by decide) (by decide) (by decide) (by decide) (by decide) (by decide) (by decide)),
     (h c _ (mem_uc main_arg9 (by decide))).trans (W9_launch H0 H1 H2 m c main_arg9 (by decide) (by decide) (by decide) (by decide) (by decide) (by decide) (by decide) (by decide) (by decide)),
     (h c _ (mem_uc main_arg10 (by decide))).trans (W9_launch H0 H1 H2 m c main_arg10 (by decide) (by decide) (by decide) (by decide) (by decide) (by decide) (by decide) (by decide) (by decide)),
     (h c _ (mem_uc main_arg11 (by decide))).trans (W9_launch H0 H1 H2 m c main_arg11 (by decide) (by decide) (by decide) (by decide) (by decide) (by decide) (by decide) (by decide) (by decide)),
     (h c _ (mem_uc main_arg12 (by decide))).trans (W9_launch H0 H1 H2 m c main_arg12 (by decide) (by decide) (by decide) (by decide) (by decide) (by decide) (by decide) (by decide) (by decide)),
     (h c _ (mem_uc main_arg13 (by decide))).trans (W9_launch H0 H1 H2 m c main_arg13 (by decide) (by decide) (by decide) (by decide) (by decide) (by decide) (by decide) (by decide) (by decide)),
     (h c _ (mem_uc main_arg14 (by decide))).trans (W9_launch H0 H1 H2 m c main_arg14 (by decide) (by decide) (by decide) (by decide) (by decide) (by decide) (by decide) (by decide) (by decide)),
     (h c _ (mem_uc main_arg15 (by decide))).trans (W9_launch H0 H1 H2 m c main_arg15 (by decide) (by decide) (by decide) (by decide) (by decide) (by decide) (by decide) (by decide) (by decide)),
     (h c _ (mem_uc main_arg16 (by decide))).trans (W9_launch H0 H1 H2 m c main_arg16 (by decide) (by decide) (by decide) (by decide) (by decide) (by decide) (by decide) (by decide) (by decide))⟩)
    (run_main H0 H1 H2 m ρ)

end Cert.Kernel.Run

end
-- ==== Proof.K_R0.lean ====
/- Region 0 of the program's three TensorCore regions (its first kernel call, on a grid of six points, with
   eight windows: five inputs and three outputs written back at every point), at a parameter `V`: the
   TensorCore's buffer contents when the region is entered.  Stated here: each window's block at a point, what the
   body leaves in each output buffer as a function of the point's input blocks, the body's triple, the pipeline's
   proof data and its body obligation.  The body keeps nothing between points, so every output block is a function of
   the input blocks of its own point alone. -/
import proofs.«130870_j71201967833887_2_alg».proof.Proof.Gen.Kernel.Launch
import proofs.«130870_j71201967833887_2_alg».proof.Proof.Gen.Kernel.Skeleton
import proofs.«130870_j71201967833887_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of each two-dimensional buffer, -/
abbrev rX : Rect S512x896 := Rect.unit (s := S512x896) ![0, 0] S512x896.size inb_S512x896_S512x896_0_0
abbrev rW : Rect S1024x896 := Rect.unit (s := S1024x896) ![0, 0] S1024x896.size inb_S1024x896_S1024x896_0_0
abbrev rO : Rect S512x1024 := Rect.unit (s := S512x1024) ![0, 0] S512x1024.size inb_S512x1024_S512x1024_0_0
/-- and the point's 1024 entries of a per-feature vector of 6144: those from `1024 * i` on. -/
abbrev rV (i : grid0.Coords) : Rect S6144 := Rect.unit (s := S6144) (k0_off1 i) S1024.size (k0_off1_inb i)

/-! ## What the body leaves in each output window's buffer -/

/-- Window 5's staging buffer after the body, from the input windows' blocks: its one store as a piece. -/
def out5 (i : grid0.Coords) (x0 : Vec F S512x896 .f32) (x1 : Vec F S1024x896 .f32) (x2 x3 x4 : Vec F S6144 .f32) : Vec F S512x1024 .f32 :=
  View.canon [⟨rO, k0_pay9 (k0_pay5 (View.ld x0 rX) (View.ld x1 rW)) (k0_pay7 (View.ld x2 (rV i))) (View.ld x3 (rV i)) (View.ld x4 (rV i))⟩]

/-- Window 6's likewise. -/
def out6 (i : grid0.Coords) (x0 : Vec F S512x896 .f32) (x1 : Vec F S1024x896 .f32) (x2 x3 x4 : Vec F S6144 .f32) : Vec F S512x1024 .f32 :=
  View.canon [⟨rO, k0_pay1 (View.ld x4 (rV i)) (k0_pay11 (k0_pay6 (View.ld x0 rX) (View.ld x1 rW)) (k0_pay7 (View.ld x2 (rV i))))
    (k0_pay12 (View.ld x3 (rV i))) (k0_pay13 (k0_pay6 (View.ld x0 rX) (View.ld x1 rW)) (k0_pay7 (View.ld x2 (rV i))))⟩]

/-- Window 7's likewise. -/
def out7 (i : grid0.Coords) (x0 : Vec F S512x896 .f32) (x1 : Vec F S1024x896 .f32) (x2 x3 x4 : Vec F S6144 .f32) : Vec F S512x1024 .bf16 :=
  View.canon [⟨rO, k0_pay2 (k0_pay9 (k0_pay5 (View.ld x0 rX) (View.ld x1 rW)) (k0_pay7 (View.ld x2 (rV i))) (View.ld x3 (rV i)) (View.ld x4 (rV i)))⟩]

/-- The one store of each output is through the whole buffer, so it covers it. -/
theorem coverO {e : EltTy} (p : rO.shape.Idx → Elt F e) (y : S512x1024.Idx) :
    ∃ pc ∈ ([⟨rO, p⟩] : List (View.Piece (Elt F) S512x1024 e)), y ∈ pc.1.set :=
  ⟨_, List.mem_singleton_self _, View.mem_set_unit_zero (funext fun a => by fin_cases a <;> rfl) inb_S512x1024_S512x1024_0_0 y⟩

/-! ## The body's triple -/

set_option maxHeartbeats 1000000 in
/-- The kernel body on whole staging memrefs, the inputs' at read contents `xW` and the outputs' at anything, runs to
    the continuation holding the inputs' as they were and each output's at its function of the inputs'. -/
theorem sound_kernel (c : Dev nD) (E : Set ℕ) (i : grid0.Coords) (arg1 : Memref sig .tc .vmem S512x896 .f32) (harg1 : arg1.IsWhole) (arg2 : Memref sig .tc .vmem S1024x896 .f32) (harg2 : arg2.IsWhole) (arg3 : Memref sig .tc .vmem S6144 .f32) (harg3 : arg3.IsWhole) (arg4 : Memref sig .tc .vmem S6144 .f32) (harg4 : arg4.IsWhole) (arg5 : Memref sig .tc .vmem S6144 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole)
    (x0 : Vec F S512x896 .f32) (x1 : Vec F S1024x896 .f32) (x2 x3 x4 : Vec F S6144 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4) ∗ owns (c : Thread nD τ) arg7 fullShare (out6 i x0 x1 x2 x3 x4)
            ∗ owns (c : Thread nD τ) arg8 fullShare (out7 i x0 x1 x2 x3 x4)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The pipeline's proof data -/

/-- The proof data of the region's pipeline on core `c`: the arrays as the region finds them (`V`); after the body at
    point `t` each input's buffer at its block and each output's at its function of the point's input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 1 t) (iblk V c 2 t) (iblk V c 3 t) (iblk V c 4 t)
    | ⟨6, _⟩ => out6 (grid0.coords t) (iblk V c 0 t) (iblk V c 1 t) (iblk V c 2 t) (iblk V c 3 t) (iblk V c 4 t)
    | ⟨7, _⟩ => out7 (grid0.coords t) (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = out5 (grid0.coords t) (iblk V c 0 t) (iblk V c 1 t) (iblk V c 2 t) (iblk V c 3 t) (iblk V c 4 t) := by dsimp only [dat]
theorem after_6 (c : Dev nD) (t : Fin cfg0.N) : (dat V c).after 6 t = out6 (grid0.coords t) (iblk V c 0 t) (iblk V c 1 t) (iblk V c 2 t) (iblk V c 3 t) (iblk V c 4 t) := by dsimp only [dat]
theorem after_7 (c : Dev nD) (t : Fin cfg0.N) : (dat V c).after 7 t = out7 (grid0.coords t) (iblk V c 0 t) (iblk V c 1 t) (iblk V c 2 t) (iblk V c 3 t) (iblk V c 4 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the body's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the class's own at both ends of the region. -/
theorem hin (c : Dev nD) : Pipeline.ΦA spec0 c ⊢ (dat V c).Φ 0 := Entails.refl _
theorem hout (c : Dev nD) : (dat V c).Φ (Fin.last cfg0.N) ⊢ Pipeline.ΦA spec0 c := Entails.refl _

end Cert.Kernel.R0

end
-- ==== Proof.K_R1_Runs.lean ====
import proofs.«130870_j71201967833887_2_alg».proof.Proof.Gen.Kernel.Launch
import proofs.«130870_j71201967833887_2_alg».proof.Proof.Gen.Kernel.Skeleton
import proofs.«130870_j71201967833887_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array at the region-entry contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved since the fetch. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved since the fetch. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved since the fetch. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved since the fetch. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the
    block index has not moved since the fetch. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the
    block index has not moved since the fetch. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Regions

/-! ## The body's two conditions on the reduction coordinate -/

/-- First step of a reduction (`k = 0`): the accumulators are reset. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 8 = 0 :=
  (by decide +kernel : ∀ t : Fin grid1.N, cond0 (grid1.coords t) ↔ t.val % 8 = 0)

/-- Last step of a reduction (`k = 7`): the outputs are computed from the accumulators. -/
abbrev cond1 (i : grid1.Coords) : Prop := k1_cond2 i = 1#1
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
theorem liveAt5 : ∀ t : Fin cfg1.N, cfg1.idle 5 (grid1.coords t) = false := by decide +kernel
theorem idleAt6 : ∀ t : Fin cfg1.N, ¬cond1 (grid1.coords t) → cfg1.idle 6 (grid1.coords t) = true := by decide +kernel
theorem noFlush6 : ∀ t : Fin cfg1.N, ¬cond1 (grid1.coords t) → (cfg1.win 6).flush t = false := by decide +kernel
theorem liveAt6 : ∀ t : Fin cfg1.N, cond1 (grid1.coords t) → cfg1.idle 6 (grid1.coords t) = false := by decide +kernel
theorem idleAt7 : ∀ t : Fin cfg1.N, ¬cond1 (grid1.coords t) → cfg1.idle 7 (grid1.coords t) = true := by decide +kernel
theorem noFlush7 : ∀ t : Fin cfg1.N, ¬cond1 (grid1.coords t) → (cfg1.win 7).flush t = false := by decide +kernel
theorem liveAt7 : ∀ t : Fin cfg1.N, cond1 (grid1.coords t) → cfg1.idle 7 (grid1.coords t) = false := by decide +kernel
theorem idleAt8 : ∀ t : Fin cfg1.N, ¬cond1 (grid1.coords t) → cfg1.idle 8 (grid1.coords t) = true := by decide +kernel
theorem noFlush8 : ∀ t : Fin cfg1.N, ¬cond1 (grid1.coords t) → (cfg1.win 8).flush t = false := by decide +kernel
theorem liveAt8 : ∀ t : Fin cfg1.N, cond1 (grid1.coords t) → cfg1.idle 8 (grid1.coords t) = false := by decide +kernel

/-! ## The staging memrefs at a point, the scratch accumulators -/

abbrev ms0 (t : Fin cfg1.N) : Memref sig .tc .vmem S512x6144 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x6144 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S768x768 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S6144 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S6144 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S6144 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x768 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x768 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x768 .bf16 := win1_8.stage (cfg1.slots t 8)
abbrev hs8 (t : Fin cfg1.N) : (ms8 t).IsWhole := hstage1_8 ((cfg1.slots t 8).cast nbuf1_8)
abbrev scM0 : Memref sig .tc .vmem S512x768 .f32 := Memref.whole cc1_scratch0
abbrev scM1 : Memref sig .tc .vmem S512x768 .f32 := Memref.whole cc1_scratch1
/-- Views through which buffer contents of the outputs' and accumulators' types are stated (any whole view of the type serves). -/
abbrev VF : View sig .tc .vmem S512x768 .f32 := scM0.view
abbrev VB : View sig .tc .vmem S512x768 .bf16 := (Memref.whole cc1_stg8_0 : Memref sig .tc .vmem S512x768 .bf16).view

/-- The region's invariant with the two accumulators opened: each a whole buffer at some contents, the other scoped
    buffers unopened, the generator register at some state. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM0, scM1, owns_whole]; try rfl

end Cert.Kernel.R1

end
-- ==== Proof.K_R1_RunA.lean ====
import proofs.«130870_j71201967833887_2_alg».proof.Proof.K_R1_Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 4000000 in
/-- The kernel body at the first step of a reduction (the accumulators are reset, then added to): on whole memrefs, the inputs' at contents `x·`, the outputs' at contents `xi·` which it leaves untouched, the accumulators at anything,
    it runs to the continuation holding the inputs' as they were, the outputs' as they were, and each accumulator's buffer with the pieces stored into it written (last first).
    The piece lists are the witness the symbolic run of the body finds. -/
noncomputable def kernelRunA (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) :
    Σ' (LS0 : List (View.Piece (Elt F) S512x768 .f32)), { LS1 : List (View.Piece (Elt F) S512x768 .f32) //
      ∀ (xi6 : Vec F S512x768 .f32) (xi7 : Vec F S512x768 .f32) (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, fun xi6 xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.R1

end
-- ==== Proof.K_R1_RunB.lean ====
import proofs.«130870_j71201967833887_2_alg».proof.Proof.K_R1_RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 4000000 in
/-- The kernel body at a middle step of a reduction (the accumulators are added to): on whole memrefs, the inputs' at contents `x·`, the outputs' at contents `xi·` which it leaves untouched, the accumulators at what the step before left (`xs·`),
    it runs to the continuation holding the inputs' as they were, the outputs' as they were, and each accumulator's buffer with the pieces stored into it written (last first).
    The piece lists are the witness the symbolic run of the body finds. -/
noncomputable def kernelRunB (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    Σ' (LS0 : List (View.Piece (Elt F) S512x768 .f32)), { LS1 : List (View.Piece (Elt F) S512x768 .f32) //
      ∀ (xi6 : Vec F S512x768 .f32) (xi7 : Vec F S512x768 .f32) (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, fun xi6 xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.R1

end
-- ==== Proof.K_R1_RunC.lean ====
import proofs.«130870_j71201967833887_2_alg».proof.Proof.K_R1_RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 4000000 in
/-- The kernel body at the last step of a reduction (the accumulators are added to, then the three outputs are computed from them and stored): on whole memrefs, the inputs' at contents `x·`, the outputs' at anything, the accumulators at what the step before left (`xs·`),
    it runs to the continuation holding the inputs' as they were, each output's buffer with the pieces stored into it written, and each accumulator's buffer with the pieces stored into it written (last first).
    The piece lists are the witness the symbolic run of the body finds. -/
noncomputable def kernelRunC (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    Σ' (L6 : List (View.Piece (Elt F) S512x768 .f32)) (L7 : List (View.Piece (Elt F) S512x768 .f32)) (L8 : List (View.Piece (Elt F) S512x768 .bf16)) (LS0 : List (View.Piece (Elt F) S512x768 .f32)), { LS1 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.R1

end
-- ==== Proof.K_R1.lean ====
import proofs.«130870_j71201967833887_2_alg».proof.Proof.K_R1_RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What each case leaves in the accumulators and (last step) the outputs -/

/-- Placeholder contents of an output at a step that stores nothing into it (never read: the window is idle there). -/
def junkF : Vec F S512x768 .f32 := VF.read (Elt F) (VF.writes (Elt F) VF.junk [])
def junkB : Vec F S512x768 .bf16 := VB.read (Elt F) (VB.writes (Elt F) VB.junk [])

/-- Case A's pieces for accumulator 0 tile it, so they cover it. -/
theorem scoverA_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (y : S512x768.Idx) :
    ∃ pc ∈ (kernelRunA c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 hc1 x0 x1 x2 x3 x4 x5).1 S512x768.size (by sl_kernel_rfl) y

/-- What case A leaves in accumulator 0: its pieces read back. -/
def soutA_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) : Vec F S512x768 .f32 :=
  VF.read (Elt F) (VF.writes (Elt F) VF.junk (kernelRunA c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for accumulator 1 tile it, so they cover it. -/
theorem scoverA_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (y : S512x768.Idx) :
    ∃ pc ∈ (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1 S512x768.size (by sl_kernel_rfl) y

/-- What case A leaves in accumulator 1: its pieces read back. -/
def soutA_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) : Vec F S512x768 .f32 :=
  VF.read (Elt F) (VF.writes (Elt F) VF.junk (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case B's pieces for accumulator 0 tile it, so they cover it. -/
theorem scoverB_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S512x768.size (by sl_kernel_rfl) y

/-- What case B leaves in accumulator 0: its pieces read back. -/
def soutB_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for accumulator 1 tile it, so they cover it. -/
theorem scoverB_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S512x768.size (by sl_kernel_rfl) y

/-- What case B leaves in accumulator 1: its pieces read back. -/
def soutB_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for accumulator 0 tile it, so they cover it. -/
theorem scoverC_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S512x768.size (by sl_kernel_rfl) y

/-- What case C leaves in accumulator 0: its pieces read back. -/
def soutC_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 tile it, so they cover it. -/
theorem scoverC_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S512x768.size (by sl_kernel_rfl) y

/-- What case C leaves in accumulator 1: its pieces read back. -/
def soutC_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block, so they cover it. -/
theorem coverC_6 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S512x768.size (by sl_kernel_rfl) y

/-- What case C leaves in output 6's staging buffer: its pieces read back. -/
def outC_6 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block, so they cover it. -/
theorem coverC_7 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S512x768.size (by sl_kernel_rfl) y

/-- What case C leaves in output 7's staging buffer: its pieces read back. -/
def outC_7 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block, so they cover it. -/
theorem coverC_8 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S512x768.size (by sl_kernel_rfl) y

/-- What case C leaves in output 8's staging buffer: its pieces read back. -/
def outC_8 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .bf16 :=
  VB.read (Elt F) (VB.writes (Elt F) VB.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

section Regions
variable (V : (c : Dev nD) → (b : Ref sig .tc) → Buf (Elt F) ((c : Thread nD τ).loc b))

/-! ## What the outputs and the accumulators hold after each point -/

/-- Outputs 6, 7, 8 and accumulators 0, 1, in this order. -/
abbrev Outs (F : FTy → Type) : Type := Vec F S512x768 .f32 × Vec F S512x768 .f32 × Vec F S512x768 .bf16 × Vec F S512x768 .f32 × Vec F S512x768 .f32

/-- After a first step at point `t`. -/
def stepA (c : Dev nD) (t : Fin cfg1.N) (h0 : t.val % 8 = 0) (h1 : ¬t.val % 8 = 7) : Outs F :=
  (junkF, junkF, junkB,
   soutA_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t),
   soutA_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t))

/-- After a middle step at point `t`, from what the step before left in the accumulators. -/
def stepB (c : Dev nD) (t : Fin cfg1.N) (h0 : ¬t.val % 8 = 0) (h1 : ¬t.val % 8 = 7) (xs0 xs1 : Vec F S512x768 .f32) : Outs F :=
  (junkF, junkF, junkB,
   soutB_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1,
   soutB_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1)

/-- After a last step at point `t`, from what the step before left in the accumulators. -/
def stepC (c : Dev nD) (t : Fin cfg1.N) (h0 : ¬t.val % 8 = 0) (h1 : t.val % 8 = 7) (xs0 xs1 : Vec F S512x768 .f32) : Outs F :=
  (outC_6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   outC_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   outC_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   soutC_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   soutC_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1)

/-- THE ACCUMULATION: what the outputs' staging buffers and the two accumulators hold after the body at position `n`,
    by recursion on the position: the case `n % 8` selects, the accumulators read at what position `n - 1` left. -/
def outsAt (c : Dev nD) : (n : ℕ) → n < cfg1.N → Outs F
  | 0, hn => stepA V c ⟨0, hn⟩ (Nat.zero_mod _) (by show ¬(0 : ℕ) % 8 = 7; decide)
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt c n (Nat.lt_of_succ_lt hn)).2.2.2.1 (outsAt c n (Nat.lt_of_succ_lt hn)).2.2.2.2
      else
        stepB V c ⟨n + 1, hn⟩ h0 h1 (outsAt c n (Nat.lt_of_succ_lt hn)).2.2.2.1 (outsAt c n (Nat.lt_of_succ_lt hn)).2.2.2.2

theorem outsAt_A (c : Dev nD) (t : Fin cfg1.N) (h0 : t.val % 8 = 0) (h1 : ¬t.val % 8 = 7) :
    outsAt V c t.val t.isLt = stepA V c t h0 h1 := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = stepB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = stepC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulators at what the point before left -/

abbrev restBut (c : Dev nD) : sProp 𝕄 :=
  Pipeline.scopedRestBut (Ix := Unit) (Name := ℕ) (U := UR sig nD τ) (Lvl := ℕ) (Val := Elt F) spec1 c [cc1_scratch0, cc1_scratch1]

def PhiS (c : Dev nD) : (n : ℕ) → n ≤ cfg1.N → sProp 𝕄
  | 0, _ => Pipeline.ΦA spec1 c
  | n + 1, hn => iprop(iprop(iprop(owns (c : Thread nD τ) scM0 fullShare (outsAt V c n hn).2.2.2.1 ∗ owns (c : Thread nD τ) scM1 fullShare (outsAt V c n hn).2.2.2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (outsAt V c n hn).2.2.2.1 ∗ owns (c : Thread nD τ) scM1 fullShare (outsAt V c n hn).2.2.2.2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (outsAt V c (n - 1) (by omega)).2.2.2.1 ∗ owns (c : Thread nD τ) scM1 fullShare (outsAt V c (n - 1) (by omega)).2.2.2.2) ∗ restBut c) ∗ (∃ r, prngReg c r)) := by
  cases n with
  | zero => exact absurd rfl hz
  | succ n => rfl

/-! ## The pipeline's proof data -/

/-- The proof data of the region on core `c`: the arrays at the region-entry contents `V`; after the body at point `t`
    each input's buffer at its block and the outputs' at `outsAt`'s components; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]
theorem after7 (c : Dev nD) (t : Fin cfg1.N) : (dat V c).after 7 t = (outsAt V c t.val t.isLt).2.1 := by dsimp only [dat]
theorem after8 (c : Dev nD) (t : Fin cfg1.N) : (dat V c).after 8 t = (outsAt V c t.val t.isLt).2.2.1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 8000000 in
/-- The body at any point: the inputs' memrefs hold their blocks; the closed forms of the two conditions say which case the
    point is in; that case's run applies, the invariant handing it the accumulators at what the point before left (at
    anything at the very first point) and taking them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- first step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [Dat.leavesExact_idle (dat V c) 6 t (idleAt6 t (fun h => h1 ((hcond1 t).mp h))) (noFlush6 t (fun h => h1 ((hcond1 t).mp h)))]
      rw [Dat.leavesExact_idle (dat V c) 7 t (idleAt7 t (fun h => h1 ((hcond1 t).mp h))) (noFlush7 t (fun h => h1 ((hcond1 t).mp h)))]
      rw [Dat.leavesExact_idle (dat V c) 8 t (idleAt8 t (fun h => h1 ((hcond1 t).mp h))) (noFlush8 t (fun h => h1 ((hcond1 t).mp h)))]
      rw [outsAt_A V c t h0 h1]
      unfold stepA soutA_0 soutA_1; (try dsimp only)
      by_cases hz : t.val = 0
      · rw [PhiS_castSucc V c t, PhiS_zero V c _ _ hz, PhiA_eq]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunA c (grid1.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverA_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverA_1 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunA c (grid1.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverA_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverA_1 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

  · by_cases h1 : t.val % 8 = 7
    · -- last step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [show (dat V c).leavesExact 6 t = owns (c : Thread nD τ) (ms6 t) fullShare ((dat V c).after 6 t) from by
        unfold Dat.leavesExact; rw [liveAt6 t ((hcond1 t).mpr h1)], after6]
      rw [show (dat V c).leavesExact 7 t = owns (c : Thread nD τ) (ms7 t) fullShare ((dat V c).after 7 t) from by
        unfold Dat.leavesExact; rw [liveAt7 t ((hcond1 t).mpr h1)], after7]
      rw [show (dat V c).leavesExact 8 t = owns (c : Thread nD τ) (ms8 t) fullShare ((dat V c).after 8 t) from by
        unfold Dat.leavesExact; rw [liveAt8 t ((hcond1 t).mpr h1)], after8]
      rw [outsAt_C V c t h0 h1]
      unfold stepC outC_6 outC_7 outC_8 soutC_0 soutC_1; (try dsimp only)
      by_cases hz : t.val = 0
      · exfalso; omega
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid1.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverC_0 c _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverC_1 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        ·
          unfold owns; iexists _; isplitr
          swap; · iexact H6
          ipureintro; exact View.read_writes_of_cover _ _ _ _ _ (coverC_6 c _ _ _ _ _ _ _ _ _ _ _ _ _ _ _ _ _ _ _ _ _ _ _ _ _ _ _ _ _ _ _ _ _)
        isplitl [H7]
        ·
          unfold owns; iexists _; isplitr
          swap; · iexact H7
          ipureintro; exact View.read_writes_of_cover _ _ _ _ _ (coverC_7 c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _)
    · -- middle step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [Dat.leavesExact_idle (dat V c) 6 t (idleAt6 t (fun h => h1 ((hcond1 t).mp h))) (noFlush6 t (fun h => h1 ((hcond1 t).mp h)))]
      rw [Dat.leavesExact_idle (dat V c) 7 t (idleAt7 t (fun h => h1 ((hcond1 t).mp h))) (noFlush7 t (fun h => h1 ((hcond1 t).mp h)))]
      rw [Dat.leavesExact_idle (dat V c) 8 t (idleAt8 t (fun h => h1 ((hcond1 t).mp h))) (noFlush8 t (fun h => h1 ((hcond1 t).mp h)))]
      rw [outsAt_B V c t h0 h1]
      unfold stepB soutB_0 soutB_1; (try dsimp only)
      by_cases hz : t.val = 0
      · exfalso; omega
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunB c (grid1.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) _ _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverB_0 c _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverB_1 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

theorem hout (c : Dev nD) : (dat V c).Φ (Fin.last cfg1.N) ⊢ Pipeline.ΦA spec1 c :=
  Phi_out V c _ (by rw [Fin.val_last]; have : cfg1.N = 64 := N_1; omega)

end Regions

end Cert.Kernel.R1

end
-- ==== Proof.K_R2_Runs.lean ====
/- Region 2 of the word-level program (the third binarized layer, grid 8 x 8, point t = 8 n + k): what the three
   control cases of its body share. The body accumulates, over the reduction coordinate k, two f32 partial sums
   held in scratch buffers that persist from one grid point to the next; at k = 0 they are reset to zero, at
   k = 7 the two output blocks are computed from them. -/
import proofs.«130870_j71201967833887_2_alg».proof.Proof.Gen.Kernel.Launch
import proofs.«130870_j71201967833887_2_alg».proof.Proof.Gen.Kernel.Skeleton
import proofs.«130870_j71201967833887_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents of a core when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved since the point before. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched the block index has not moved since the point before. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched the block index has not moved since the point before. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched the block index has not moved since the point before. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched the block index has not moved since the point before. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched the block index has not moved since the point before. -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched the block index has not moved since the point before. -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched the block index has not moved since the point before. -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the 64 points -/

/-- The reset condition (k = 0), as the body computes it from the grid coordinates. -/
abbrev cond0 (i : grid2.Coords) : Prop := (Scalar.cmpi .ne (Scalar.extui (Scalar.cmpi .eq (BitVec.ofNat 32 (i 1).val) 0#32)) 0#32) = 1#1
/-- It holds exactly at the points t with t % 8 = 0. -/
theorem hcond0 : ∀ t : Fin cfg2.N, cond0 (grid2.coords t) ↔ t.val % 8 = 0 :=
  (by decide +kernel : ∀ t : Fin grid2.N, cond0 (grid2.coords t) ↔ t.val % 8 = 0)

/-- The finalization condition (k = 7). -/
abbrev cond1 (i : grid2.Coords) : Prop := k2_cond2 i = 1#1
/-- It holds exactly at the points t with t % 8 = 7. -/
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl
theorem liveAt_5 : ∀ t : Fin cfg2.N, cfg2.idle 5 (grid2.coords t) = false := fun _ => rfl
theorem liveAt_6 : ∀ t : Fin cfg2.N, cfg2.idle 6 (grid2.coords t) = false := fun _ => rfl
theorem liveAt_7 : ∀ t : Fin cfg2.N, cfg2.idle 7 (grid2.coords t) = false := fun _ => rfl
/-- Output 8 is stored only when k = 7: elsewhere it is idle and not written back. -/
theorem idleAt_8_A : ∀ t : Fin cfg2.N, cond0 (grid2.coords t) → ¬cond1 (grid2.coords t) → cfg2.idle 8 (grid2.coords t) = true := by decide +kernel
theorem noFlush_8_A : ∀ t : Fin cfg2.N, cond0 (grid2.coords t) → ¬cond1 (grid2.coords t) → (cfg2.win 8).flush t = false := by decide +kernel
theorem idleAt_8_B : ∀ t : Fin cfg2.N, ¬cond0 (grid2.coords t) → ¬cond1 (grid2.coords t) → cfg2.idle 8 (grid2.coords t) = true := by decide +kernel
theorem noFlush_8_B : ∀ t : Fin cfg2.N, ¬cond0 (grid2.coords t) → ¬cond1 (grid2.coords t) → (cfg2.win 8).flush t = false := by decide +kernel
theorem liveAt_8_C : ∀ t : Fin cfg2.N, ¬cond0 (grid2.coords t) → cond1 (grid2.coords t) → cfg2.idle 8 (grid2.coords t) = false := by decide +kernel
/-- Output 9 is stored only when k = 7: elsewhere it is idle and not written back. -/
theorem idleAt_9_A : ∀ t : Fin cfg2.N, cond0 (grid2.coords t) → ¬cond1 (grid2.coords t) → cfg2.idle 9 (grid2.coords t) = true := by decide +kernel
theorem noFlush_9_A : ∀ t : Fin cfg2.N, cond0 (grid2.coords t) → ¬cond1 (grid2.coords t) → (cfg2.win 9).flush t = false := by decide +kernel
theorem idleAt_9_B : ∀ t : Fin cfg2.N, ¬cond0 (grid2.coords t) → ¬cond1 (grid2.coords t) → cfg2.idle 9 (grid2.coords t) = true := by decide +kernel
theorem noFlush_9_B : ∀ t : Fin cfg2.N, ¬cond0 (grid2.coords t) → ¬cond1 (grid2.coords t) → (cfg2.win 9).flush t = false := by decide +kernel
theorem liveAt_9_C : ∀ t : Fin cfg2.N, ¬cond0 (grid2.coords t) → cond1 (grid2.coords t) → cfg2.idle 9 (grid2.coords t) = false := by decide +kernel

/-! ## The staging memrefs the body is called with, and the two accumulators -/

abbrev ms_0 (t : Fin cfg2.N) : Memref sig .tc .vmem S512x6144 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S512x6144 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S768x768 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S6144 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S6144 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S6144 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S512x768 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S512x768 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S512x768 .f32 := win2_8.stage (cfg2.slots t 8)
abbrev hs_8 (t : Fin cfg2.N) : (ms_8 t).IsWhole := hstage2_8 ((cfg2.slots t 8).cast nbuf2_8)
abbrev ms_9 (t : Fin cfg2.N) : Memref sig .tc .vmem S512x768 .f32 := win2_9.stage (cfg2.slots t 9)
abbrev hs_9 (t : Fin cfg2.N) : (ms_9 t).IsWhole := hstage2_9 ((cfg2.slots t 9).cast nbuf2_9)
/-- One staging buffer of each output window, through which its contents are stated. -/
abbrev VO_8 : View sig .tc .vmem S512x768 .f32 := (ms_8 ⟨0, by decide⟩).view
abbrev VO_9 : View sig .tc .vmem S512x768 .f32 := (ms_9 ⟨0, by decide⟩).view
/-- The two accumulators: whole scoped buffers of the kernel's own. -/
abbrev scM_0 : Memref sig .tc .vmem S512x768 .f32 := Memref.whole cc2_scratch0
abbrev scM_1 : Memref sig .tc .vmem S512x768 .f32 := Memref.whole cc2_scratch1
abbrev VS_0 : View sig .tc .vmem S512x768 .f32 := scM_0.view
abbrev VS_1 : View sig .tc .vmem S512x768 .f32 := scM_1.view

/-- The rest of the core's scoped buffers, which the body never touches. -/
abbrev restBut (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two accumulators split off as memrefs owned at some contents. -/
theorem PhiA_eq (c : Dev nD) :
    (Pipeline.ΦA spec2 c : sProp 𝕄)
      = iprop(iprop(iprop((∃ d, owns (c : Thread nD τ) scM_0 fullShare d) ∗ (∃ d, owns (c : Thread nD τ) scM_1 fullShare d)) ∗ restBut c) ∗ (∃ r, prngReg c r)) := by
  unfold Pipeline.ΦA; rw [scopedRest2_split]; simp only [scM_0, scM_1, owns_whole]; try rfl

end Cert.Kernel.R2

end
-- ==== Proof.K_R2_RunA.lean ====
/- Region 2, the body's run in control case A. -/
import proofs.«130870_j71201967833887_2_alg».proof.Proof.K_R2_Runs

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body's run in the case k = 0: both accumulators are reset, then the point's product is added; nothing is stored into the outputs. On whole memrefs, the inputs' at their contents, it runs to the
    continuation holding the inputs' as they were and each buffer it stored into with its pieces written (last
    first); the piece lists are the witness the symbolic execution finds. -/
noncomputable def kernelRun_A (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) :
    Σ' (LS0 : List (View.Piece (Elt F) S512x768 .f32)), { LS1 : List (View.Piece (Elt F) S512x768 .f32) //
      ∀ (xi8 : Vec F S512x768 .f32) (xi9 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, fun xi8 xi9 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.Kernel.R2

end
-- ==== Proof.K_R2_RunB.lean ====
/- Region 2, the body's run in control case B. -/
import proofs.«130870_j71201967833887_2_alg».proof.Proof.K_R2_RunA

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body's run in the case 0 < k < 7: the point's product is added to both accumulators; nothing is stored into the outputs. On whole memrefs, the inputs' at their contents, it runs to the
    continuation holding the inputs' as they were and each buffer it stored into with its pieces written (last
    first); the piece lists are the witness the symbolic execution finds. -/
noncomputable def kernelRun_B (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    Σ' (LS0 : List (View.Piece (Elt F) S512x768 .f32)), { LS1 : List (View.Piece (Elt F) S512x768 .f32) //
      ∀ (xi8 : Vec F S512x768 .f32) (xi9 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, fun xi8 xi9 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.Kernel.R2

end
-- ==== Proof.K_R2_RunC.lean ====
/- Region 2, the body's run in control case C. -/
import proofs.«130870_j71201967833887_2_alg».proof.Proof.K_R2_RunB

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body's run in the case k = 7: the point's product is added to both accumulators, then both output blocks are computed from them. On whole memrefs, the inputs' at their contents, it runs to the
    continuation holding the inputs' as they were and each buffer it stored into with its pieces written (last
    first); the piece lists are the witness the symbolic execution finds. -/
noncomputable def kernelRun_C (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    Σ' (L8 : List (View.Piece (Elt F) S512x768 .f32)) (L9 : List (View.Piece (Elt F) S512x768 .f32)) (LS0 : List (View.Piece (Elt F) S512x768 .f32)), { LS1 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    iexists _; iexact HS1

end Cert.Kernel.R2

end
-- ==== Proof.K_R2.lean ====
/- Region 2 of the word-level program: what the body leaves in the two accumulators and the two output blocks,
   case by case and point by point; the pipeline's proof data; the body obligation; entry and exit of the
   region's invariant; and the value equations that read the found pieces as the body's arithmetic. -/
import proofs.«130870_j71201967833887_2_alg».proof.Proof.K_R2_RunC

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What each case leaves in the accumulators and the outputs -/

/-- Case A's stores into accumulator 0 cover it. -/
theorem scover_A_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (y : S512x768.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S512x768.size (by sl_kernel_rfl) y

/-- What case A leaves in accumulator 0. -/
def sout_A_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) : Vec F S512x768 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)

/-- Case A's stores into accumulator 1 cover it. -/
theorem scover_A_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (y : S512x768.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S512x768.size (by sl_kernel_rfl) y

/-- What case A leaves in accumulator 1. -/
def sout_A_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) : Vec F S512x768 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- Case B's stores into accumulator 0 cover it. -/
theorem scover_B_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S512x768.size (by sl_kernel_rfl) y

/-- What case B leaves in accumulator 0. -/
def sout_B_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

/-- Case B's stores into accumulator 1 cover it. -/
theorem scover_B_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S512x768.size (by sl_kernel_rfl) y

/-- What case B leaves in accumulator 1. -/
def sout_B_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- In case C the single store into output 8 covers its block. -/
theorem cover_C_8 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S512x768.size (by sl_kernel_rfl) y

/-- What case C leaves in output 8's staging buffer. -/
def out_C_8 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VO_8.read (Elt F) (VO_8.writes (Elt F) VO_8.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

/-- In case C the single store into output 9 covers its block. -/
theorem cover_C_9 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S512x768.size (by sl_kernel_rfl) y

/-- What case C leaves in output 9's staging buffer. -/
def out_C_9 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VO_9.read (Elt F) (VO_9.writes (Elt F) VO_9.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- Case C's stores into accumulator 0 cover it. -/
theorem scover_C_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S512x768.size (by sl_kernel_rfl) y

/-- What case C leaves in accumulator 0. -/
def sout_C_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

/-- Case C's stores into accumulator 1 cover it. -/
theorem scover_C_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S512x768.size (by sl_kernel_rfl) y

/-- What case C leaves in accumulator 1. -/
def sout_C_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ## What the buffers hold after each point -/

/-- A placeholder for an output block at a point that stores nothing into it: there the window is neither written
    back nor read, so nothing consults this value. -/
def junkO : Vec F S512x768 .f32 := VO_8.read (Elt F) VO_8.junk

/-- THE ACCUMULATION. After the body at position `n`: output 8's buffer, output 9's buffer, accumulator 0,
    accumulator 1. The case is selected by n % 8; cases B and C start from what position n - 1 left in the accumulators. -/
def outsAt (c : Dev nD) : (n : ℕ) → n < cfg2.N → Vec F S512x768 .f32 × Vec F S512x768 .f32 × Vec F S512x768 .f32 × Vec F S512x768 .f32
  | 0, hn => (junkO, junkO, sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 8 = 0 then
      if h1 : (n + 1) % 8 = 7 then
        False.elim (by omega)
      else
        (junkO, junkO, sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      if h1 : (n + 1) % 8 = 7 then
        (out_C_8 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, out_C_9 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2)
      else
        (junkO, junkO, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2)

/-- `outsAt` at a point with k = 0. -/
theorem outsAt_A (c : Dev nD) (t : Fin cfg2.N) (h0 : t.val % 8 = 0) (h1 : ¬t.val % 8 = 7) :
    outsAt V c t.val t.isLt = (junkO, junkO, sout_A_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t), sout_A_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans ((dif_neg h1).trans rfl)

/-- `outsAt` at a point with 0 < k < 7, over what the point before left. -/
theorem outsAt_B (c : Dev nD) (t : Fin cfg2.N) (h0 : ¬t.val % 8 = 0) (h1 : ¬t.val % 8 = 7) :
    outsAt V c t.val t.isLt = (junkO, junkO, sout_B_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with k = 7, over what the point before left. -/
theorem outsAt_C (c : Dev nD) (t : Fin cfg2.N) (h0 : ¬t.val % 8 = 0) (h1 : t.val % 8 = 7) :
    outsAt V c t.val t.isLt = (out_C_8 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, out_C_9 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the two accumulators hold anything; afterwards they hold what
    the point before left. The untouched scoped buffers and the generator register ride along. -/
def PhiS (c : Dev nD) : (n : ℕ) → n ≤ cfg2.N → sProp 𝕄
  | 0, _ => Pipeline.ΦA spec2 c
  | n + 1, hn => iprop(iprop(iprop(owns (c : Thread nD τ) scM_0 fullShare ((outsAt V c n hn).2.2.1) ∗ owns (c : Thread nD τ) scM_1 fullShare ((outsAt V c n hn).2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM_0 fullShare ((outsAt V c n hn).2.2.1) ∗ owns (c : Thread nD τ) scM_1 fullShare ((outsAt V c n hn).2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM_0 fullShare ((outsAt V c (n - 1) (by omega)).2.2.1) ∗ owns (c : Thread nD τ) scM_1 fullShare ((outsAt V c (n - 1) (by omega)).2.2.2)) ∗ restBut (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the outputs' at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = (outsAt V c t.val t.isLt).1 := by dsimp only [dat]
theorem after_9 (c : Dev nD) (t : Fin cfg2.N) : (dat V c).after 9 t = (outsAt V c t.val t.isLt).2.1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point: the inputs' memrefs hold their blocks; n % 8 selects the case, whose run applies; the
    invariant hands over the accumulators (at anything at the first point, else at what the point before left) and
    takes them back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [Dat.leavesExact_idle (dat V c) 8 t (idleAt_8_A t ((hcond0 t).mpr h0) (fun h => h1 ((hcond1 t).mp h))) (noFlush_8_A t ((hcond0 t).mpr h0) (fun h => h1 ((hcond1 t).mp h)))]
      rw [Dat.leavesExact_idle (dat V c) 9 t (idleAt_9_A t ((hcond0 t).mpr h0) (fun h => h1 ((hcond1 t).mp h))) (noFlush_9_A t ((hcond0 t).mpr h0) (fun h => h1 ((hcond1 t).mp h)))]
      rw [outsAt_A V c t h0 h1]
      unfold sout_A_0 sout_A_1; (try dsimp only)
      by_cases hz : t.val = 0
      ·
        rw [PhiS_castSucc V c t, PhiS_zero V c _ _ hz, PhiA_eq]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_A c (grid2.coords t) _ _ _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_A c (grid2.coords t) _ _ _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

  · by_cases h1 : t.val % 8 = 7
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8_C t (fun h => h0 ((hcond0 t).mp h)) ((hcond1 t).mpr h1)], after_8]
      rw [show (dat V c).leavesExact 9 t = owns (c : Thread nD τ) (ms_9 t) fullShare ((dat V c).after 9 t) from by
        unfold Dat.leavesExact; rw [liveAt_9_C t (fun h => h0 ((hcond0 t).mp h)) ((hcond1 t).mpr h1)], after_9]
      rw [outsAt_C V c t h0 h1]
      unfold out_C_8 out_C_9 sout_C_0 sout_C_1; (try dsimp only)
      by_cases hz : t.val = 0
      · exfalso; omega
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_C c (grid2.coords t) _ _ _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover_C_8 c _ _ _ _ _ _ _ _ _ _ _ _ _ _ _ _ _ _ _ _ _ _ _ _ _ _ _ _ _ _ _ _ _ _ _ _ _)
        · unfold owns; iexists _; isplitr
          swap; · iexact H9
          ipureintro; exact View.read_writes_of_cover _ _ _ _ _ (cover_C_9 c _ _ _ _ _ _ _ _ _ _ _ _ _ _ _ _ _ _ _ _ _ _ _ _ _ _ _ _ _ _ _ _ _ _ _ _ _)

    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [Dat.leavesExact_idle (dat V c) 8 t (idleAt_8_B t (fun h => h0 ((hcond0 t).mp h)) (fun h => h1 ((hcond1 t).mp h))) (noFlush_8_B t (fun h => h0 ((hcond0 t).mp h)) (fun h => h1 ((hcond1 t).mp h)))]
      rw [Dat.leavesExact_idle (dat V c) 9 t (idleAt_9_B t (fun h => h0 ((hcond0 t).mp h)) (fun h => h1 ((hcond1 t).mp h))) (noFlush_9_B t (fun h => h0 ((hcond0 t).mp h)) (fun h => h1 ((hcond1 t).mp h)))]
      rw [outsAt_B V c t h0 h1]
      unfold sout_B_0 sout_B_1; (try dsimp only)
      by_cases hz : t.val = 0
      · exfalso; omega
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_B c (grid2.coords t) _ _ _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry invariant back: the accumulators' contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

theorem hout (c : Dev nD) : (dat V c).Φ (Fin.last cfg2.N) ⊢ Pipeline.ΦA spec2 c :=
  Phi_out V c _ (by rw [Fin.val_last]; have : cfg2.N = 64 := N_2; omega)

end Cert.Kernel.R2

end
-- ==== Proof.K_Halves.lean ====
/-
  The three regional halves of program Kernel handed to the run: each region's proof data at any entry contents, its body
  obligation and its invariant's two ends; the shares are full, nothing is owed and no wait is recorded, by definition.
-/
import proofs.«130870_j71201967833887_2_alg».proof.Proof.K_Run
import proofs.«130870_j71201967833887_2_alg».proof.Proof.K_R0
import proofs.«130870_j71201967833887_2_alg».proof.Proof.K_R1
import proofs.«130870_j71201967833887_2_alg».proof.Proof.K_R2

noncomputable section

namespace Cert.Kernel.Halves

open Cert.Kernel Cert.Kernel.Gen Idealize.ShloMosaic Idealize.SL.Sem

variable {F : FTy → Type} [BitOps F]

def h0 : Run.Half0 F where
  dat := fun V c => R0.dat V c
  A_eq := fun V c w => R0.A_eq V c w
  q_eq := fun V c w => by dsimp only [R0.dat]
  owed_eq := fun V c t => by dsimp only [R0.dat]
  recorded_eq := fun V c t => by dsimp only [R0.dat]
  body := fun V c => R0.body_obligation V c
  hin := fun V c => R0.hin V c
  hout := fun V c => R0.hout V c
def h1 : Run.Half1 F where
  dat := fun V c => R1.dat V c
  A_eq := fun V c w => R1.A_eq V c w
  q_eq := fun V c w => by dsimp only [R1.dat]
  owed_eq := fun V c t => by dsimp only [R1.dat]
  recorded_eq := fun V c t => by dsimp only [R1.dat]
  body := fun V c => R1.body_obligation V c
  hin := fun V c => R1.hin V c
  hout := fun V c => R1.hout V c
def h2 : Run.Half2 F where
  dat := fun V c => R2.dat V c
  A_eq := fun V c w => R2.A_eq V c w
  q_eq := fun V c w => by dsimp only [R2.dat]
  owed_eq := fun V c t => by dsimp only [R2.dat]
  recorded_eq := fun V c t => by dsimp only [R2.dat]
  body := fun V c => R2.body_obligation V c
  hin := fun V c => R2.hin V c
  hout := fun V c => R2.hout V c

end Cert.Kernel.Halves

end
-- ==== Proof.KI_Run.lean ====
/-
  The run of @main, from three regional halves. @main is: four short host stretches (two zero paddings of the
  contraction axis from 784 to 896), three kernel regions, and two host stretches (the ten-column classifier and the
  row-wise log-softmax). Between two consecutive items every unscoped buffer of a core is held whole at a named
  valuation: the launch memory pushed through each host stretch, and at a region's exit the region's arrays replaced
  by what its write-backs leave. The theorem at the end reads every unscoped buffer of the final memory at the last
  valuation; the frame and the values are both read off it.
-/
import proofs.«130870_j71201967833887_2_alg».proof.Proof.Gen.KernelIdeal.Launch
import proofs.«130870_j71201967833887_2_alg».proof.Proof.Gen.KernelIdeal.Skeleton
import proofs.«130870_j71201967833887_2_alg».proof.Proof.Gen.KernelIdeal.Points
import proofs.«130870_j71201967833887_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the run needs of region 0: its proof data at any entry contents `V`, the body obligation, and the region
    invariant's two ends. -/
structure Half0 (F : FTy → Type) [FloatOps F] where
  dat : (V : (c : Dev nD) → (b : Ref sig .tc) → Buf (Elt F) ((c : Thread nD τ).loc b)) → (c : Dev nD) → Dat τ (Elt F) Unit ℕ (UR sig nD τ) ℕ cfg0 c
  A_eq : ∀ V c (w : Fin cfg0.W), (dat V c).A w = V c (Pipeline.arrRef spec0 w)
  q_eq : ∀ V c (w : Fin cfg0.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What the run needs of region 1: its proof data at any entry contents `V`, the body obligation, and the region
    invariant's two ends. -/
structure Half1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  A_eq : ∀ V c (w : Fin cfg1.W), (dat V c).A w = V c (Pipeline.arrRef spec1 w)
  q_eq : ∀ V c (w : Fin cfg1.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What the run needs of region 2: its proof data at any entry contents `V`, the body obligation, and the region
    invariant's two ends. -/
structure Half2 (F : FTy → Type) [FloatOps F] where
  dat : (V : (c : Dev nD) → (b : Ref sig .tc) → Buf (Elt F) ((c : Thread nD τ).loc b)) → (c : Dev nD) → Dat τ (Elt F) Unit ℕ (UR sig nD τ) ℕ cfg2 c
  A_eq : ∀ V c (w : Fin cfg2.W), (dat V c).A w = V c (Pipeline.arrRef spec2 w)
  q_eq : ∀ V c (w : Fin cfg2.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable {F : FTy → Type} [FloatOps F]

local notation "𝕄" => MT nD τ sig Unit (Elt F) ℕ (UR sig nD τ) ℕ

variable (H0 : Half0 F) (H1 : Half1 F) (H2 : Half2 F)
variable (m : (ℓ : Loc nD τ sig) → Buf (Elt F) ℓ) (ρ : Dev nD → PrngReg)

/-! ## The valuations between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
/-- Region 0 is entered from `W4`, read at the TensorCore's references. -/
abbrev E0 : (c : Dev nD) → (b : Ref sig .tc) → Buf (Elt F) ((c : Thread nD τ).loc b) := fun c b => W4 m c b
def W5 (c : Dev nD) : Valuation τ sig (Elt F) :=
  Pipeline.withArrays spec0 c (W4 m c) fun w => (H0.dat (E0 m) c).arrAt w cfg0.N
abbrev E1 : (c : Dev nD) → (b : Ref sig .tc) → Buf (Elt F) ((c : Thread nD τ).loc b) := fun c b => W5 H0 m c b
def W6 (c : Dev nD) : Valuation τ sig (Elt F) :=
  Pipeline.withArrays spec1 c (W5 H0 m c) fun w => (H1.dat (E1 H0 m) c).arrAt w cfg1.N
abbrev E2 : (c : Dev nD) → (b : Ref sig .tc) → Buf (Elt F) ((c : Thread nD τ).loc b) := fun c b => W6 H0 H1 m c b
def W7 (c : Dev nD) : Valuation τ sig (Elt F) :=
  Pipeline.withArrays spec2 c (W6 H0 H1 m c) fun w => (H2.dat (E2 H0 H1 m) c).arrAt w cfg2.N
abbrev E3 : (c : Dev nD) → (b : Ref sig .tc) → Buf (Elt F) ((c : Thread nD τ).loc b) := fun c b => W7 H0 H1 H2 m c b
abbrev W8 : Dev nD → Valuation τ sig (Elt F) := fun c => StableHlo.after hostOps3 (W7 H0 H1 H2 m c)
abbrev W9 : Dev nD → Valuation τ sig (Elt F) := fun c => StableHlo.after hostOps3_1 (W8 H0 H1 H2 m c)

theorem W5_arr (c : Dev nD) (w : Fin cfg0.W) :
    W5 H0 m c (Proc.devRef .tc (Pipeline.arrRef spec0 w)) = (H0.dat (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 H0 m c (Proc.devRef .tc b) = W4 m c (Proc.devRef .tc b) := by
  unfold W5; exact Pipeline.withArrays_of_ne spec0 c _ _ b hb
theorem W6_arr (c : Dev nD) (w : Fin cfg1.W) :
    W6 H0 H1 m c (Proc.devRef .tc (Pipeline.arrRef spec1 w)) = (H1.dat (E1 H0 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 H0 H1 m c (Proc.devRef .tc b) = W5 H0 m c (Proc.devRef .tc b) := by
  unfold W6; exact Pipeline.withArrays_of_ne spec1 c _ _ b hb
theorem W7_arr (c : Dev nD) (w : Fin cfg2.W) :
    W7 H0 H1 H2 m c (Proc.devRef .tc (Pipeline.arrRef spec2 w)) = (H2.dat (E2 H0 H1 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 H0 H1 H2 m c (Proc.devRef .tc b) = W6 H0 H1 m c (Proc.devRef .tc b) := by
  unfold W7; exact Pipeline.withArrays_of_ne spec2 c _ _ b hb

theorem hF0 (c : Dev nD) (w : Fin cfg0.W) : (H0.dat (E0 m) c).arrAt w cfg0.N = E1 H0 m c (Pipeline.arrRef spec0 w) :=
  (W5_arr H0 m c w).symm
theorem hrest0 (c : Dev nD) : ∀ b, b ∉ Finset.univ.image (Pipeline.arrRef spec0) → E1 H0 m c b = E0 m c b :=
  fun b hb => W5_of_ne H0 m c b fun w e => hb (Finset.mem_image.mpr ⟨w, Finset.mem_univ _, e⟩)
theorem hF1 (c : Dev nD) (w : Fin cfg1.W) : (H1.dat (E1 H0 m) c).arrAt w cfg1.N = E2 H0 H1 m c (Pipeline.arrRef spec1 w) :=
  (W6_arr H0 H1 m c w).symm
theorem hrest1 (c : Dev nD) : ∀ b, b ∉ Finset.univ.image (Pipeline.arrRef spec1) → E2 H0 H1 m c b = E1 H0 m c b :=
  fun b hb => W6_of_ne H0 H1 m c b fun w e => hb (Finset.mem_image.mpr ⟨w, Finset.mem_univ _, e⟩)
theorem hF2 (c : Dev nD) (w : Fin cfg2.W) : (H2.dat (E2 H0 H1 m) c).arrAt w cfg2.N = E3 H0 H1 H2 m c (Pipeline.arrRef spec2 w) :=
  (W7_arr H0 H1 H2 m c w).symm
theorem hrest2 (c : Dev nD) : ∀ b, b ∉ Finset.univ.image (Pipeline.arrRef spec2) → E3 H0 H1 H2 m c b = E2 H0 H1 m c b :=
  fun b hb => W7_of_ne H0 H1 H2 m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H0.dat (E0 m) c
  | ⟨1, _⟩ => fun c => H1.dat (E1 H0 m) c
  | ⟨2, _⟩ => fun c => H2.dat (E2 H0 H1 m) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 H0 H1 H2 m c) ∗ ∃ r, prngReg c r)

set_option backward.isDefEq.respectTransparency.types false in
/-- Region 0 over the thread state: entered with every unscoped buffer at the valuation before it, left with the
    region's arrays at what its write-backs leave and every other buffer as entered. -/
def reg0 : Pipeline.RegionSeg (pcfgs (F := F)) adm (pdats H0 H1 H2 m) () defs₀ 𝒱₀ L lv 0 where
  win := launch0.win.to₀
  block_pos := launch0.block_pos
  stage_whole := launch0.stage_whole
  K := PEmpty
  osem k := k.elim
  ho := Pipeline.OwnSemFacts.none _
  hbody c := (H0.body (E0 m) c).loose
  hwaits := Pipeline.hwaits_of_owed_zero _ _ _ _ L lv 0 fun c t => H0.owed_eq (E0 m) c t
  pre c := iprop(StableHlo.held (c : Thread nD τ) (Pipeline.ucRefs τ sig) (W4 m c) ∗ R c)
  post c := iprop(StableHlo.held (c : Thread nD τ) (Pipeline.ucRefs τ sig) (W5 H0 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats H0 H1 H2 m) launch0.win launch0.arr_whole c
      ((pdats H0 H1 H2 m 0 c).share_full fun w => H0.q_eq (E0 m) c w) (E0 m c) fun w => H0.A_eq (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 0 c).owed 0 = 0 from H0.owed_eq (E0 m) c 0]
      icases HO with ⟨%W, HO⟩; iexists W; isplitr; · ipureintro; exact fun _ _ => Or.inl (by rw [show (pdats H0 H1 H2 m 0 c).recorded 0 = Set.univ from H0.recorded_eq (E0 m) c 0]; exact Set.mem_univ _)
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (H0.hin (E0 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (H0.hout (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m) ((pdats H0 H1 H2 m 0 c).share_full fun w => H0.q_eq (E0 m) c w)
      (E0 m c) (E1 H0 m c) ((pdats H0 H1 H2 m 0 c).arrAt · cfg0.N) (hF0 H0 m c) (hrest0 H0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 0 c).owed (Fin.last _) = 0 from H0.owed_eq (E0 m) c _]
    icases HO with ⟨%W, -, HO⟩; iexists W; iexact HO

set_option backward.isDefEq.respectTransparency.types false in
/-- Region 1 over the thread state: entered with every unscoped buffer at the valuation before it, left with the
    region's arrays at what its write-backs leave and every other buffer as entered. -/
def reg1 : Pipeline.RegionSeg (pcfgs (F := F)) adm (pdats H0 H1 H2 m) () defs₀ 𝒱₀ L lv 1 where
  win := launch1.win.to₀
  block_pos := launch1.block_pos
  stage_whole := launch1.stage_whole
  K := PEmpty
  osem k := k.elim
  ho := Pipeline.OwnSemFacts.none _
  hbody c := (H1.body (E1 H0 m) c).loose
  hwaits := Pipeline.hwaits_of_owed_zero _ _ _ _ L lv 1 fun c t => H1.owed_eq (E1 H0 m) c t
  pre c := iprop(StableHlo.held (c : Thread nD τ) (Pipeline.ucRefs τ sig) (W5 H0 m c) ∗ R c)
  post c := iprop(StableHlo.held (c : Thread nD τ) (Pipeline.ucRefs τ sig) (W6 H0 H1 m c) ∗ R c)
  X c := iprop(∃ r, prngReg c r)
  Y c := iprop(∃ r, prngReg c r)
  Z c := Pipeline.unscopedRest (Ix := Unit) (Name := ℕ) (U := UR sig nD τ) (Lvl := ℕ) spec1 c (E1 H0 m c)
  hentry c := by
    rw [Pipeline.ownSems0_none]
    have hsplit := Pipeline.arrays_of_unscopedBufs (p := 1) (pcfgs (F := F)) adm (pdats H0 H1 H2 m) launch1.win launch1.arr_whole c
      ((pdats H0 H1 H2 m 1 c).share_full fun w => H1.q_eq (E1 H0 m) c w) (E1 H0 m c) fun w => H1.A_eq (E1 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 1 c).owed 0 = 0 from H1.owed_eq (E1 H0 m) c 0]
      icases HO with ⟨%W, HO⟩; iexists W; isplitr; · ipureintro; exact fun _ _ => Or.inl (by rw [show (pdats H0 H1 H2 m 1 c).recorded 0 = Set.univ from H1.recorded_eq (E1 H0 m) c 0]; exact Set.mem_univ _)
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (H1.hin (E1 H0 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (H1.hout (E1 H0 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m) ((pdats H0 H1 H2 m 1 c).share_full fun w => H1.q_eq (E1 H0 m) c w)
      (E1 H0 m c) (E2 H0 H1 m c) ((pdats H0 H1 H2 m 1 c).arrAt · cfg1.N) (hF1 H0 H1 m c) (hrest1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 1 c).owed (Fin.last _) = 0 from H1.owed_eq (E1 H0 m) c _]
    icases HO with ⟨%W, -, HO⟩; iexists W; iexact HO

set_option backward.isDefEq.respectTransparency.types false in
/-- Region 2 over the thread state: entered with every unscoped buffer at the valuation before it, left with the
    region's arrays at what its write-backs leave and every other buffer as entered. -/
def reg2 : Pipeline.RegionSeg (pcfgs (F := F)) adm (pdats H0 H1 H2 m) () defs₀ 𝒱₀ L lv 2 where
  win := launch2.win.to₀
  block_pos := launch2.block_pos
  stage_whole := launch2.stage_whole
  K := PEmpty
  osem k := k.elim
  ho := Pipeline.OwnSemFacts.none _
  hbody c := (H2.body (E2 H0 H1 m) c).loose
  hwaits := Pipeline.hwaits_of_owed_zero _ _ _ _ L lv 2 fun c t => H2.owed_eq (E2 H0 H1 m) c t
  pre c := iprop(StableHlo.held (c : Thread nD τ) (Pipeline.ucRefs τ sig) (W6 H0 H1 m c) ∗ R c)
  post c := iprop(StableHlo.held (c : Thread nD τ) (Pipeline.ucRefs τ sig) (W7 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c (E2 H0 H1 m c)
  hentry c := by
    rw [Pipeline.ownSems0_none]
    have hsplit := Pipeline.arrays_of_unscopedBufs (p := 2) (pcfgs (F := F)) adm (pdats H0 H1 H2 m) launch2.win launch2.arr_whole c
      ((pdats H0 H1 H2 m 2 c).share_full fun w => H2.q_eq (E2 H0 H1 m) c w) (E2 H0 H1 m c) fun w => H2.A_eq (E2 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 m 2 c).owed 0 = 0 from H2.owed_eq (E2 H0 H1 m) c 0]
      icases HO with ⟨%W, HO⟩; iexists W; isplitr; · ipureintro; exact fun _ _ => Or.inl (by rw [show (pdats H0 H1 H2 m 2 c).recorded 0 = Set.univ from H2.recorded_eq (E2 H0 H1 m) c 0]; exact Set.mem_univ _)
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (H2.hin (E2 H0 H1 m) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (H2.hout (E2 H0 H1 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m) ((pdats H0 H1 H2 m 2 c).share_full fun w => H2.q_eq (E2 H0 H1 m) c w)
      (E2 H0 H1 m c) (E3 H0 H1 H2 m c) ((pdats H0 H1 H2 m 2 c).arrAt · cfg2.N) (hF2 H0 H1 H2 m c) (hrest2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 2 c).owed (Fin.last _) = 0 from H2.owed_eq (E2 H0 H1 m) c _]
    icases HO with ⟨%W, -, HO⟩; iexists W; iexact HO

/-- The last item's thread state is the final one beside the core owing nothing. -/
theorem last_chain (c : Dev nD) :
    (iprop(StableHlo.held (c : Thread nD τ) (Pipeline.ucRefs τ sig) (W9 H0 H1 H2 m c) ∗ R c) : sProp 𝕄)
      ⊢ iprop(Tₙ H0 H1 H2 m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as items, and the launch -/

abbrev segs : List (Pipeline.Seg (pcfgs (F := F)) adm (pdats H0 H1 H2 m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 H0 H1 H2 m),
    .region (reg1 H0 H1 H2 m),
    .region (reg2 H0 H1 H2 m),
    .host (hseg hostOps3 hostOps3_sub hostOps3_fresh (W7 H0 H1 H2 m)),
    .host (hseg hostOps3_1 hostOps3_1_sub hostOps3_1_fresh (W8 H0 H1 H2 m)) ]

set_option backward.isDefEq.respectTransparency.types false in
/-- THE RUN. From any memory with zero counters every weakly fair execution of @main on the TensorCores terminates,
    and every final memory holds each unscoped buffer of each core at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W9 H0 H1 H2 m c b) :=
  Pipeline.θ_run_regions_kit_dev (pcfgs (F := F)) adm (pdats H0 H1 H2 m) () cellOf_inj emb₁ defs₀ 𝒱₀ L lv m ρ main
    (fun _ => segs H0 H1 H2 m)
    (fun c Q => by
      rewrite [main_chain c, Pipeline.Seg.run_eq_chain,
        show (segs H0 H1 H2 m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ H0 H1 H2 m)
    (hch := fun c => ⟨.rfl, .rfl, .rfl, .rfl, .rfl, .rfl, .rfl, .rfl, .rfl, last_chain H0 H1 H2 m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 H0 H1 H2 m c b)
    (hfin := fun c s' => by
      iintro ⟨⟨Hh, -⟩, HSI⟩
      unfold StableHlo.held
      imodintro
      iapply (pointsTo_read_all (Pipeline.ucRefs τ sig) (fun b => (((c : Thread nD τ)).1, b)) (W9 H0 H1 H2 m c) s')
      isplitl [Hh] <;> iassumption)
    (hQ := fun s h c => h c)

/-! ## What an item leaves alone -/

/-- Region 0 changes only its output windows' arrays. -/
theorem W5_keep (c : Dev nD) (b : Ref sig .tc) (hb : ∀ w : Fin cfg0.W, (cfg0.win w).isOut = true → Pipeline.arrRef spec0 w ≠ b) :
    W5 H0 m c (Proc.devRef .tc b) = W4 m c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    rw [W5_arr]; exact ((H0.dat (E0 m) c).arrAt_in w hw _).trans (H0.A_eq (E0 m) c w)
  · exact W5_of_ne H0 m c b (fun w e => h ⟨w, e⟩)
theorem W6_keep (c : Dev nD) (b : Ref sig .tc) (hb : ∀ w : Fin cfg1.W, (cfg1.win w).isOut = true → Pipeline.arrRef spec1 w ≠ b) :
    W6 H0 H1 m c (Proc.devRef .tc b) = W5 H0 m c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    rw [W6_arr]; exact ((H1.dat (E1 H0 m) c).arrAt_in w hw _).trans (H1.A_eq (E1 H0 m) c w)
  · exact W6_of_ne H0 H1 m c b (fun w e => h ⟨w, e⟩)
theorem W7_keep (c : Dev nD) (b : Ref sig .tc) (hb : ∀ w : Fin cfg2.W, (cfg2.win w).isOut = true → Pipeline.arrRef spec2 w ≠ b) :
    W7 H0 H1 H2 m c (Proc.devRef .tc b) = W6 H0 H1 m c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    rw [W7_arr]; exact ((H2.dat (E2 H0 H1 m) c).arrAt_in w hw _).trans (H2.A_eq (E2 H0 H1 m) c w)
  · exact W7_of_ne H0 H1 H2 m c b (fun w e => h ⟨w, e⟩)

/-- A buffer that no host operation writes and that is no region's output array ends as launched. -/
theorem W9_launch (c : Dev nD) (b : Ref sig .tc)
    (h0 : b ∉ hostOps0_W) (h1 : b ∉ hostOps0_1_W) (h2 : b ∉ hostOps0_2_W) (h3 : b ∉ hostOps0_3_W)
    (r0 : ∀ w : Fin cfg0.W, (cfg0.win w).isOut = true → Pipeline.arrRef spec0 w ≠ b)
    (r1 : ∀ w : Fin cfg1.W, (cfg1.win w).isOut = true → Pipeline.arrRef spec1 w ≠ b)
    (r2 : ∀ w : Fin cfg2.W, (cfg2.win w).isOut = true → Pipeline.arrRef spec2 w ≠ b)
    (h7 : b ∉ hostOps3_W) (h8 : b ∉ hostOps3_1_W) :
    W9 H0 H1 H2 m c (Proc.devRef .tc b) = m ((c : Thread nD τ).loc b) :=
  (StableHlo.after_of_writes_sub hostOps3_1 _ hostOps3_1_writes h8).trans <|
  (StableHlo.after_of_writes_sub hostOps3 _ hostOps3_writes h7).trans <|
  (W7_keep H0 H1 H2 m c b r2).trans <| (W6_keep H0 H1 m c b r1).trans <| (W5_keep H0 m c b r0).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

include H0 H1 H2 in
/-- THE FRAME, from the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_launch H0 H1 H2 m c main_arg0 (by decide) (by decide) (by decide) (by decide) (by decide) (by decide) (by decide) (by decide) (by decide)),
     (h c _ (mem_uc main_arg1 (by decide))).trans (W9_launch H0 H1 H2 m c main_arg1 (by decide) (by decide) (by decide) (by decide) (by decide) (by decide) (by decide) (by decide) (by decide)),
     (h c _ (mem_uc main_arg2 (by decide))).trans (W9_launch H0 H1 H2 m c main_arg2 (by decide) (by decide) (by decide) (by decide) (by decide) (by decide) (by decide) (by decide) (by decide)),
     (h c _ (mem_uc main_arg3 (by decide))).trans (W9_launch H0 H1 H2 m c main_arg3 (by decide) (by decide) (by decide) (by decide) (by decide) (by decide) (by decide) (by decide) (by decide)),
     (h c _ (mem_uc main_arg4 (by decide))).trans (W9_launch H0 H1 H2 m c main_arg4 (by decide) (by decide) (by decide) (by decide) (by decide) (by decide) (by decide) (by decide) (by decide)),
     (h c _ (mem_uc main_arg5 (by decide))).trans (W9_launch H0 H1 H2 m c main_arg5 (by decide) (by decide) (by decide) (by decide) (by decide) (by decide) (by decide) (by decide) (by decide)),
     (h c _ (mem_uc main_arg6 (by decide))).trans (W9_launch H0 H1 H2 m c main_arg6 (by decide) (by decide) (by decide) (by decide) (by decide) (by decide) (by decide) (by decide) (by decide)),
     (h c _ (mem_uc main_arg7 (by decide))).trans (W9_launch H0 H1 H2 m c main_arg7 (by decide) (by decide) (by decide) (by decide) (by decide) (by decide) (by decide) (by decide) (by decide)),
     (h c _ (mem_uc main_arg8 (by decide))).trans (W9_launch H0 H1 H2 m c main_arg8 (by decide) (by decide) (by decide) (by decide) (by decide) (by decide) (by decide) (by decide) (by decide)),
     (h c _ (mem_uc main_arg9 (by decide))).trans (W9_launch H0 H1 H2 m c main_arg9 (by decide) (by decide) (by decide) (by decide) (by decide) (by decide) (by decide) (by decide) (by decide)),
     (h c _ (mem_uc main_arg10 (by decide))).trans (W9_launch H0 H1 H2 m c main_arg10 (by decide) (by decide) (by decide) (by decide) (by decide) (by decide) (by decide) (by decide) (by decide)),
     (h c _ (mem_uc main_arg11 (by decide))).trans (W9_launch H0 H1 H2 m c main_arg11 (by decide) (by decide) (by decide) (by decide) (by decide) (by decide) (by decide) (by decide) (by decide)),
     (h c _ (mem_uc main_arg12 (by decide))).trans (W9_launch H0 H1 H2 m c main_arg12 (by decide) (by decide) (by decide) (by decide) (by decide) (by decide) (by decide) (by decide) (by decide)),
     (h c _ (mem_uc main_arg13 (by decide))).trans (W9_launch H0 H1 H2 m c main_arg13 (by decide) (by decide) (by decide) (by decide) (by decide) (by decide) (by decide) (by decide) (by decide)),
     (h c _ (mem_uc main_arg14 (by decide))).trans (W9_launch H0 H1 H2 m c main_arg14 (by decide) (by decide) (by decide) (by decide) (by decide) (by decide) (by decide) (by decide) (by decide)),
     (h c _ (mem_uc main_arg15 (by decide))).trans (W9_launch H0 H1 H2 m c main_arg15 (by decide) (by decide) (by decide) (by decide) (by decide) (by decide) (by decide) (by decide) (by decide)),
     (h c _ (mem_uc main_arg16 (by decide))).trans (W9_launch H0 H1 H2 m c main_arg16 (by decide) (by decide) (by decide) (by decide) (by decide) (by decide) (by decide) (by decide) (by decide))⟩)
    (run_main H0 H1 H2 m ρ)

end Cert.KernelIdeal.Run

end
-- ==== Proof.KI_R0.lean ====
/- Region 0 of the program's three TensorCore regions (its first kernel call, on a grid of six points, with
   eight windows: five inputs and three outputs written back at every point), at a parameter `V`: the
   TensorCore's buffer contents when the region is entered.  Stated here: each window's block at a point, what the
   body leaves in each output buffer as a function of the point's input blocks, the body's triple, the pipeline's
   proof data and its body obligation.  The body keeps nothing between points, so every output block is a function of
   the input blocks of its own point alone. -/
import proofs.«130870_j71201967833887_2_alg».proof.Proof.Gen.KernelIdeal.Launch
import proofs.«130870_j71201967833887_2_alg».proof.Proof.Gen.KernelIdeal.Skeleton
import proofs.«130870_j71201967833887_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of each two-dimensional buffer, -/
abbrev rX : Rect S512x896 := Rect.unit (s := S512x896) ![0, 0] S512x896.size inb_S512x896_S512x896_0_0
abbrev rW : Rect S1024x896 := Rect.unit (s := S1024x896) ![0, 0] S1024x896.size inb_S1024x896_S1024x896_0_0
abbrev rO : Rect S512x1024 := Rect.unit (s := S512x1024) ![0, 0] S512x1024.size inb_S512x1024_S512x1024_0_0
/-- and the point's 1024 entries of a per-feature vector of 6144: those from `1024 * i` on. -/
abbrev rV (i : grid0.Coords) : Rect S6144 := Rect.unit (s := S6144) (k0_off1 i) S1024.size (k0_off1_inb i)

/-! ## What the body leaves in each output window's buffer -/

/-- The first output's block (the layer's normalised, clamped activations) from the point's input blocks: the matrix
    product of the activations with the sign matrix of the point's 1024 weight rows, scaled per feature and passed
    through the batch statistics and the point's entries of the two per-feature vectors. -/
def val5 (i : grid0.Coords) (x0 : Vec F S512x896 .f32) (x1 : Vec F S1024x896 .f32) (x2 x3 x4 : Vec F S6144 .f32) : FVec F S512x1024 .f32 :=
  k0_pay9 (k0_pay5 x0 x1) (k0_pay7 (View.ld x2 (rV i))) (View.ld x3 (rV i)) (View.ld x4 (rV i))

/-- The second output's block, from the same blocks. -/
def val6 (i : grid0.Coords) (x0 : Vec F S512x896 .f32) (x1 : Vec F S1024x896 .f32) (x2 x3 x4 : Vec F S6144 .f32) : FVec F S512x1024 .f32 :=
  k0_pay1 (View.ld x4 (rV i)) (k0_pay11 (k0_pay6 x0 x1) (k0_pay7 (View.ld x2 (rV i))))
    (k0_pay12 (k0_pay6 x0 x1) (k0_pay7 (View.ld x2 (rV i))) (View.ld x3 (rV i))) (Scalar.ofBits .f32 0x3727C5AC#32)

/-- The third output's block: the signs of the first, in the narrow format. -/
def val7 (i : grid0.Coords) (x0 : Vec F S512x896 .f32) (x1 : Vec F S1024x896 .f32) (x2 x3 x4 : Vec F S6144 .f32) : FVec F S512x1024 .bf16 :=
  k0_pay2 (val5 i x0 x1 x2 x3 x4)

/-- Window 5's staging buffer after the body, from the input windows' blocks: its one store as a piece. -/
def out5 (i : grid0.Coords) (x0 : Vec F S512x896 .f32) (x1 : Vec F S1024x896 .f32) (x2 x3 x4 : Vec F S6144 .f32) : Vec F S512x1024 .f32 :=
  View.canon [⟨rO, k0_pay9 (k0_pay5 (View.ld x0 rX) (View.ld x1 rW)) (k0_pay7 (View.ld x2 (rV i))) (View.ld x3 (rV i)) (View.ld x4 (rV i))⟩]

/-- Window 6's likewise. -/
def out6 (i : grid0.Coords) (x0 : Vec F S512x896 .f32) (x1 : Vec F S1024x896 .f32) (x2 x3 x4 : Vec F S6144 .f32) : Vec F S512x1024 .f32 :=
  View.canon [⟨rO, k0_pay1 (View.ld x4 (rV i)) (k0_pay11 (k0_pay6 (View.ld x0 rX) (View.ld x1 rW)) (k0_pay7 (View.ld x2 (rV i))))
    (k0_pay12 (k0_pay6 (View.ld x0 rX) (View.ld x1 rW)) (k0_pay7 (View.ld x2 (rV i))) (View.ld x3 (rV i))) (Scalar.ofBits .f32 0x3727C5AC#32)⟩]

/-- Window 7's likewise. -/
def out7 (i : grid0.Coords) (x0 : Vec F S512x896 .f32) (x1 : Vec F S1024x896 .f32) (x2 x3 x4 : Vec F S6144 .f32) : Vec F S512x1024 .bf16 :=
  View.canon [⟨rO, k0_pay2 (k0_pay9 (k0_pay5 (View.ld x0 rX) (View.ld x1 rW)) (k0_pay7 (View.ld x2 (rV i))) (View.ld x3 (rV i)) (View.ld x4 (rV i)))⟩]

/-- The one store of each output is through the whole buffer, so it covers it. -/
theorem coverO {e : EltTy} (p : rO.shape.Idx → Elt F e) (y : S512x1024.Idx) :
    ∃ pc ∈ ([⟨rO, p⟩] : List (View.Piece (Elt F) S512x1024 e)), y ∈ pc.1.set :=
  ⟨_, List.mem_singleton_self _, View.mem_set_unit_zero (funext fun a => by fin_cases a <;> rfl) inb_S512x1024_S512x1024_0_0 y⟩

/-! ## The body's triple -/

set_option maxHeartbeats 1000000 in
/-- The kernel body on whole staging memrefs, the inputs' at read contents `xW` and the outputs' at anything, runs to
    the continuation holding the inputs' as they were and each output's at its function of the inputs'. -/
theorem sound_kernel (c : Dev nD) (E : Set ℕ) (i : grid0.Coords) (arg1 : Memref sig .tc .vmem S512x896 .f32) (harg1 : arg1.IsWhole) (arg2 : Memref sig .tc .vmem S1024x896 .f32) (harg2 : arg2.IsWhole) (arg3 : Memref sig .tc .vmem S6144 .f32) (harg3 : arg3.IsWhole) (arg4 : Memref sig .tc .vmem S6144 .f32) (harg4 : arg4.IsWhole) (arg5 : Memref sig .tc .vmem S6144 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole)
    (x0 : Vec F S512x896 .f32) (x1 : Vec F S1024x896 .f32) (x2 x3 x4 : Vec F S6144 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4) ∗ owns (c : Thread nD τ) arg7 fullShare (out6 i x0 x1 x2 x3 x4)
            ∗ owns (c : Thread nD τ) arg8 fullShare (out7 i x0 x1 x2 x3 x4)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The pipeline's proof data -/

/-- The proof data of the region's pipeline on core `c`: the arrays as the region finds them (`V`); after the body at
    point `t` each input's buffer at its block and each output's at its function of the point's input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 1 t) (iblk V c 2 t) (iblk V c 3 t) (iblk V c 4 t)
    | ⟨6, _⟩ => out6 (grid0.coords t) (iblk V c 0 t) (iblk V c 1 t) (iblk V c 2 t) (iblk V c 3 t) (iblk V c 4 t)
    | ⟨7, _⟩ => out7 (grid0.coords t) (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = out5 (grid0.coords t) (iblk V c 0 t) (iblk V c 1 t) (iblk V c 2 t) (iblk V c 3 t) (iblk V c 4 t) := by dsimp only [dat]
theorem after_6 (c : Dev nD) (t : Fin cfg0.N) : (dat V c).after 6 t = out6 (grid0.coords t) (iblk V c 0 t) (iblk V c 1 t) (iblk V c 2 t) (iblk V c 3 t) (iblk V c 4 t) := by dsimp only [dat]
theorem after_7 (c : Dev nD) (t : Fin cfg0.N) : (dat V c).after 7 t = out7 (grid0.coords t) (iblk V c 0 t) (iblk V c 1 t) (iblk V c 2 t) (iblk V c 3 t) (iblk V c 4 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the body's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the class's own at both ends of the region. -/
theorem hin (c : Dev nD) : Pipeline.ΦA spec0 c ⊢ (dat V c).Φ 0 := Entails.refl _
theorem hout (c : Dev nD) : (dat V c).Φ (Fin.last cfg0.N) ⊢ Pipeline.ΦA spec0 c := Entails.refl _

/-! ## The outputs' values

A store through the whole buffer leaves its payload, and a load through the whole buffer reads it: so each output
block is the payload of the point's input blocks, the two matrices whole and the three vectors at the point's 1024
entries. -/

theorem out5_eq (i : grid0.Coords) (x0 : Vec F S512x896 .f32) (x1 : Vec F S1024x896 .f32) (x2 x3 x4 : Vec F S6144 .f32) : out5 i x0 x1 x2 x3 x4 = val5 i x0 x1 x2 x3 x4 := by
  have hz : (![0, 0] : Fin S512x1024.rank → Nat) = fun _ => 0 := funext fun a => by fin_cases a <;> rfl
  have hz0 : (![0, 0] : Fin S512x896.rank → Nat) = fun _ => 0 := funext fun a => by fin_cases a <;> rfl
  have hz1 : (![0, 0] : Fin S1024x896.rank → Nat) = fun _ => 0 := funext fun a => by fin_cases a <;> rfl
  unfold out5 val5
  rw [View.canon_unit_zero hz, View.ld_unit_zero hz0, View.ld_unit_zero hz1]

theorem out6_eq (i : grid0.Coords) (x0 : Vec F S512x896 .f32) (x1 : Vec F S1024x896 .f32) (x2 x3 x4 : Vec F S6144 .f32) : out6 i x0 x1 x2 x3 x4 = val6 i x0 x1 x2 x3 x4 := by
  have hz : (![0, 0] : Fin S512x1024.rank → Nat) = fun _ => 0 := funext fun a => by fin_cases a <;> rfl
  have hz0 : (![0, 0] : Fin S512x896.rank → Nat) = fun _ => 0 := funext fun a => by fin_cases a <;> rfl
  have hz1 : (![0, 0] : Fin S1024x896.rank → Nat) = fun _ => 0 := funext fun a => by fin_cases a <;> rfl
  unfold out6 val6
  rw [View.canon_unit_zero hz, View.ld_unit_zero hz0, View.ld_unit_zero hz1]

theorem out7_eq (i : grid0.Coords) (x0 : Vec F S512x896 .f32) (x1 : Vec F S1024x896 .f32) (x2 x3 x4 : Vec F S6144 .f32) : out7 i x0 x1 x2 x3 x4 = val7 i x0 x1 x2 x3 x4 := by
  have hz : (![0, 0] : Fin S512x1024.rank → Nat) = fun _ => 0 := funext fun a => by fin_cases a <;> rfl
  have hz0 : (![0, 0] : Fin S512x896.rank → Nat) = fun _ => 0 := funext fun a => by fin_cases a <;> rfl
  have hz1 : (![0, 0] : Fin S1024x896.rank → Nat) = fun _ => 0 := funext fun a => by fin_cases a <;> rfl
  unfold out7 val7 val5
  rw [View.canon_unit_zero hz, View.ld_unit_zero hz0, View.ld_unit_zero hz1]

/-- What the body leaves in each output window's buffer at point `t`, over the point's input blocks. -/
theorem after_5_val (c : Dev nD) (t : Fin cfg0.N) :
    (dat V c).after 5 t = val5 (grid0.coords t) (iblk V c 0 t) (iblk V c 1 t) (iblk V c 2 t) (iblk V c 3 t) (iblk V c 4 t) := by
  rw [after_5, out5_eq]
theorem after_6_val (c : Dev nD) (t : Fin cfg0.N) :
    (dat V c).after 6 t = val6 (grid0.coords t) (iblk V c 0 t) (iblk V c 1 t) (iblk V c 2 t) (iblk V c 3 t) (iblk V c 4 t) := by
  rw [after_6, out6_eq]
theorem after_7_val (c : Dev nD) (t : Fin cfg0.N) :
    (dat V c).after 7 t = val7 (grid0.coords t) (iblk V c 0 t) (iblk V c 1 t) (iblk V c 2 t) (iblk V c 3 t) (iblk V c 4 t) := by
  rw [after_7, out7_eq]

end Cert.KernelIdeal.R0

end
-- ==== Proof.KI_R1_Runs.lean ====
import proofs.«130870_j71201967833887_2_alg».proof.Proof.Gen.KernelIdeal.Launch
import proofs.«130870_j71201967833887_2_alg».proof.Proof.Gen.KernelIdeal.Skeleton
import proofs.«130870_j71201967833887_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array at the region-entry contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved since the fetch. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved since the fetch. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved since the fetch. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved since the fetch. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the
    block index has not moved since the fetch. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the
    block index has not moved since the fetch. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Regions

/-! ## The body's two conditions on the reduction coordinate -/

/-- First step of a reduction (`k = 0`): the accumulators are reset. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 8 = 0 :=
  (by decide +kernel : ∀ t : Fin grid1.N, cond0 (grid1.coords t) ↔ t.val % 8 = 0)

/-- Last step of a reduction (`k = 7`): the outputs are computed from the accumulators. -/
abbrev cond1 (i : grid1.Coords) : Prop := k1_cond2 i = 1#1
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
theorem liveAt5 : ∀ t : Fin cfg1.N, cfg1.idle 5 (grid1.coords t) = false := by decide +kernel
theorem idleAt6 : ∀ t : Fin cfg1.N, ¬cond1 (grid1.coords t) → cfg1.idle 6 (grid1.coords t) = true := by decide +kernel
theorem noFlush6 : ∀ t : Fin cfg1.N, ¬cond1 (grid1.coords t) → (cfg1.win 6).flush t = false := by decide +kernel
theorem liveAt6 : ∀ t : Fin cfg1.N, cond1 (grid1.coords t) → cfg1.idle 6 (grid1.coords t) = false := by decide +kernel
theorem idleAt7 : ∀ t : Fin cfg1.N, ¬cond1 (grid1.coords t) → cfg1.idle 7 (grid1.coords t) = true := by decide +kernel
theorem noFlush7 : ∀ t : Fin cfg1.N, ¬cond1 (grid1.coords t) → (cfg1.win 7).flush t = false := by decide +kernel
theorem liveAt7 : ∀ t : Fin cfg1.N, cond1 (grid1.coords t) → cfg1.idle 7 (grid1.coords t) = false := by decide +kernel
theorem idleAt8 : ∀ t : Fin cfg1.N, ¬cond1 (grid1.coords t) → cfg1.idle 8 (grid1.coords t) = true := by decide +kernel
theorem noFlush8 : ∀ t : Fin cfg1.N, ¬cond1 (grid1.coords t) → (cfg1.win 8).flush t = false := by decide +kernel
theorem liveAt8 : ∀ t : Fin cfg1.N, cond1 (grid1.coords t) → cfg1.idle 8 (grid1.coords t) = false := by decide +kernel

/-! ## The staging memrefs at a point, the scratch accumulators -/

abbrev ms0 (t : Fin cfg1.N) : Memref sig .tc .vmem S512x6144 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x6144 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S768x768 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S6144 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S6144 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S6144 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x768 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x768 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x768 .bf16 := win1_8.stage (cfg1.slots t 8)
abbrev hs8 (t : Fin cfg1.N) : (ms8 t).IsWhole := hstage1_8 ((cfg1.slots t 8).cast nbuf1_8)
abbrev scM0 : Memref sig .tc .vmem S512x768 .f32 := Memref.whole cc1_scratch0
abbrev scM1 : Memref sig .tc .vmem S512x768 .f32 := Memref.whole cc1_scratch1
/-- Views through which buffer contents of the outputs' and accumulators' types are stated (any whole view of the type serves). -/
abbrev VF : View sig .tc .vmem S512x768 .f32 := scM0.view
abbrev VB : View sig .tc .vmem S512x768 .bf16 := (Memref.whole cc1_stg8_0 : Memref sig .tc .vmem S512x768 .bf16).view

/-- The region's invariant with the two accumulators opened: each a whole buffer at some contents, the other scoped
    buffers unopened, the generator register at some state. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM0, scM1, owns_whole]; try rfl

end Cert.KernelIdeal.R1

end
-- ==== Proof.KI_R1_RunA.lean ====
import proofs.«130870_j71201967833887_2_alg».proof.Proof.KI_R1_Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The kernel body at the first step of a reduction (the accumulators are reset, then added to): on whole memrefs, the inputs' at contents `x·`, the outputs' at contents `xi·` which it leaves untouched, the accumulators at anything,
    it runs to the continuation holding the inputs' as they were, the outputs' as they were, and each accumulator's buffer with the pieces stored into it written (last first).
    The piece lists are the witness the symbolic run of the body finds. -/
noncomputable def kernelRunA (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) :
    Σ' (LS0 : List (View.Piece (Elt F) S512x768 .f32)), { LS1 : List (View.Piece (Elt F) S512x768 .f32) //
      ∀ (xi6 : Vec F S512x768 .f32) (xi7 : Vec F S512x768 .f32) (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, fun xi6 xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.R1

end
-- ==== Proof.KI_R1_RunB.lean ====
import proofs.«130870_j71201967833887_2_alg».proof.Proof.KI_R1_RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The kernel body at a middle step of a reduction (the accumulators are added to): on whole memrefs, the inputs' at contents `x·`, the outputs' at contents `xi·` which it leaves untouched, the accumulators at what the step before left (`xs·`),
    it runs to the continuation holding the inputs' as they were, the outputs' as they were, and each accumulator's buffer with the pieces stored into it written (last first).
    The piece lists are the witness the symbolic run of the body finds. -/
noncomputable def kernelRunB (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    Σ' (LS0 : List (View.Piece (Elt F) S512x768 .f32)), { LS1 : List (View.Piece (Elt F) S512x768 .f32) //
      ∀ (xi6 : Vec F S512x768 .f32) (xi7 : Vec F S512x768 .f32) (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, fun xi6 xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.R1

end
-- ==== Proof.KI_R1_RunC.lean ====
import proofs.«130870_j71201967833887_2_alg».proof.Proof.KI_R1_RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The kernel body at the last step of a reduction (the accumulators are added to, then the three outputs are computed from them and stored): on whole memrefs, the inputs' at contents `x·`, the outputs' at anything, the accumulators at what the step before left (`xs·`),
    it runs to the continuation holding the inputs' as they were, each output's buffer with the pieces stored into it written, and each accumulator's buffer with the pieces stored into it written (last first).
    The piece lists are the witness the symbolic run of the body finds. -/
noncomputable def kernelRunC (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    Σ' (L6 : List (View.Piece (Elt F) S512x768 .f32)) (L7 : List (View.Piece (Elt F) S512x768 .f32)) (L8 : List (View.Piece (Elt F) S512x768 .bf16)) (LS0 : List (View.Piece (Elt F) S512x768 .f32)), { LS1 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.R1

end
-- ==== Proof.KI_R1.lean ====
import proofs.«130870_j71201967833887_2_alg».proof.Proof.KI_R1_RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulators and (last step) the outputs -/

/-- Placeholder contents of an output at a step that stores nothing into it (never read: the window is idle there). -/
def junkF : Vec F S512x768 .f32 := VF.read (Elt F) (VF.writes (Elt F) VF.junk [])
def junkB : Vec F S512x768 .bf16 := VB.read (Elt F) (VB.writes (Elt F) VB.junk [])

/-- Case A's pieces for accumulator 0 tile it, so they cover it. -/
theorem scoverA_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (y : S512x768.Idx) :
    ∃ pc ∈ (kernelRunA c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 hc1 x0 x1 x2 x3 x4 x5).1 S512x768.size (by sl_kernel_rfl) y

/-- What case A leaves in accumulator 0: its pieces read back. -/
def soutA_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) : Vec F S512x768 .f32 :=
  VF.read (Elt F) (VF.writes (Elt F) VF.junk (kernelRunA c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for accumulator 1 tile it, so they cover it. -/
theorem scoverA_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (y : S512x768.Idx) :
    ∃ pc ∈ (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1 S512x768.size (by sl_kernel_rfl) y

/-- What case A leaves in accumulator 1: its pieces read back. -/
def soutA_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) : Vec F S512x768 .f32 :=
  VF.read (Elt F) (VF.writes (Elt F) VF.junk (kernelRunA c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case B's pieces for accumulator 0 tile it, so they cover it. -/
theorem scoverB_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S512x768.size (by sl_kernel_rfl) y

/-- What case B leaves in accumulator 0: its pieces read back. -/
def soutB_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for accumulator 1 tile it, so they cover it. -/
theorem scoverB_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S512x768.size (by sl_kernel_rfl) y

/-- What case B leaves in accumulator 1: its pieces read back. -/
def soutB_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunB c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for accumulator 0 tile it, so they cover it. -/
theorem scoverC_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S512x768.size (by sl_kernel_rfl) y

/-- What case C leaves in accumulator 0: its pieces read back. -/
def soutC_0 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 tile it, so they cover it. -/
theorem scoverC_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S512x768.size (by sl_kernel_rfl) y

/-- What case C leaves in accumulator 1: its pieces read back. -/
def soutC_1 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block, so they cover it. -/
theorem coverC_6 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S512x768.size (by sl_kernel_rfl) y

/-- What case C leaves in output 6's staging buffer: its pieces read back. -/
def outC_6 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block, so they cover it. -/
theorem coverC_7 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S512x768.size (by sl_kernel_rfl) y

/-- What case C leaves in output 7's staging buffer: its pieces read back. -/
def outC_7 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .f32 :=
  VF.read (Elt F) (VF.writes (Elt F) VF.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block, so they cover it. -/
theorem coverC_8 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) (y : S512x768.Idx) :
    ∃ pc ∈ (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S512x768.size (by sl_kernel_rfl) y

/-- What case C leaves in output 8's staging buffer: its pieces read back. -/
def outC_8 (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) : Vec F S512x768 .bf16 :=
  VB.read (Elt F) (VB.writes (Elt F) VB.junk (kernelRunC c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

section Regions
variable (V : (c : Dev nD) → (b : Ref sig .tc) → Buf (Elt F) ((c : Thread nD τ).loc b))

/-! ## What the outputs and the accumulators hold after each point -/

/-- Outputs 6, 7, 8 and accumulators 0, 1, in this order. -/
abbrev Outs (F : FTy → Type) : Type := Vec F S512x768 .f32 × Vec F S512x768 .f32 × Vec F S512x768 .bf16 × Vec F S512x768 .f32 × Vec F S512x768 .f32

/-- After a first step at point `t`. -/
def stepA (c : Dev nD) (t : Fin cfg1.N) (h0 : t.val % 8 = 0) (h1 : ¬t.val % 8 = 7) : Outs F :=
  (junkF, junkF, junkB,
   soutA_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t),
   soutA_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t))

/-- After a middle step at point `t`, from what the step before left in the accumulators. -/
def stepB (c : Dev nD) (t : Fin cfg1.N) (h0 : ¬t.val % 8 = 0) (h1 : ¬t.val % 8 = 7) (xs0 xs1 : Vec F S512x768 .f32) : Outs F :=
  (junkF, junkF, junkB,
   soutB_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1,
   soutB_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1)

/-- After a last step at point `t`, from what the step before left in the accumulators. -/
def stepC (c : Dev nD) (t : Fin cfg1.N) (h0 : ¬t.val % 8 = 0) (h1 : t.val % 8 = 7) (xs0 xs1 : Vec F S512x768 .f32) : Outs F :=
  (outC_6 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   outC_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   outC_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   soutC_0 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1,
   soutC_1 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1)

/-- THE ACCUMULATION: what the outputs' staging buffers and the two accumulators hold after the body at position `n`,
    by recursion on the position: the case `n % 8` selects, the accumulators read at what position `n - 1` left. -/
def outsAt (c : Dev nD) : (n : ℕ) → n < cfg1.N → Outs F
  | 0, hn => stepA V c ⟨0, hn⟩ (Nat.zero_mod _) (by show ¬(0 : ℕ) % 8 = 7; decide)
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt c n (Nat.lt_of_succ_lt hn)).2.2.2.1 (outsAt c n (Nat.lt_of_succ_lt hn)).2.2.2.2
      else
        stepB V c ⟨n + 1, hn⟩ h0 h1 (outsAt c n (Nat.lt_of_succ_lt hn)).2.2.2.1 (outsAt c n (Nat.lt_of_succ_lt hn)).2.2.2.2

theorem outsAt_A (c : Dev nD) (t : Fin cfg1.N) (h0 : t.val % 8 = 0) (h1 : ¬t.val % 8 = 7) :
    outsAt V c t.val t.isLt = stepA V c t h0 h1 := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = stepB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = stepC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulators at what the point before left -/

abbrev restBut (c : Dev nD) : sProp 𝕄 :=
  Pipeline.scopedRestBut (Ix := Unit) (Name := ℕ) (U := UR sig nD τ) (Lvl := ℕ) (Val := Elt F) spec1 c [cc1_scratch0, cc1_scratch1]

def PhiS (c : Dev nD) : (n : ℕ) → n ≤ cfg1.N → sProp 𝕄
  | 0, _ => Pipeline.ΦA spec1 c
  | n + 1, hn => iprop(iprop(iprop(owns (c : Thread nD τ) scM0 fullShare (outsAt V c n hn).2.2.2.1 ∗ owns (c : Thread nD τ) scM1 fullShare (outsAt V c n hn).2.2.2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (outsAt V c n hn).2.2.2.1 ∗ owns (c : Thread nD τ) scM1 fullShare (outsAt V c n hn).2.2.2.2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (outsAt V c (n - 1) (by omega)).2.2.2.1 ∗ owns (c : Thread nD τ) scM1 fullShare (outsAt V c (n - 1) (by omega)).2.2.2.2) ∗ restBut c) ∗ (∃ r, prngReg c r)) := by
  cases n with
  | zero => exact absurd rfl hz
  | succ n => rfl

/-! ## The pipeline's proof data -/

/-- The proof data of the region on core `c`: the arrays at the region-entry contents `V`; after the body at point `t`
    each input's buffer at its block and the outputs' at `outsAt`'s components; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]
theorem after7 (c : Dev nD) (t : Fin cfg1.N) : (dat V c).after 7 t = (outsAt V c t.val t.isLt).2.1 := by dsimp only [dat]
theorem after8 (c : Dev nD) (t : Fin cfg1.N) : (dat V c).after 8 t = (outsAt V c t.val t.isLt).2.2.1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 8000000 in
/-- The body at any point: the inputs' memrefs hold their blocks; the closed forms of the two conditions say which case the
    point is in; that case's run applies, the invariant handing it the accumulators at what the point before left (at
    anything at the very first point) and taking them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- first step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [Dat.leavesExact_idle (dat V c) 6 t (idleAt6 t (fun h => h1 ((hcond1 t).mp h))) (noFlush6 t (fun h => h1 ((hcond1 t).mp h)))]
      rw [Dat.leavesExact_idle (dat V c) 7 t (idleAt7 t (fun h => h1 ((hcond1 t).mp h))) (noFlush7 t (fun h => h1 ((hcond1 t).mp h)))]
      rw [Dat.leavesExact_idle (dat V c) 8 t (idleAt8 t (fun h => h1 ((hcond1 t).mp h))) (noFlush8 t (fun h => h1 ((hcond1 t).mp h)))]
      rw [outsAt_A V c t h0 h1]
      unfold stepA soutA_0 soutA_1; (try dsimp only)
      by_cases hz : t.val = 0
      · rw [PhiS_castSucc V c t, PhiS_zero V c _ _ hz, PhiA_eq]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunA c (grid1.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverA_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverA_1 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunA c (grid1.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverA_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverA_1 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

  · by_cases h1 : t.val % 8 = 7
    · -- last step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [show (dat V c).leavesExact 6 t = owns (c : Thread nD τ) (ms6 t) fullShare ((dat V c).after 6 t) from by
        unfold Dat.leavesExact; rw [liveAt6 t ((hcond1 t).mpr h1)], after6]
      rw [show (dat V c).leavesExact 7 t = owns (c : Thread nD τ) (ms7 t) fullShare ((dat V c).after 7 t) from by
        unfold Dat.leavesExact; rw [liveAt7 t ((hcond1 t).mpr h1)], after7]
      rw [show (dat V c).leavesExact 8 t = owns (c : Thread nD τ) (ms8 t) fullShare ((dat V c).after 8 t) from by
        unfold Dat.leavesExact; rw [liveAt8 t ((hcond1 t).mpr h1)], after8]
      rw [outsAt_C V c t h0 h1]
      unfold stepC outC_6 outC_7 outC_8 soutC_0 soutC_1; (try dsimp only)
      by_cases hz : t.val = 0
      · exfalso; omega
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid1.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverC_0 c _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverC_1 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        ·
          unfold owns; iexists _; isplitr
          swap; · iexact H6
          ipureintro; exact View.read_writes_of_cover _ _ _ _ _ (coverC_6 c _ _ _ _ _ _ _ _ _ _ _ _ _ _ _ _ _ _ _ _ _ _ _ _ _ _ _ _ _ _ _ _ _)
        isplitl [H7]
        ·
          unfold owns; iexists _; isplitr
          swap; · iexact H7
          ipureintro; exact View.read_writes_of_cover _ _ _ _ _ (coverC_7 c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _)
    · -- middle step
      rw [show (dat V c).leavesExact 0 t = owns (c : Thread nD τ) (ms0 t) fullShare ((dat V c).after 0 t) from by
        unfold Dat.leavesExact; rw [liveAt0 t], after0]
      rw [show (dat V c).leavesExact 1 t = owns (c : Thread nD τ) (ms1 t) fullShare ((dat V c).after 1 t) from by
        unfold Dat.leavesExact; rw [liveAt1 t], after1]
      rw [show (dat V c).leavesExact 2 t = owns (c : Thread nD τ) (ms2 t) fullShare ((dat V c).after 2 t) from by
        unfold Dat.leavesExact; rw [liveAt2 t], after2]
      rw [show (dat V c).leavesExact 3 t = owns (c : Thread nD τ) (ms3 t) fullShare ((dat V c).after 3 t) from by
        unfold Dat.leavesExact; rw [liveAt3 t], after3]
      rw [show (dat V c).leavesExact 4 t = owns (c : Thread nD τ) (ms4 t) fullShare ((dat V c).after 4 t) from by
        unfold Dat.leavesExact; rw [liveAt4 t], after4]
      rw [show (dat V c).leavesExact 5 t = owns (c : Thread nD τ) (ms5 t) fullShare ((dat V c).after 5 t) from by
        unfold Dat.leavesExact; rw [liveAt5 t], after5]
      rw [Dat.leavesExact_idle (dat V c) 6 t (idleAt6 t (fun h => h1 ((hcond1 t).mp h))) (noFlush6 t (fun h => h1 ((hcond1 t).mp h)))]
      rw [Dat.leavesExact_idle (dat V c) 7 t (idleAt7 t (fun h => h1 ((hcond1 t).mp h))) (noFlush7 t (fun h => h1 ((hcond1 t).mp h)))]
      rw [Dat.leavesExact_idle (dat V c) 8 t (idleAt8 t (fun h => h1 ((hcond1 t).mp h))) (noFlush8 t (fun h => h1 ((hcond1 t).mp h)))]
      rw [outsAt_B V c t h0 h1]
      unfold stepB soutB_0 soutB_1; (try dsimp only)
      by_cases hz : t.val = 0
      · exfalso; omega
      · rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunB c (grid1.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) _ _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scoverB_0 c _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scoverB_1 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

theorem hout (c : Dev nD) : (dat V c).Φ (Fin.last cfg1.N) ⊢ Pipeline.ΦA spec1 c :=
  Phi_out V c _ (by rw [Fin.val_last]; have : cfg1.N = 64 := N_1; omega)

end Regions

end Cert.KernelIdeal.R1

end
-- ==== Proof.KI_R2_Runs.lean ====
/- Region 2 of the idealized program (the third binarized layer, grid 8 x 8, point t = 8 n + k): what the three
   control cases of its body share. The body accumulates, over the reduction coordinate k, two f32 partial sums
   held in scratch buffers that persist from one grid point to the next; at k = 0 they are reset to zero, at
   k = 7 the two output blocks are computed from them. -/
import proofs.«130870_j71201967833887_2_alg».proof.Proof.Gen.KernelIdeal.Launch
import proofs.«130870_j71201967833887_2_alg».proof.Proof.Gen.KernelIdeal.Skeleton
import proofs.«130870_j71201967833887_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of a core when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved since the point before. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched the block index has not moved since the point before. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched the block index has not moved since the point before. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched the block index has not moved since the point before. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched the block index has not moved since the point before. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched the block index has not moved since the point before. -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched the block index has not moved since the point before. -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched the block index has not moved since the point before. -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the 64 points -/

/-- The reset condition (k = 0), as the body computes it from the grid coordinates. -/
abbrev cond0 (i : grid2.Coords) : Prop := (Scalar.cmpi .ne (Scalar.extui (Scalar.cmpi .eq (BitVec.ofNat 32 (i 1).val) 0#32)) 0#32) = 1#1
/-- It holds exactly at the points t with t % 8 = 0. -/
theorem hcond0 : ∀ t : Fin cfg2.N, cond0 (grid2.coords t) ↔ t.val % 8 = 0 :=
  (by decide +kernel : ∀ t : Fin grid2.N, cond0 (grid2.coords t) ↔ t.val % 8 = 0)

/-- The finalization condition (k = 7). -/
abbrev cond1 (i : grid2.Coords) : Prop := k2_cond2 i = 1#1
/-- It holds exactly at the points t with t % 8 = 7. -/
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl
theorem liveAt_5 : ∀ t : Fin cfg2.N, cfg2.idle 5 (grid2.coords t) = false := fun _ => rfl
theorem liveAt_6 : ∀ t : Fin cfg2.N, cfg2.idle 6 (grid2.coords t) = false := fun _ => rfl
theorem liveAt_7 : ∀ t : Fin cfg2.N, cfg2.idle 7 (grid2.coords t) = false := fun _ => rfl
/-- Output 8 is stored only when k = 7: elsewhere it is idle and not written back. -/
theorem idleAt_8_A : ∀ t : Fin cfg2.N, cond0 (grid2.coords t) → ¬cond1 (grid2.coords t) → cfg2.idle 8 (grid2.coords t) = true := by decide +kernel
theorem noFlush_8_A : ∀ t : Fin cfg2.N, cond0 (grid2.coords t) → ¬cond1 (grid2.coords t) → (cfg2.win 8).flush t = false := by decide +kernel
theorem idleAt_8_B : ∀ t : Fin cfg2.N, ¬cond0 (grid2.coords t) → ¬cond1 (grid2.coords t) → cfg2.idle 8 (grid2.coords t) = true := by decide +kernel
theorem noFlush_8_B : ∀ t : Fin cfg2.N, ¬cond0 (grid2.coords t) → ¬cond1 (grid2.coords t) → (cfg2.win 8).flush t = false := by decide +kernel
theorem liveAt_8_C : ∀ t : Fin cfg2.N, ¬cond0 (grid2.coords t) → cond1 (grid2.coords t) → cfg2.idle 8 (grid2.coords t) = false := by decide +kernel
/-- Output 9 is stored only when k = 7: elsewhere it is idle and not written back. -/
theorem idleAt_9_A : ∀ t : Fin cfg2.N, cond0 (grid2.coords t) → ¬cond1 (grid2.coords t) → cfg2.idle 9 (grid2.coords t) = true := by decide +kernel
theorem noFlush_9_A : ∀ t : Fin cfg2.N, cond0 (grid2.coords t) → ¬cond1 (grid2.coords t) → (cfg2.win 9).flush t = false := by decide +kernel
theorem idleAt_9_B : ∀ t : Fin cfg2.N, ¬cond0 (grid2.coords t) → ¬cond1 (grid2.coords t) → cfg2.idle 9 (grid2.coords t) = true := by decide +kernel
theorem noFlush_9_B : ∀ t : Fin cfg2.N, ¬cond0 (grid2.coords t) → ¬cond1 (grid2.coords t) → (cfg2.win 9).flush t = false := by decide +kernel
theorem liveAt_9_C : ∀ t : Fin cfg2.N, ¬cond0 (grid2.coords t) → cond1 (grid2.coords t) → cfg2.idle 9 (grid2.coords t) = false := by decide +kernel

/-! ## The staging memrefs the body is called with, and the two accumulators -/

abbrev ms_0 (t : Fin cfg2.N) : Memref sig .tc .vmem S512x6144 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S512x6144 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S768x768 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S6144 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S6144 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S6144 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S512x768 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S512x768 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S512x768 .f32 := win2_8.stage (cfg2.slots t 8)
abbrev hs_8 (t : Fin cfg2.N) : (ms_8 t).IsWhole := hstage2_8 ((cfg2.slots t 8).cast nbuf2_8)
abbrev ms_9 (t : Fin cfg2.N) : Memref sig .tc .vmem S512x768 .f32 := win2_9.stage (cfg2.slots t 9)
abbrev hs_9 (t : Fin cfg2.N) : (ms_9 t).IsWhole := hstage2_9 ((cfg2.slots t 9).cast nbuf2_9)
/-- One staging buffer of each output window, through which its contents are stated. -/
abbrev VO_8 : View sig .tc .vmem S512x768 .f32 := (ms_8 ⟨0, by decide⟩).view
abbrev VO_9 : View sig .tc .vmem S512x768 .f32 := (ms_9 ⟨0, by decide⟩).view
/-- The two accumulators: whole scoped buffers of the kernel's own. -/
abbrev scM_0 : Memref sig .tc .vmem S512x768 .f32 := Memref.whole cc2_scratch0
abbrev scM_1 : Memref sig .tc .vmem S512x768 .f32 := Memref.whole cc2_scratch1
abbrev VS_0 : View sig .tc .vmem S512x768 .f32 := scM_0.view
abbrev VS_1 : View sig .tc .vmem S512x768 .f32 := scM_1.view

/-- The rest of the core's scoped buffers, which the body never touches. -/
abbrev restBut (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two accumulators split off as memrefs owned at some contents. -/
theorem PhiA_eq (c : Dev nD) :
    (Pipeline.ΦA spec2 c : sProp 𝕄)
      = iprop(iprop(iprop((∃ d, owns (c : Thread nD τ) scM_0 fullShare d) ∗ (∃ d, owns (c : Thread nD τ) scM_1 fullShare d)) ∗ restBut c) ∗ (∃ r, prngReg c r)) := by
  unfold Pipeline.ΦA; rw [scopedRest2_split]; simp only [scM_0, scM_1, owns_whole]; try rfl

end Cert.KernelIdeal.R2

end
-- ==== Proof.KI_R2_RunA.lean ====
/- Region 2, the body's run in control case A. -/
import proofs.«130870_j71201967833887_2_alg».proof.Proof.KI_R2_Runs

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the case k = 0: both accumulators are reset, then the point's product is added; nothing is stored into the outputs. On whole memrefs, the inputs' at their contents, it runs to the
    continuation holding the inputs' as they were and each buffer it stored into with its pieces written (last
    first); the piece lists are the witness the symbolic execution finds. -/
noncomputable def kernelRun_A (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) :
    Σ' (LS0 : List (View.Piece (Elt F) S512x768 .f32)), { LS1 : List (View.Piece (Elt F) S512x768 .f32) //
      ∀ (xi8 : Vec F S512x768 .f32) (xi9 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, fun xi8 xi9 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.KernelIdeal.R2

end
-- ==== Proof.KI_R2_RunB.lean ====
/- Region 2, the body's run in control case B. -/
import proofs.«130870_j71201967833887_2_alg».proof.Proof.KI_R2_RunA

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the case 0 < k < 7: the point's product is added to both accumulators; nothing is stored into the outputs. On whole memrefs, the inputs' at their contents, it runs to the
    continuation holding the inputs' as they were and each buffer it stored into with its pieces written (last
    first); the piece lists are the witness the symbolic execution finds. -/
noncomputable def kernelRun_B (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    Σ' (LS0 : List (View.Piece (Elt F) S512x768 .f32)), { LS1 : List (View.Piece (Elt F) S512x768 .f32) //
      ∀ (xi8 : Vec F S512x768 .f32) (xi9 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, fun xi8 xi9 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.KernelIdeal.R2

end
-- ==== Proof.KI_R2_RunC.lean ====
/- Region 2, the body's run in control case C. -/
import proofs.«130870_j71201967833887_2_alg».proof.Proof.KI_R2_RunB

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in the case k = 7: the point's product is added to both accumulators, then both output blocks are computed from them. On whole memrefs, the inputs' at their contents, it runs to the
    continuation holding the inputs' as they were and each buffer it stored into with its pieces written (last
    first); the piece lists are the witness the symbolic execution finds. -/
noncomputable def kernelRun_C (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    Σ' (L8 : List (View.Piece (Elt F) S512x768 .f32)) (L9 : List (View.Piece (Elt F) S512x768 .f32)) (LS0 : List (View.Piece (Elt F) S512x768 .f32)), { LS1 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    iexists _; iexact HS1

end Cert.KernelIdeal.R2

end
-- ==== Proof.KI_R2.lean ====
/- Region 2 of the idealized program: what the body leaves in the two accumulators and the two output blocks,
   case by case and point by point; the pipeline's proof data; the body obligation; entry and exit of the
   region's invariant; and the value equations that read the found pieces as the body's arithmetic. -/
import proofs.«130870_j71201967833887_2_alg».proof.Proof.KI_R2_RunC

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulators and the outputs -/

/-- Case A's stores into accumulator 0 cover it. -/
theorem scover_A_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (y : S512x768.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S512x768.size (by sl_kernel_rfl) y

/-- What case A leaves in accumulator 0. -/
def sout_A_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) : Vec F S512x768 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)

/-- Case A's stores into accumulator 1 cover it. -/
theorem scover_A_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (y : S512x768.Idx) :
    ∃ pc ∈ (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S512x768.size (by sl_kernel_rfl) y

/-- What case A leaves in accumulator 1. -/
def sout_A_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) : Vec F S512x768 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- Case B's stores into accumulator 0 cover it. -/
theorem scover_B_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S512x768.size (by sl_kernel_rfl) y

/-- What case B leaves in accumulator 0. -/
def sout_B_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

/-- Case B's stores into accumulator 1 cover it. -/
theorem scover_B_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S512x768.size (by sl_kernel_rfl) y

/-- What case B leaves in accumulator 1. -/
def sout_B_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- In case C the single store into output 8 covers its block. -/
theorem cover_C_8 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S512x768.size (by sl_kernel_rfl) y

/-- What case C leaves in output 8's staging buffer. -/
def out_C_8 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VO_8.read (Elt F) (VO_8.writes (Elt F) VO_8.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

/-- In case C the single store into output 9 covers its block. -/
theorem cover_C_9 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S512x768.size (by sl_kernel_rfl) y

/-- What case C leaves in output 9's staging buffer. -/
def out_C_9 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VO_9.read (Elt F) (VO_9.writes (Elt F) VO_9.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- Case C's stores into accumulator 0 cover it. -/
theorem scover_C_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S512x768.size (by sl_kernel_rfl) y

/-- What case C leaves in accumulator 0. -/
def sout_C_0 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

/-- Case C's stores into accumulator 1 cover it. -/
theorem scover_C_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) (y : S512x768.Idx) :
    ∃ pc ∈ (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S512x768.size (by sl_kernel_rfl) y

/-- What case C leaves in accumulator 1. -/
def sout_C_1 (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) : Vec F S512x768 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ## What the buffers hold after each point -/

/-- A placeholder for an output block at a point that stores nothing into it: there the window is neither written
    back nor read, so nothing consults this value. -/
def junkO : Vec F S512x768 .f32 := VO_8.read (Elt F) VO_8.junk

/-- THE ACCUMULATION. After the body at position `n`: output 8's buffer, output 9's buffer, accumulator 0,
    accumulator 1. The case is selected by n % 8; cases B and C start from what position n - 1 left in the accumulators. -/
def outsAt (c : Dev nD) : (n : ℕ) → n < cfg2.N → Vec F S512x768 .f32 × Vec F S512x768 .f32 × Vec F S512x768 .f32 × Vec F S512x768 .f32
  | 0, hn => (junkO, junkO, sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) scM_0 (Memref.isWhole_whole _) scM_1 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 8 = 0 then
      if h1 : (n + 1) % 8 = 7 then
        False.elim (by omega)
      else
        (junkO, junkO, sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      if h1 : (n + 1) % 8 = 7 then
        (out_C_8 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, out_C_9 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2)
      else
        (junkO, junkO, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) scM_0 (Memref.isWhole_whole _) scM_1 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.2.1 (outsAt c n (Nat.lt_of_succ_lt hn)).2.2.2)

/-- `outsAt` at a point with k = 0. -/
theorem outsAt_A (c : Dev nD) (t : Fin cfg2.N) (h0 : t.val % 8 = 0) (h1 : ¬t.val % 8 = 7) :
    outsAt V c t.val t.isLt = (junkO, junkO, sout_A_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t), sout_A_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans ((dif_neg h1).trans rfl)

/-- `outsAt` at a point with 0 < k < 7, over what the point before left. -/
theorem outsAt_B (c : Dev nD) (t : Fin cfg2.N) (h0 : ¬t.val % 8 = 0) (h1 : ¬t.val % 8 = 7) :
    outsAt V c t.val t.isLt = (junkO, junkO, sout_B_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with k = 7, over what the point before left. -/
theorem outsAt_C (c : Dev nD) (t : Fin cfg2.N) (h0 : ¬t.val % 8 = 0) (h1 : t.val % 8 = 7) :
    outsAt V c t.val t.isLt = (out_C_8 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, out_C_9 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the two accumulators hold anything; afterwards they hold what
    the point before left. The untouched scoped buffers and the generator register ride along. -/
def PhiS (c : Dev nD) : (n : ℕ) → n ≤ cfg2.N → sProp 𝕄
  | 0, _ => Pipeline.ΦA spec2 c
  | n + 1, hn => iprop(iprop(iprop(owns (c : Thread nD τ) scM_0 fullShare ((outsAt V c n hn).2.2.1) ∗ owns (c : Thread nD τ) scM_1 fullShare ((outsAt V c n hn).2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM_0 fullShare ((outsAt V c n hn).2.2.1) ∗ owns (c : Thread nD τ) scM_1 fullShare ((outsAt V c n hn).2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM_0 fullShare ((outsAt V c (n - 1) (by omega)).2.2.1) ∗ owns (c : Thread nD τ) scM_1 fullShare ((outsAt V c (n - 1) (by omega)).2.2.2)) ∗ restBut (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the outputs' at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = (outsAt V c t.val t.isLt).1 := by dsimp only [dat]
theorem after_9 (c : Dev nD) (t : Fin cfg2.N) : (dat V c).after 9 t = (outsAt V c t.val t.isLt).2.1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point: the inputs' memrefs hold their blocks; n % 8 selects the case, whose run applies; the
    invariant hands over the accumulators (at anything at the first point, else at what the point before left) and
    takes them back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [Dat.leavesExact_idle (dat V c) 8 t (idleAt_8_A t ((hcond0 t).mpr h0) (fun h => h1 ((hcond1 t).mp h))) (noFlush_8_A t ((hcond0 t).mpr h0) (fun h => h1 ((hcond1 t).mp h)))]
      rw [Dat.leavesExact_idle (dat V c) 9 t (idleAt_9_A t ((hcond0 t).mpr h0) (fun h => h1 ((hcond1 t).mp h))) (noFlush_9_A t ((hcond0 t).mpr h0) (fun h => h1 ((hcond1 t).mp h)))]
      rw [outsAt_A V c t h0 h1]
      unfold sout_A_0 sout_A_1; (try dsimp only)
      by_cases hz : t.val = 0
      ·
        rw [PhiS_castSucc V c t, PhiS_zero V c _ _ hz, PhiA_eq]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_A c (grid2.coords t) _ _ _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_A c (grid2.coords t) _ _ _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

  · by_cases h1 : t.val % 8 = 7
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8_C t (fun h => h0 ((hcond0 t).mp h)) ((hcond1 t).mpr h1)], after_8]
      rw [show (dat V c).leavesExact 9 t = owns (c : Thread nD τ) (ms_9 t) fullShare ((dat V c).after 9 t) from by
        unfold Dat.leavesExact; rw [liveAt_9_C t (fun h => h0 ((hcond0 t).mp h)) ((hcond1 t).mpr h1)], after_9]
      rw [outsAt_C V c t h0 h1]
      unfold out_C_8 out_C_9 sout_C_0 sout_C_1; (try dsimp only)
      by_cases hz : t.val = 0
      · exfalso; omega
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_C c (grid2.coords t) _ _ _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover_C_8 c _ _ _ _ _ _ _ _ _ _ _ _ _ _ _ _ _ _ _ _ _ _ _ _ _ _ _ _ _ _ _ _ _ _ _ _ _)
        · unfold owns; iexists _; isplitr
          swap; · iexact H9
          ipureintro; exact View.read_writes_of_cover _ _ _ _ _ (cover_C_9 c _ _ _ _ _ _ _ _ _ _ _ _ _ _ _ _ _ _ _ _ _ _ _ _ _ _ _ _ _ _ _ _ _ _ _ _ _)

    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [Dat.leavesExact_idle (dat V c) 8 t (idleAt_8_B t (fun h => h0 ((hcond0 t).mp h)) (fun h => h1 ((hcond1 t).mp h))) (noFlush_8_B t (fun h => h0 ((hcond0 t).mp h)) (fun h => h1 ((hcond1 t).mp h)))]
      rw [Dat.leavesExact_idle (dat V c) 9 t (idleAt_9_B t (fun h => h0 ((hcond0 t).mp h)) (fun h => h1 ((hcond1 t).mp h))) (noFlush_9_B t (fun h => h0 ((hcond0 t).mp h)) (fun h => h1 ((hcond1 t).mp h)))]
      rw [outsAt_B V c t h0 h1]
      unfold sout_B_0 sout_B_1; (try dsimp only)
      by_cases hz : t.val = 0
      · exfalso; omega
      ·
        rw [PhiS_castSucc V c t, PhiS_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun_B c (grid2.coords t) _ _ _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _ _ _ _ _ _ _ _)
            · iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry invariant back: the accumulators' contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

theorem hout (c : Dev nD) : (dat V c).Φ (Fin.last cfg2.N) ⊢ Pipeline.ΦA spec2 c :=
  Phi_out V c _ (by rw [Fin.val_last]; have : cfg2.N = 64 := N_2; omega)

end Cert.KernelIdeal.R2

end
-- ==== Proof.KI_Halves.lean ====
/-
  The three regional halves of program KernelIdeal handed to the run: each region's proof data at any entry contents, its body
  obligation and its invariant's two ends; the shares are full, nothing is owed and no wait is recorded, by definition.
-/
import proofs.«130870_j71201967833887_2_alg».proof.Proof.KI_Run
import proofs.«130870_j71201967833887_2_alg».proof.Proof.KI_R0
import proofs.«130870_j71201967833887_2_alg».proof.Proof.KI_R1
import proofs.«130870_j71201967833887_2_alg».proof.Proof.KI_R2

noncomputable section

namespace Cert.KernelIdeal.Halves

open Cert.KernelIdeal Cert.KernelIdeal.Gen Idealize.ShloMosaic Idealize.SL.Sem

variable {F : FTy → Type} [FloatOps F]

def h0 : Run.Half0 F where
  dat := fun V c => R0.dat V c
  A_eq := fun V c w => R0.A_eq V c w
  q_eq := fun V c w => by dsimp only [R0.dat]
  owed_eq := fun V c t => by dsimp only [R0.dat]
  recorded_eq := fun V c t => by dsimp only [R0.dat]
  body := fun V c => R0.body_obligation V c
  hin := fun V c => R0.hin V c
  hout := fun V c => R0.hout V c
def h1 : Run.Half1 F where
  dat := fun V c => R1.dat V c
  A_eq := fun V c w => R1.A_eq V c w
  q_eq := fun V c w => by dsimp only [R1.dat]
  owed_eq := fun V c t => by dsimp only [R1.dat]
  recorded_eq := fun V c t => by dsimp only [R1.dat]
  body := fun V c => R1.body_obligation V c
  hin := fun V c => R1.hin V c
  hout := fun V c => R1.hout V c
def h2 : Run.Half2 F where
  dat := fun V c => R2.dat V c
  A_eq := fun V c w => R2.A_eq V c w
  q_eq := fun V c w => by dsimp only [R2.dat]
  owed_eq := fun V c t => by dsimp only [R2.dat]
  recorded_eq := fun V c t => by dsimp only [R2.dat]
  body := fun V c => R2.body_obligation V c
  hin := fun V c => R2.hin V c
  hout := fun V c => R2.hout V c

end Cert.KernelIdeal.Halves

end
-- ==== Proof.RefRunA.lean ====
/-
  The reference program's run, first half of the stretches. The program's 313 host operations are cut into eleven consecutive
  stretches at the buffers later layers read. For each buffer a stretch computes that a later stretch or the caller reads, from
  ANY contents `W` that hold the stretch's inputs at their stages — an argument `xK`, an earlier stretch's buffer at its stage
  `ReadP.val_<buffer>` of the arguments — the fold of the stretch's operations over `W` holds that buffer at its own stage:
  the operations' results composed over the inputs are, one operation at a time, the stage's definition.
  Here: stretches 1–6 (both first-layer pre-activations; the two normalized and clipped first-layer outputs; the second layer's
  pre-activations and its two normalized and clipped outputs).
-/
import proofs.«130870_j71201967833887_2_alg».proof.Proof.RefRead
import proofs.«130870_j71201967833887_2_alg».proof.Proof.RefOps

-- one declaration at a time: each reading holds its stretch's composed term while it is checked
set_option Elab.async false

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- The fold over a concatenation is the fold over the second list from the fold over the first. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-! ### Operations 1–13 -/

set_option maxRecDepth 8192 in
set_option maxHeartbeats 4000000 in
theorem s1_main_v7 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F))
    (h_main_arg3 : W (Proc.devRef .tc main_arg3) = x3)
    (h_main_arg0 : W (Proc.devRef .tc main_arg0) = x0)
    (h_main_arg4 : W (Proc.devRef .tc main_arg4) = x4)
    : after (ops_1 (F := F)) W (Proc.devRef .tc main_v7) = ReadP.val_main_v7 (F := F) x0 x3 x4 := by
  simp (disch := decide) only [ops_1, after_cons, after_nil, nullary_result', unary_result', binary_result', ternary_result', nullary_result_ne', unary_result_ne', binary_result_ne', ternary_result_ne']
  simp only [h_main_arg3, h_main_arg0, h_main_arg4]
  rfl

set_option maxRecDepth 8192 in
set_option maxHeartbeats 4000000 in
theorem s1_main_v12 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F))
    (h_main_arg3 : W (Proc.devRef .tc main_arg3) = x3)
    (h_main_arg0 : W (Proc.devRef .tc main_arg0) = x0)
    (h_main_arg4 : W (Proc.devRef .tc main_arg4) = x4)
    : after (ops_1 (F := F)) W (Proc.devRef .tc main_v12) = ReadP.val_main_v12 (F := F) x0 x3 x4 := by
  simp (disch := decide) only [ops_1, after_cons, after_nil, nullary_result', unary_result', binary_result', ternary_result', nullary_result_ne', unary_result_ne', binary_result_ne', ternary_result_ne']
  simp only [h_main_arg3, h_main_arg0, h_main_arg4]
  rfl

/-! ### Operations 14–51 -/

set_option maxRecDepth 8192 in
set_option maxHeartbeats 4000000 in
theorem s2_main_v38 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x11 : (⟨S6144, .f32⟩ : BufTy).Contents (Elt F)) (x12 : (⟨S6144, .f32⟩ : BufTy).Contents (Elt F))
    (h_main_v7 : W (Proc.devRef .tc main_v7) = ReadP.val_main_v7 (F := F) x0 x3 x4)
    (h_main_arg11 : W (Proc.devRef .tc main_arg11) = x11)
    (h_main_arg12 : W (Proc.devRef .tc main_arg12) = x12)
    : after (ops_2 (F := F)) W (Proc.devRef .tc main_v38) = ReadP.val_main_v38 (F := F) x0 x3 x4 x11 x12 := by
  simp (disch := decide) only [ops_2, after_cons, after_nil, nullary_result', unary_result', binary_result', ternary_result', nullary_result_ne', unary_result_ne', binary_result_ne', ternary_result_ne']
  simp only [h_main_v7, h_main_arg11, h_main_arg12]
  rfl

/-! ### Operations 52–89 -/

set_option maxRecDepth 8192 in
set_option maxHeartbeats 4000000 in
theorem s3_main_v64 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x11 : (⟨S6144, .f32⟩ : BufTy).Contents (Elt F)) (x12 : (⟨S6144, .f32⟩ : BufTy).Contents (Elt F))
    (h_main_v12 : W (Proc.devRef .tc main_v12) = ReadP.val_main_v12 (F := F) x0 x3 x4)
    (h_main_arg11 : W (Proc.devRef .tc main_arg11) = x11)
    (h_main_arg12 : W (Proc.devRef .tc main_arg12) = x12)
    : after (ops_3 (F := F)) W (Proc.devRef .tc main_v64) = ReadP.val_main_v64 (F := F) x0 x3 x4 x11 x12 := by
  simp (disch := decide) only [ops_3, after_cons, after_nil, nullary_result', unary_result', binary_result', ternary_result', nullary_result_ne', unary_result_ne', binary_result_ne', ternary_result_ne']
  simp only [h_main_v12, h_main_arg11, h_main_arg12]
  rfl

/-! ### Operations 90–105 -/

set_option maxRecDepth 8192 in
set_option maxHeartbeats 4000000 in
theorem s4_main_v75 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F))
    (h_main_v38 : W (Proc.devRef .tc main_v38) = ReadP.val_main_v38 (F := F) x0 x3 x4 x11 x12)
    (h_main_arg5 : W (Proc.devRef .tc main_arg5) = x5)
    (h_main_arg6 : W (Proc.devRef .tc main_arg6) = x6)
    (h_main_v64 : W (Proc.devRef .tc main_v64) = ReadP.val_main_v64 (F := F) x0 x3 x4 x11 x12)
    : after (ops_4 (F := F)) W (Proc.devRef .tc main_v75) = ReadP.val_main_v75 (F := F) x0 x3 x4 x5 x6 x11 x12 := by
  simp (disch := decide) only [ops_4, after_cons, after_nil, nullary_result', unary_result', binary_result', ternary_result', nullary_result_ne', unary_result_ne', binary_result_ne', ternary_result_ne']
  simp only [h_main_v38, h_main_arg5, h_main_arg6, h_main_v64]
  rfl

set_option maxRecDepth 8192 in
set_option maxHeartbeats 4000000 in
theorem s4_main_v80 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F))
    (h_main_v38 : W (Proc.devRef .tc main_v38) = ReadP.val_main_v38 (F := F) x0 x3 x4 x11 x12)
    (h_main_arg5 : W (Proc.devRef .tc main_arg5) = x5)
    (h_main_arg6 : W (Proc.devRef .tc main_arg6) = x6)
    (h_main_v64 : W (Proc.devRef .tc main_v64) = ReadP.val_main_v64 (F := F) x0 x3 x4 x11 x12)
    : after (ops_4 (F := F)) W (Proc.devRef .tc main_v80) = ReadP.val_main_v80 (F := F) x0 x3 x4 x5 x6 x11 x12 := by
  simp (disch := decide) only [ops_4, after_cons, after_nil, nullary_result', unary_result', binary_result', ternary_result', nullary_result_ne', unary_result_ne', binary_result_ne', ternary_result_ne']
  simp only [h_main_v38, h_main_arg5, h_main_arg6, h_main_v64]
  rfl

/-! ### Operations 106–143 -/

set_option maxRecDepth 8192 in
set_option maxHeartbeats 4000000 in
theorem s5_main_v106 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F))
    (h_main_v75 : W (Proc.devRef .tc main_v75) = ReadP.val_main_v75 (F := F) x0 x3 x4 x5 x6 x11 x12)
    (h_main_arg13 : W (Proc.devRef .tc main_arg13) = x13)
    (h_main_arg14 : W (Proc.devRef .tc main_arg14) = x14)
    : after (ops_5 (F := F)) W (Proc.devRef .tc main_v106) = ReadP.val_main_v106 (F := F) x0 x3 x4 x5 x6 x11 x12 x13 x14 := by
  simp (disch := decide) only [ops_5, after_cons, after_nil, nullary_result', unary_result', binary_result', ternary_result', nullary_result_ne', unary_result_ne', binary_result_ne', ternary_result_ne']
  simp only [h_main_v75, h_main_arg13, h_main_arg14]
  rfl

/-! ### Operations 144–181 -/

set_option maxRecDepth 8192 in
set_option maxHeartbeats 4000000 in
theorem s6_main_v132 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F))
    (h_main_v80 : W (Proc.devRef .tc main_v80) = ReadP.val_main_v80 (F := F) x0 x3 x4 x5 x6 x11 x12)
    (h_main_arg13 : W (Proc.devRef .tc main_arg13) = x13)
    (h_main_arg14 : W (Proc.devRef .tc main_arg14) = x14)
    : after (ops_6 (F := F)) W (Proc.devRef .tc main_v132) = ReadP.val_main_v132 (F := F) x0 x3 x4 x5 x6 x11 x12 x13 x14 := by
  simp (disch := decide) only [ops_6, after_cons, after_nil, nullary_result', unary_result', binary_result', ternary_result', nullary_result_ne', unary_result_ne', binary_result_ne', ternary_result_ne']
  simp only [h_main_v80, h_main_arg13, h_main_arg14]
  rfl

end Cert.ReferenceIdeal.RefValue

end
-- ==== Proof.RefRunB.lean ====
/-
  The reference program's run, second half of the stretches (see the first half for the statement's shape): stretches 7–11 —
  the third layer's pre-activations, its two outputs after the random masks, normalization and clipping, the classifier's
  affine map and the log-softmax.
-/
import proofs.«130870_j71201967833887_2_alg».proof.Proof.RefRead
import proofs.«130870_j71201967833887_2_alg».proof.Proof.RefOps

-- one declaration at a time: each reading holds its stretch's composed term while it is checked
set_option Elab.async false

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ### Operations 182–197 -/

set_option maxRecDepth 8192 in
set_option maxHeartbeats 4000000 in
theorem s7_main_v143 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F))
    (h_main_v106 : W (Proc.devRef .tc main_v106) = ReadP.val_main_v106 (F := F) x0 x3 x4 x5 x6 x11 x12 x13 x14)
    (h_main_arg7 : W (Proc.devRef .tc main_arg7) = x7)
    (h_main_arg8 : W (Proc.devRef .tc main_arg8) = x8)
    (h_main_v132 : W (Proc.devRef .tc main_v132) = ReadP.val_main_v132 (F := F) x0 x3 x4 x5 x6 x11 x12 x13 x14)
    : after (ops_7 (F := F)) W (Proc.devRef .tc main_v143) = ReadP.val_main_v143 (F := F) x0 x3 x4 x5 x6 x7 x8 x11 x12 x13 x14 := by
  simp (disch := decide) only [ops_7, after_cons, after_nil, nullary_result', unary_result', binary_result', ternary_result', nullary_result_ne', unary_result_ne', binary_result_ne', ternary_result_ne']
  simp only [h_main_v106, h_main_arg7, h_main_arg8, h_main_v132]
  rfl

set_option maxRecDepth 8192 in
set_option maxHeartbeats 4000000 in
theorem s7_main_v148 (W : Valuation τ sig (Elt F)) (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F))
    (h_main_v106 : W (Proc.devRef .tc main_v106) = ReadP.val_main_v106 (F := F) x0 x3 x4 x5 x6 x11 x12 x13 x14)
    (h_main_arg7 : W (Proc.devRef .tc main_arg7) = x7)
    (h_main_arg8 : W (Proc.devRef .tc main_arg8) = x8)
    (h_main_v132 : W (Proc.devRef .tc main_v132) = ReadP.val_main_v132 (F := F) x0 x3 x4 x5 x6 x11 x12 x13 x14)
    : after (ops_7 (F := F)) W (Proc.devRef .tc main_v148) = ReadP.val_main_v148 (F := F) x0 x3 x4 x5 x6 x7 x8 x11 x12 x13 x14 := by
  simp (disch := decide) only [ops_7, after_cons, after_nil, nullary_result', unary_result', binary_result', ternary_result', nullary_result_ne', unary_result_ne', binary_result_ne', ternary_result_ne']
  simp only [h_main_v106, h_main_arg7, h_main_arg8, h_main_v132]
  rfl

/-! ### Operations 198–245 -/

set_option maxRecDepth 8192 in
set_option maxHeartbeats 4000000 in
theorem s8_main_v179 (W : Valuation τ sig (Elt F)) (x0 : (⟨S512x784, .f32⟩ : BufTy).Contents (Elt F)) (x1 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F))
    (h_main_arg1 : W (Proc.devRef .tc main_arg1) = x1)
    (h_main_v143 : W (Proc.devRef .tc main_v143) = ReadP.val_main_v143 (F := F) x0 x3 x4 x5 x6 x7 x8 x11 x12 x13 x14)
    (h_main_arg15 : W (Proc.devRef .tc main_arg15) = x15)
    (h_main_arg16 : W (Proc.devRef .tc main_arg16) = x16)
    : after (ops_8 (F := F)) W (Proc.devRef .tc main_v179) = ReadP.val_main_v179 (F := F) x0 x1 x3 x4 x5 x6 x7 x8 x11 x12 x13 x14 x15 x16 := by
  simp (disch := decide) only [ops_8, after_cons, after_nil, nullary_result', unary_result', binary_result', ternary_result', nullary_result_ne', unary_result_ne', binary_result_ne', ternary_result_ne']
  simp only [h_main_arg1, h_main_v143, h_main_arg15, h_main_arg16]
  rfl

/-! ### Operations 246–293 -/

set_option maxRecDepth 8192 in
set_option maxHeartbeats 4000000 in
theorem s9_main_v210 (W : Valuation τ sig (Elt F)) (x0 : (⟨S512x784, .f32⟩ : BufTy).Contents (Elt F)) (x2 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F))
    (h_main_arg2 : W (Proc.devRef .tc main_arg2) = x2)
    (h_main_v148 : W (Proc.devRef .tc main_v148) = ReadP.val_main_v148 (F := F) x0 x3 x4 x5 x6 x7 x8 x11 x12 x13 x14)
    (h_main_arg15 : W (Proc.devRef .tc main_arg15) = x15)
    (h_main_arg16 : W (Proc.devRef .tc main_arg16) = x16)
    : after (ops_9 (F := F)) W (Proc.devRef .tc main_v210) = ReadP.val_main_v210 (F := F) x0 x2 x3 x4 x5 x6 x7 x8 x11 x12 x13 x14 x15 x16 := by
  simp (disch := decide) only [ops_9, after_cons, after_nil, nullary_result', unary_result', binary_result', ternary_result', nullary_result_ne', unary_result_ne', binary_result_ne', ternary_result_ne']
  simp only [h_main_arg2, h_main_v148, h_main_arg15, h_main_arg16]
  rfl

/-! ### Operations 294–298 -/

set_option maxRecDepth 8192 in
set_option maxHeartbeats 4000000 in
theorem s10_main_v215 (W : Valuation τ sig (Elt F)) (x0 : (⟨S512x784, .f32⟩ : BufTy).Contents (Elt F)) (x1 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x9 : (⟨S10x6144, .f32⟩ : BufTy).Contents (Elt F)) (x10 : (⟨S10, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F))
    (h_main_arg9 : W (Proc.devRef .tc main_arg9) = x9)
    (h_main_v179 : W (Proc.devRef .tc main_v179) = ReadP.val_main_v179 (F := F) x0 x1 x3 x4 x5 x6 x7 x8 x11 x12 x13 x14 x15 x16)
    (h_main_arg10 : W (Proc.devRef .tc main_arg10) = x10)
    : after (ops_10 (F := F)) W (Proc.devRef .tc main_v215) = ReadP.val_main_v215 (F := F) x0 x1 x3 x4 x5 x6 x7 x8 x9 x10 x11 x12 x13 x14 x15 x16 := by
  simp (disch := decide) only [ops_10, after_cons, after_nil, nullary_result', unary_result', binary_result', ternary_result', nullary_result_ne', unary_result_ne', binary_result_ne', ternary_result_ne']
  simp only [h_main_arg9, h_main_v179, h_main_arg10]
  rfl

/-! ### Operations 299–313 -/

set_option maxRecDepth 8192 in
set_option maxHeartbeats 4000000 in
theorem s11_main_v216 (W : Valuation τ sig (Elt F)) (x0 : (⟨S512x784, .f32⟩ : BufTy).Contents (Elt F)) (x1 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x9 : (⟨S10x6144, .f32⟩ : BufTy).Contents (Elt F)) (x10 : (⟨S10, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F))
    (h_main_v215 : W (Proc.devRef .tc main_v215) = ReadP.val_main_v215 (F := F) x0 x1 x3 x4 x5 x6 x7 x8 x9 x10 x11 x12 x13 x14 x15 x16)
    : after (ops_11 (F := F)) W (Proc.devRef .tc main_v216) = ReadP.val_main_v216 (F := F) x0 x1 x3 x4 x5 x6 x7 x8 x9 x10 x11 x12 x13 x14 x15 x16 := by
  simp (disch := decide) only [ops_11, after_cons, after_nil, nullary_result', unary_result', binary_result', ternary_result', nullary_result_ne', unary_result_ne', binary_result_ne', ternary_result_ne']
  simp only [h_main_v215]
  rfl

end Cert.ReferenceIdeal.RefValue

end
-- ==== Proof.RefRun.lean ====
/-
  The reference program's run, read back through its stages. The program is a straight line of 313 host operations; what a
  buffer holds afterwards is the fold of the operations' results over the launch contents, and the fold over the whole line is
  the fold stretch after stretch. A stretch writes only its own buffers, so every other buffer passes through it as it was;
  each buffer a later stretch or the caller reads is, after its own stretch, at its stage `ReadP.val_<buffer>` of the arguments'
  contents (the two sibling modules), given that the stretch's inputs were. Chained from the launch contents: each of the eight
  returned buffers ends at its stage at the arguments' launch contents, and each of the seventeen argument buffers, which no
  operation writes, ends unchanged.
-/
import proofs.«130870_j71201967833887_2_alg».proof.Defs
import proofs.«130870_j71201967833887_2_alg».proof.Proof.Gen.Pre_finite_inputs
import proofs.«130870_j71201967833887_2_alg».proof.Proof.RefRunA
import proofs.«130870_j71201967833887_2_alg».proof.Proof.RefRunB

-- one declaration at a time: each reading holds its stretch's composed term while it is checked
set_option Elab.async false

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## What each stretch writes, and that it leaves every other buffer as it was -/

/-- The references operations 1–13 write. -/
abbrev ops_1_W : List (Ref sig .tc) := [main_v0, main_v1, main_v2, main_v3, main_v4, main_v5, main_v6, main_v7, main_v8, main_v9, main_v10, main_v11, main_v12]
set_option maxRecDepth 8192 in
set_option maxHeartbeats 4000000 in
theorem ops_1_writes : (ops_1 : List (HloOp τ sig (Elt F))).Forall fun op => op.writes ⊆ (ops_1_W.map (Proc.devRef (τ := τ) .tc)).toFinset := by
  simp only [ops_1, List.Forall, nullary_writes, unary_writes, binary_writes, ternary_writes, Finset.singleton_subset_iff, List.mem_toFinset]
  refine ⟨?_, ?_, ?_, ?_, ?_, ?_, ?_, ?_, ?_, ?_, ?_, ?_, ?_⟩ <;> exact List.mem_map_of_mem (by decide)
theorem keep_1 (W : Valuation τ sig (Elt F)) (r : Ref sig .tc) (h : r ∉ ops_1_W) :
    after (ops_1 (F := F)) W (Proc.devRef .tc r) = W (Proc.devRef .tc r) :=
  after_of_writes_sub ops_1 W ops_1_writes h

/-- The references operations 14–51 write. -/
abbrev ops_2_W : List (Ref sig .tc) := [main_cst, main_v13, main_cst_0, main_v14, main_v15, main_v16, main_v17, main_v18, main_v19, main_cst_1, main_v20, main_cst_2, main_v21, main_v22, main_v23, main_v24, main_v25, main_v26, main_v27, main_v28, main_cst_3, main_v29, main_v30, main_v31, main_v32, main_v33, main_v34, main_v35, main_v36, main_v37, main_cst_4, main_cst_5, main_call0_v0, main_call0_v1, main_call0_v2, main_call0_v3, main_call0_v4, main_v38]
set_option maxRecDepth 8192 in
set_option maxHeartbeats 4000000 in
theorem ops_2_writes : (ops_2 : List (HloOp τ sig (Elt F))).Forall fun op => op.writes ⊆ (ops_2_W.map (Proc.devRef (τ := τ) .tc)).toFinset := by
  simp only [ops_2, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_2 (W : Valuation τ sig (Elt F)) (r : Ref sig .tc) (h : r ∉ ops_2_W) :
    after (ops_2 (F := F)) W (Proc.devRef .tc r) = W (Proc.devRef .tc r) :=
  after_of_writes_sub ops_2 W ops_2_writes h

/-- The references operations 52–89 write. -/
abbrev ops_3_W : List (Ref sig .tc) := [main_cst_6, main_v39, main_cst_7, main_v40, main_v41, main_v42, main_v43, main_v44, main_v45, main_cst_8, main_v46, main_cst_9, main_v47, main_v48, main_v49, main_v50, main_v51, main_v52, main_v53, main_v54, main_cst_10, main_v55, main_v56, main_v57, main_v58, main_v59, main_v60, main_v61, main_v62, main_v63, main_cst_11, main_cst_12, main_call1_v0, main_call1_v1, main_call1_v2, main_call1_v3, main_call1_v4, main_v64]
set_option maxRecDepth 8192 in
set_option maxHeartbeats 4000000 in
theorem ops_3_writes : (ops_3 : List (HloOp τ sig (Elt F))).Forall fun op => op.writes ⊆ (ops_3_W.map (Proc.devRef (τ := τ) .tc)).toFinset := by
  simp only [ops_3, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_3 (W : Valuation τ sig (Elt F)) (r : Ref sig .tc) (h : r ∉ ops_3_W) :
    after (ops_3 (F := F)) W (Proc.devRef .tc r) = W (Proc.devRef .tc r) :=
  after_of_writes_sub ops_3 W ops_3_writes h

/-- The references operations 90–105 write. -/
abbrev ops_4_W : List (Ref sig .tc) := [main_v65, main_v66, main_v67, main_v68, main_v69, main_v70, main_v71, main_v72, main_v73, main_v74, main_v75, main_v76, main_v77, main_v78, main_v79, main_v80]
set_option maxRecDepth 8192 in
set_option maxHeartbeats 4000000 in
theorem ops_4_writes : (ops_4 : List (HloOp τ sig (Elt F))).Forall fun op => op.writes ⊆ (ops_4_W.map (Proc.devRef (τ := τ) .tc)).toFinset := by
  simp only [ops_4, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_⟩ <;> exact List.mem_map_of_mem (by decide)
theorem keep_4 (W : Valuation τ sig (Elt F)) (r : Ref sig .tc) (h : r ∉ ops_4_W) :
    after (ops_4 (F := F)) W (Proc.devRef .tc r) = W (Proc.devRef .tc r) :=
  after_of_writes_sub ops_4 W ops_4_writes h

/-- The references operations 106–143 write. -/
abbrev ops_5_W : List (Ref sig .tc) := [main_cst_13, main_v81, main_cst_14, main_v82, main_v83, main_v84, main_v85, main_v86, main_v87, main_cst_15, main_v88, main_cst_16, main_v89, main_v90, main_v91, main_v92, main_v93, main_v94, main_v95, main_v96, main_cst_17, main_v97, main_v98, main_v99, main_v100, main_v101, main_v102, main_v103, main_v104, main_v105, main_cst_18, main_cst_19, main_call2_v0, main_call2_v1, main_call2_v2, main_call2_v3, main_call2_v4, main_v106]
set_option maxRecDepth 8192 in
set_option maxHeartbeats 4000000 in
theorem ops_5_writes : (ops_5 : List (HloOp τ sig (Elt F))).Forall fun op => op.writes ⊆ (ops_5_W.map (Proc.devRef (τ := τ) .tc)).toFinset := by
  simp only [ops_5, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_5 (W : Valuation τ sig (Elt F)) (r : Ref sig .tc) (h : r ∉ ops_5_W) :
    after (ops_5 (F := F)) W (Proc.devRef .tc r) = W (Proc.devRef .tc r) :=
  after_of_writes_sub ops_5 W ops_5_writes h

/-- The references operations 144–181 write. -/
abbrev ops_6_W : List (Ref sig .tc) := [main_cst_20, main_v107, main_cst_21, main_v108, main_v109, main_v110, main_v111, main_v112, main_v113, main_cst_22, main_v114, main_cst_23, main_v115, main_v116, main_v117, main_v118, main_v119, main_v120, main_v121, main_v122, main_cst_24, main_v123, main_v124, main_v125, main_v126, main_v127, main_v128, main_v129, main_v130, main_v131, main_cst_25, main_cst_26, main_call3_v0, main_call3_v1, main_call3_v2, main_call3_v3, main_call3_v4, main_v132]
set_option maxRecDepth 8192 in
set_option maxHeartbeats 4000000 in
theorem ops_6_writes : (ops_6 : List (HloOp τ sig (Elt F))).Forall fun op => op.writes ⊆ (ops_6_W.map (Proc.devRef (τ := τ) .tc)).toFinset := by
  simp only [ops_6, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_6 (W : Valuation τ sig (Elt F)) (r : Ref sig .tc) (h : r ∉ ops_6_W) :
    after (ops_6 (F := F)) W (Proc.devRef .tc r) = W (Proc.devRef .tc r) :=
  after_of_writes_sub ops_6 W ops_6_writes h

/-- The references operations 182–197 write. -/
abbrev ops_7_W : List (Ref sig .tc) := [main_v133, main_v134, main_v135, main_v136, main_v137, main_v138, main_v139, main_v140, main_v141, main_v142, main_v143, main_v144, main_v145, main_v146, main_v147, main_v148]
set_option maxRecDepth 8192 in
set_option maxHeartbeats 4000000 in
theorem ops_7_writes : (ops_7 : List (HloOp τ sig (Elt F))).Forall fun op => op.writes ⊆ (ops_7_W.map (Proc.devRef (τ := τ) .tc)).toFinset := by
  simp only [ops_7, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_⟩ <;> exact List.mem_map_of_mem (by decide)
theorem keep_7 (W : Valuation τ sig (Elt F)) (r : Ref sig .tc) (h : r ∉ ops_7_W) :
    after (ops_7 (F := F)) W (Proc.devRef .tc r) = W (Proc.devRef .tc r) :=
  after_of_writes_sub ops_7 W ops_7_writes h

/-- The references operations 198–245 write. -/
abbrev ops_8_W : List (Ref sig .tc) := [main_cst_27, main_v149, main_v150, main_cst_28, main_v151, main_v152, main_cst_29, main_call4_v0, main_call4_v1, main_v153, main_cst_30, main_v154, main_cst_31, main_v155, main_v156, main_v157, main_v158, main_v159, main_v160, main_cst_32, main_v161, main_cst_33, main_v162, main_v163, main_v164, main_v165, main_v166, main_v167, main_v168, main_v169, main_cst_34, main_v170, main_v171, main_v172, main_v173, main_v174, main_v175, main_v176, main_v177, main_v178, main_cst_35, main_cst_36, main_call5_v0, main_call5_v1, main_call5_v2, main_call5_v3, main_call5_v4, main_v179]
set_option maxRecDepth 8192 in
set_option maxHeartbeats 4000000 in
theorem ops_8_writes : (ops_8 : List (HloOp τ sig (Elt F))).Forall fun op => op.writes ⊆ (ops_8_W.map (Proc.devRef (τ := τ) .tc)).toFinset := by
  simp only [ops_8, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_8 (W : Valuation τ sig (Elt F)) (r : Ref sig .tc) (h : r ∉ ops_8_W) :
    after (ops_8 (F := F)) W (Proc.devRef .tc r) = W (Proc.devRef .tc r) :=
  after_of_writes_sub ops_8 W ops_8_writes h

/-- The references operations 246–293 write. -/
abbrev ops_9_W : List (Ref sig .tc) := [main_cst_37, main_v180, main_v181, main_cst_38, main_v182, main_v183, main_cst_39, main_call6_v0, main_call6_v1, main_v184, main_cst_40, main_v185, main_cst_41, main_v186, main_v187, main_v188, main_v189, main_v190, main_v191, main_cst_42, main_v192, main_cst_43, main_v193, main_v194, main_v195, main_v196, main_v197, main_v198, main_v199, main_v200, main_cst_44, main_v201, main_v202, main_v203, main_v204, main_v205, main_v206, main_v207, main_v208, main_v209, main_cst_45, main_cst_46, main_call7_v0, main_call7_v1, main_call7_v2, main_call7_v3, main_call7_v4, main_v210]
set_option maxRecDepth 8192 in
set_option maxHeartbeats 4000000 in
theorem ops_9_writes : (ops_9 : List (HloOp τ sig (Elt F))).Forall fun op => op.writes ⊆ (ops_9_W.map (Proc.devRef (τ := τ) .tc)).toFinset := by
  simp only [ops_9, List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem keep_9 (W : Valuation τ sig (Elt F)) (r : Ref sig .tc) (h : r ∉ ops_9_W) :
    after (ops_9 (F := F)) W (Proc.devRef .tc r) = W (Proc.devRef .tc r) :=
  after_of_writes_sub ops_9 W ops_9_writes h

/-- The references operations 294–298 write. -/
abbrev ops_10_W : List (Ref sig .tc) := [main_v211, main_v212, main_v213, main_v214, main_v215]
set_option maxRecDepth 8192 in
set_option maxHeartbeats 4000000 in
theorem ops_10_writes : (ops_10 : List (HloOp τ sig (Elt F))).Forall fun op => op.writes ⊆ (ops_10_W.map (Proc.devRef (τ := τ) .tc)).toFinset := by
  simp only [ops_10, List.Forall, nullary_writes, unary_writes, binary_writes, ternary_writes, Finset.singleton_subset_iff, List.mem_toFinset]
  refine ⟨?_, ?_, ?_, ?_, ?_⟩ <;> exact List.mem_map_of_mem (by decide)
theorem keep_10 (W : Valuation τ sig (Elt F)) (r : Ref sig .tc) (h : r ∉ ops_10_W) :
    after (ops_10 (F := F)) W (Proc.devRef .tc r) = W (Proc.devRef .tc r) :=
  after_of_writes_sub ops_10 W ops_10_writes h

/-- The references operations 299–313 write. -/
abbrev ops_11_W : List (Ref sig .tc) := [main_call8_cst, main_call8_v0, main_call8_cst_0, main_call8_v1, main_call8_v2, main_call8_v3, main_call8_v4, main_call8_v5, main_call8_v6, main_call8_cst_1, main_call8_v7, main_call8_v8, main_call8_v9, main_call8_v10, main_v216]
set_option maxRecDepth 8192 in
set_option maxHeartbeats 4000000 in
theorem ops_11_writes : (ops_11 : List (HloOp τ sig (Elt F))).Forall fun op => op.writes ⊆ (ops_11_W.map (Proc.devRef (τ := τ) .tc)).toFinset := by
  simp only [ops_11, List.Forall, nullary_writes, unary_writes, binary_writes, ternary_writes, Finset.singleton_subset_iff, List.mem_toFinset]
  refine ⟨?_, ?_, ?_, ?_, ?_, ?_, ?_, ?_, ?_, ?_, ?_, ?_, ?_, ?_, ?_⟩ <;> exact List.mem_map_of_mem (by decide)
theorem keep_11 (W : Valuation τ sig (Elt F)) (r : Ref sig .tc) (h : r ∉ ops_11_W) :
    after (ops_11 (F := F)) W (Proc.devRef .tc r) = W (Proc.devRef .tc r) :=
  after_of_writes_sub ops_11 W ops_11_writes h

/-! ## The buffers' contents stretch after stretch -/

/-- The contents after the first `k` stretches, from contents `V`. -/
abbrev V1 (V : Valuation τ sig (Elt F)) : Valuation τ sig (Elt F) := after (ops_1 (F := F)) V
abbrev V2 (V : Valuation τ sig (Elt F)) : Valuation τ sig (Elt F) := after (ops_2 (F := F)) (V1 V)
abbrev V3 (V : Valuation τ sig (Elt F)) : Valuation τ sig (Elt F) := after (ops_3 (F := F)) (V2 V)
abbrev V4 (V : Valuation τ sig (Elt F)) : Valuation τ sig (Elt F) := after (ops_4 (F := F)) (V3 V)
abbrev V5 (V : Valuation τ sig (Elt F)) : Valuation τ sig (Elt F) := after (ops_5 (F := F)) (V4 V)
abbrev V6 (V : Valuation τ sig (Elt F)) : Valuation τ sig (Elt F) := after (ops_6 (F := F)) (V5 V)
abbrev V7 (V : Valuation τ sig (Elt F)) : Valuation τ sig (Elt F) := after (ops_7 (F := F)) (V6 V)
abbrev V8 (V : Valuation τ sig (Elt F)) : Valuation τ sig (Elt F) := after (ops_8 (F := F)) (V7 V)
abbrev V9 (V : Valuation τ sig (Elt F)) : Valuation τ sig (Elt F) := after (ops_9 (F := F)) (V8 V)
abbrev V10 (V : Valuation τ sig (Elt F)) : Valuation τ sig (Elt F) := after (ops_10 (F := F)) (V9 V)
abbrev V11 (V : Valuation τ sig (Elt F)) : Valuation τ sig (Elt F) := after (ops_11 (F := F)) (V10 V)

/-- The fold over the whole line is the fold stretch after stretch. -/
theorem after_ops (V : Valuation τ sig (Elt F)) : after (ops (F := F)) V = V11 V := by
  simp only [ops, after_append]

/-! Each tracked buffer after each stretch: an argument as launched, a computed buffer at its stage. -/

theorem f1_main_arg0 (V : Valuation τ sig (Elt F)) : V1 V (Proc.devRef .tc main_arg0) = V (Proc.devRef .tc main_arg0) :=
  (keep_1 V main_arg0 (by decide)).trans rfl
theorem f1_main_arg1 (V : Valuation τ sig (Elt F)) : V1 V (Proc.devRef .tc main_arg1) = V (Proc.devRef .tc main_arg1) :=
  (keep_1 V main_arg1 (by decide)).trans rfl
theorem f1_main_arg2 (V : Valuation τ sig (Elt F)) : V1 V (Proc.devRef .tc main_arg2) = V (Proc.devRef .tc main_arg2) :=
  (keep_1 V main_arg2 (by decide)).trans rfl
theorem f1_main_arg3 (V : Valuation τ sig (Elt F)) : V1 V (Proc.devRef .tc main_arg3) = V (Proc.devRef .tc main_arg3) :=
  (keep_1 V main_arg3 (by decide)).trans rfl
theorem f1_main_arg4 (V : Valuation τ sig (Elt F)) : V1 V (Proc.devRef .tc main_arg4) = V (Proc.devRef .tc main_arg4) :=
  (keep_1 V main_arg4 (by decide)).trans rfl
theorem f1_main_arg5 (V : Valuation τ sig (Elt F)) : V1 V (Proc.devRef .tc main_arg5) = V (Proc.devRef .tc main_arg5) :=
  (keep_1 V main_arg5 (by decide)).trans rfl
theorem f1_main_arg6 (V : Valuation τ sig (Elt F)) : V1 V (Proc.devRef .tc main_arg6) = V (Proc.devRef .tc main_arg6) :=
  (keep_1 V main_arg6 (by decide)).trans rfl
theorem f1_main_arg7 (V : Valuation τ sig (Elt F)) : V1 V (Proc.devRef .tc main_arg7) = V (Proc.devRef .tc main_arg7) :=
  (keep_1 V main_arg7 (by decide)).trans rfl
theorem f1_main_arg8 (V : Valuation τ sig (Elt F)) : V1 V (Proc.devRef .tc main_arg8) = V (Proc.devRef .tc main_arg8) :=
  (keep_1 V main_arg8 (by decide)).trans rfl
theorem f1_main_arg9 (V : Valuation τ sig (Elt F)) : V1 V (Proc.devRef .tc main_arg9) = V (Proc.devRef .tc main_arg9) :=
  (keep_1 V main_arg9 (by decide)).trans rfl
theorem f1_main_arg10 (V : Valuation τ sig (Elt F)) : V1 V (Proc.devRef .tc main_arg10) = V (Proc.devRef .tc main_arg10) :=
  (keep_1 V main_arg10 (by decide)).trans rfl
theorem f1_main_arg11 (V : Valuation τ sig (Elt F)) : V1 V (Proc.devRef .tc main_arg11) = V (Proc.devRef .tc main_arg11) :=
  (keep_1 V main_arg11 (by decide)).trans rfl
theorem f1_main_arg12 (V : Valuation τ sig (Elt F)) : V1 V (Proc.devRef .tc main_arg12) = V (Proc.devRef .tc main_arg12) :=
  (keep_1 V main_arg12 (by decide)).trans rfl
theorem f1_main_arg13 (V : Valuation τ sig (Elt F)) : V1 V (Proc.devRef .tc main_arg13) = V (Proc.devRef .tc main_arg13) :=
  (keep_1 V main_arg13 (by decide)).trans rfl
theorem f1_main_arg14 (V : Valuation τ sig (Elt F)) : V1 V (Proc.devRef .tc main_arg14) = V (Proc.devRef .tc main_arg14) :=
  (keep_1 V main_arg14 (by decide)).trans rfl
theorem f1_main_arg15 (V : Valuation τ sig (Elt F)) : V1 V (Proc.devRef .tc main_arg15) = V (Proc.devRef .tc main_arg15) :=
  (keep_1 V main_arg15 (by decide)).trans rfl
theorem f1_main_arg16 (V : Valuation τ sig (Elt F)) : V1 V (Proc.devRef .tc main_arg16) = V (Proc.devRef .tc main_arg16) :=
  (keep_1 V main_arg16 (by decide)).trans rfl
theorem f1_main_v7 (V : Valuation τ sig (Elt F)) : V1 V (Proc.devRef .tc main_v7) = ReadP.val_main_v7 (F := F) (V (Proc.devRef .tc main_arg0)) (V (Proc.devRef .tc main_arg3)) (V (Proc.devRef .tc main_arg4)) :=
  s1_main_v7 V (V (Proc.devRef .tc main_arg0)) (V (Proc.devRef .tc main_arg3)) (V (Proc.devRef .tc main_arg4)) rfl rfl rfl
theorem f1_main_v12 (V : Valuation τ sig (Elt F)) : V1 V (Proc.devRef .tc main_v12) = ReadP.val_main_v12 (F := F) (V (Proc.devRef .tc main_arg0)) (V (Proc.devRef .tc main_arg3)) (V (Proc.devRef .tc main_arg4)) :=
  s1_main_v12 V (V (Proc.devRef .tc main_arg0)) (V (Proc.devRef .tc main_arg3)) (V (Proc.devRef .tc main_arg4)) rfl rfl rfl

theorem f2_main_arg0 (V : Valuation τ sig (Elt F)) : V2 V (Proc.devRef .tc main_arg0) = V (Proc.devRef .tc main_arg0) :=
  (keep_2 (V1 V) main_arg0 (by decide)).trans (f1_main_arg0 V)
theorem f2_main_arg1 (V : Valuation τ sig (Elt F)) : V2 V (Proc.devRef .tc main_arg1) = V (Proc.devRef .tc main_arg1) :=
  (keep_2 (V1 V) main_arg1 (by decide)).trans (f1_main_arg1 V)
theorem f2_main_arg2 (V : Valuation τ sig (Elt F)) : V2 V (Proc.devRef .tc main_arg2) = V (Proc.devRef .tc main_arg2) :=
  (keep_2 (V1 V) main_arg2 (by decide)).trans (f1_main_arg2 V)
theorem f2_main_arg3 (V : Valuation τ sig (Elt F)) : V2 V (Proc.devRef .tc main_arg3) = V (Proc.devRef .tc main_arg3) :=
  (keep_2 (V1 V) main_arg3 (by decide)).trans (f1_main_arg3 V)
theorem f2_main_arg4 (V : Valuation τ sig (Elt F)) : V2 V (Proc.devRef .tc main_arg4) = V (Proc.devRef .tc main_arg4) :=
  (keep_2 (V1 V) main_arg4 (by decide)).trans (f1_main_arg4 V)
theorem f2_main_arg5 (V : Valuation τ sig (Elt F)) : V2 V (Proc.devRef .tc main_arg5) = V (Proc.devRef .tc main_arg5) :=
  (keep_2 (V1 V) main_arg5 (by decide)).trans (f1_main_arg5 V)
theorem f2_main_arg6 (V : Valuation τ sig (Elt F)) : V2 V (Proc.devRef .tc main_arg6) = V (Proc.devRef .tc main_arg6) :=
  (keep_2 (V1 V) main_arg6 (by decide)).trans (f1_main_arg6 V)
theorem f2_main_arg7 (V : Valuation τ sig (Elt F)) : V2 V (Proc.devRef .tc main_arg7) = V (Proc.devRef .tc main_arg7) :=
  (keep_2 (V1 V) main_arg7 (by decide)).trans (f1_main_arg7 V)
theorem f2_main_arg8 (V : Valuation τ sig (Elt F)) : V2 V (Proc.devRef .tc main_arg8) = V (Proc.devRef .tc main_arg8) :=
  (keep_2 (V1 V) main_arg8 (by decide)).trans (f1_main_arg8 V)
theorem f2_main_arg9 (V : Valuation τ sig (Elt F)) : V2 V (Proc.devRef .tc main_arg9) = V (Proc.devRef .tc main_arg9) :=
  (keep_2 (V1 V) main_arg9 (by decide)).trans (f1_main_arg9 V)
theorem f2_main_arg10 (V : Valuation τ sig (Elt F)) : V2 V (Proc.devRef .tc main_arg10) = V (Proc.devRef .tc main_arg10) :=
  (keep_2 (V1 V) main_arg10 (by decide)).trans (f1_main_arg10 V)
theorem f2_main_arg11 (V : Valuation τ sig (Elt F)) : V2 V (Proc.devRef .tc main_arg11) = V (Proc.devRef .tc main_arg11) :=
  (keep_2 (V1 V) main_arg11 (by decide)).trans (f1_main_arg11 V)
theorem f2_main_arg12 (V : Valuation τ sig (Elt F)) : V2 V (Proc.devRef .tc main_arg12) = V (Proc.devRef .tc main_arg12) :=
  (keep_2 (V1 V) main_arg12 (by decide)).trans (f1_main_arg12 V)
theorem f2_main_arg13 (V : Valuation τ sig (Elt F)) : V2 V (Proc.devRef .tc main_arg13) = V (Proc.devRef .tc main_arg13) :=
  (keep_2 (V1 V) main_arg13 (by decide)).trans (f1_main_arg13 V)
theorem f2_main_arg14 (V : Valuation τ sig (Elt F)) : V2 V (Proc.devRef .tc main_arg14) = V (Proc.devRef .tc main_arg14) :=
  (keep_2 (V1 V) main_arg14 (by decide)).trans (f1_main_arg14 V)
theorem f2_main_arg15 (V : Valuation τ sig (Elt F)) : V2 V (Proc.devRef .tc main_arg15) = V (Proc.devRef .tc main_arg15) :=
  (keep_2 (V1 V) main_arg15 (by decide)).trans (f1_main_arg15 V)
theorem f2_main_arg16 (V : Valuation τ sig (Elt F)) : V2 V (Proc.devRef .tc main_arg16) = V (Proc.devRef .tc main_arg16) :=
  (keep_2 (V1 V) main_arg16 (by decide)).trans (f1_main_arg16 V)
theorem f2_main_v12 (V : Valuation τ sig (Elt F)) : V2 V (Proc.devRef .tc main_v12) = ReadP.val_main_v12 (F := F) (V (Proc.devRef .tc main_arg0)) (V (Proc.devRef .tc main_arg3)) (V (Proc.devRef .tc main_arg4)) :=
  (keep_2 (V1 V) main_v12 (by decide)).trans (f1_main_v12 V)
theorem f2_main_v38 (V : Valuation τ sig (Elt F)) : V2 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  s2_main_v38 (V1 V) (V (Proc.devRef .tc main_arg0)) (V (Proc.devRef .tc main_arg3)) (V (Proc.devRef .tc main_arg4)) (V (Proc.devRef .tc main_arg11)) (V (Proc.devRef .tc main_arg12)) (f1_main_v7 V) (f1_main_arg11 V) (f1_main_arg12 V)

theorem f3_main_arg0 (V : Valuation τ sig (Elt F)) : V3 V (Proc.devRef .tc main_arg0) = V (Proc.devRef .tc main_arg0) :=
  (keep_3 (V2 V) main_arg0 (by decide)).trans (f2_main_arg0 V)
theorem f3_main_arg1 (V : Valuation τ sig (Elt F)) : V3 V (Proc.devRef .tc main_arg1) = V (Proc.devRef .tc main_arg1) :=
  (keep_3 (V2 V) main_arg1 (by decide)).trans (f2_main_arg1 V)
theorem f3_main_arg2 (V : Valuation τ sig (Elt F)) : V3 V (Proc.devRef .tc main_arg2) = V (Proc.devRef .tc main_arg2) :=
  (keep_3 (V2 V) main_arg2 (by decide)).trans (f2_main_arg2 V)
theorem f3_main_arg3 (V : Valuation τ sig (Elt F)) : V3 V (Proc.devRef .tc main_arg3) = V (Proc.devRef .tc main_arg3) :=
  (keep_3 (V2 V) main_arg3 (by decide)).trans (f2_main_arg3 V)
theorem f3_main_arg4 (V : Valuation τ sig (Elt F)) : V3 V (Proc.devRef .tc main_arg4) = V (Proc.devRef .tc main_arg4) :=
  (keep_3 (V2 V) main_arg4 (by decide)).trans (f2_main_arg4 V)
theorem f3_main_arg5 (V : Valuation τ sig (Elt F)) : V3 V (Proc.devRef .tc main_arg5) = V (Proc.devRef .tc main_arg5) :=
  (keep_3 (V2 V) main_arg5 (by decide)).trans (f2_main_arg5 V)
theorem f3_main_arg6 (V : Valuation τ sig (Elt F)) : V3 V (Proc.devRef .tc main_arg6) = V (Proc.devRef .tc main_arg6) :=
  (keep_3 (V2 V) main_arg6 (by decide)).trans (f2_main_arg6 V)
theorem f3_main_arg7 (V : Valuation τ sig (Elt F)) : V3 V (Proc.devRef .tc main_arg7) = V (Proc.devRef .tc main_arg7) :=
  (keep_3 (V2 V) main_arg7 (by decide)).trans (f2_main_arg7 V)
theorem f3_main_arg8 (V : Valuation τ sig (Elt F)) : V3 V (Proc.devRef .tc main_arg8) = V (Proc.devRef .tc main_arg8) :=
  (keep_3 (V2 V) main_arg8 (by decide)).trans (f2_main_arg8 V)
theorem f3_main_arg9 (V : Valuation τ sig (Elt F)) : V3 V (Proc.devRef .tc main_arg9) = V (Proc.devRef .tc main_arg9) :=
  (keep_3 (V2 V) main_arg9 (by decide)).trans (f2_main_arg9 V)
theorem f3_main_arg10 (V : Valuation τ sig (Elt F)) : V3 V (Proc.devRef .tc main_arg10) = V (Proc.devRef .tc main_arg10) :=
  (keep_3 (V2 V) main_arg10 (by decide)).trans (f2_main_arg10 V)
theorem f3_main_arg11 (V : Valuation τ sig (Elt F)) : V3 V (Proc.devRef .tc main_arg11) = V (Proc.devRef .tc main_arg11) :=
  (keep_3 (V2 V) main_arg11 (by decide)).trans (f2_main_arg11 V)
theorem f3_main_arg12 (V : Valuation τ sig (Elt F)) : V3 V (Proc.devRef .tc main_arg12) = V (Proc.devRef .tc main_arg12) :=
  (keep_3 (V2 V) main_arg12 (by decide)).trans (f2_main_arg12 V)
theorem f3_main_arg13 (V : Valuation τ sig (Elt F)) : V3 V (Proc.devRef .tc main_arg13) = V (Proc.devRef .tc main_arg13) :=
  (keep_3 (V2 V) main_arg13 (by decide)).trans (f2_main_arg13 V)
theorem f3_main_arg14 (V : Valuation τ sig (Elt F)) : V3 V (Proc.devRef .tc main_arg14) = V (Proc.devRef .tc main_arg14) :=
  (keep_3 (V2 V) main_arg14 (by decide)).trans (f2_main_arg14 V)
theorem f3_main_arg15 (V : Valuation τ sig (Elt F)) : V3 V (Proc.devRef .tc main_arg15) = V (Proc.devRef .tc main_arg15) :=
  (keep_3 (V2 V) main_arg15 (by decide)).trans (f2_main_arg15 V)
theorem f3_main_arg16 (V : Valuation τ sig (Elt F)) : V3 V (Proc.devRef .tc main_arg16) = V (Proc.devRef .tc main_arg16) :=
  (keep_3 (V2 V) main_arg16 (by decide)).trans (f2_main_arg16 V)
theorem f3_main_v38 (V : Valuation τ sig (Elt F)) : V3 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_3 (V2 V) main_v38 (by decide)).trans (f2_main_v38 V)
theorem f3_main_v64 (V : Valuation τ sig (Elt F)) : V3 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  s3_main_v64 (V2 V) (V (Proc.devRef .tc main_arg0)) (V (Proc.devRef .tc main_arg3)) (V (Proc.devRef .tc main_arg4)) (V (Proc.devRef .tc main_arg11)) (V (Proc.devRef .tc main_arg12)) (f2_main_v12 V) (f2_main_arg11 V) (f2_main_arg12 V)

theorem f4_main_arg0 (V : Valuation τ sig (Elt F)) : V4 V (Proc.devRef .tc main_arg0) = V (Proc.devRef .tc main_arg0) :=
  (keep_4 (V3 V) main_arg0 (by decide)).trans (f3_main_arg0 V)
theorem f4_main_arg1 (V : Valuation τ sig (Elt F)) : V4 V (Proc.devRef .tc main_arg1) = V (Proc.devRef .tc main_arg1) :=
  (keep_4 (V3 V) main_arg1 (by decide)).trans (f3_main_arg1 V)
theorem f4_main_arg2 (V : Valuation τ sig (Elt F)) : V4 V (Proc.devRef .tc main_arg2) = V (Proc.devRef .tc main_arg2) :=
  (keep_4 (V3 V) main_arg2 (by decide)).trans (f3_main_arg2 V)
theorem f4_main_arg3 (V : Valuation τ sig (Elt F)) : V4 V (Proc.devRef .tc main_arg3) = V (Proc.devRef .tc main_arg3) :=
  (keep_4 (V3 V) main_arg3 (by decide)).trans (f3_main_arg3 V)
theorem f4_main_arg4 (V : Valuation τ sig (Elt F)) : V4 V (Proc.devRef .tc main_arg4) = V (Proc.devRef .tc main_arg4) :=
  (keep_4 (V3 V) main_arg4 (by decide)).trans (f3_main_arg4 V)
theorem f4_main_arg5 (V : Valuation τ sig (Elt F)) : V4 V (Proc.devRef .tc main_arg5) = V (Proc.devRef .tc main_arg5) :=
  (keep_4 (V3 V) main_arg5 (by decide)).trans (f3_main_arg5 V)
theorem f4_main_arg6 (V : Valuation τ sig (Elt F)) : V4 V (Proc.devRef .tc main_arg6) = V (Proc.devRef .tc main_arg6) :=
  (keep_4 (V3 V) main_arg6 (by decide)).trans (f3_main_arg6 V)
theorem f4_main_arg7 (V : Valuation τ sig (Elt F)) : V4 V (Proc.devRef .tc main_arg7) = V (Proc.devRef .tc main_arg7) :=
  (keep_4 (V3 V) main_arg7 (by decide)).trans (f3_main_arg7 V)
theorem f4_main_arg8 (V : Valuation τ sig (Elt F)) : V4 V (Proc.devRef .tc main_arg8) = V (Proc.devRef .tc main_arg8) :=
  (keep_4 (V3 V) main_arg8 (by decide)).trans (f3_main_arg8 V)
theorem f4_main_arg9 (V : Valuation τ sig (Elt F)) : V4 V (Proc.devRef .tc main_arg9) = V (Proc.devRef .tc main_arg9) :=
  (keep_4 (V3 V) main_arg9 (by decide)).trans (f3_main_arg9 V)
theorem f4_main_arg10 (V : Valuation τ sig (Elt F)) : V4 V (Proc.devRef .tc main_arg10) = V (Proc.devRef .tc main_arg10) :=
  (keep_4 (V3 V) main_arg10 (by decide)).trans (f3_main_arg10 V)
theorem f4_main_arg11 (V : Valuation τ sig (Elt F)) : V4 V (Proc.devRef .tc main_arg11) = V (Proc.devRef .tc main_arg11) :=
  (keep_4 (V3 V) main_arg11 (by decide)).trans (f3_main_arg11 V)
theorem f4_main_arg12 (V : Valuation τ sig (Elt F)) : V4 V (Proc.devRef .tc main_arg12) = V (Proc.devRef .tc main_arg12) :=
  (keep_4 (V3 V) main_arg12 (by decide)).trans (f3_main_arg12 V)
theorem f4_main_arg13 (V : Valuation τ sig (Elt F)) : V4 V (Proc.devRef .tc main_arg13) = V (Proc.devRef .tc main_arg13) :=
  (keep_4 (V3 V) main_arg13 (by decide)).trans (f3_main_arg13 V)
theorem f4_main_arg14 (V : Valuation τ sig (Elt F)) : V4 V (Proc.devRef .tc main_arg14) = V (Proc.devRef .tc main_arg14) :=
  (keep_4 (V3 V) main_arg14 (by decide)).trans (f3_main_arg14 V)
theorem f4_main_arg15 (V : Valuation τ sig (Elt F)) : V4 V (Proc.devRef .tc main_arg15) = V (Proc.devRef .tc main_arg15) :=
  (keep_4 (V3 V) main_arg15 (by decide)).trans (f3_main_arg15 V)
theorem f4_main_arg16 (V : Valuation τ sig (Elt F)) : V4 V (Proc.devRef .tc main_arg16) = V (Proc.devRef .tc main_arg16) :=
  (keep_4 (V3 V) main_arg16 (by decide)).trans (f3_main_arg16 V)
theorem f4_main_v38 (V : Valuation τ sig (Elt F)) : V4 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_4 (V3 V) main_v38 (by decide)).trans (f3_main_v38 V)
theorem f4_main_v64 (V : Valuation τ sig (Elt F)) : V4 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_4 (V3 V) main_v64 (by decide)).trans (f3_main_v64 V)
theorem f4_main_v75 (V : Valuation τ sig (Elt F)) : V4 V (Proc.devRef .tc main_v75) = ReadP.val_main_v75 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) :=
  s4_main_v75 (V3 V) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (f3_main_v38 V) (f3_main_arg5 V) (f3_main_arg6 V) (f3_main_v64 V)
theorem f4_main_v80 (V : Valuation τ sig (Elt F)) : V4 V (Proc.devRef .tc main_v80) = ReadP.val_main_v80 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) :=
  s4_main_v80 (V3 V) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (f3_main_v38 V) (f3_main_arg5 V) (f3_main_arg6 V) (f3_main_v64 V)

theorem f5_main_arg0 (V : Valuation τ sig (Elt F)) : V5 V (Proc.devRef .tc main_arg0) = V (Proc.devRef .tc main_arg0) :=
  (keep_5 (V4 V) main_arg0 (by decide)).trans (f4_main_arg0 V)
theorem f5_main_arg1 (V : Valuation τ sig (Elt F)) : V5 V (Proc.devRef .tc main_arg1) = V (Proc.devRef .tc main_arg1) :=
  (keep_5 (V4 V) main_arg1 (by decide)).trans (f4_main_arg1 V)
theorem f5_main_arg2 (V : Valuation τ sig (Elt F)) : V5 V (Proc.devRef .tc main_arg2) = V (Proc.devRef .tc main_arg2) :=
  (keep_5 (V4 V) main_arg2 (by decide)).trans (f4_main_arg2 V)
theorem f5_main_arg3 (V : Valuation τ sig (Elt F)) : V5 V (Proc.devRef .tc main_arg3) = V (Proc.devRef .tc main_arg3) :=
  (keep_5 (V4 V) main_arg3 (by decide)).trans (f4_main_arg3 V)
theorem f5_main_arg4 (V : Valuation τ sig (Elt F)) : V5 V (Proc.devRef .tc main_arg4) = V (Proc.devRef .tc main_arg4) :=
  (keep_5 (V4 V) main_arg4 (by decide)).trans (f4_main_arg4 V)
theorem f5_main_arg5 (V : Valuation τ sig (Elt F)) : V5 V (Proc.devRef .tc main_arg5) = V (Proc.devRef .tc main_arg5) :=
  (keep_5 (V4 V) main_arg5 (by decide)).trans (f4_main_arg5 V)
theorem f5_main_arg6 (V : Valuation τ sig (Elt F)) : V5 V (Proc.devRef .tc main_arg6) = V (Proc.devRef .tc main_arg6) :=
  (keep_5 (V4 V) main_arg6 (by decide)).trans (f4_main_arg6 V)
theorem f5_main_arg7 (V : Valuation τ sig (Elt F)) : V5 V (Proc.devRef .tc main_arg7) = V (Proc.devRef .tc main_arg7) :=
  (keep_5 (V4 V) main_arg7 (by decide)).trans (f4_main_arg7 V)
theorem f5_main_arg8 (V : Valuation τ sig (Elt F)) : V5 V (Proc.devRef .tc main_arg8) = V (Proc.devRef .tc main_arg8) :=
  (keep_5 (V4 V) main_arg8 (by decide)).trans (f4_main_arg8 V)
theorem f5_main_arg9 (V : Valuation τ sig (Elt F)) : V5 V (Proc.devRef .tc main_arg9) = V (Proc.devRef .tc main_arg9) :=
  (keep_5 (V4 V) main_arg9 (by decide)).trans (f4_main_arg9 V)
theorem f5_main_arg10 (V : Valuation τ sig (Elt F)) : V5 V (Proc.devRef .tc main_arg10) = V (Proc.devRef .tc main_arg10) :=
  (keep_5 (V4 V) main_arg10 (by decide)).trans (f4_main_arg10 V)
theorem f5_main_arg11 (V : Valuation τ sig (Elt F)) : V5 V (Proc.devRef .tc main_arg11) = V (Proc.devRef .tc main_arg11) :=
  (keep_5 (V4 V) main_arg11 (by decide)).trans (f4_main_arg11 V)
theorem f5_main_arg12 (V : Valuation τ sig (Elt F)) : V5 V (Proc.devRef .tc main_arg12) = V (Proc.devRef .tc main_arg12) :=
  (keep_5 (V4 V) main_arg12 (by decide)).trans (f4_main_arg12 V)
theorem f5_main_arg13 (V : Valuation τ sig (Elt F)) : V5 V (Proc.devRef .tc main_arg13) = V (Proc.devRef .tc main_arg13) :=
  (keep_5 (V4 V) main_arg13 (by decide)).trans (f4_main_arg13 V)
theorem f5_main_arg14 (V : Valuation τ sig (Elt F)) : V5 V (Proc.devRef .tc main_arg14) = V (Proc.devRef .tc main_arg14) :=
  (keep_5 (V4 V) main_arg14 (by decide)).trans (f4_main_arg14 V)
theorem f5_main_arg15 (V : Valuation τ sig (Elt F)) : V5 V (Proc.devRef .tc main_arg15) = V (Proc.devRef .tc main_arg15) :=
  (keep_5 (V4 V) main_arg15 (by decide)).trans (f4_main_arg15 V)
theorem f5_main_arg16 (V : Valuation τ sig (Elt F)) : V5 V (Proc.devRef .tc main_arg16) = V (Proc.devRef .tc main_arg16) :=
  (keep_5 (V4 V) main_arg16 (by decide)).trans (f4_main_arg16 V)
theorem f5_main_v38 (V : Valuation τ sig (Elt F)) : V5 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_5 (V4 V) main_v38 (by decide)).trans (f4_main_v38 V)
theorem f5_main_v64 (V : Valuation τ sig (Elt F)) : V5 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_5 (V4 V) main_v64 (by decide)).trans (f4_main_v64 V)
theorem f5_main_v80 (V : Valuation τ sig (Elt F)) : V5 V (Proc.devRef .tc main_v80) = ReadP.val_main_v80 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) :=
  (keep_5 (V4 V) main_v80 (by decide)).trans (f4_main_v80 V)
theorem f5_main_v106 (V : Valuation τ sig (Elt F)) : V5 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  s5_main_v106 (V4 V) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) (f4_main_v75 V) (f4_main_arg13 V) (f4_main_arg14 V)

theorem f6_main_arg0 (V : Valuation τ sig (Elt F)) : V6 V (Proc.devRef .tc main_arg0) = V (Proc.devRef .tc main_arg0) :=
  (keep_6 (V5 V) main_arg0 (by decide)).trans (f5_main_arg0 V)
theorem f6_main_arg1 (V : Valuation τ sig (Elt F)) : V6 V (Proc.devRef .tc main_arg1) = V (Proc.devRef .tc main_arg1) :=
  (keep_6 (V5 V) main_arg1 (by decide)).trans (f5_main_arg1 V)
theorem f6_main_arg2 (V : Valuation τ sig (Elt F)) : V6 V (Proc.devRef .tc main_arg2) = V (Proc.devRef .tc main_arg2) :=
  (keep_6 (V5 V) main_arg2 (by decide)).trans (f5_main_arg2 V)
theorem f6_main_arg3 (V : Valuation τ sig (Elt F)) : V6 V (Proc.devRef .tc main_arg3) = V (Proc.devRef .tc main_arg3) :=
  (keep_6 (V5 V) main_arg3 (by decide)).trans (f5_main_arg3 V)
theorem f6_main_arg4 (V : Valuation τ sig (Elt F)) : V6 V (Proc.devRef .tc main_arg4) = V (Proc.devRef .tc main_arg4) :=
  (keep_6 (V5 V) main_arg4 (by decide)).trans (f5_main_arg4 V)
theorem f6_main_arg5 (V : Valuation τ sig (Elt F)) : V6 V (Proc.devRef .tc main_arg5) = V (Proc.devRef .tc main_arg5) :=
  (keep_6 (V5 V) main_arg5 (by decide)).trans (f5_main_arg5 V)
theorem f6_main_arg6 (V : Valuation τ sig (Elt F)) : V6 V (Proc.devRef .tc main_arg6) = V (Proc.devRef .tc main_arg6) :=
  (keep_6 (V5 V) main_arg6 (by decide)).trans (f5_main_arg6 V)
theorem f6_main_arg7 (V : Valuation τ sig (Elt F)) : V6 V (Proc.devRef .tc main_arg7) = V (Proc.devRef .tc main_arg7) :=
  (keep_6 (V5 V) main_arg7 (by decide)).trans (f5_main_arg7 V)
theorem f6_main_arg8 (V : Valuation τ sig (Elt F)) : V6 V (Proc.devRef .tc main_arg8) = V (Proc.devRef .tc main_arg8) :=
  (keep_6 (V5 V) main_arg8 (by decide)).trans (f5_main_arg8 V)
theorem f6_main_arg9 (V : Valuation τ sig (Elt F)) : V6 V (Proc.devRef .tc main_arg9) = V (Proc.devRef .tc main_arg9) :=
  (keep_6 (V5 V) main_arg9 (by decide)).trans (f5_main_arg9 V)
theorem f6_main_arg10 (V : Valuation τ sig (Elt F)) : V6 V (Proc.devRef .tc main_arg10) = V (Proc.devRef .tc main_arg10) :=
  (keep_6 (V5 V) main_arg10 (by decide)).trans (f5_main_arg10 V)
theorem f6_main_arg11 (V : Valuation τ sig (Elt F)) : V6 V (Proc.devRef .tc main_arg11) = V (Proc.devRef .tc main_arg11) :=
  (keep_6 (V5 V) main_arg11 (by decide)).trans (f5_main_arg11 V)
theorem f6_main_arg12 (V : Valuation τ sig (Elt F)) : V6 V (Proc.devRef .tc main_arg12) = V (Proc.devRef .tc main_arg12) :=
  (keep_6 (V5 V) main_arg12 (by decide)).trans (f5_main_arg12 V)
theorem f6_main_arg13 (V : Valuation τ sig (Elt F)) : V6 V (Proc.devRef .tc main_arg13) = V (Proc.devRef .tc main_arg13) :=
  (keep_6 (V5 V) main_arg13 (by decide)).trans (f5_main_arg13 V)
theorem f6_main_arg14 (V : Valuation τ sig (Elt F)) : V6 V (Proc.devRef .tc main_arg14) = V (Proc.devRef .tc main_arg14) :=
  (keep_6 (V5 V) main_arg14 (by decide)).trans (f5_main_arg14 V)
theorem f6_main_arg15 (V : Valuation τ sig (Elt F)) : V6 V (Proc.devRef .tc main_arg15) = V (Proc.devRef .tc main_arg15) :=
  (keep_6 (V5 V) main_arg15 (by decide)).trans (f5_main_arg15 V)
theorem f6_main_arg16 (V : Valuation τ sig (Elt F)) : V6 V (Proc.devRef .tc main_arg16) = V (Proc.devRef .tc main_arg16) :=
  (keep_6 (V5 V) main_arg16 (by decide)).trans (f5_main_arg16 V)
theorem f6_main_v38 (V : Valuation τ sig (Elt F)) : V6 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_6 (V5 V) main_v38 (by decide)).trans (f5_main_v38 V)
theorem f6_main_v64 (V : Valuation τ sig (Elt F)) : V6 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_6 (V5 V) main_v64 (by decide)).trans (f5_main_v64 V)
theorem f6_main_v106 (V : Valuation τ sig (Elt F)) : V6 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_6 (V5 V) main_v106 (by decide)).trans (f5_main_v106 V)
theorem f6_main_v132 (V : Valuation τ sig (Elt F)) : V6 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  s6_main_v132 (V5 V) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) (f5_main_v80 V) (f5_main_arg13 V) (f5_main_arg14 V)

theorem f7_main_arg0 (V : Valuation τ sig (Elt F)) : V7 V (Proc.devRef .tc main_arg0) = V (Proc.devRef .tc main_arg0) :=
  (keep_7 (V6 V) main_arg0 (by decide)).trans (f6_main_arg0 V)
theorem f7_main_arg1 (V : Valuation τ sig (Elt F)) : V7 V (Proc.devRef .tc main_arg1) = V (Proc.devRef .tc main_arg1) :=
  (keep_7 (V6 V) main_arg1 (by decide)).trans (f6_main_arg1 V)
theorem f7_main_arg2 (V : Valuation τ sig (Elt F)) : V7 V (Proc.devRef .tc main_arg2) = V (Proc.devRef .tc main_arg2) :=
  (keep_7 (V6 V) main_arg2 (by decide)).trans (f6_main_arg2 V)
theorem f7_main_arg3 (V : Valuation τ sig (Elt F)) : V7 V (Proc.devRef .tc main_arg3) = V (Proc.devRef .tc main_arg3) :=
  (keep_7 (V6 V) main_arg3 (by decide)).trans (f6_main_arg3 V)
theorem f7_main_arg4 (V : Valuation τ sig (Elt F)) : V7 V (Proc.devRef .tc main_arg4) = V (Proc.devRef .tc main_arg4) :=
  (keep_7 (V6 V) main_arg4 (by decide)).trans (f6_main_arg4 V)
theorem f7_main_arg5 (V : Valuation τ sig (Elt F)) : V7 V (Proc.devRef .tc main_arg5) = V (Proc.devRef .tc main_arg5) :=
  (keep_7 (V6 V) main_arg5 (by decide)).trans (f6_main_arg5 V)
theorem f7_main_arg6 (V : Valuation τ sig (Elt F)) : V7 V (Proc.devRef .tc main_arg6) = V (Proc.devRef .tc main_arg6) :=
  (keep_7 (V6 V) main_arg6 (by decide)).trans (f6_main_arg6 V)
theorem f7_main_arg7 (V : Valuation τ sig (Elt F)) : V7 V (Proc.devRef .tc main_arg7) = V (Proc.devRef .tc main_arg7) :=
  (keep_7 (V6 V) main_arg7 (by decide)).trans (f6_main_arg7 V)
theorem f7_main_arg8 (V : Valuation τ sig (Elt F)) : V7 V (Proc.devRef .tc main_arg8) = V (Proc.devRef .tc main_arg8) :=
  (keep_7 (V6 V) main_arg8 (by decide)).trans (f6_main_arg8 V)
theorem f7_main_arg9 (V : Valuation τ sig (Elt F)) : V7 V (Proc.devRef .tc main_arg9) = V (Proc.devRef .tc main_arg9) :=
  (keep_7 (V6 V) main_arg9 (by decide)).trans (f6_main_arg9 V)
theorem f7_main_arg10 (V : Valuation τ sig (Elt F)) : V7 V (Proc.devRef .tc main_arg10) = V (Proc.devRef .tc main_arg10) :=
  (keep_7 (V6 V) main_arg10 (by decide)).trans (f6_main_arg10 V)
theorem f7_main_arg11 (V : Valuation τ sig (Elt F)) : V7 V (Proc.devRef .tc main_arg11) = V (Proc.devRef .tc main_arg11) :=
  (keep_7 (V6 V) main_arg11 (by decide)).trans (f6_main_arg11 V)
theorem f7_main_arg12 (V : Valuation τ sig (Elt F)) : V7 V (Proc.devRef .tc main_arg12) = V (Proc.devRef .tc main_arg12) :=
  (keep_7 (V6 V) main_arg12 (by decide)).trans (f6_main_arg12 V)
theorem f7_main_arg13 (V : Valuation τ sig (Elt F)) : V7 V (Proc.devRef .tc main_arg13) = V (Proc.devRef .tc main_arg13) :=
  (keep_7 (V6 V) main_arg13 (by decide)).trans (f6_main_arg13 V)
theorem f7_main_arg14 (V : Valuation τ sig (Elt F)) : V7 V (Proc.devRef .tc main_arg14) = V (Proc.devRef .tc main_arg14) :=
  (keep_7 (V6 V) main_arg14 (by decide)).trans (f6_main_arg14 V)
theorem f7_main_arg15 (V : Valuation τ sig (Elt F)) : V7 V (Proc.devRef .tc main_arg15) = V (Proc.devRef .tc main_arg15) :=
  (keep_7 (V6 V) main_arg15 (by decide)).trans (f6_main_arg15 V)
theorem f7_main_arg16 (V : Valuation τ sig (Elt F)) : V7 V (Proc.devRef .tc main_arg16) = V (Proc.devRef .tc main_arg16) :=
  (keep_7 (V6 V) main_arg16 (by decide)).trans (f6_main_arg16 V)
theorem f7_main_v38 (V : Valuation τ sig (Elt F)) : V7 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_7 (V6 V) main_v38 (by decide)).trans (f6_main_v38 V)
theorem f7_main_v64 (V : Valuation τ sig (Elt F)) : V7 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_7 (V6 V) main_v64 (by decide)).trans (f6_main_v64 V)
theorem f7_main_v106 (V : Valuation τ sig (Elt F)) : V7 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_7 (V6 V) main_v106 (by decide)).trans (f6_main_v106 V)
theorem f7_main_v132 (V : Valuation τ sig (Elt F)) : V7 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_7 (V6 V) main_v132 (by decide)).trans (f6_main_v132 V)
theorem f7_main_v143 (V : Valuation τ sig (Elt F)) : V7 V (Proc.devRef .tc main_v143) = ReadP.val_main_v143 (F := F) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  s7_main_v143 (V6 V) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (f6_main_v106 V) (f6_main_arg7 V) (f6_main_arg8 V) (f6_main_v132 V)
theorem f7_main_v148 (V : Valuation τ sig (Elt F)) : V7 V (Proc.devRef .tc main_v148) = ReadP.val_main_v148 (F := F) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  s7_main_v148 (V6 V) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (f6_main_v106 V) (f6_main_arg7 V) (f6_main_arg8 V) (f6_main_v132 V)

theorem f8_main_arg0 (V : Valuation τ sig (Elt F)) : V8 V (Proc.devRef .tc main_arg0) = V (Proc.devRef .tc main_arg0) :=
  (keep_8 (V7 V) main_arg0 (by decide)).trans (f7_main_arg0 V)
theorem f8_main_arg1 (V : Valuation τ sig (Elt F)) : V8 V (Proc.devRef .tc main_arg1) = V (Proc.devRef .tc main_arg1) :=
  (keep_8 (V7 V) main_arg1 (by decide)).trans (f7_main_arg1 V)
theorem f8_main_arg2 (V : Valuation τ sig (Elt F)) : V8 V (Proc.devRef .tc main_arg2) = V (Proc.devRef .tc main_arg2) :=
  (keep_8 (V7 V) main_arg2 (by decide)).trans (f7_main_arg2 V)
theorem f8_main_arg3 (V : Valuation τ sig (Elt F)) : V8 V (Proc.devRef .tc main_arg3) = V (Proc.devRef .tc main_arg3) :=
  (keep_8 (V7 V) main_arg3 (by decide)).trans (f7_main_arg3 V)
theorem f8_main_arg4 (V : Valuation τ sig (Elt F)) : V8 V (Proc.devRef .tc main_arg4) = V (Proc.devRef .tc main_arg4) :=
  (keep_8 (V7 V) main_arg4 (by decide)).trans (f7_main_arg4 V)
theorem f8_main_arg5 (V : Valuation τ sig (Elt F)) : V8 V (Proc.devRef .tc main_arg5) = V (Proc.devRef .tc main_arg5) :=
  (keep_8 (V7 V) main_arg5 (by decide)).trans (f7_main_arg5 V)
theorem f8_main_arg6 (V : Valuation τ sig (Elt F)) : V8 V (Proc.devRef .tc main_arg6) = V (Proc.devRef .tc main_arg6) :=
  (keep_8 (V7 V) main_arg6 (by decide)).trans (f7_main_arg6 V)
theorem f8_main_arg7 (V : Valuation τ sig (Elt F)) : V8 V (Proc.devRef .tc main_arg7) = V (Proc.devRef .tc main_arg7) :=
  (keep_8 (V7 V) main_arg7 (by decide)).trans (f7_main_arg7 V)
theorem f8_main_arg8 (V : Valuation τ sig (Elt F)) : V8 V (Proc.devRef .tc main_arg8) = V (Proc.devRef .tc main_arg8) :=
  (keep_8 (V7 V) main_arg8 (by decide)).trans (f7_main_arg8 V)
theorem f8_main_arg9 (V : Valuation τ sig (Elt F)) : V8 V (Proc.devRef .tc main_arg9) = V (Proc.devRef .tc main_arg9) :=
  (keep_8 (V7 V) main_arg9 (by decide)).trans (f7_main_arg9 V)
theorem f8_main_arg10 (V : Valuation τ sig (Elt F)) : V8 V (Proc.devRef .tc main_arg10) = V (Proc.devRef .tc main_arg10) :=
  (keep_8 (V7 V) main_arg10 (by decide)).trans (f7_main_arg10 V)
theorem f8_main_arg11 (V : Valuation τ sig (Elt F)) : V8 V (Proc.devRef .tc main_arg11) = V (Proc.devRef .tc main_arg11) :=
  (keep_8 (V7 V) main_arg11 (by decide)).trans (f7_main_arg11 V)
theorem f8_main_arg12 (V : Valuation τ sig (Elt F)) : V8 V (Proc.devRef .tc main_arg12) = V (Proc.devRef .tc main_arg12) :=
  (keep_8 (V7 V) main_arg12 (by decide)).trans (f7_main_arg12 V)
theorem f8_main_arg13 (V : Valuation τ sig (Elt F)) : V8 V (Proc.devRef .tc main_arg13) = V (Proc.devRef .tc main_arg13) :=
  (keep_8 (V7 V) main_arg13 (by decide)).trans (f7_main_arg13 V)
theorem f8_main_arg14 (V : Valuation τ sig (Elt F)) : V8 V (Proc.devRef .tc main_arg14) = V (Proc.devRef .tc main_arg14) :=
  (keep_8 (V7 V) main_arg14 (by decide)).trans (f7_main_arg14 V)
theorem f8_main_arg15 (V : Valuation τ sig (Elt F)) : V8 V (Proc.devRef .tc main_arg15) = V (Proc.devRef .tc main_arg15) :=
  (keep_8 (V7 V) main_arg15 (by decide)).trans (f7_main_arg15 V)
theorem f8_main_arg16 (V : Valuation τ sig (Elt F)) : V8 V (Proc.devRef .tc main_arg16) = V (Proc.devRef .tc main_arg16) :=
  (keep_8 (V7 V) main_arg16 (by decide)).trans (f7_main_arg16 V)
theorem f8_main_v38 (V : Valuation τ sig (Elt F)) : V8 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_8 (V7 V) main_v38 (by decide)).trans (f7_main_v38 V)
theorem f8_main_v64 (V : Valuation τ sig (Elt F)) : V8 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_8 (V7 V) main_v64 (by decide)).trans (f7_main_v64 V)
theorem f8_main_v106 (V : Valuation τ sig (Elt F)) : V8 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_8 (V7 V) main_v106 (by decide)).trans (f7_main_v106 V)
theorem f8_main_v132 (V : Valuation τ sig (Elt F)) : V8 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_8 (V7 V) main_v132 (by decide)).trans (f7_main_v132 V)
theorem f8_main_v148 (V : Valuation τ sig (Elt F)) : V8 V (Proc.devRef .tc main_v148) = ReadP.val_main_v148 (F := F) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  (keep_8 (V7 V) main_v148 (by decide)).trans (f7_main_v148 V)
theorem f8_main_v179 (V : Valuation τ sig (Elt F)) : V8 V (Proc.devRef .tc main_v179) = ReadP.val_main_v179 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  s8_main_v179 (V7 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) (f7_main_arg1 V) (f7_main_v143 V) (f7_main_arg15 V) (f7_main_arg16 V)

theorem f9_main_arg0 (V : Valuation τ sig (Elt F)) : V9 V (Proc.devRef .tc main_arg0) = V (Proc.devRef .tc main_arg0) :=
  (keep_9 (V8 V) main_arg0 (by decide)).trans (f8_main_arg0 V)
theorem f9_main_arg1 (V : Valuation τ sig (Elt F)) : V9 V (Proc.devRef .tc main_arg1) = V (Proc.devRef .tc main_arg1) :=
  (keep_9 (V8 V) main_arg1 (by decide)).trans (f8_main_arg1 V)
theorem f9_main_arg2 (V : Valuation τ sig (Elt F)) : V9 V (Proc.devRef .tc main_arg2) = V (Proc.devRef .tc main_arg2) :=
  (keep_9 (V8 V) main_arg2 (by decide)).trans (f8_main_arg2 V)
theorem f9_main_arg3 (V : Valuation τ sig (Elt F)) : V9 V (Proc.devRef .tc main_arg3) = V (Proc.devRef .tc main_arg3) :=
  (keep_9 (V8 V) main_arg3 (by decide)).trans (f8_main_arg3 V)
theorem f9_main_arg4 (V : Valuation τ sig (Elt F)) : V9 V (Proc.devRef .tc main_arg4) = V (Proc.devRef .tc main_arg4) :=
  (keep_9 (V8 V) main_arg4 (by decide)).trans (f8_main_arg4 V)
theorem f9_main_arg5 (V : Valuation τ sig (Elt F)) : V9 V (Proc.devRef .tc main_arg5) = V (Proc.devRef .tc main_arg5) :=
  (keep_9 (V8 V) main_arg5 (by decide)).trans (f8_main_arg5 V)
theorem f9_main_arg6 (V : Valuation τ sig (Elt F)) : V9 V (Proc.devRef .tc main_arg6) = V (Proc.devRef .tc main_arg6) :=
  (keep_9 (V8 V) main_arg6 (by decide)).trans (f8_main_arg6 V)
theorem f9_main_arg7 (V : Valuation τ sig (Elt F)) : V9 V (Proc.devRef .tc main_arg7) = V (Proc.devRef .tc main_arg7) :=
  (keep_9 (V8 V) main_arg7 (by decide)).trans (f8_main_arg7 V)
theorem f9_main_arg8 (V : Valuation τ sig (Elt F)) : V9 V (Proc.devRef .tc main_arg8) = V (Proc.devRef .tc main_arg8) :=
  (keep_9 (V8 V) main_arg8 (by decide)).trans (f8_main_arg8 V)
theorem f9_main_arg9 (V : Valuation τ sig (Elt F)) : V9 V (Proc.devRef .tc main_arg9) = V (Proc.devRef .tc main_arg9) :=
  (keep_9 (V8 V) main_arg9 (by decide)).trans (f8_main_arg9 V)
theorem f9_main_arg10 (V : Valuation τ sig (Elt F)) : V9 V (Proc.devRef .tc main_arg10) = V (Proc.devRef .tc main_arg10) :=
  (keep_9 (V8 V) main_arg10 (by decide)).trans (f8_main_arg10 V)
theorem f9_main_arg11 (V : Valuation τ sig (Elt F)) : V9 V (Proc.devRef .tc main_arg11) = V (Proc.devRef .tc main_arg11) :=
  (keep_9 (V8 V) main_arg11 (by decide)).trans (f8_main_arg11 V)
theorem f9_main_arg12 (V : Valuation τ sig (Elt F)) : V9 V (Proc.devRef .tc main_arg12) = V (Proc.devRef .tc main_arg12) :=
  (keep_9 (V8 V) main_arg12 (by decide)).trans (f8_main_arg12 V)
theorem f9_main_arg13 (V : Valuation τ sig (Elt F)) : V9 V (Proc.devRef .tc main_arg13) = V (Proc.devRef .tc main_arg13) :=
  (keep_9 (V8 V) main_arg13 (by decide)).trans (f8_main_arg13 V)
theorem f9_main_arg14 (V : Valuation τ sig (Elt F)) : V9 V (Proc.devRef .tc main_arg14) = V (Proc.devRef .tc main_arg14) :=
  (keep_9 (V8 V) main_arg14 (by decide)).trans (f8_main_arg14 V)
theorem f9_main_arg15 (V : Valuation τ sig (Elt F)) : V9 V (Proc.devRef .tc main_arg15) = V (Proc.devRef .tc main_arg15) :=
  (keep_9 (V8 V) main_arg15 (by decide)).trans (f8_main_arg15 V)
theorem f9_main_arg16 (V : Valuation τ sig (Elt F)) : V9 V (Proc.devRef .tc main_arg16) = V (Proc.devRef .tc main_arg16) :=
  (keep_9 (V8 V) main_arg16 (by decide)).trans (f8_main_arg16 V)
theorem f9_main_v38 (V : Valuation τ sig (Elt F)) : V9 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_9 (V8 V) main_v38 (by decide)).trans (f8_main_v38 V)
theorem f9_main_v64 (V : Valuation τ sig (Elt F)) : V9 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_9 (V8 V) main_v64 (by decide)).trans (f8_main_v64 V)
theorem f9_main_v106 (V : Valuation τ sig (Elt F)) : V9 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_9 (V8 V) main_v106 (by decide)).trans (f8_main_v106 V)
theorem f9_main_v132 (V : Valuation τ sig (Elt F)) : V9 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_9 (V8 V) main_v132 (by decide)).trans (f8_main_v132 V)
theorem f9_main_v179 (V : Valuation τ sig (Elt F)) : V9 V (Proc.devRef .tc main_v179) = ReadP.val_main_v179 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_9 (V8 V) main_v179 (by decide)).trans (f8_main_v179 V)
theorem f9_main_v210 (V : Valuation τ sig (Elt F)) : V9 V (Proc.devRef .tc main_v210) = ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  s9_main_v210 (V8 V) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) (f8_main_arg2 V) (f8_main_v148 V) (f8_main_arg15 V) (f8_main_arg16 V)

theorem f10_main_arg0 (V : Valuation τ sig (Elt F)) : V10 V (Proc.devRef .tc main_arg0) = V (Proc.devRef .tc main_arg0) :=
  (keep_10 (V9 V) main_arg0 (by decide)).trans (f9_main_arg0 V)
theorem f10_main_arg1 (V : Valuation τ sig (Elt F)) : V10 V (Proc.devRef .tc main_arg1) = V (Proc.devRef .tc main_arg1) :=
  (keep_10 (V9 V) main_arg1 (by decide)).trans (f9_main_arg1 V)
theorem f10_main_arg2 (V : Valuation τ sig (Elt F)) : V10 V (Proc.devRef .tc main_arg2) = V (Proc.devRef .tc main_arg2) :=
  (keep_10 (V9 V) main_arg2 (by decide)).trans (f9_main_arg2 V)
theorem f10_main_arg3 (V : Valuation τ sig (Elt F)) : V10 V (Proc.devRef .tc main_arg3) = V (Proc.devRef .tc main_arg3) :=
  (keep_10 (V9 V) main_arg3 (by decide)).trans (f9_main_arg3 V)
theorem f10_main_arg4 (V : Valuation τ sig (Elt F)) : V10 V (Proc.devRef .tc main_arg4) = V (Proc.devRef .tc main_arg4) :=
  (keep_10 (V9 V) main_arg4 (by decide)).trans (f9_main_arg4 V)
theorem f10_main_arg5 (V : Valuation τ sig (Elt F)) : V10 V (Proc.devRef .tc main_arg5) = V (Proc.devRef .tc main_arg5) :=
  (keep_10 (V9 V) main_arg5 (by decide)).trans (f9_main_arg5 V)
theorem f10_main_arg6 (V : Valuation τ sig (Elt F)) : V10 V (Proc.devRef .tc main_arg6) = V (Proc.devRef .tc main_arg6) :=
  (keep_10 (V9 V) main_arg6 (by decide)).trans (f9_main_arg6 V)
theorem f10_main_arg7 (V : Valuation τ sig (Elt F)) : V10 V (Proc.devRef .tc main_arg7) = V (Proc.devRef .tc main_arg7) :=
  (keep_10 (V9 V) main_arg7 (by decide)).trans (f9_main_arg7 V)
theorem f10_main_arg8 (V : Valuation τ sig (Elt F)) : V10 V (Proc.devRef .tc main_arg8) = V (Proc.devRef .tc main_arg8) :=
  (keep_10 (V9 V) main_arg8 (by decide)).trans (f9_main_arg8 V)
theorem f10_main_arg9 (V : Valuation τ sig (Elt F)) : V10 V (Proc.devRef .tc main_arg9) = V (Proc.devRef .tc main_arg9) :=
  (keep_10 (V9 V) main_arg9 (by decide)).trans (f9_main_arg9 V)
theorem f10_main_arg10 (V : Valuation τ sig (Elt F)) : V10 V (Proc.devRef .tc main_arg10) = V (Proc.devRef .tc main_arg10) :=
  (keep_10 (V9 V) main_arg10 (by decide)).trans (f9_main_arg10 V)
theorem f10_main_arg11 (V : Valuation τ sig (Elt F)) : V10 V (Proc.devRef .tc main_arg11) = V (Proc.devRef .tc main_arg11) :=
  (keep_10 (V9 V) main_arg11 (by decide)).trans (f9_main_arg11 V)
theorem f10_main_arg12 (V : Valuation τ sig (Elt F)) : V10 V (Proc.devRef .tc main_arg12) = V (Proc.devRef .tc main_arg12) :=
  (keep_10 (V9 V) main_arg12 (by decide)).trans (f9_main_arg12 V)
theorem f10_main_arg13 (V : Valuation τ sig (Elt F)) : V10 V (Proc.devRef .tc main_arg13) = V (Proc.devRef .tc main_arg13) :=
  (keep_10 (V9 V) main_arg13 (by decide)).trans (f9_main_arg13 V)
theorem f10_main_arg14 (V : Valuation τ sig (Elt F)) : V10 V (Proc.devRef .tc main_arg14) = V (Proc.devRef .tc main_arg14) :=
  (keep_10 (V9 V) main_arg14 (by decide)).trans (f9_main_arg14 V)
theorem f10_main_arg15 (V : Valuation τ sig (Elt F)) : V10 V (Proc.devRef .tc main_arg15) = V (Proc.devRef .tc main_arg15) :=
  (keep_10 (V9 V) main_arg15 (by decide)).trans (f9_main_arg15 V)
theorem f10_main_arg16 (V : Valuation τ sig (Elt F)) : V10 V (Proc.devRef .tc main_arg16) = V (Proc.devRef .tc main_arg16) :=
  (keep_10 (V9 V) main_arg16 (by decide)).trans (f9_main_arg16 V)
theorem f10_main_v38 (V : Valuation τ sig (Elt F)) : V10 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_10 (V9 V) main_v38 (by decide)).trans (f9_main_v38 V)
theorem f10_main_v64 (V : Valuation τ sig (Elt F)) : V10 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_10 (V9 V) main_v64 (by decide)).trans (f9_main_v64 V)
theorem f10_main_v106 (V : Valuation τ sig (Elt F)) : V10 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_10 (V9 V) main_v106 (by decide)).trans (f9_main_v106 V)
theorem f10_main_v132 (V : Valuation τ sig (Elt F)) : V10 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_10 (V9 V) main_v132 (by decide)).trans (f9_main_v132 V)
theorem f10_main_v179 (V : Valuation τ sig (Elt F)) : V10 V (Proc.devRef .tc main_v179) = ReadP.val_main_v179 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_10 (V9 V) main_v179 (by decide)).trans (f9_main_v179 V)
theorem f10_main_v210 (V : Valuation τ sig (Elt F)) : V10 V (Proc.devRef .tc main_v210) = ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_10 (V9 V) main_v210 (by decide)).trans (f9_main_v210 V)
theorem f10_main_v215 (V : Valuation τ sig (Elt F)) : V10 V (Proc.devRef .tc main_v215) = ReadP.val_main_v215 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  s10_main_v215 (V9 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (f9_main_arg9 V) (f9_main_v179 V) (f9_main_arg10 V)

theorem f11_main_arg0 (V : Valuation τ sig (Elt F)) : V11 V (Proc.devRef .tc main_arg0) = V (Proc.devRef .tc main_arg0) :=
  (keep_11 (V10 V) main_arg0 (by decide)).trans (f10_main_arg0 V)
theorem f11_main_arg1 (V : Valuation τ sig (Elt F)) : V11 V (Proc.devRef .tc main_arg1) = V (Proc.devRef .tc main_arg1) :=
  (keep_11 (V10 V) main_arg1 (by decide)).trans (f10_main_arg1 V)
theorem f11_main_arg2 (V : Valuation τ sig (Elt F)) : V11 V (Proc.devRef .tc main_arg2) = V (Proc.devRef .tc main_arg2) :=
  (keep_11 (V10 V) main_arg2 (by decide)).trans (f10_main_arg2 V)
theorem f11_main_arg3 (V : Valuation τ sig (Elt F)) : V11 V (Proc.devRef .tc main_arg3) = V (Proc.devRef .tc main_arg3) :=
  (keep_11 (V10 V) main_arg3 (by decide)).trans (f10_main_arg3 V)
theorem f11_main_arg4 (V : Valuation τ sig (Elt F)) : V11 V (Proc.devRef .tc main_arg4) = V (Proc.devRef .tc main_arg4) :=
  (keep_11 (V10 V) main_arg4 (by decide)).trans (f10_main_arg4 V)
theorem f11_main_arg5 (V : Valuation τ sig (Elt F)) : V11 V (Proc.devRef .tc main_arg5) = V (Proc.devRef .tc main_arg5) :=
  (keep_11 (V10 V) main_arg5 (by decide)).trans (f10_main_arg5 V)
theorem f11_main_arg6 (V : Valuation τ sig (Elt F)) : V11 V (Proc.devRef .tc main_arg6) = V (Proc.devRef .tc main_arg6) :=
  (keep_11 (V10 V) main_arg6 (by decide)).trans (f10_main_arg6 V)
theorem f11_main_arg7 (V : Valuation τ sig (Elt F)) : V11 V (Proc.devRef .tc main_arg7) = V (Proc.devRef .tc main_arg7) :=
  (keep_11 (V10 V) main_arg7 (by decide)).trans (f10_main_arg7 V)
theorem f11_main_arg8 (V : Valuation τ sig (Elt F)) : V11 V (Proc.devRef .tc main_arg8) = V (Proc.devRef .tc main_arg8) :=
  (keep_11 (V10 V) main_arg8 (by decide)).trans (f10_main_arg8 V)
theorem f11_main_arg9 (V : Valuation τ sig (Elt F)) : V11 V (Proc.devRef .tc main_arg9) = V (Proc.devRef .tc main_arg9) :=
  (keep_11 (V10 V) main_arg9 (by decide)).trans (f10_main_arg9 V)
theorem f11_main_arg10 (V : Valuation τ sig (Elt F)) : V11 V (Proc.devRef .tc main_arg10) = V (Proc.devRef .tc main_arg10) :=
  (keep_11 (V10 V) main_arg10 (by decide)).trans (f10_main_arg10 V)
theorem f11_main_arg11 (V : Valuation τ sig (Elt F)) : V11 V (Proc.devRef .tc main_arg11) = V (Proc.devRef .tc main_arg11) :=
  (keep_11 (V10 V) main_arg11 (by decide)).trans (f10_main_arg11 V)
theorem f11_main_arg12 (V : Valuation τ sig (Elt F)) : V11 V (Proc.devRef .tc main_arg12) = V (Proc.devRef .tc main_arg12) :=
  (keep_11 (V10 V) main_arg12 (by decide)).trans (f10_main_arg12 V)
theorem f11_main_arg13 (V : Valuation τ sig (Elt F)) : V11 V (Proc.devRef .tc main_arg13) = V (Proc.devRef .tc main_arg13) :=
  (keep_11 (V10 V) main_arg13 (by decide)).trans (f10_main_arg13 V)
theorem f11_main_arg14 (V : Valuation τ sig (Elt F)) : V11 V (Proc.devRef .tc main_arg14) = V (Proc.devRef .tc main_arg14) :=
  (keep_11 (V10 V) main_arg14 (by decide)).trans (f10_main_arg14 V)
theorem f11_main_arg15 (V : Valuation τ sig (Elt F)) : V11 V (Proc.devRef .tc main_arg15) = V (Proc.devRef .tc main_arg15) :=
  (keep_11 (V10 V) main_arg15 (by decide)).trans (f10_main_arg15 V)
theorem f11_main_arg16 (V : Valuation τ sig (Elt F)) : V11 V (Proc.devRef .tc main_arg16) = V (Proc.devRef .tc main_arg16) :=
  (keep_11 (V10 V) main_arg16 (by decide)).trans (f10_main_arg16 V)
theorem f11_main_v38 (V : Valuation τ sig (Elt F)) : V11 V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) :=
  (keep_11 (V10 V) main_v38 (by decide)).trans (f10_main_v38 V)
theorem f11_main_v64 (V : Valuation τ sig (Elt F)) : V11 V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) :=
  (keep_11 (V10 V) main_v64 (by decide)).trans (f10_main_v64 V)
theorem f11_main_v106 (V : Valuation τ sig (Elt F)) : V11 V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_11 (V10 V) main_v106 (by decide)).trans (f10_main_v106 V)
theorem f11_main_v132 (V : Valuation τ sig (Elt F)) : V11 V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) :=
  (keep_11 (V10 V) main_v132 (by decide)).trans (f10_main_v132 V)
theorem f11_main_v179 (V : Valuation τ sig (Elt F)) : V11 V (Proc.devRef .tc main_v179) = ReadP.val_main_v179 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_11 (V10 V) main_v179 (by decide)).trans (f10_main_v179 V)
theorem f11_main_v210 (V : Valuation τ sig (Elt F)) : V11 V (Proc.devRef .tc main_v210) = ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_11 (V10 V) main_v210 (by decide)).trans (f10_main_v210 V)
theorem f11_main_v215 (V : Valuation τ sig (Elt F)) : V11 V (Proc.devRef .tc main_v215) = ReadP.val_main_v215 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (keep_11 (V10 V) main_v215 (by decide)).trans (f10_main_v215 V)
theorem f11_main_v216 (V : Valuation τ sig (Elt F)) : V11 V (Proc.devRef .tc main_v216) = ReadP.val_main_v216 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  s11_main_v216 (V10 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (f10_main_v215 V)

/-! ## Each returned buffer after the line: its stage at the arguments' contents -/

theorem read_main_v216 (V : Valuation τ sig (Elt F)) :
    after (ops (F := F)) V (Proc.devRef .tc main_v216) = ReadP.val_main_v216 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact f11_main_v216 V

theorem read_main_v215 (V : Valuation τ sig (Elt F)) :
    after (ops (F := F)) V (Proc.devRef .tc main_v215) = ReadP.val_main_v215 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact f11_main_v215 V

theorem read_main_v38 (V : Valuation τ sig (Elt F)) :
    after (ops (F := F)) V (Proc.devRef .tc main_v38) = ReadP.val_main_v38 (F := F) (V (Proc.devRef .tc main_arg0)) (V (Proc.devRef .tc main_arg3)) (V (Proc.devRef .tc main_arg4)) (V (Proc.devRef .tc main_arg11)) (V (Proc.devRef .tc main_arg12)) := by
  rw [after_ops]; exact f11_main_v38 V

theorem read_main_v64 (V : Valuation τ sig (Elt F)) :
    after (ops (F := F)) V (Proc.devRef .tc main_v64) = ReadP.val_main_v64 (F := F) (V (Proc.devRef .tc main_arg0)) (V (Proc.devRef .tc main_arg3)) (V (Proc.devRef .tc main_arg4)) (V (Proc.devRef .tc main_arg11)) (V (Proc.devRef .tc main_arg12)) := by
  rw [after_ops]; exact f11_main_v64 V

theorem read_main_v106 (V : Valuation τ sig (Elt F)) :
    after (ops (F := F)) V (Proc.devRef .tc main_v106) = ReadP.val_main_v106 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) := by
  rw [after_ops]; exact f11_main_v106 V

theorem read_main_v132 (V : Valuation τ sig (Elt F)) :
    after (ops (F := F)) V (Proc.devRef .tc main_v132) = ReadP.val_main_v132 (F := F) (V (Proc.devRef .tc main_arg0)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) := by
  rw [after_ops]; exact f11_main_v132 V

theorem read_main_v179 (V : Valuation τ sig (Elt F)) :
    after (ops (F := F)) V (Proc.devRef .tc main_v179) = ReadP.val_main_v179 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact f11_main_v179 V

theorem read_main_v210 (V : Valuation τ sig (Elt F)) :
    after (ops (F := F)) V (Proc.devRef .tc main_v210) = ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact f11_main_v210 V

/-! ## No operation writes an argument buffer -/

theorem keep_main_arg0 (V : Valuation τ sig (Elt F)) :
    after (ops (F := F)) V (Proc.devRef .tc main_arg0) = V (Proc.devRef .tc main_arg0) := by
  rw [after_ops]; exact f11_main_arg0 V

theorem keep_main_arg1 (V : Valuation τ sig (Elt F)) :
    after (ops (F := F)) V (Proc.devRef .tc main_arg1) = V (Proc.devRef .tc main_arg1) := by
  rw [after_ops]; exact f11_main_arg1 V

theorem keep_main_arg2 (V : Valuation τ sig (Elt F)) :
    after (ops (F := F)) V (Proc.devRef .tc main_arg2) = V (Proc.devRef .tc main_arg2) := by
  rw [after_ops]; exact f11_main_arg2 V

theorem keep_main_arg3 (V : Valuation τ sig (Elt F)) :
    after (ops (F := F)) V (Proc.devRef .tc main_arg3) = V (Proc.devRef .tc main_arg3) := by
  rw [after_ops]; exact f11_main_arg3 V

theorem keep_main_arg4 (V : Valuation τ sig (Elt F)) :
    after (ops (F := F)) V (Proc.devRef .tc main_arg4) = V (Proc.devRef .tc main_arg4) := by
  rw [after_ops]; exact f11_main_arg4 V

theorem keep_main_arg5 (V : Valuation τ sig (Elt F)) :
    after (ops (F := F)) V (Proc.devRef .tc main_arg5) = V (Proc.devRef .tc main_arg5) := by
  rw [after_ops]; exact f11_main_arg5 V

theorem keep_main_arg6 (V : Valuation τ sig (Elt F)) :
    after (ops (F := F)) V (Proc.devRef .tc main_arg6) = V (Proc.devRef .tc main_arg6) := by
  rw [after_ops]; exact f11_main_arg6 V

theorem keep_main_arg7 (V : Valuation τ sig (Elt F)) :
    after (ops (F := F)) V (Proc.devRef .tc main_arg7) = V (Proc.devRef .tc main_arg7) := by
  rw [after_ops]; exact f11_main_arg7 V

theorem keep_main_arg8 (V : Valuation τ sig (Elt F)) :
    after (ops (F := F)) V (Proc.devRef .tc main_arg8) = V (Proc.devRef .tc main_arg8) := by
  rw [after_ops]; exact f11_main_arg8 V

theorem keep_main_arg9 (V : Valuation τ sig (Elt F)) :
    after (ops (F := F)) V (Proc.devRef .tc main_arg9) = V (Proc.devRef .tc main_arg9) := by
  rw [after_ops]; exact f11_main_arg9 V

theorem keep_main_arg10 (V : Valuation τ sig (Elt F)) :
    after (ops (F := F)) V (Proc.devRef .tc main_arg10) = V (Proc.devRef .tc main_arg10) := by
  rw [after_ops]; exact f11_main_arg10 V

theorem keep_main_arg11 (V : Valuation τ sig (Elt F)) :
    after (ops (F := F)) V (Proc.devRef .tc main_arg11) = V (Proc.devRef .tc main_arg11) := by
  rw [after_ops]; exact f11_main_arg11 V

theorem keep_main_arg12 (V : Valuation τ sig (Elt F)) :
    after (ops (F := F)) V (Proc.devRef .tc main_arg12) = V (Proc.devRef .tc main_arg12) := by
  rw [after_ops]; exact f11_main_arg12 V

theorem keep_main_arg13 (V : Valuation τ sig (Elt F)) :
    after (ops (F := F)) V (Proc.devRef .tc main_arg13) = V (Proc.devRef .tc main_arg13) := by
  rw [after_ops]; exact f11_main_arg13 V

theorem keep_main_arg14 (V : Valuation τ sig (Elt F)) :
    after (ops (F := F)) V (Proc.devRef .tc main_arg14) = V (Proc.devRef .tc main_arg14) := by
  rw [after_ops]; exact f11_main_arg14 V

theorem keep_main_arg15 (V : Valuation τ sig (Elt F)) :
    after (ops (F := F)) V (Proc.devRef .tc main_arg15) = V (Proc.devRef .tc main_arg15) := by
  rw [after_ops]; exact f11_main_arg15 V

theorem keep_main_arg16 (V : Valuation τ sig (Elt F)) :
    after (ops (F := F)) V (Proc.devRef .tc main_arg16) = V (Proc.devRef .tc main_arg16) := by
  rw [after_ops]; exact f11_main_arg16 V

/-! ## Every operation determines its results -/

theorem ops_1_fresh : (ops_1 : List (HloOp τ sig (Elt F))).Forall fun op => op.fresh = ∅ := by
  simp only [ops_1, List.Forall]; repeat' constructor
theorem ops_2_fresh : (ops_2 : List (HloOp τ sig (Elt F))).Forall fun op => op.fresh = ∅ := by
  simp only [ops_2, List.Forall]; repeat' constructor
theorem ops_3_fresh : (ops_3 : List (HloOp τ sig (Elt F))).Forall fun op => op.fresh = ∅ := by
  simp only [ops_3, List.Forall]; repeat' constructor
theorem ops_4_fresh : (ops_4 : List (HloOp τ sig (Elt F))).Forall fun op => op.fresh = ∅ := by
  simp only [ops_4, List.Forall]; repeat' constructor
theorem ops_5_fresh : (ops_5 : List (HloOp τ sig (Elt F))).Forall fun op => op.fresh = ∅ := by
  simp only [ops_5, List.Forall]; repeat' constructor
theorem ops_6_fresh : (ops_6 : List (HloOp τ sig (Elt F))).Forall fun op => op.fresh = ∅ := by
  simp only [ops_6, List.Forall]; repeat' constructor
theorem ops_7_fresh : (ops_7 : List (HloOp τ sig (Elt F))).Forall fun op => op.fresh = ∅ := by
  simp only [ops_7, List.Forall]; repeat' constructor
theorem ops_8_fresh : (ops_8 : List (HloOp τ sig (Elt F))).Forall fun op => op.fresh = ∅ := by
  simp only [ops_8, List.Forall]; repeat' constructor
theorem ops_9_fresh : (ops_9 : List (HloOp τ sig (Elt F))).Forall fun op => op.fresh = ∅ := by
  simp only [ops_9, List.Forall]; repeat' constructor
theorem ops_10_fresh : (ops_10 : List (HloOp τ sig (Elt F))).Forall fun op => op.fresh = ∅ := by
  simp only [ops_10, List.Forall]; repeat' constructor
theorem ops_11_fresh : (ops_11 : List (HloOp τ sig (Elt F))).Forall fun op => op.fresh = ∅ := by
  simp only [ops_11, List.Forall]; repeat' constructor
theorem ops_fresh : ∀ op ∈ (ops : List (HloOp τ sig (Elt F))), op.fresh = ∅ :=
  List.forall_iff_forall_mem.mp (List.forall_append.mpr ⟨ops_1_fresh, List.forall_append.mpr ⟨ops_2_fresh, List.forall_append.mpr ⟨ops_3_fresh, List.forall_append.mpr ⟨ops_4_fresh, List.forall_append.mpr ⟨ops_5_fresh, List.forall_append.mpr ⟨ops_6_fresh, List.forall_append.mpr ⟨ops_7_fresh, List.forall_append.mpr ⟨ops_8_fresh, List.forall_append.mpr ⟨ops_9_fresh, List.forall_append.mpr ⟨ops_10_fresh, ops_11_fresh⟩⟩⟩⟩⟩⟩⟩⟩⟩⟩)

/-! ## The run -/

set_option maxRecDepth 8192 in
/-- On every device, for any float values, from any memory with zero counters: every weakly fair execution of @main
    terminates with each returned buffer at its stage of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v216) = ReadP.val_main_v216 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v215) = ReadP.val_main_v215 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v38) = ReadP.val_main_v38 (F := F) (m ((c.tc : Thread nD τ).loc main_arg0)) (m ((c.tc : Thread nD τ).loc main_arg3)) (m ((c.tc : Thread nD τ).loc main_arg4)) (m ((c.tc : Thread nD τ).loc main_arg11)) (m ((c.tc : Thread nD τ).loc main_arg12))
      ∧ r.2.mem ((c.tc : Thread nD τ).loc main_v64) = ReadP.val_main_v64 (F := F) (m ((c.tc : Thread nD τ).loc main_arg0)) (m ((c.tc : Thread nD τ).loc main_arg3)) (m ((c.tc : Thread nD τ).loc main_arg4)) (m ((c.tc : Thread nD τ).loc main_arg11)) (m ((c.tc : Thread nD τ).loc main_arg12))
      ∧ r.2.mem ((c.tc : Thread nD τ).loc main_v106) = ReadP.val_main_v106 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v132) = ReadP.val_main_v132 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v179) = ReadP.val_main_v179 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v210) = ReadP.val_main_v210 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v216).trans (read_main_v216 (launchContents m c)),
      (h c main_v215).trans (read_main_v215 (launchContents m c)),
      (h c main_v38).trans (read_main_v38 (launchContents m c)),
      (h c main_v64).trans (read_main_v64 (launchContents m c)),
      (h c main_v106).trans (read_main_v106 (launchContents m c)),
      (h c main_v132).trans (read_main_v132 (launchContents m c)),
      (h c main_v179).trans (read_main_v179 (launchContents m c)),
      (h c main_v210).trans (read_main_v210 (launchContents m c)),
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c)),
      (h c main_arg7).trans (keep_main_arg7 (launchContents m c)),
      (h c main_arg8).trans (keep_main_arg8 (launchContents m c)),
      (h c main_arg9).trans (keep_main_arg9 (launchContents m c)),
      (h c main_arg10).trans (keep_main_arg10 (launchContents m c)),
      (h c main_arg11).trans (keep_main_arg11 (launchContents m c)),
      (h c main_arg12).trans (keep_main_arg12 (launchContents m c)),
      (h c main_arg13).trans (keep_main_arg13 (launchContents m c)),
      (h c main_arg14).trans (keep_main_arg14 (launchContents m c)),
      (h c main_arg15).trans (keep_main_arg15 (launchContents m c)),
      (h c main_arg16).trans (keep_main_arg16 (launchContents m c))⟩)
    (run_seq scopedRefs_eq scopedSems_eq defs main (fun _ => ops) main_eq (fun _ => ops_sub) m ρ (fun _ => ops_fresh))

end Cert.ReferenceIdeal.RefValue

namespace Cert.Proof.RefClaims

open Idealize.ShloMosaic Idealize.SL.Sem

/-- The reference runs and leaves its seventeen argument arrays unchanged: the run above, the returned buffers' values dropped. -/
theorem frame_ri : Cert.frame_ReferenceIdeal := fun m ρ _ =>
  (θ_run Cert.ReferenceIdeal.defs _ _).mono (fun _ h c => (h c).2.2.2.2.2.2.2.2) (Cert.ReferenceIdeal.RefValue.run (F := Ideal) m ρ)

end Cert.Proof.RefClaims

end
-- ==== Proof.Frames.lean ====
/-
  The three frame claims. The printed kernel and its idealised print run to the end with their argument arrays
  unchanged by the run of @main over its items (four host stretches, three kernel regions, two host stretches), at
  the word-level and at the ideal instance; the reference, a host program with no kernel, by its run with the results
  dropped. None of the three needs the precondition.
-/
import proofs.«130870_j71201967833887_2_alg».proof.Defs
import proofs.«130870_j71201967833887_2_alg».proof.Proof.K_Halves
import proofs.«130870_j71201967833887_2_alg».proof.Proof.KI_Halves
import proofs.«130870_j71201967833887_2_alg».proof.Proof.RefRun

noncomputable section

namespace Cert.Proof.Parts

open Idealize.ShloMosaic Idealize.SL.Sem

theorem frame_K : Cert.frame_Kernel := fun m ρ _ =>
  Cert.Kernel.Run.frame (F := Bits) Cert.Kernel.Halves.h0 Cert.Kernel.Halves.h1 Cert.Kernel.Halves.h2 m ρ

theorem frame_KI : Cert.frame_KernelIdeal := fun m ρ _ =>
  Cert.KernelIdeal.Run.frame (F := Ideal) Cert.KernelIdeal.Halves.h0 Cert.KernelIdeal.Halves.h1 Cert.KernelIdeal.Halves.h2 m ρ

theorem frame_RI : Cert.frame_ReferenceIdeal := Cert.Proof.RefClaims.frame_ri

end Cert.Proof.Parts

end
-- ==== Proof.Preserves.lean ====
/-
  The idealization ledger. The idealized print differs from the printed kernel at twelve sites: five where a
  value's sign is taken by copying its sign bit onto the pattern of 1.0 (read at the extended reals as "-1 below
  zero, +1 otherwise"), and seven where a value is rounded to the 16-bit format and widened back (the identity
  at the extended reals). Each site's rule is stated once per shape and format; the conjunction below lists
  them in the order of the ledger.
-/
import proofs.«130870_j71201967833887_2_alg».proof.Defs

namespace Cert.Proof.Parts

open Idealize.ShloMosaic

theorem preserves : Cert.preserves_Kernel_KernelIdeal :=
  ⟨IdealRules.sign_bit.statement Cert.KernelIdeal.S1024x896 .f32,
   IdealRules.truncf_extf.statement Cert.KernelIdeal.S512x896 .f32 .bf16,
   IdealRules.truncf_extf.statement Cert.KernelIdeal.S512x896 .f32 .bf16,
   IdealRules.truncf_extf.statement Cert.KernelIdeal.S1024x896 .f32 .bf16,
   IdealRules.sign_bit.statement Cert.KernelIdeal.S512x1024 .f32,
   IdealRules.sign_bit.statement Cert.KernelIdeal.S768x768 .f32,
   IdealRules.truncf_extf.statement Cert.KernelIdeal.S512x768 .f32 .bf16,
   IdealRules.truncf_extf.statement Cert.KernelIdeal.S768x768 .f32 .bf16,
   IdealRules.sign_bit.statement Cert.KernelIdeal.S512x768 .f32,
   IdealRules.sign_bit.statement Cert.KernelIdeal.S768x768 .f32,
   IdealRules.truncf_extf.statement Cert.KernelIdeal.S512x768 .f32 .bf16,
   IdealRules.truncf_extf.statement Cert.KernelIdeal.S768x768 .f32 .bf16⟩

end Cert.Proof.Parts
-- ==== Proof.KI_Results.lean ====
/-
  The idealised kernel's run with every result named: each of the eight result buffers ends at the last valuation of
  the run read at that buffer, and each argument ends as launched.
-/
import proofs.«130870_j71201967833887_2_alg».proof.Proof.KI_Halves
import Idealize.ShloMosaic.PureOps.Ideal

noncomputable section

namespace Cert.KernelIdeal.Results

open Cert.KernelIdeal Cert.KernelIdeal.Gen Cert.KernelIdeal.Run Cert.KernelIdeal.Halves
open Idealize.ShloMosaic Idealize.ShloMosaic.TcCoe Idealize.SL.Sem

variable (m : (ℓ : Loc nD τ sig) → Buf (Elt Ideal) ℓ) (ρ : Dev nD → PrngReg)

/-- The last valuation, at the three halves of this program. -/
abbrev V9 (c : Dev nD) : Valuation τ sig (Elt Ideal) := W9 (F := Ideal) h0 h1 h2 m c

theorem run : θ_run (defs (F := Ideal)) (onTc (τ := τ) (main (F := Ideal))) ⟨m, fun _ => 0, ρ⟩ (fun r => ∀ c : Dev nD,
      r.2.mem ((c.tc : Thread nD τ).loc main_v10) = V9 m c main_v10
      ∧ r.2.mem ((c.tc : Thread nD τ).loc main_v9) = V9 m c main_v9
      ∧ r.2.mem ((c.tc : Thread nD τ).loc main_v2_0) = V9 m c main_v2_0
      ∧ r.2.mem ((c.tc : Thread nD τ).loc main_v2_1) = V9 m c main_v2_1
      ∧ r.2.mem ((c.tc : Thread nD τ).loc main_v3_0) = V9 m c main_v3_0
      ∧ r.2.mem ((c.tc : Thread nD τ).loc main_v3_1) = V9 m c main_v3_1
      ∧ r.2.mem ((c.tc : Thread nD τ).loc main_v4_0) = V9 m c main_v4_0
      ∧ r.2.mem ((c.tc : Thread nD τ).loc main_v4_1) = V9 m c main_v4_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v10 (by decide)),
     h c _ (mem_uc main_v9 (by decide)),
     h c _ (mem_uc main_v2_0 (by decide)),
     h c _ (mem_uc main_v2_1 (by decide)),
     h c _ (mem_uc main_v3_0 (by decide)),
     h c _ (mem_uc main_v3_1 (by decide)),
     h c _ (mem_uc main_v4_0 (by decide)),
     h c _ (mem_uc main_v4_1 (by decide)),
     (h c _ (mem_uc main_arg0 (by decide))).trans (W9_launch h0 h1 h2 m c main_arg0 (by decide) (by decide) (by decide) (by decide) (by decide) (by decide) (by decide) (by decide) (by decide)),
     (h c _ (mem_uc main_arg1 (by decide))).trans (W9_launch h0 h1 h2 m c main_arg1 (by decide) (by decide) (by decide) (by decide) (by decide) (by decide) (by decide) (by decide) (by decide)),
     (h c _ (mem_uc main_arg2 (by decide))).trans (W9_launch h0 h1 h2 m c main_arg2 (by decide) (by decide) (by decide) (by decide) (by decide) (by decide) (by decide) (by decide) (by decide)),
     (h c _ (mem_uc main_arg3 (by decide))).trans (W9_launch h0 h1 h2 m c main_arg3 (by decide) (by decide) (by decide) (by decide) (by decide) (by decide) (by decide) (by decide) (by decide)),
     (h c _ (mem_uc main_arg4 (by decide))).trans (W9_launch h0 h1 h2 m c main_arg4 (by decide) (by decide) (by decide) (by decide) (by decide) (by decide) (by decide) (by decide) (by decide)),
     (h c _ (mem_uc main_arg5 (by decide))).trans (W9_launch h0 h1 h2 m c main_arg5 (by decide) (by decide) (by decide) (by decide) (by decide) (by decide) (by decide) (by decide) (by decide)),
     (h c _ (mem_uc main_arg6 (by decide))).trans (W9_launch h0 h1 h2 m c main_arg6 (by decide) (by decide) (by decide) (by decide) (by decide) (by decide) (by decide) (by decide) (by decide)),
     (h c _ (mem_uc main_arg7 (by decide))).trans (W9_launch h0 h1 h2 m c main_arg7 (by decide) (by decide) (by decide) (by decide) (by decide) (by decide) (by decide) (by decide) (by decide)),
     (h c _ (mem_uc main_arg8 (by decide))).trans (W9_launch h0 h1 h2 m c main_arg8 (by decide) (by decide) (by decide) (by decide) (by decide) (by decide) (by decide) (by decide) (by decide)),
     (h c _ (mem_uc main_arg9 (by decide))).trans (W9_launch h0 h1 h2 m c main_arg9 (by decide) (by decide) (by decide) (by decide) (by decide) (by decide) (by decide) (by decide) (by decide)),
     (h c _ (mem_uc main_arg10 (by decide))).trans (W9_launch h0 h1 h2 m c main_arg10 (by decide) (by decide) (by decide) (by decide) (by decide) (by decide) (by decide) (by decide) (by decide)),
     (h c _ (mem_uc main_arg11 (by decide))).trans (W9_launch h0 h1 h2 m c main_arg11 (by decide) (by decide) (by decide) (by decide) (by decide) (by decide) (by decide) (by decide) (by decide)),
     (h c _ (mem_uc main_arg12 (by decide))).trans (W9_launch h0 h1 h2 m c main_arg12 (by decide) (by decide) (by decide) (by decide) (by decide) (by decide) (by decide) (by decide) (by decide)),
     (h c _ (mem_uc main_arg13 (by decide))).trans (W9_launch h0 h1 h2 m c main_arg13 (by decide) (by decide) (by decide) (by decide) (by decide) (by decide) (by decide) (by decide) (by decide)),
     (h c _ (mem_uc main_arg14 (by decide))).trans (W9_launch h0 h1 h2 m c main_arg14 (by decide) (by decide) (by decide) (by decide) (by decide) (by decide) (by decide) (by decide) (by decide)),
     (h c _ (mem_uc main_arg15 (by decide))).trans (W9_launch h0 h1 h2 m c main_arg15 (by decide) (by decide) (by decide) (by decide) (by decide) (by decide) (by decide) (by decide) (by decide)),
     (h c _ (mem_uc main_arg16 (by decide))).trans (W9_launch h0 h1 h2 m c main_arg16 (by decide) (by decide) (by decide) (by decide) (by decide) (by decide) (by decide) (by decide) (by decide))⟩)
    (run_main (F := Ideal) h0 h1 h2 m ρ)

end Cert.KernelIdeal.Results

end
-- ==== Proof.KI_Chain.lean ====
/-
  Where each buffer that the value argument reads sits in the chain of valuations: a result of region 0 is still what
  region 0 left when the run ends (regions 1 and 2 only read it, the host tail does not touch it), and so on down the
  chain; an argument array is the launch array at every stage.
-/
import proofs.«130870_j71201967833887_2_alg».proof.Proof.KI_Results

noncomputable section

namespace Cert.KernelIdeal.Chain

open Cert.KernelIdeal Cert.KernelIdeal.Gen Cert.KernelIdeal.Run Cert.KernelIdeal.Halves Cert.KernelIdeal.Results
open Idealize.ShloMosaic Idealize.ShloMosaic.TcCoe Idealize.SL.Sem

variable (m : (ℓ : Loc nD τ sig) → Buf (Elt Ideal) ℓ) (c : Dev nD)

abbrev X4 : Valuation τ sig (Elt Ideal) := W4 (F := Ideal) m c
abbrev X5 : Valuation τ sig (Elt Ideal) := W5 (F := Ideal) h0 m c
abbrev X6 : Valuation τ sig (Elt Ideal) := W6 (F := Ideal) h0 h1 m c
abbrev X7 : Valuation τ sig (Elt Ideal) := W7 (F := Ideal) h0 h1 h2 m c
abbrev X8 : Valuation τ sig (Elt Ideal) := W8 (F := Ideal) h0 h1 h2 m c

/-- No host stretch before the regions writes `b`. -/
theorem X4_launch (b : Ref sig .tc) (h0' : b ∉ hostOps0_W) (h1' : b ∉ hostOps0_1_W) (h2' : b ∉ hostOps0_2_W) (h3' : b ∉ hostOps0_3_W) :
    X4 m c b = m ((c : Thread nD τ).loc b) :=
  (StableHlo.after_of_writes_sub hostOps0_3 _ hostOps0_3_writes h3').trans <|
  (StableHlo.after_of_writes_sub hostOps0_2 _ hostOps0_2_writes h2').trans <|
  (StableHlo.after_of_writes_sub hostOps0_1 _ hostOps0_1_writes h1').trans <|
  (StableHlo.after_of_writes_sub hostOps0 _ hostOps0_writes h0').trans rfl

theorem X5_keep (b : Ref sig .tc) (hb : ∀ w : Fin cfg0.W, (cfg0.win w).isOut = true → Pipeline.arrRef spec0 w ≠ b) : X5 m c b = X4 m c b :=
  W5_keep h0 m c b hb
theorem X6_keep (b : Ref sig .tc) (hb : ∀ w : Fin cfg1.W, (cfg1.win w).isOut = true → Pipeline.arrRef spec1 w ≠ b) : X6 m c b = X5 m c b :=
  W6_keep h0 h1 m c b hb
theorem X7_keep (b : Ref sig .tc) (hb : ∀ w : Fin cfg2.W, (cfg2.win w).isOut = true → Pipeline.arrRef spec2 w ≠ b) : X7 m c b = X6 m c b :=
  W7_keep h0 h1 h2 m c b hb
theorem X8_keep (b : Ref sig .tc) (h : b ∉ hostOps3_W) : X8 m c b = X7 m c b :=
  StableHlo.after_of_writes_sub hostOps3 _ hostOps3_writes h
theorem V9_keep (b : Ref sig .tc) (h : b ∉ hostOps3_1_W) : V9 m c b = X8 m c b :=
  StableHlo.after_of_writes_sub hostOps3_1 _ hostOps3_1_writes h

/-! The arguments the regions and the tail read, at the stage where they are read. -/
theorem X4_arg4 : X4 m c main_arg4 = m ((c : Thread nD τ).loc main_arg4) := X4_launch m c _ (by decide) (by decide) (by decide) (by decide)
theorem X4_arg11 : X4 m c main_arg11 = m ((c : Thread nD τ).loc main_arg11) := X4_launch m c _ (by decide) (by decide) (by decide) (by decide)
theorem X4_arg12 : X4 m c main_arg12 = m ((c : Thread nD τ).loc main_arg12) := X4_launch m c _ (by decide) (by decide) (by decide) (by decide)
theorem X5_arg5 : X5 m c main_arg5 = m ((c : Thread nD τ).loc main_arg5) := (X5_keep m c _ (by decide)).trans (X4_launch m c _ (by decide) (by decide) (by decide) (by decide))
theorem X5_arg6 : X5 m c main_arg6 = m ((c : Thread nD τ).loc main_arg6) := (X5_keep m c _ (by decide)).trans (X4_launch m c _ (by decide) (by decide) (by decide) (by decide))
theorem X5_arg13 : X5 m c main_arg13 = m ((c : Thread nD τ).loc main_arg13) := (X5_keep m c _ (by decide)).trans (X4_launch m c _ (by decide) (by decide) (by decide) (by decide))
theorem X5_arg14 : X5 m c main_arg14 = m ((c : Thread nD τ).loc main_arg14) := (X5_keep m c _ (by decide)).trans (X4_launch m c _ (by decide) (by decide) (by decide) (by decide))
theorem X6_arg7 : X6 m c main_arg7 = m ((c : Thread nD τ).loc main_arg7) := (X6_keep m c _ (by decide)).trans ((X5_keep m c _ (by decide)).trans (X4_launch m c _ (by decide) (by decide) (by decide) (by decide)))
theorem X6_arg8 : X6 m c main_arg8 = m ((c : Thread nD τ).loc main_arg8) := (X6_keep m c _ (by decide)).trans ((X5_keep m c _ (by decide)).trans (X4_launch m c _ (by decide) (by decide) (by decide) (by decide)))
theorem X6_arg15 : X6 m c main_arg15 = m ((c : Thread nD τ).loc main_arg15) := (X6_keep m c _ (by decide)).trans ((X5_keep m c _ (by decide)).trans (X4_launch m c _ (by decide) (by decide) (by decide) (by decide)))
theorem X6_arg16 : X6 m c main_arg16 = m ((c : Thread nD τ).loc main_arg16) := (X6_keep m c _ (by decide)).trans ((X5_keep m c _ (by decide)).trans (X4_launch m c _ (by decide) (by decide) (by decide) (by decide)))
theorem X6_arg1 : X6 m c main_arg1 = m ((c : Thread nD τ).loc main_arg1) := (X6_keep m c _ (by decide)).trans ((X5_keep m c _ (by decide)).trans (X4_launch m c _ (by decide) (by decide) (by decide) (by decide)))
theorem X6_arg2 : X6 m c main_arg2 = m ((c : Thread nD τ).loc main_arg2) := (X6_keep m c _ (by decide)).trans ((X5_keep m c _ (by decide)).trans (X4_launch m c _ (by decide) (by decide) (by decide) (by decide)))
theorem X7_arg9 : X7 m c main_arg9 = m ((c : Thread nD τ).loc main_arg9) := (X7_keep m c _ (by decide)).trans ((X6_keep m c _ (by decide)).trans ((X5_keep m c _ (by decide)).trans (X4_launch m c _ (by decide) (by decide) (by decide) (by decide))))
theorem X7_arg10 : X7 m c main_arg10 = m ((c : Thread nD τ).loc main_arg10) := (X7_keep m c _ (by decide)).trans ((X6_keep m c _ (by decide)).trans ((X5_keep m c _ (by decide)).trans (X4_launch m c _ (by decide) (by decide) (by decide) (by decide))))

/-! The regions' outputs, where they are written and where they are read. -/
theorem X5_v2_0 : X5 m c main_v2_0 = (R0.dat (F := Ideal) (E0 m) c).arrAt 5 cfg0.N := W5_arr h0 m c 5
theorem X5_v2_1 : X5 m c main_v2_1 = (R0.dat (F := Ideal) (E0 m) c).arrAt 6 cfg0.N := W5_arr h0 m c 6
theorem X5_v2_2 : X5 m c main_v2_2 = (R0.dat (F := Ideal) (E0 m) c).arrAt 7 cfg0.N := W5_arr h0 m c 7
theorem X6_v3_0 : X6 m c main_v3_0 = (R1.dat (F := Ideal) (E1 h0 m) c).arrAt 6 cfg1.N := W6_arr h0 h1 m c 6
theorem X6_v3_1 : X6 m c main_v3_1 = (R1.dat (F := Ideal) (E1 h0 m) c).arrAt 7 cfg1.N := W6_arr h0 h1 m c 7
theorem X6_v3_2 : X6 m c main_v3_2 = (R1.dat (F := Ideal) (E1 h0 m) c).arrAt 8 cfg1.N := W6_arr h0 h1 m c 8
theorem X7_v4_0 : X7 m c main_v4_0 = (R2.dat (F := Ideal) (E2 h0 h1 m) c).arrAt 8 cfg2.N := W7_arr h0 h1 h2 m c 8
theorem X7_v4_1 : X7 m c main_v4_1 = (R2.dat (F := Ideal) (E2 h0 h1 m) c).arrAt 9 cfg2.N := W7_arr h0 h1 h2 m c 9

/-- The results at the end of the run are what their regions left. -/
theorem V9_v2_0 : V9 m c main_v2_0 = X5 m c main_v2_0 :=
  (V9_keep m c _ (by decide)).trans ((X8_keep m c _ (by decide)).trans ((X7_keep m c _ (by decide)).trans (X6_keep m c _ (by decide))))
theorem V9_v2_1 : V9 m c main_v2_1 = X5 m c main_v2_1 :=
  (V9_keep m c _ (by decide)).trans ((X8_keep m c _ (by decide)).trans ((X7_keep m c _ (by decide)).trans (X6_keep m c _ (by decide))))
theorem V9_v3_0 : V9 m c main_v3_0 = X6 m c main_v3_0 :=
  (V9_keep m c _ (by decide)).trans ((X8_keep m c _ (by decide)).trans (X7_keep m c _ (by decide)))
theorem V9_v3_1 : V9 m c main_v3_1 = X6 m c main_v3_1 :=
  (V9_keep m c _ (by decide)).trans ((X8_keep m c _ (by decide)).trans (X7_keep m c _ (by decide)))
theorem V9_v4_0 : V9 m c main_v4_0 = X7 m c main_v4_0 := (V9_keep m c _ (by decide)).trans (X8_keep m c _ (by decide))
theorem V9_v4_1 : V9 m c main_v4_1 = X7 m c main_v4_1 := (V9_keep m c _ (by decide)).trans (X8_keep m c _ (by decide))
theorem V9_v9 : V9 m c main_v9 = X8 m c main_v9 := V9_keep m c _ (by decide)
/-- Region 1 reads the second and third outputs of region 0 where region 0 left them, and region 2 those of region 1. -/
theorem X6_v2_1 : X6 m c main_v2_1 = X5 m c main_v2_1 := X6_keep m c _ (by decide)
theorem X7_v3_1 : X7 m c main_v3_1 = X6 m c main_v3_1 := X7_keep m c _ (by decide)

end Cert.KernelIdeal.Chain

end
-- ==== Proof.LibBnSpec.lean ====
/-
  Batch normalisation over a column of 512 extended reals, then clipping to [-1, 1]: the two spellings that meet in
  this network, and the law that joins them.

  For a column `a : Fin 512 → EReal`, the mean is `(Σ a) / 512` and the (biased) variance the mean of the squared
  deviations. One spelling scales the deviation by the quotient `· / √(var + ε)`, the other by the product
  `· * rsqrt(var + ε)`. On the extended reals `x / √y = x * rsqrt y` holds for every `x` as soon as `0 < y`
  (`y = ⊤` included: both sides are `0`), and `var + ε` is positive for EVERY column, infinite entries included,
  because a square is nonnegative on the extended reals, a sum of nonnegatives is nonnegative, dividing by 512 keeps
  the sign and ε is a positive real. So the two spellings are one function, with no finiteness assumption.
-/
import Idealize.ShloMosaic.PureOps.Ideal
import Idealize.ShloMosaic.PureOps.Ideal.Laws

noncomputable section

namespace Cert.LibBnSpec

open Idealize.ShloMosaic

/-- The literals, by the words the programs spell: 0, 512, 1e-5 (as rounded), 1, -1, 0.5. -/
abbrev z32 : EReal := Ideal.ofBits .f32 0x00000000#32
abbrev n512 : EReal := Ideal.ofBits .f32 0x44000000#32
abbrev eps : EReal := Ideal.ofBits .f32 0x3727C5AC#32
abbrev one : EReal := Ideal.ofBits .f32 0x3F800000#32
abbrev mone : EReal := Ideal.ofBits .f32 0xBF800000#32
abbrev half : EReal := Ideal.ofBits .f32 0x3F000000#32

theorem z32_eq : z32 = 0 := by simp [z32, Ideal.ofBits, Ideal.ieee]
theorem n512_eq : n512 = ((512 : ℝ) : EReal) := by
  simp [n512, Ideal.ofBits, Ideal.ieee, -EReal.coe_mul]; norm_num
theorem one_eq : one = ((1 : ℝ) : EReal) := by
  simp [one, Ideal.ofBits, Ideal.ieee, -EReal.coe_mul]; norm_num
theorem mone_eq : mone = ((-1 : ℝ) : EReal) := by
  simp [mone, Ideal.ofBits, Ideal.ieee, -EReal.coe_mul]; norm_num
theorem half_eq : half = ((1 / 2 : ℝ) : EReal) := by
  simp [half, Ideal.ofBits, Ideal.ieee, -EReal.coe_mul]; norm_num
theorem eps_pos : ∃ e : ℝ, 0 < e ∧ eps = (e : EReal) := by
  refine ⟨_, ?_, by simp [eps, Ideal.ofBits, Ideal.ieee, -EReal.coe_mul]; rfl⟩
  norm_num

/-- Mean and variance of a column, the sums started from the zero word (as a host sum is). -/
def mean (a : Fin 512 → EReal) : EReal := Ideal.div (z32 + ∑ p, a p) n512
def var (a : Fin 512 → EReal) : EReal := Ideal.div (z32 + ∑ p, (a p - mean a) * (a p - mean a)) n512
/-- The same with the sums not started from anything (as a lane reduction is). -/
def meanK (a : Fin 512 → EReal) : EReal := Ideal.div (∑ p, a p) n512
def varK (a : Fin 512 → EReal) : EReal := Ideal.div (∑ p, (a p - meanK a) * (a p - meanK a)) n512

theorem meanK_eq (a : Fin 512 → EReal) : meanK a = mean a := by
  unfold meanK mean; rw [z32_eq, zero_add]
theorem varK_eq (a : Fin 512 → EReal) : varK a = var a := by
  unfold varK var; rw [z32_eq, zero_add]; simp only [meanK_eq]

/-- Normalise, scale by `g`, shift by `b`, clip: with the quotient by the square root, -/
def bnclip (g b : EReal) (a : Fin 512 → EReal) (p : Fin 512) : EReal :=
  min one (max mone (Ideal.div (g * (a p - mean a)) (Ideal.sqrt (var a + eps)) + b))
/-- and with the product by the reciprocal square root. -/
def bnclipK (g b : EReal) (a : Fin 512 → EReal) (p : Fin 512) : EReal :=
  min one (max mone (g * (a p - meanK a) * Ideal.rsqrt (varK a + eps) + b))

theorem mul_self_nonneg' (x : EReal) : 0 ≤ x * x := by
  induction x using EReal.rec with
  | bot => simp
  | top => simp
  | coe r => rw [← EReal.coe_mul]; exact_mod_cast mul_self_nonneg r

/-- The variance plus ε is positive, whatever the column holds. -/
theorem var_eps_pos (a : Fin 512 → EReal) : 0 < var a + eps := by
  obtain ⟨e, he, hee⟩ := eps_pos
  have hs : (0 : EReal) ≤ ∑ p, (a p - mean a) * (a p - mean a) :=
    Finset.sum_nonneg fun p _ => mul_self_nonneg' _
  have hv : 0 ≤ var a := by
    unfold var
    rw [z32_eq, zero_add, n512_eq, Ideal.div_coe (by norm_num : (512 : ℝ) ≠ 0)]
    exact mul_nonneg hs (by exact_mod_cast (by norm_num : (0 : ℝ) ≤ 1 / 512))
  rw [hee]
  exact lt_of_lt_of_le (by exact_mod_cast he) (le_add_of_nonneg_left hv)

/-- The product with the reciprocal square root is the quotient by the square root, above zero. -/
theorem mul_rsqrt_eq_div_sqrt (x y : EReal) (hy : 0 < y) : x * Ideal.rsqrt y = Ideal.div x (Ideal.sqrt y) := by
  induction y using EReal.rec with
  | bot => exact absurd hy (not_lt.mpr bot_le)
  | top =>
    show x * 0 = Ideal.div x ⊤
    unfold Ideal.div
    rw [if_neg (by simp), EReal.inv_top]
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le)]
    unfold Ideal.div
    rw [if_neg (by exact_mod_cast hs.ne')]
    congr 1

theorem bnclipK_eq (g b : EReal) (a : Fin 512 → EReal) (p : Fin 512) : bnclipK g b a p = bnclip g b a p := by
  unfold bnclipK bnclip
  rw [meanK_eq, varK_eq, mul_rsqrt_eq_div_sqrt _ _ (var_eps_pos a)]

/-- A clipped value is a real number. -/
theorem clip_real (y : EReal) : ∃ r : ℝ, min one (max mone y) = (r : EReal) := by
  rw [one_eq, mone_eq]
  induction y using EReal.rec with
  | bot => exact ⟨-1, by rw [max_eq_left bot_le, min_eq_right (by exact_mod_cast (by norm_num : (-1 : ℝ) ≤ 1))]⟩
  | top => exact ⟨1, by rw [max_eq_right le_top, min_eq_left le_top]⟩
  | coe r => exact ⟨min 1 (max (-1) r), by push_cast; rfl⟩

theorem bnclip_real (g b : EReal) (a : Fin 512 → EReal) (p : Fin 512) : ∃ r : ℝ, bnclip g b a p = (r : EReal) :=
  clip_real _

/-- On a real, the straight-through sign `w + (sign w - w)` is the sign, and `w - w` is zero. -/
theorem sign_ste (w : EReal) (hw : ∃ r : ℝ, w = (r : EReal)) : w + (Ideal.sign w - w) = Ideal.sign w := by
  obtain ⟨r, rfl⟩ := hw
  rw [Ideal.sign_coe, ← EReal.coe_sub, ← EReal.coe_add]; congr 1; ring
theorem sub_self_real (w : EReal) (hw : ∃ r : ℝ, w = (r : EReal)) : w - w = 0 := by
  obtain ⟨r, rfl⟩ := hw
  rw [← EReal.coe_sub, sub_self, EReal.coe_zero]
theorem sign_real (w : EReal) : ∃ r : ℝ, Ideal.sign w = (r : EReal) := by
  induction w using EReal.rec with
  | bot => exact ⟨-1, by rw [Ideal.sign_bot]; norm_num⟩
  | top => exact ⟨1, by rw [Ideal.sign_top]; norm_num⟩
  | coe r => exact ⟨_, Ideal.sign_coe r⟩

end Cert.LibBnSpec

end
-- ==== Proof.KI_V0_Pay.lean ====
/- The payloads of the first region's body read at an index, at the ideal values: the two matrix products as sums over
   the 896 (padded) columns, the per-column batch statistics as sums over the 512 rows, and the normalised, clipped
   activations in the product-by-reciprocal-square-root spelling. -/
import proofs.«130870_j71201967833887_2_alg».proof.Proof.Gen.KernelIdeal.Skeleton
import proofs.«130870_j71201967833887_2_alg».proof.Proof.LibBnSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.V0

open Cert.KernelIdeal Cert.KernelIdeal.Gen Cert.LibBnSpec
open Idealize.ShloMosaic Idealize.ShloMosaic.ValueIdx

/-- The dot's dimension numbers: rows of the left operand against columns of the right. -/
abbrev D0 : DotDims S512x896 S896x1024 S512x1024 := dot_S512x896_S896x1024_S512x1024_1_0_0_1_n_n

theorem lhs_0 (i : S512x1024.Idx) (q : D0.contr.Idx) : (D0.lhsIdx i q 0).val = (i 0).val := by
  unfold DotDims.lhsIdx
  rw [dif_neg (show ¬(0 : Fin S512x896.rank) ∈ D0.lhsBatch by decide), dif_pos (show (0 : Fin S512x896.rank) ∈ D0.lhsNonContracting by decide)]
  rfl
theorem lhs_1 (i : S512x1024.Idx) (q : D0.contr.Idx) : (D0.lhsIdx i q 1).val = (q ⟨0, by decide⟩).val :=
  D0.lhsIdx_val_of_single rfl i q
theorem rhs_0 (i : S512x1024.Idx) (q : D0.contr.Idx) : (D0.rhsIdx i q 0).val = (q ⟨0, by decide⟩).val :=
  D0.rhsIdx_val_of_single rfl i q
theorem rhs_1 (i : S512x1024.Idx) (q : D0.contr.Idx) : (D0.rhsIdx i q 1).val = (i 1).val := by
  unfold DotDims.rhsIdx
  rw [dif_neg (show ¬(1 : Fin S896x1024.rank) ∈ D0.rhsBatch by decide), dif_pos (show (1 : Fin S896x1024.rank) ∈ D0.rhsNonContracting by decide)]
  rfl

/-- A matrix product into the zero accumulator, at an entry: the sum over the shared axis. -/
theorem matmul_at {φ₁ φ₂ : FTy} (L : FVec Ideal S512x896 φ₁) (R : FVec Ideal S896x1024 φ₂) (p : Fin 512) (j : Fin 1024) :
    FloatOps.matmul D0 none L R (constant S512x1024 .f32 0x00000000#32) (ix2 p j) = ∑ k : Fin 896, L (ix2 p k) * R (ix2 k j) := by
  rw [Ideal.matmul_constant_zero_apply, ← Equiv.sum_comp (contrEquiv1 D0 896 rfl rfl).symm]
  refine Finset.sum_congr rfl fun k _ => ?_
  have hk := contrEquiv1_symm_val D0 896 rfl rfl k
  have el : D0.lhsIdx (ix2 p j) ((contrEquiv1 D0 896 rfl rfl).symm k) = ix2 p k := funext fun a => Fin.ext (by
    match a with
    | ⟨0, _⟩ => exact lhs_0 _ _
    | ⟨1, _⟩ => exact (lhs_1 _ _).trans hk)
  have er : D0.rhsIdx (ix2 p j) ((contrEquiv1 D0 896 rfl rfl).symm k) = ix2 k j := funext fun a => Fin.ext (by
    match a with
    | ⟨0, _⟩ => exact (rhs_0 _ _).trans hk
    | ⟨1, _⟩ => exact rhs_1 _ _)
  rw [el, er]

/-- The source index over column `j` with row `k` put back. -/
theorem lift_at (j : Fin 1024) (k : Fin 512) : reduces_S512x1024_S1024.lift (ix1 j) k = ix2 k j :=
  funext fun c => Fin.ext (by match c with | ⟨0, _⟩ => rfl | ⟨1, _⟩ => rfl)

/-- A sum over the rows, column by column. -/
theorem colsum_fun (src : FVec Ideal S512x1024 .f32) :
    FloatOps.reduceAdd (F := Ideal) [0] reduces_S512x1024_S1024 src = fun i : S1024.Idx => ∑ k : Fin 512, src (ix2 k (i 0)) := by
  funext i
  obtain ⟨j, rfl⟩ : ∃ j : Fin 1024, i = ix1 j := ⟨i 0, eq_ix1 i⟩
  exact (Ideal.reduceAdd_single reduces_S512x1024_S1024 src (ix1 j)).trans (Finset.sum_congr rfl fun k _ => congrArg src (lift_at j k))

/-- The sign matrix of the weights, transposed, at an entry. -/
theorem signT_at (x1 : Vec Ideal S1024x896 .f32) (k : Fin 896) (j : Fin 1024) :
    (transpose S896x1024 [1, 0]
      (truncf (F := Ideal) .bf16 (select (cmpf .ogt (absf (k0_pay4 x1)) (broadcast S1024x896 (Scalar.ofBits .f32 0x00000000#32)))
        (select (cmpf .olt (k0_pay4 x1) (constant S1024x896 .f32 0x00000000#32)) (constant S1024x896 .f32 0xBF800000#32) (constant S1024x896 .f32 0x3F800000#32))
        (k0_pay4 x1)) bitsLt_bf16_f32) transposes_S1024x896_p1_0_S896x1024 : FVec Ideal S896x1024 .bf16) (ix2 k j)
      = Ideal.sign (x1 (ix2 j k)) := by
  rw [transpose_ix2_apply]
  unfold k0_pay4
  rw [shapeCast_self]
  exact Ideal.jnp_sign_eq_sign_f32 (x1 (ix2 j k))

/-- The binary path's product at an entry: the activations against the weights' signs, plus the same with the
    activations' residue `x - x`. -/
theorem pay5_at (x0 : Vec Ideal S512x896 .f32) (x1 : Vec Ideal S1024x896 .f32) (p : Fin 512) (j : Fin 1024) :
    k0_pay5 x0 x1 (ix2 p j)
      = (∑ k : Fin 896, x0 (ix2 p k) * Ideal.sign (x1 (ix2 j k)))
        + ∑ k : Fin 896, (x0 (ix2 p k) - x0 (ix2 p k)) * Ideal.sign (x1 (ix2 j k)) := by
  unfold k0_pay5
  refine congrArg₂ (· + ·) ((matmul_at _ _ p j).trans ?_) ((matmul_at _ _ p j).trans ?_)
  · refine Finset.sum_congr rfl fun k _ => ?_
    rw [signT_at]
    unfold k0_pay3
    rw [shapeCast_self]
    rfl
  · refine Finset.sum_congr rfl fun k _ => ?_
    rw [signT_at]
    unfold k0_pay3
    rw [shapeCast_self]
    rfl

/-- The weights, transposed, at an entry; and their residue `w - w`. -/
theorem wT_at (x1 : Vec Ideal S1024x896 .f32) (k : Fin 896) (j : Fin 1024) :
    (transpose S896x1024 [1, 0] (truncf (F := Ideal) .bf16 (k0_pay4 x1) bitsLt_bf16_f32) transposes_S1024x896_p1_0_S896x1024 : FVec Ideal S896x1024 .bf16) (ix2 k j)
      = x1 (ix2 j k) := by
  rw [transpose_ix2_apply]
  unfold k0_pay4
  rw [shapeCast_self]
  rfl
theorem wrT_at (x1 : Vec Ideal S1024x896 .f32) (k : Fin 896) (j : Fin 1024) :
    (transpose S896x1024 [1, 0] (truncf (F := Ideal) .bf16 (subf (k0_pay4 x1) (k0_pay4 x1)) bitsLt_bf16_f32) transposes_S1024x896_p1_0_S896x1024 : FVec Ideal S896x1024 .bf16) (ix2 k j)
      = x1 (ix2 j k) - x1 (ix2 j k) := by
  rw [transpose_ix2_apply]
  unfold k0_pay4
  rw [shapeCast_self]
  rfl

/-- The real path's product at an entry: the activations against the weights, against the weights' residue, and the
    activations' residue against the weights. -/
theorem pay6_at (x0 : Vec Ideal S512x896 .f32) (x1 : Vec Ideal S1024x896 .f32) (p : Fin 512) (j : Fin 1024) :
    k0_pay6 x0 x1 (ix2 p j)
      = ((∑ k : Fin 896, x0 (ix2 p k) * x1 (ix2 j k))
          + ∑ k : Fin 896, x0 (ix2 p k) * (x1 (ix2 j k) - x1 (ix2 j k)))
        + ∑ k : Fin 896, (x0 (ix2 p k) - x0 (ix2 p k)) * x1 (ix2 j k) := by
  unfold k0_pay6
  refine congrArg₂ (· + ·) (congrArg₂ (· + ·) ((matmul_at _ _ p j).trans ?_) ((matmul_at _ _ p j).trans ?_)) ((matmul_at _ _ p j).trans ?_)
  · refine Finset.sum_congr rfl fun k _ => ?_
    rw [wT_at]; unfold k0_pay3; rw [shapeCast_self]; rfl
  · refine Finset.sum_congr rfl fun k _ => ?_
    rw [wrT_at]; unfold k0_pay3; rw [shapeCast_self]; rfl
  · refine Finset.sum_congr rfl fun k _ => ?_
    rw [wT_at]; unfold k0_pay3; rw [shapeCast_self]; rfl

/-- The bias row at a column. -/
theorem pay7_at (v43 : Vec Ideal S1024 .f32) (u : Fin 1) (j : Fin 1024) : k0_pay7 v43 (ix2 u j) = v43 (ix1 j) := by
  unfold k0_pay7
  exact shapeCast_a_1a_apply _ _ u j

theorem rsqrt_at {s : Shape} (v : FVec Ideal s .f32) (i : s.Idx) : rsqrt v i = Ideal.rsqrt (v i) := rfl

/-- The normalised, scaled, shifted and clipped column at a row, in the product-by-reciprocal-square-root spelling:
    the column is the product's plus the bias. -/
theorem pay9_at (v25 : FVec Ideal S512x1024 .f32) (v44 : FVec Ideal S1x1024 .f32) (v46 v48 : Vec Ideal S1024 .f32) (p : Fin 512) (j : Fin 1024) :
    k0_pay9 v25 v44 v46 v48 (ix2 p j)
      = bnclipK (v46 (ix1 j)) (v48 (ix1 j)) (fun p' => v25 (ix2 p' j) + v44 (ix2 (0 : Fin 1) j)) p := by
  unfold k0_pay9 bnclipK meanK varK
  simp only [multiReduction]
  rw [colsum_fun, colsum_fun]
  simp only [minimumf_apply, maximumf_apply, addf_apply, mulf_apply, subf_apply, divf_apply, broadcast_apply,
    broadcastTo_1b_ab_apply, shapeCast_a_1a_apply, rsqrt_at]
  rfl

theorem pay8_at (v41 : FVec Ideal S512x1024 .f32) (v44 : FVec Ideal S1x1024 .f32) (p : Fin 512) (j : Fin 1024) :
    k0_pay8 v41 v44 (ix2 p j) = v41 (ix2 p j) + v44 (ix2 (0 : Fin 1) j) := by
  unfold k0_pay8
  simp only [addf_apply, broadcastTo_1b_ab_apply]

theorem pay10_at (v41 : FVec Ideal S512x1024 .f32) (v44 : FVec Ideal S1x1024 .f32) (u : Fin 1) (j : Fin 1024) :
    k0_pay10 v41 v44 (ix2 u j) = meanK (fun p' => v41 (ix2 p' j) + v44 (ix2 (0 : Fin 1) j)) := by
  unfold k0_pay10 meanK
  simp only [multiReduction]
  rw [colsum_fun]
  simp only [divf_apply, broadcast_apply, shapeCast_a_1a_apply, pay8_at]
  rfl

theorem pay11_at (v41 : FVec Ideal S512x1024 .f32) (v44 : FVec Ideal S1x1024 .f32) (u : Fin 1) (j : Fin 1024) :
    k0_pay11 v41 v44 (ix2 u j) = varK (fun p' => v41 (ix2 p' j) + v44 (ix2 (0 : Fin 1) j)) := by
  unfold k0_pay11 varK
  simp only [multiReduction]
  rw [colsum_fun]
  simp only [divf_apply, mulf_apply, subf_apply, broadcast_apply, broadcastTo_1b_ab_apply, shapeCast_a_1a_apply, pay8_at, pay10_at]
  rfl

theorem pay12_at (v41 : FVec Ideal S512x1024 .f32) (v44 : FVec Ideal S1x1024 .f32) (v46 : Vec Ideal S1024 .f32) (p : Fin 512) (j : Fin 1024) :
    k0_pay12 v41 v44 v46 (ix2 p j)
      = v46 (ix1 j) * (v41 (ix2 p j) + v44 (ix2 (0 : Fin 1) j) - meanK (fun p' => v41 (ix2 p' j) + v44 (ix2 (0 : Fin 1) j))) := by
  unfold k0_pay12
  simp only [mulf_apply, subf_apply, broadcastTo_1b_ab_apply, shapeCast_a_1a_apply, pay8_at, pay10_at]

/-- The real path's normalised column at a row, likewise. -/
theorem pay1_at (v41 : FVec Ideal S512x1024 .f32) (v44 : FVec Ideal S1x1024 .f32) (v46 v48 : Vec Ideal S1024 .f32) (p : Fin 512) (j : Fin 1024) :
    k0_pay1 v48 (k0_pay11 v41 v44) (k0_pay12 v41 v44 v46) (Scalar.ofBits .f32 0x3727C5AC#32) (ix2 p j)
      = bnclipK (v46 (ix1 j)) (v48 (ix1 j)) (fun p' => v41 (ix2 p' j) + v44 (ix2 (0 : Fin 1) j)) p := by
  unfold k0_pay1 bnclipK
  simp only [minimumf_apply, maximumf_apply, addf_apply, mulf_apply, broadcast_apply,
    broadcastTo_1b_ab_apply, shapeCast_a_1a_apply, rsqrt_at, pay11_at, pay12_at]
  rfl

/-- The third output's payload is the sign of the first's, element by element. -/
theorem pay2_at (v80 : FVec Ideal S512x1024 .f32) (i : S512x1024.Idx) : k0_pay2 v80 i = Ideal.sign (v80 i) := by
  unfold k0_pay2
  exact Ideal.jnp_sign_eq_sign_f32 (v80 i)

end Cert.KernelIdeal.V0

end
-- ==== Proof.NetSpec.lean ====
/-
  The network both programs compute, as functions of the seventeen argument arrays read at coordinates.

  Three binarised dense layers on two parallel paths (a "binary" path whose activations and weights enter a layer through
  their signs, and a "real" path that uses them as they are), each followed by batch normalisation over the 512 rows and
  clipping to [-1, 1]; the third layer's pre-activations pass a dropout mask (kept and doubled where the mask is at
  least one half, zero elsewhere); then a ten-column dense classifier on the binary path's last activations.
-/
import proofs.«130870_j71201967833887_2_alg».proof.Proof.LibBnSpec

noncomputable section

namespace Cert.NetSpec

open Idealize.ShloMosaic Cert.LibBnSpec

/-- The argument arrays at coordinates. -/
structure Args where
  x : Fin 512 → Fin 784 → EReal
  u1 : Fin 512 → Fin 6144 → EReal
  u2 : Fin 512 → Fin 6144 → EReal
  w1 : Fin 6144 → Fin 784 → EReal
  b1 : Fin 6144 → EReal
  w2 : Fin 6144 → Fin 6144 → EReal
  b2 : Fin 6144 → EReal
  w3 : Fin 6144 → Fin 6144 → EReal
  b3 : Fin 6144 → EReal
  w4 : Fin 10 → Fin 6144 → EReal
  b4 : Fin 10 → EReal
  g1 : Fin 6144 → EReal
  be1 : Fin 6144 → EReal
  g2 : Fin 6144 → EReal
  be2 : Fin 6144 → EReal
  g3 : Fin 6144 → EReal
  be3 : Fin 6144 → EReal

/-- A dense unit: the inner product of an activation row and a weight row, plus the bias. -/
def dense {K : ℕ} (a w : Fin K → EReal) (b : EReal) : EReal := (∑ k, a k * w k) + b
/-- Dropout by a mask value `u`: kept and divided by one half where `u ≥ 1/2`, else zero. -/
def drop (u x : EReal) : EReal := if half ≤ u then Ideal.div x half else z32

/-- One layer's two paths from the previous layer's binary-path signs `S` and real-path activations `R`. -/
def layerB {K : ℕ} (S : Fin 512 → Fin K → EReal) (w : Fin 6144 → Fin K → EReal) (b g be : Fin 6144 → EReal)
    (p : Fin 512) (n : Fin 6144) : EReal :=
  bnclip (g n) (be n) (fun p' => dense (S p') (fun k => Ideal.sign (w n k)) (b n)) p
def layerR {K : ℕ} (R : Fin 512 → Fin K → EReal) (w : Fin 6144 → Fin K → EReal) (b g be : Fin 6144 → EReal)
    (p : Fin 512) (n : Fin 6144) : EReal :=
  bnclip (g n) (be n) (fun p' => dense (R p') (w n) (b n)) p
/-- The third layer's: the same with the dropout masks `u` between the dense unit and the normalisation. -/
def layerBD (u : Fin 512 → Fin 6144 → EReal) (S : Fin 512 → Fin 6144 → EReal) (w : Fin 6144 → Fin 6144 → EReal) (b g be : Fin 6144 → EReal)
    (p : Fin 512) (n : Fin 6144) : EReal :=
  bnclip (g n) (be n) (fun p' => drop (u p' n) (dense (S p') (fun k => Ideal.sign (w n k)) (b n))) p
def layerRD (u : Fin 512 → Fin 6144 → EReal) (R : Fin 512 → Fin 6144 → EReal) (w : Fin 6144 → Fin 6144 → EReal) (b g be : Fin 6144 → EReal)
    (p : Fin 512) (n : Fin 6144) : EReal :=
  bnclip (g n) (be n) (fun p' => drop (u p' n) (dense (R p') (w n) (b n))) p

variable (A : Args)

def B1 : Fin 512 → Fin 6144 → EReal := layerB A.x A.w1 A.b1 A.g1 A.be1
def R1 : Fin 512 → Fin 6144 → EReal := layerR A.x A.w1 A.b1 A.g1 A.be1
def B2 : Fin 512 → Fin 6144 → EReal := layerB (fun p k => Ideal.sign (B1 A p k)) A.w2 A.b2 A.g2 A.be2
def R2 : Fin 512 → Fin 6144 → EReal := layerR (R1 A) A.w2 A.b2 A.g2 A.be2
def B3 : Fin 512 → Fin 6144 → EReal := layerBD A.u1 (fun p k => Ideal.sign (B2 A p k)) A.w3 A.b3 A.g3 A.be3
def R3 : Fin 512 → Fin 6144 → EReal := layerRD A.u2 (R2 A) A.w3 A.b3 A.g3 A.be3
def out (p : Fin 512) (j : Fin 10) : EReal := dense (B3 A p) (A.w4 j) (A.b4 j)

/-- Every input a real number. -/
def Finite : Prop :=
  (∀ p k, ∃ r : ℝ, A.x p k = r) ∧ (∀ n k, ∃ r : ℝ, A.w1 n k = r) ∧ (∀ n k, ∃ r : ℝ, A.w2 n k = r) ∧ (∀ n k, ∃ r : ℝ, A.w3 n k = r)

theorem layerB_real {K : ℕ} (S : Fin 512 → Fin K → EReal) (w : Fin 6144 → Fin K → EReal) (b g be : Fin 6144 → EReal) (p n) :
    ∃ r : ℝ, layerB S w b g be p n = (r : EReal) := bnclip_real _ _ _ _
theorem layerR_real {K : ℕ} (R : Fin 512 → Fin K → EReal) (w : Fin 6144 → Fin K → EReal) (b g be : Fin 6144 → EReal) (p n) :
    ∃ r : ℝ, layerR R w b g be p n = (r : EReal) := bnclip_real _ _ _ _

end Cert.NetSpec

end
-- ==== Proof.KI_V0.lean ====
/- The first region's three output arrays after the run, at the ideal values, index by index: the first layer's
   binary-path and real-path activations and the binary path's signs, as the specification spells them.

   Point `t` of the grid writes columns `1024 t … 1024 t + 1023` of each output; what it writes there is a function of the
   whole activation matrix, of rows `1024 t …` of the weight matrix and of the same entries of the three per-feature
   vectors: stated here point by point, against the specification's first layer. -/
import proofs.«130870_j71201967833887_2_alg».proof.Proof.KI_R0
import proofs.«130870_j71201967833887_2_alg».proof.Proof.KI_V0_Pay
import proofs.«130870_j71201967833887_2_alg».proof.Proof.NetSpec
import Idealize.ShloMosaic.Lib.Pipeline.Value

set_option maxRecDepth 16384

noncomputable section

namespace Cert.KernelIdeal.V0

open Cert.KernelIdeal Cert.KernelIdeal.Gen Cert.LibBnSpec
open Idealize.ShloMosaic Idealize.ShloMosaic.TcCoe Idealize.ShloMosaic.ValueIdx
open Idealize.ShloMosaic.Pipeline (Dat Cfg Window)

/-! ## The outputs as functions of the operand arrays -/

section Spec
variable (A0 : S512x896.Idx → EReal) (A1 : S6144x896.Idx → EReal) (A2 A3 A4 : S6144.Idx → EReal)

/-- The binary path's column `n` before normalisation, at row `p'`. -/
def preB (n : Fin 6144) (p' : Fin 512) : EReal :=
  ((∑ k : Fin 896, A0 (ix2 p' k) * Ideal.sign (A1 (ix2 n k)))
    + ∑ k : Fin 896, (A0 (ix2 p' k) - A0 (ix2 p' k)) * Ideal.sign (A1 (ix2 n k))) + A2 (ix1 n)

/-- The real path's. -/
def preR (n : Fin 6144) (p' : Fin 512) : EReal :=
  (((∑ k : Fin 896, A0 (ix2 p' k) * A1 (ix2 n k))
      + ∑ k : Fin 896, A0 (ix2 p' k) * (A1 (ix2 n k) - A1 (ix2 n k)))
    + ∑ k : Fin 896, (A0 (ix2 p' k) - A0 (ix2 p' k)) * A1 (ix2 n k)) + A2 (ix1 n)

def F5 (p : Fin 512) (n : Fin 6144) : EReal := bnclipK (A3 (ix1 n)) (A4 (ix1 n)) (preB A0 A1 A2 n) p
def F6 (p : Fin 512) (n : Fin 6144) : EReal := bnclipK (A3 (ix1 n)) (A4 (ix1 n)) (preR A0 A1 A2 n) p

end Spec

/-! ## A block's payload is the function's block -/

/-- A load of 1024 entries from `1024 T` on, at entry `j`. -/
theorem ldV_at (i : grid0.Coords) (T : ℕ) (hT : 1024 * T + 1024 ≤ 6144) (hoff : k0_off1 i = ![1024 * T])
    (x : Vec Ideal S6144 .f32) (j : Fin 1024) :
    View.ld x (R0.rV i) (ix1 j) = x (ix1 ⟨1024 * T + j.val, by have := j.isLt; omega⟩) := by
  show x ((R0.rV i).idx (ix1 j)) = _
  refine congrArg x (funext fun a => Fin.ext ?_)
  match a with
  | ⟨0, _⟩ =>
    show (k0_off1 i) 0 + 1 * j.val = 1024 * T + j.val
    rw [hoff]; show 1024 * T + 1 * j.val = _; omega

section Block
variable (i : grid0.Coords) (T : ℕ) (hT : 1024 * T + 1024 ≤ 6144) (hoff : k0_off1 i = ![1024 * T])
  (x0 : Vec Ideal S512x896 .f32) (x1 : Vec Ideal S1024x896 .f32) (x2 x3 x4 : Vec Ideal S6144 .f32)
  (A1 : S6144x896.Idx → EReal)
  (h1 : ∀ (j : Fin 1024) (k : Fin 896), x1 (ix2 j k) = A1 (ix2 ⟨1024 * T + j.val, by have := j.isLt; omega⟩ k))

include hT hoff h1 in
theorem val5_block (p : Fin 512) (j : Fin 1024) :
    R0.val5 i x0 x1 x2 x3 x4 (ix2 p j) = F5 x0 A1 x2 x3 x4 p ⟨1024 * T + j.val, by have := j.isLt; omega⟩ := by
  unfold R0.val5 F5
  rw [pay9_at, ldV_at i T hT hoff, ldV_at i T hT hoff]
  refine congrArg (fun a => bnclipK _ _ a p) (funext fun p' => ?_)
  unfold preB
  rw [pay5_at, pay7_at, ldV_at i T hT hoff]
  simp only [h1]

include hT hoff h1 in
theorem val6_block (p : Fin 512) (j : Fin 1024) :
    R0.val6 i x0 x1 x2 x3 x4 (ix2 p j) = F6 x0 A1 x2 x3 x4 p ⟨1024 * T + j.val, by have := j.isLt; omega⟩ := by
  unfold R0.val6 F6
  rw [pay1_at, ldV_at i T hT hoff, ldV_at i T hT hoff]
  refine congrArg (fun a => bnclipK _ _ a p) (funext fun p' => ?_)
  unfold preR
  rw [pay6_at, pay7_at, ldV_at i T hT hoff]
  simp only [h1]

include hT hoff h1 in
theorem val7_block (p : Fin 512) (j : Fin 1024) :
    R0.val7 i x0 x1 x2 x3 x4 (ix2 p j) = Ideal.sign (F5 x0 A1 x2 x3 x4 p ⟨1024 * T + j.val, by have := j.isLt; omega⟩) := by
  unfold R0.val7
  rw [pay2_at, val5_block i T hT hoff x0 x1 x2 x3 x4 A1 h1]

end Block

/-! ## The blocks of the operands at a point -/

/-- The printed index maps and the body's offset, decided over the six points: the activation matrix and the three vectors
    are whole at every point; the weight matrix's block is rows `1024 t …`; the body reads the vectors from `1024 t` on. -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0 ∧ win0_4.index t (0 : Fin 1) = 0
    ∧ k0_off1 (grid0.coords t) = ![1024 * t.val] :=
  (by decide +kernel : ∀ t : Fin grid0.N, _)

section Region
variable (V : (c : Dev nD) → (b : Ref sig .tc) → Buf (Elt Ideal) ((c : Thread nD τ).loc b)) (c : Dev nD) (t : Fin cfg0.N)

theorem iblk0_eq : R0.iblk V c 0 t = (V c main_v0 : S512x896.Idx → EReal) := by
  funext y
  show V c main_v0 (((cfg0.win 0).blk t).view.emb y) = V c main_v0 y
  refine congrArg _ (funext fun a => Fin.ext ?_)
  obtain ⟨e0, e1, -⟩ := grid_facts t
  match a with
  | ⟨0, _⟩ => show win0_0.index t (0 : Fin 2) * 512 + 1 * (y 0).val = (y 0).val; rw [e0]; omega
  | ⟨1, _⟩ => show win0_0.index t (1 : Fin 2) * 896 + 1 * (y 1).val = (y 1).val; rw [e1]; omega

theorem iblk2_eq : R0.iblk V c 2 t = (V c main_arg4 : S6144.Idx → EReal) := by
  funext y
  show V c main_arg4 (((cfg0.win 2).blk t).view.emb y) = V c main_arg4 y
  refine congrArg _ (funext fun a => Fin.ext ?_)
  obtain ⟨-, -, -, -, e, -⟩ := grid_facts t
  match a with
  | ⟨0, _⟩ => show win0_2.index t (0 : Fin 1) * 6144 + 1 * (y 0).val = (y 0).val; rw [e]; omega

theorem iblk3_eq : R0.iblk V c 3 t = (V c main_arg11 : S6144.Idx → EReal) := by
  funext y
  show V c main_arg11 (((cfg0.win 3).blk t).view.emb y) = V c main_arg11 y
  refine congrArg _ (funext fun a => Fin.ext ?_)
  obtain ⟨-, -, -, -, -, e, -⟩ := grid_facts t
  match a with
  | ⟨0, _⟩ => show win0_3.index t (0 : Fin 1) * 6144 + 1 * (y 0).val = (y 0).val; rw [e]; omega

theorem iblk4_eq : R0.iblk V c 4 t = (V c main_arg12 : S6144.Idx → EReal) := by
  funext y
  show V c main_arg12 (((cfg0.win 4).blk t).view.emb y) = V c main_arg12 y
  refine congrArg _ (funext fun a => Fin.ext ?_)
  obtain ⟨-, -, -, -, -, -, e, -⟩ := grid_facts t
  match a with
  | ⟨0, _⟩ => show win0_4.index t (0 : Fin 1) * 6144 + 1 * (y 0).val = (y 0).val; rw [e]; omega

theorem t_lt : t.val < 6 := lt_of_lt_of_eq t.isLt N_0

/-- The weight matrix's block at point `t` is its rows `1024 t …`. -/
theorem iblk1_at (j : Fin 1024) (k : Fin 896) :
    R0.iblk V c 1 t (ix2 j k) = (V c main_v1 : S6144x896.Idx → EReal) (ix2 ⟨1024 * t.val + j.val, by have := t_lt t; have := j.isLt; omega⟩ k) := by
  show V c main_v1 (((cfg0.win 1).blk t).view.emb (ix2 j k)) = _
  refine congrArg _ (funext fun a => Fin.ext ?_)
  obtain ⟨-, -, e0, e1, -⟩ := grid_facts t
  match a with
  | ⟨0, _⟩ => show win0_1.index t (0 : Fin 2) * 1024 + 1 * j.val = 1024 * t.val + j.val; rw [e0]; omega
  | ⟨1, _⟩ => show win0_1.index t (1 : Fin 2) * 896 + 1 * k.val = k.val; rw [e1]; omega

/-- What the body leaves in each output buffer at point `t`: the output function's columns `1024 t …`. -/
theorem after5_at (p : Fin 512) (q : Fin 1024) :
    (R0.dat V c).after 5 t (ix2 p q)
      = F5 (V c main_v0) (V c main_v1) (V c main_arg4) (V c main_arg11) (V c main_arg12) p ⟨1024 * t.val + q.val, by have := t_lt t; have := q.isLt; omega⟩ := by
  rw [R0.after_5_val, iblk0_eq, iblk2_eq, iblk3_eq, iblk4_eq]
  exact val5_block (grid0.coords t) t.val (by have := t_lt t; omega) (grid_facts t).2.2.2.2.2.2.2 _ _ _ _ _ _ (iblk1_at V c t) p q

theorem after6_at (p : Fin 512) (q : Fin 1024) :
    (R0.dat V c).after 6 t (ix2 p q)
      = F6 (V c main_v0) (V c main_v1) (V c main_arg4) (V c main_arg11) (V c main_arg12) p ⟨1024 * t.val + q.val, by have := t_lt t; have := q.isLt; omega⟩ := by
  rw [R0.after_6_val, iblk0_eq, iblk2_eq, iblk3_eq, iblk4_eq]
  exact val6_block (grid0.coords t) t.val (by have := t_lt t; omega) (grid_facts t).2.2.2.2.2.2.2 _ _ _ _ _ _ (iblk1_at V c t) p q

theorem after7_at (p : Fin 512) (q : Fin 1024) :
    (R0.dat V c).after 7 t (ix2 p q)
      = Ideal.sign (F5 (V c main_v0) (V c main_v1) (V c main_arg4) (V c main_arg11) (V c main_arg12) p ⟨1024 * t.val + q.val, by have := t_lt t; have := q.isLt; omega⟩) := by
  rw [R0.after_7_val, iblk0_eq, iblk2_eq, iblk3_eq, iblk4_eq]
  exact val7_block (grid0.coords t) t.val (by have := t_lt t; omega) (grid_facts t).2.2.2.2.2.2.2 _ _ _ _ _ _ (iblk1_at V c t) p q

end Region

/-! ## The padded sums -/

/-- A sum over 896 terms whose last 112 are zero is the sum of the first 784. -/
theorem sum_pad (f : Fin 896 → EReal) (g : Fin 784 → EReal)
    (hf : ∀ k : Fin 896, f k = if h : k.val < 784 then g ⟨k.val, h⟩ else 0) : ∑ k, f k = ∑ k, g k := by
  refine (Fin.sum_univ_add (a := 784) (b := 112) f).trans ?_
  have h2 : ∑ i : Fin 112, f (Fin.natAdd 784 i) = 0 :=
    Finset.sum_eq_zero fun i _ => by rw [hf, dif_neg (by show ¬ (784 + i.val < 784); omega)]
  rw [h2, add_zero]
  exact Finset.sum_congr rfl fun i _ => by
    rw [hf, dif_pos (show (Fin.castAdd 112 i).val < 784 from i.isLt)]
    rfl

/-- A zero-padded real is a real. -/
theorem pad_real {K : ℕ} (a : Fin K → EReal) (fa : ∀ k, ∃ r : ℝ, a k = (r : EReal)) (k : ℕ) :
    ∃ r : ℝ, (if h : k < K then a ⟨k, h⟩ else 0) = (r : EReal) := by
  split
  · exact fa _
  · exact ⟨0, EReal.coe_zero.symm⟩

section Algebra
variable (a s : Fin 896 → EReal) (x w : Fin 784 → EReal)
  (ha : ∀ k : Fin 896, a k = if h : k.val < 784 then x ⟨k.val, h⟩ else 0)
  (hs : ∀ k : Fin 896, s k = if h : k.val < 784 then w ⟨k.val, h⟩ else 0)

include ha hs in
theorem sum_sign : ∑ k, a k * Ideal.sign (s k) = ∑ k, x k * Ideal.sign (w k) :=
  sum_pad _ _ fun k => by
    rw [ha, hs]
    split
    · rfl
    · rw [zero_mul]

include ha hs in
theorem sum_prod : ∑ k, a k * s k = ∑ k, x k * w k :=
  sum_pad _ _ fun k => by
    rw [ha, hs]
    split
    · rfl
    · rw [zero_mul]

include ha in
theorem sum_res_left (fx : ∀ k, ∃ r : ℝ, x k = (r : EReal)) (v : Fin 896 → EReal) : ∑ k, (a k - a k) * v k = 0 :=
  Finset.sum_eq_zero fun k _ => by
    rw [sub_self_real (a k) (by rw [ha]; exact pad_real x fx k.val), zero_mul]

include hs in
theorem sum_res_right (fw : ∀ k, ∃ r : ℝ, w k = (r : EReal)) (v : Fin 896 → EReal) : ∑ k, v k * (s k - s k) = 0 :=
  Finset.sum_eq_zero fun k _ => by
    rw [sub_self_real (s k) (by rw [hs]; exact pad_real w fw k.val), mul_zero]

end Algebra

/-! ## The outputs are the specification's first layer -/

section Final
variable (A0 : S512x896.Idx → EReal) (A1 : S6144x896.Idx → EReal) (A2 A3 A4 : S6144.Idx → EReal)
  (x : Fin 512 → Fin 784 → EReal) (w : Fin 6144 → Fin 784 → EReal) (b g be : Fin 6144 → EReal)
  (hx : ∀ (p : Fin 512) (k : Fin 896), A0 (ix2 p k) = if h : k.val < 784 then x p ⟨k.val, h⟩ else 0)
  (hw : ∀ (n : Fin 6144) (k : Fin 896), A1 (ix2 n k) = if h : k.val < 784 then w n ⟨k.val, h⟩ else 0)
  (hb : ∀ n : Fin 6144, A2 (ix1 n) = b n) (hg : ∀ n : Fin 6144, A3 (ix1 n) = g n) (hbe : ∀ n : Fin 6144, A4 (ix1 n) = be n)
  (fx : ∀ p k, ∃ r : ℝ, x p k = (r : EReal)) (fw : ∀ n k, ∃ r : ℝ, w n k = (r : EReal))

include hx hw hb hg hbe fx in
theorem F5_spec (p : Fin 512) (n : Fin 6144) : F5 A0 A1 A2 A3 A4 p n = NetSpec.layerB x w b g be p n := by
  unfold F5 NetSpec.layerB
  rw [bnclipK_eq, hg, hbe]
  refine congrArg (fun a => bnclip _ _ a p) (funext fun p' => ?_)
  unfold preB NetSpec.dense
  rw [hb, sum_sign _ _ (x p') (w n) (hx p') (hw n), sum_res_left _ (x p') (hx p') (fx p'), add_zero]

include hx hw hb hg hbe fx fw in
theorem F6_spec (p : Fin 512) (n : Fin 6144) : F6 A0 A1 A2 A3 A4 p n = NetSpec.layerR x w b g be p n := by
  unfold F6 NetSpec.layerR
  rw [bnclipK_eq, hg, hbe]
  refine congrArg (fun a => bnclip _ _ a p) (funext fun p' => ?_)
  unfold preR NetSpec.dense
  rw [hb, sum_prod _ _ (x p') (w n) (hx p') (hw n), sum_res_right _ (w n) (hw n) (fw n), sum_res_left _ (x p') (hx p') (fx p'), add_zero, add_zero]

end Final

/-! ## What each point leaves, against the specification -/

section Values
variable (V : (c : Dev nD) → (b : Ref sig .tc) → Buf (Elt Ideal) ((c : Thread nD τ).loc b)) (c : Dev nD)
  (x : Fin 512 → Fin 784 → EReal) (w : Fin 6144 → Fin 784 → EReal) (b g be : Fin 6144 → EReal)
  (hx : ∀ (p : Fin 512) (k : Fin 896), (V c main_v0 : S512x896.Idx → EReal) (ix2 p k) = if h : k.val < 784 then x p ⟨k.val, h⟩ else 0)
  (hw : ∀ (n : Fin 6144) (k : Fin 896), (V c main_v1 : S6144x896.Idx → EReal) (ix2 n k) = if h : k.val < 784 then w n ⟨k.val, h⟩ else 0)
  (hb : ∀ n : Fin 6144, (V c main_arg4 : S6144.Idx → EReal) (ix1 n) = b n)
  (hg : ∀ n : Fin 6144, (V c main_arg11 : S6144.Idx → EReal) (ix1 n) = g n)
  (hbe : ∀ n : Fin 6144, (V c main_arg12 : S6144.Idx → EReal) (ix1 n) = be n)
  (fx : ∀ p k, ∃ r : ℝ, x p k = (r : EReal)) (fw : ∀ n k, ∃ r : ℝ, w n k = (r : EReal))

include hx hw hb hg hbe fx in
theorem after5_spec (t : Fin cfg0.N) (p : Fin 512) (q : Fin 1024) :
    (R0.dat V c).after 5 t (ix2 p q)
      = NetSpec.layerB x w b g be p ⟨1024 * t.val + q.val, by have := t_lt t; have := q.isLt; omega⟩ := by
  rw [after5_at, F5_spec _ _ _ _ _ x w b g be hx hw hb hg hbe fx]

include hx hw hb hg hbe fx fw in
theorem after6_spec (t : Fin cfg0.N) (p : Fin 512) (q : Fin 1024) :
    (R0.dat V c).after 6 t (ix2 p q)
      = NetSpec.layerR x w b g be p ⟨1024 * t.val + q.val, by have := t_lt t; have := q.isLt; omega⟩ := by
  rw [after6_at, F6_spec _ _ _ _ _ x w b g be hx hw hb hg hbe fx fw]

include hx hw hb hg hbe fx in
theorem after7_spec (t : Fin cfg0.N) (p : Fin 512) (q : Fin 1024) :
    (R0.dat V c).after 7 t (ix2 p q)
      = Ideal.sign (NetSpec.layerB x w b g be p ⟨1024 * t.val + q.val, by have := t_lt t; have := q.isLt; omega⟩) := by
  rw [after7_at, F5_spec _ _ _ _ _ x w b g be hx hw hb hg hbe fx]

end Values

end Cert.KernelIdeal.V0

end
-- ==== Proof.KI_Cover.lean ====
/-
  From blocks to the whole array. An output window of a region moves over its array block by block; if what every
  point writes back is, at each coordinate inside the block, one function `G` of the array's coordinates, and the
  blocks of the points that write back cover the array, then the array ends holding `G`.

  Region 0: six points, block `t` is the 1024 columns from `1024 t`, written back at every point.
  Regions 1 and 2: an 8 x 8 grid, point `t = 8 n' + k'`; block `n'` is the 768 columns from `768 n'`, written back at
  the last contraction step `k' = 7` only.
-/
import proofs.«130870_j71201967833887_2_alg».proof.Proof.KI_R0
import proofs.«130870_j71201967833887_2_alg».proof.Proof.KI_R1
import proofs.«130870_j71201967833887_2_alg».proof.Proof.KI_R2
import Idealize.ShloMosaic.Lib.Pipeline.Value
import Idealize.ShloMosaic.Lib.ValueIdx

noncomputable section

namespace Cert.KernelIdeal.Cover

open Cert.KernelIdeal Cert.KernelIdeal.Gen
open Idealize.ShloMosaic Idealize.ShloMosaic.TcCoe Idealize.SL.Sem ValueIdx
open Idealize.ShloMosaic.Pipeline (Dat Cfg Window)

variable (V : (c : Dev nD) → (b : Ref sig .tc) → Buf (Elt Ideal) ((c : Thread nD τ).loc b)) (c : Dev nD)

/-- A function of two coordinates as an array over the 512 x 6144 indices. -/
abbrev whole (G : Fin 512 → Fin 6144 → EReal) : S512x6144.Idx → EReal := fun i => G (i 0) (i 1)

/-! ## The grids' sizes -/

theorem lt_N0 (t : Fin cfg0.N) : t.val < 6 := (by decide +kernel : ∀ t : Fin grid0.N, t.val < 6) t
theorem lt_N1 (t : Fin cfg1.N) : t.val < 64 := (by decide +kernel : ∀ t : Fin grid1.N, t.val < 64) t
theorem lt_N2 (t : Fin cfg2.N) : t.val < 64 := (by decide +kernel : ∀ t : Fin grid2.N, t.val < 64) t
/-- Point `k` of region 0's grid. -/
def pt0 (k : Nat) (hk : k < 6) : Fin cfg0.N := ⟨k, by show k < grid0.N; rw [N_0]; exact hk⟩
/-- Point `k` of region 1's grid. -/
def pt1 (k : Nat) (hk : k < 64) : Fin cfg1.N := ⟨k, by show k < grid1.N; rw [N_1]; exact hk⟩
/-- Point `k` of region 2's grid. -/
def pt2 (k : Nat) (hk : k < 64) : Fin cfg2.N := ⟨k, by show k < grid2.N; rw [N_2]; exact hk⟩
/-- Column `q` of block `t` of region 0 is a column of the array. -/
theorem bnd0 {t q : Nat} (ht : t < 6) (hq : q < 1024) : 1024 * t + q < 6144 := by omega
/-- Column `q` of the block of point `t` of region 1 is a column of the array. -/
theorem bnd1 {t q : Nat} (ht : t < 64) (hq : q < 768) : 768 * (t / 8) + q < 6144 := by omega
/-- Column `q` of the block of point `t` of region 2 is a column of the array. -/
theorem bnd2 {t q : Nat} (ht : t < 64) (hq : q < 768) : 768 * (t / 8) + q < 6144 := by omega

/-! ## Region 0 -/

/-- Window 5's block index at point `t` is `(0, t)`. -/
theorem idx0_5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- An index of the array is in point `t`'s block iff each coordinate is in the block's range on its axis. -/
theorem mem_blk0_5 (t : Fin cfg0.N) (i : S512x6144.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2_0).slice (win0_5.rect t)).set ↔ _
  rw [View.set_slice_whole, Rect.mem_set_unit]
  exact Iff.rfl

/-- Output window 5 of region 0: if every point leaves `G` on its 1024 columns, the array ends holding `G`. -/
theorem arr0_5 (G : Fin 512 → Fin 6144 → EReal)
    (h : ∀ (t : Fin cfg0.N) (p : Fin 512) (q : Fin 1024),
      (R0.dat V c).after 5 t (ix2 p q) = G p ⟨1024 * t.val + q.val, bnd0 (lt_N0 t) q.isLt⟩)
    (p : Fin 512) (n : Fin 6144) : (R0.dat V c).arrAt 5 cfg0.N (ix2 p n) = G p n := by
  have hG : ∀ t, (cfg0.win 5).flush t = true → (R0.dat V c).flushed 5 t = ((cfg0.win 5).blk t).view.read (Elt Ideal) (whole G) := fun t hf => by
    have h' : ∀ (y : S512x1024.Idx), (R0.dat V c).after 5 t y = G (y 0) ⟨1024 * t.val + (y 1).val, bnd0 (lt_N0 t) (y 1).isLt⟩ :=
      fun y => (congrArg ((R0.dat V c).after 5 t) (eq_ix2 y)).trans (h t (y 0) (y 1))
    funext j
    obtain ⟨e0, e1⟩ := idx0_5 t
    show (R0.dat V c).after 5 t ((cfg0.win 5).xinj (grid0.coords t) j) = _
    show _ = G (((cfg0.win 5).blk t).view.emb j 0) (((cfg0.win 5).blk t).view.emb j 1)
    refine (h' _).trans ?_
    congr 1
    · apply Fin.ext
      show (j 0).val = win0_5.index t (0 : Fin 2) * 512 + 1 * (j 0).val
      rw [e0, Nat.zero_mul, Nat.zero_add, Nat.one_mul]
    · apply Fin.ext
      show 1024 * t.val + (j 1).val = win0_5.index t (1 : Fin 2) * 1024 + 1 * (j 1).val
      rw [e1, Nat.one_mul, Nat.mul_comm]
  have hcover : ∀ i : S512x6144.Idx, ∃ t : Fin cfg0.N, (cfg0.win 5).flush t = true ∧ i ∈ ((cfg0.win 5).blk t).view.set := fun i => by
    have hi0 : (i 0).val < 512 := (i 0).isLt
    have hi1 : (i 1).val < 6144 := (i 1).isLt
    have hk : (i 1).val / 1024 < 6 := by omega
    refine ⟨pt0 ((i 1).val / 1024) hk, flush0_5 _, ?_⟩
    rw [mem_blk0_5]
    have e0 : win0_5.index (pt0 ((i 1).val / 1024) hk) (0 : Fin 2) = 0 := (idx0_5 _).1
    have e1 : win0_5.index (pt0 ((i 1).val / 1024) hk) (1 : Fin 2) = (i 1).val / 1024 := (idx0_5 _).2
    intro a
    match a with
    | ⟨0, _⟩ =>
      show win0_5.index _ (0 : Fin 2) * 512 ≤ (i 0).val ∧ (i 0).val < win0_5.index _ (0 : Fin 2) * 512 + 512
      rw [e0]; omega
    | ⟨1, _⟩ =>
      show win0_5.index _ (1 : Fin 2) * 1024 ≤ (i 1).val ∧ (i 1).val < win0_5.index _ (1 : Fin 2) * 1024 + 1024
      rw [e1]; omega
  exact congrFun ((R0.dat V c).arrAt_eq_of_cover 5 (whole G) hG hcover) (ix2 p n)

/-- Window 6's block index at point `t` is `(0, t)`. -/
theorem idx0_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- An index of the array is in point `t`'s block iff each coordinate is in the block's range on its axis. -/
theorem mem_blk0_6 (t : Fin cfg0.N) (i : S512x6144.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2_1).slice (win0_6.rect t)).set ↔ _
  rw [View.set_slice_whole, Rect.mem_set_unit]
  exact Iff.rfl

/-- Output window 6 of region 0: if every point leaves `G` on its 1024 columns, the array ends holding `G`. -/
theorem arr0_6 (G : Fin 512 → Fin 6144 → EReal)
    (h : ∀ (t : Fin cfg0.N) (p : Fin 512) (q : Fin 1024),
      (R0.dat V c).after 6 t (ix2 p q) = G p ⟨1024 * t.val + q.val, bnd0 (lt_N0 t) q.isLt⟩)
    (p : Fin 512) (n : Fin 6144) : (R0.dat V c).arrAt 6 cfg0.N (ix2 p n) = G p n := by
  have hG : ∀ t, (cfg0.win 6).flush t = true → (R0.dat V c).flushed 6 t = ((cfg0.win 6).blk t).view.read (Elt Ideal) (whole G) := fun t hf => by
    have h' : ∀ (y : S512x1024.Idx), (R0.dat V c).after 6 t y = G (y 0) ⟨1024 * t.val + (y 1).val, bnd0 (lt_N0 t) (y 1).isLt⟩ :=
      fun y => (congrArg ((R0.dat V c).after 6 t) (eq_ix2 y)).trans (h t (y 0) (y 1))
    funext j
    obtain ⟨e0, e1⟩ := idx0_6 t
    show (R0.dat V c).after 6 t ((cfg0.win 6).xinj (grid0.coords t) j) = _
    show _ = G (((cfg0.win 6).blk t).view.emb j 0) (((cfg0.win 6).blk t).view.emb j 1)
    refine (h' _).trans ?_
    congr 1
    · apply Fin.ext
      show (j 0).val = win0_6.index t (0 : Fin 2) * 512 + 1 * (j 0).val
      rw [e0, Nat.zero_mul, Nat.zero_add, Nat.one_mul]
    · apply Fin.ext
      show 1024 * t.val + (j 1).val = win0_6.index t (1 : Fin 2) * 1024 + 1 * (j 1).val
      rw [e1, Nat.one_mul, Nat.mul_comm]
  have hcover : ∀ i : S512x6144.Idx, ∃ t : Fin cfg0.N, (cfg0.win 6).flush t = true ∧ i ∈ ((cfg0.win 6).blk t).view.set := fun i => by
    have hi0 : (i 0).val < 512 := (i 0).isLt
    have hi1 : (i 1).val < 6144 := (i 1).isLt
    have hk : (i 1).val / 1024 < 6 := by omega
    refine ⟨pt0 ((i 1).val / 1024) hk, flush0_6 _, ?_⟩
    rw [mem_blk0_6]
    have e0 : win0_6.index (pt0 ((i 1).val / 1024) hk) (0 : Fin 2) = 0 := (idx0_6 _).1
    have e1 : win0_6.index (pt0 ((i 1).val / 1024) hk) (1 : Fin 2) = (i 1).val / 1024 := (idx0_6 _).2
    intro a
    match a with
    | ⟨0, _⟩ =>
      show win0_6.index _ (0 : Fin 2) * 512 ≤ (i 0).val ∧ (i 0).val < win0_6.index _ (0 : Fin 2) * 512 + 512
      rw [e0]; omega
    | ⟨1, _⟩ =>
      show win0_6.index _ (1 : Fin 2) * 1024 ≤ (i 1).val ∧ (i 1).val < win0_6.index _ (1 : Fin 2) * 1024 + 1024
      rw [e1]; omega
  exact congrFun ((R0.dat V c).arrAt_eq_of_cover 6 (whole G) hG hcover) (ix2 p n)

/-- Window 7's block index at point `t` is `(0, t)`. -/
theorem idx0_7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)

/-- An index of the array is in point `t`'s block iff each coordinate is in the block's range on its axis. -/
theorem mem_blk0_7 (t : Fin cfg0.N) (i : S512x6144.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v2_2).slice (win0_7.rect t)).set ↔ _
  rw [View.set_slice_whole, Rect.mem_set_unit]
  exact Iff.rfl

/-- Output window 7 of region 0: if every point leaves `G` on its 1024 columns, the array ends holding `G`. -/
theorem arr0_7 (G : Fin 512 → Fin 6144 → EReal)
    (h : ∀ (t : Fin cfg0.N) (p : Fin 512) (q : Fin 1024),
      (R0.dat V c).after 7 t (ix2 p q) = G p ⟨1024 * t.val + q.val, bnd0 (lt_N0 t) q.isLt⟩)
    (p : Fin 512) (n : Fin 6144) : (R0.dat V c).arrAt 7 cfg0.N (ix2 p n) = G p n := by
  have hG : ∀ t, (cfg0.win 7).flush t = true → (R0.dat V c).flushed 7 t = ((cfg0.win 7).blk t).view.read (Elt Ideal) (whole G) := fun t hf => by
    have h' : ∀ (y : S512x1024.Idx), (R0.dat V c).after 7 t y = G (y 0) ⟨1024 * t.val + (y 1).val, bnd0 (lt_N0 t) (y 1).isLt⟩ :=
      fun y => (congrArg ((R0.dat V c).after 7 t) (eq_ix2 y)).trans (h t (y 0) (y 1))
    funext j
    obtain ⟨e0, e1⟩ := idx0_7 t
    show (R0.dat V c).after 7 t ((cfg0.win 7).xinj (grid0.coords t) j) = _
    show _ = G (((cfg0.win 7).blk t).view.emb j 0) (((cfg0.win 7).blk t).view.emb j 1)
    refine (h' _).trans ?_
    congr 1
    · apply Fin.ext
      show (j 0).val = win0_7.index t (0 : Fin 2) * 512 + 1 * (j 0).val
      rw [e0, Nat.zero_mul, Nat.zero_add, Nat.one_mul]
    · apply Fin.ext
      show 1024 * t.val + (j 1).val = win0_7.index t (1 : Fin 2) * 1024 + 1 * (j 1).val
      rw [e1, Nat.one_mul, Nat.mul_comm]
  have hcover : ∀ i : S512x6144.Idx, ∃ t : Fin cfg0.N, (cfg0.win 7).flush t = true ∧ i ∈ ((cfg0.win 7).blk t).view.set := fun i => by
    have hi0 : (i 0).val < 512 := (i 0).isLt
    have hi1 : (i 1).val < 6144 := (i 1).isLt
    have hk : (i 1).val / 1024 < 6 := by omega
    refine ⟨pt0 ((i 1).val / 1024) hk, flush0_7 _, ?_⟩
    rw [mem_blk0_7]
    have e0 : win0_7.index (pt0 ((i 1).val / 1024) hk) (0 : Fin 2) = 0 := (idx0_7 _).1
    have e1 : win0_7.index (pt0 ((i 1).val / 1024) hk) (1 : Fin 2) = (i 1).val / 1024 := (idx0_7 _).2
    intro a
    match a with
    | ⟨0, _⟩ =>
      show win0_7.index _ (0 : Fin 2) * 512 ≤ (i 0).val ∧ (i 0).val < win0_7.index _ (0 : Fin 2) * 512 + 512
      rw [e0]; omega
    | ⟨1, _⟩ =>
      show win0_7.index _ (1 : Fin 2) * 1024 ≤ (i 1).val ∧ (i 1).val < win0_7.index _ (1 : Fin 2) * 1024 + 1024
      rw [e1]; omega
  exact congrFun ((R0.dat V c).arrAt_eq_of_cover 7 (whole G) hG hcover) (ix2 p n)

/-! ## Region 1 -/

/-- Window 6's block index at point `t` is `(0, t / 8)`. -/
theorem idx1_6 : ∀ t : Fin cfg1.N, win1_6.index t (0 : Fin 2) = 0 ∧ win1_6.index t (1 : Fin 2) = t.val / 8 :=
  (by decide +kernel : ∀ t : Fin grid1.N, win1_6.index t (0 : Fin 2) = 0 ∧ win1_6.index t (1 : Fin 2) = t.val / 8)

/-- An index of the array is in point `t`'s block iff each coordinate is in the block's range on its axis. -/
theorem mem_blk1_6 (t : Fin cfg1.N) (i : S512x6144.Idx) :
    i ∈ ((cfg1.win 6).blk t).view.set ↔ ∀ a : Fin 2, win1_6.index t a * S512x768.size a ≤ (i a).val ∧ (i a).val < win1_6.index t a * S512x768.size a + S512x768.size a := by
  show i ∈ ((View.whole main_v3_0).slice (win1_6.rect t)).set ↔ _
  rw [View.set_slice_whole, Rect.mem_set_unit]
  exact Iff.rfl

/-- Output window 6 of region 1: if every point that writes back leaves `G` on its 768 columns, the array ends holding `G`. -/
theorem arr1_6 (G : Fin 512 → Fin 6144 → EReal)
    (h : ∀ (t : Fin cfg1.N) (h7 : t.val % 8 = 7) (p : Fin 512) (q : Fin 768),
      (R1.dat V c).after 6 t (ix2 p q) = G p ⟨768 * (t.val / 8) + q.val, bnd1 (lt_N1 t) q.isLt⟩)
    (p : Fin 512) (n : Fin 6144) : (R1.dat V c).arrAt 6 cfg1.N (ix2 p n) = G p n := by
  have hG : ∀ t, (cfg1.win 6).flush t = true → (R1.dat V c).flushed 6 t = ((cfg1.win 6).blk t).view.read (Elt Ideal) (whole G) := fun t hf => by
    have h7 : t.val % 8 = 7 := (flush1_6 t).mp hf
    have h' : ∀ (y : S512x768.Idx), (R1.dat V c).after 6 t y = G (y 0) ⟨768 * (t.val / 8) + (y 1).val, bnd1 (lt_N1 t) (y 1).isLt⟩ :=
      fun y => (congrArg ((R1.dat V c).after 6 t) (eq_ix2 y)).trans (h t h7 (y 0) (y 1))
    funext j
    obtain ⟨e0, e1⟩ := idx1_6 t
    show (R1.dat V c).after 6 t ((cfg1.win 6).xinj (grid1.coords t) j) = _
    show _ = G (((cfg1.win 6).blk t).view.emb j 0) (((cfg1.win 6).blk t).view.emb j 1)
    refine (h' _).trans ?_
    congr 1
    · apply Fin.ext
      show (j 0).val = win1_6.index t (0 : Fin 2) * 512 + 1 * (j 0).val
      rw [e0, Nat.zero_mul, Nat.zero_add, Nat.one_mul]
    · apply Fin.ext
      show 768 * (t.val / 8) + (j 1).val = win1_6.index t (1 : Fin 2) * 768 + 1 * (j 1).val
      rw [e1, Nat.one_mul, Nat.mul_comm]
  have hcover : ∀ i : S512x6144.Idx, ∃ t : Fin cfg1.N, (cfg1.win 6).flush t = true ∧ i ∈ ((cfg1.win 6).blk t).view.set := fun i => by
    have hi0 : (i 0).val < 512 := (i 0).isLt
    have hi1 : (i 1).val < 6144 := (i 1).isLt
    have hk : 8 * ((i 1).val / 768) + 7 < 64 := by omega
    refine ⟨pt1 (8 * ((i 1).val / 768) + 7) hk, (flush1_6 _).mpr (by show (8 * ((i 1).val / 768) + 7) % 8 = 7; omega), ?_⟩
    rw [mem_blk1_6]
    have e0 : win1_6.index (pt1 (8 * ((i 1).val / 768) + 7) hk) (0 : Fin 2) = 0 := (idx1_6 _).1
    have e1 : win1_6.index (pt1 (8 * ((i 1).val / 768) + 7) hk) (1 : Fin 2) = (8 * ((i 1).val / 768) + 7) / 8 := (idx1_6 _).2
    intro a
    match a with
    | ⟨0, _⟩ =>
      show win1_6.index _ (0 : Fin 2) * 512 ≤ (i 0).val ∧ (i 0).val < win1_6.index _ (0 : Fin 2) * 512 + 512
      rw [e0]; omega
    | ⟨1, _⟩ =>
      show win1_6.index _ (1 : Fin 2) * 768 ≤ (i 1).val ∧ (i 1).val < win1_6.index _ (1 : Fin 2) * 768 + 768
      rw [e1]; omega
  exact congrFun ((R1.dat V c).arrAt_eq_of_cover 6 (whole G) hG hcover) (ix2 p n)

/-- Window 7's block index at point `t` is `(0, t / 8)`. -/
theorem idx1_7 : ∀ t : Fin cfg1.N, win1_7.index t (0 : Fin 2) = 0 ∧ win1_7.index t (1 : Fin 2) = t.val / 8 :=
  (by decide +kernel : ∀ t : Fin grid1.N, win1_7.index t (0 : Fin 2) = 0 ∧ win1_7.index t (1 : Fin 2) = t.val / 8)

/-- An index of the array is in point `t`'s block iff each coordinate is in the block's range on its axis. -/
theorem mem_blk1_7 (t : Fin cfg1.N) (i : S512x6144.Idx) :
    i ∈ ((cfg1.win 7).blk t).view.set ↔ ∀ a : Fin 2, win1_7.index t a * S512x768.size a ≤ (i a).val ∧ (i a).val < win1_7.index t a * S512x768.size a + S512x768.size a := by
  show i ∈ ((View.whole main_v3_1).slice (win1_7.rect t)).set ↔ _
  rw [View.set_slice_whole, Rect.mem_set_unit]
  exact Iff.rfl

/-- Output window 7 of region 1: if every point that writes back leaves `G` on its 768 columns, the array ends holding `G`. -/
theorem arr1_7 (G : Fin 512 → Fin 6144 → EReal)
    (h : ∀ (t : Fin cfg1.N) (h7 : t.val % 8 = 7) (p : Fin 512) (q : Fin 768),
      (R1.dat V c).after 7 t (ix2 p q) = G p ⟨768 * (t.val / 8) + q.val, bnd1 (lt_N1 t) q.isLt⟩)
    (p : Fin 512) (n : Fin 6144) : (R1.dat V c).arrAt 7 cfg1.N (ix2 p n) = G p n := by
  have hG : ∀ t, (cfg1.win 7).flush t = true → (R1.dat V c).flushed 7 t = ((cfg1.win 7).blk t).view.read (Elt Ideal) (whole G) := fun t hf => by
    have h7 : t.val % 8 = 7 := (flush1_7 t).mp hf
    have h' : ∀ (y : S512x768.Idx), (R1.dat V c).after 7 t y = G (y 0) ⟨768 * (t.val / 8) + (y 1).val, bnd1 (lt_N1 t) (y 1).isLt⟩ :=
      fun y => (congrArg ((R1.dat V c).after 7 t) (eq_ix2 y)).trans (h t h7 (y 0) (y 1))
    funext j
    obtain ⟨e0, e1⟩ := idx1_7 t
    show (R1.dat V c).after 7 t ((cfg1.win 7).xinj (grid1.coords t) j) = _
    show _ = G (((cfg1.win 7).blk t).view.emb j 0) (((cfg1.win 7).blk t).view.emb j 1)
    refine (h' _).trans ?_
    congr 1
    · apply Fin.ext
      show (j 0).val = win1_7.index t (0 : Fin 2) * 512 + 1 * (j 0).val
      rw [e0, Nat.zero_mul, Nat.zero_add, Nat.one_mul]
    · apply Fin.ext
      show 768 * (t.val / 8) + (j 1).val = win1_7.index t (1 : Fin 2) * 768 + 1 * (j 1).val
      rw [e1, Nat.one_mul, Nat.mul_comm]
  have hcover : ∀ i : S512x6144.Idx, ∃ t : Fin cfg1.N, (cfg1.win 7).flush t = true ∧ i ∈ ((cfg1.win 7).blk t).view.set := fun i => by
    have hi0 : (i 0).val < 512 := (i 0).isLt
    have hi1 : (i 1).val < 6144 := (i 1).isLt
    have hk : 8 * ((i 1).val / 768) + 7 < 64 := by omega
    refine ⟨pt1 (8 * ((i 1).val / 768) + 7) hk, (flush1_7 _).mpr (by show (8 * ((i 1).val / 768) + 7) % 8 = 7; omega), ?_⟩
    rw [mem_blk1_7]
    have e0 : win1_7.index (pt1 (8 * ((i 1).val / 768) + 7) hk) (0 : Fin 2) = 0 := (idx1_7 _).1
    have e1 : win1_7.index (pt1 (8 * ((i 1).val / 768) + 7) hk) (1 : Fin 2) = (8 * ((i 1).val / 768) + 7) / 8 := (idx1_7 _).2
    intro a
    match a with
    | ⟨0, _⟩ =>
      show win1_7.index _ (0 : Fin 2) * 512 ≤ (i 0).val ∧ (i 0).val < win1_7.index _ (0 : Fin 2) * 512 + 512
      rw [e0]; omega
    | ⟨1, _⟩ =>
      show win1_7.index _ (1 : Fin 2) * 768 ≤ (i 1).val ∧ (i 1).val < win1_7.index _ (1 : Fin 2) * 768 + 768
      rw [e1]; omega
  exact congrFun ((R1.dat V c).arrAt_eq_of_cover 7 (whole G) hG hcover) (ix2 p n)

/-- Window 8's block index at point `t` is `(0, t / 8)`. -/
theorem idx1_8 : ∀ t : Fin cfg1.N, win1_8.index t (0 : Fin 2) = 0 ∧ win1_8.index t (1 : Fin 2) = t.val / 8 :=
  (by decide +kernel : ∀ t : Fin grid1.N, win1_8.index t (0 : Fin 2) = 0 ∧ win1_8.index t (1 : Fin 2) = t.val / 8)

/-- An index of the array is in point `t`'s block iff each coordinate is in the block's range on its axis. -/
theorem mem_blk1_8 (t : Fin cfg1.N) (i : S512x6144.Idx) :
    i ∈ ((cfg1.win 8).blk t).view.set ↔ ∀ a : Fin 2, win1_8.index t a * S512x768.size a ≤ (i a).val ∧ (i a).val < win1_8.index t a * S512x768.size a + S512x768.size a := by
  show i ∈ ((View.whole main_v3_2).slice (win1_8.rect t)).set ↔ _
  rw [View.set_slice_whole, Rect.mem_set_unit]
  exact Iff.rfl

/-- Output window 8 of region 1: if every point that writes back leaves `G` on its 768 columns, the array ends holding `G`. -/
theorem arr1_8 (G : Fin 512 → Fin 6144 → EReal)
    (h : ∀ (t : Fin cfg1.N) (h7 : t.val % 8 = 7) (p : Fin 512) (q : Fin 768),
      (R1.dat V c).after 8 t (ix2 p q) = G p ⟨768 * (t.val / 8) + q.val, bnd1 (lt_N1 t) q.isLt⟩)
    (p : Fin 512) (n : Fin 6144) : (R1.dat V c).arrAt 8 cfg1.N (ix2 p n) = G p n := by
  have hG : ∀ t, (cfg1.win 8).flush t = true → (R1.dat V c).flushed 8 t = ((cfg1.win 8).blk t).view.read (Elt Ideal) (whole G) := fun t hf => by
    have h7 : t.val % 8 = 7 := (flush1_8 t).mp hf
    have h' : ∀ (y : S512x768.Idx), (R1.dat V c).after 8 t y = G (y 0) ⟨768 * (t.val / 8) + (y 1).val, bnd1 (lt_N1 t) (y 1).isLt⟩ :=
      fun y => (congrArg ((R1.dat V c).after 8 t) (eq_ix2 y)).trans (h t h7 (y 0) (y 1))
    funext j
    obtain ⟨e0, e1⟩ := idx1_8 t
    show (R1.dat V c).after 8 t ((cfg1.win 8).xinj (grid1.coords t) j) = _
    show _ = G (((cfg1.win 8).blk t).view.emb j 0) (((cfg1.win 8).blk t).view.emb j 1)
    refine (h' _).trans ?_
    congr 1
    · apply Fin.ext
      show (j 0).val = win1_8.index t (0 : Fin 2) * 512 + 1 * (j 0).val
      rw [e0, Nat.zero_mul, Nat.zero_add, Nat.one_mul]
    · apply Fin.ext
      show 768 * (t.val / 8) + (j 1).val = win1_8.index t (1 : Fin 2) * 768 + 1 * (j 1).val
      rw [e1, Nat.one_mul, Nat.mul_comm]
  have hcover : ∀ i : S512x6144.Idx, ∃ t : Fin cfg1.N, (cfg1.win 8).flush t = true ∧ i ∈ ((cfg1.win 8).blk t).view.set := fun i => by
    have hi0 : (i 0).val < 512 := (i 0).isLt
    have hi1 : (i 1).val < 6144 := (i 1).isLt
    have hk : 8 * ((i 1).val / 768) + 7 < 64 := by omega
    refine ⟨pt1 (8 * ((i 1).val / 768) + 7) hk, (flush1_8 _).mpr (by show (8 * ((i 1).val / 768) + 7) % 8 = 7; omega), ?_⟩
    rw [mem_blk1_8]
    have e0 : win1_8.index (pt1 (8 * ((i 1).val / 768) + 7) hk) (0 : Fin 2) = 0 := (idx1_8 _).1
    have e1 : win1_8.index (pt1 (8 * ((i 1).val / 768) + 7) hk) (1 : Fin 2) = (8 * ((i 1).val / 768) + 7) / 8 := (idx1_8 _).2
    intro a
    match a with
    | ⟨0, _⟩ =>
      show win1_8.index _ (0 : Fin 2) * 512 ≤ (i 0).val ∧ (i 0).val < win1_8.index _ (0 : Fin 2) * 512 + 512
      rw [e0]; omega
    | ⟨1, _⟩ =>
      show win1_8.index _ (1 : Fin 2) * 768 ≤ (i 1).val ∧ (i 1).val < win1_8.index _ (1 : Fin 2) * 768 + 768
      rw [e1]; omega
  exact congrFun ((R1.dat V c).arrAt_eq_of_cover 8 (whole G) hG hcover) (ix2 p n)

/-! ## Region 2 -/

/-- Window 8's block index at point `t` is `(0, t / 8)`. -/
theorem idx2_8 : ∀ t : Fin cfg2.N, win2_8.index t (0 : Fin 2) = 0 ∧ win2_8.index t (1 : Fin 2) = t.val / 8 :=
  (by decide +kernel : ∀ t : Fin grid2.N, win2_8.index t (0 : Fin 2) = 0 ∧ win2_8.index t (1 : Fin 2) = t.val / 8)

/-- An index of the array is in point `t`'s block iff each coordinate is in the block's range on its axis. -/
theorem mem_blk2_8 (t : Fin cfg2.N) (i : S512x6144.Idx) :
    i ∈ ((cfg2.win 8).blk t).view.set ↔ ∀ a : Fin 2, win2_8.index t a * S512x768.size a ≤ (i a).val ∧ (i a).val < win2_8.index t a * S512x768.size a + S512x768.size a := by
  show i ∈ ((View.whole main_v4_0).slice (win2_8.rect t)).set ↔ _
  rw [View.set_slice_whole, Rect.mem_set_unit]
  exact Iff.rfl

/-- Output window 8 of region 2: if every point that writes back leaves `G` on its 768 columns, the array ends holding `G`. -/
theorem arr2_8 (G : Fin 512 → Fin 6144 → EReal)
    (h : ∀ (t : Fin cfg2.N) (h7 : t.val % 8 = 7) (p : Fin 512) (q : Fin 768),
      (R2.dat V c).after 8 t (ix2 p q) = G p ⟨768 * (t.val / 8) + q.val, bnd2 (lt_N2 t) q.isLt⟩)
    (p : Fin 512) (n : Fin 6144) : (R2.dat V c).arrAt 8 cfg2.N (ix2 p n) = G p n := by
  have hG : ∀ t, (cfg2.win 8).flush t = true → (R2.dat V c).flushed 8 t = ((cfg2.win 8).blk t).view.read (Elt Ideal) (whole G) := fun t hf => by
    have h7 : t.val % 8 = 7 := (flush2_8 t).mp hf
    have h' : ∀ (y : S512x768.Idx), (R2.dat V c).after 8 t y = G (y 0) ⟨768 * (t.val / 8) + (y 1).val, bnd2 (lt_N2 t) (y 1).isLt⟩ :=
      fun y => (congrArg ((R2.dat V c).after 8 t) (eq_ix2 y)).trans (h t h7 (y 0) (y 1))
    funext j
    obtain ⟨e0, e1⟩ := idx2_8 t
    show (R2.dat V c).after 8 t ((cfg2.win 8).xinj (grid2.coords t) j) = _
    show _ = G (((cfg2.win 8).blk t).view.emb j 0) (((cfg2.win 8).blk t).view.emb j 1)
    refine (h' _).trans ?_
    congr 1
    · apply Fin.ext
      show (j 0).val = win2_8.index t (0 : Fin 2) * 512 + 1 * (j 0).val
      rw [e0, Nat.zero_mul, Nat.zero_add, Nat.one_mul]
    · apply Fin.ext
      show 768 * (t.val / 8) + (j 1).val = win2_8.index t (1 : Fin 2) * 768 + 1 * (j 1).val
      rw [e1, Nat.one_mul, Nat.mul_comm]
  have hcover : ∀ i : S512x6144.Idx, ∃ t : Fin cfg2.N, (cfg2.win 8).flush t = true ∧ i ∈ ((cfg2.win 8).blk t).view.set := fun i => by
    have hi0 : (i 0).val < 512 := (i 0).isLt
    have hi1 : (i 1).val < 6144 := (i 1).isLt
    have hk : 8 * ((i 1).val / 768) + 7 < 64 := by omega
    refine ⟨pt2 (8 * ((i 1).val / 768) + 7) hk, (flush2_8 _).mpr (by show (8 * ((i 1).val / 768) + 7) % 8 = 7; omega), ?_⟩
    rw [mem_blk2_8]
    have e0 : win2_8.index (pt2 (8 * ((i 1).val / 768) + 7) hk) (0 : Fin 2) = 0 := (idx2_8 _).1
    have e1 : win2_8.index (pt2 (8 * ((i 1).val / 768) + 7) hk) (1 : Fin 2) = (8 * ((i 1).val / 768) + 7) / 8 := (idx2_8 _).2
    intro a
    match a with
    | ⟨0, _⟩ =>
      show win2_8.index _ (0 : Fin 2) * 512 ≤ (i 0).val ∧ (i 0).val < win2_8.index _ (0 : Fin 2) * 512 + 512
      rw [e0]; omega
    | ⟨1, _⟩ =>
      show win2_8.index _ (1 : Fin 2) * 768 ≤ (i 1).val ∧ (i 1).val < win2_8.index _ (1 : Fin 2) * 768 + 768
      rw [e1]; omega
  exact congrFun ((R2.dat V c).arrAt_eq_of_cover 8 (whole G) hG hcover) (ix2 p n)

/-- Window 9's block index at point `t` is `(0, t / 8)`. -/
theorem idx2_9 : ∀ t : Fin cfg2.N, win2_9.index t (0 : Fin 2) = 0 ∧ win2_9.index t (1 : Fin 2) = t.val / 8 :=
  (by decide +kernel : ∀ t : Fin grid2.N, win2_9.index t (0 : Fin 2) = 0 ∧ win2_9.index t (1 : Fin 2) = t.val / 8)

/-- An index of the array is in point `t`'s block iff each coordinate is in the block's range on its axis. -/
theorem mem_blk2_9 (t : Fin cfg2.N) (i : S512x6144.Idx) :
    i ∈ ((cfg2.win 9).blk t).view.set ↔ ∀ a : Fin 2, win2_9.index t a * S512x768.size a ≤ (i a).val ∧ (i a).val < win2_9.index t a * S512x768.size a + S512x768.size a := by
  show i ∈ ((View.whole main_v4_1).slice (win2_9.rect t)).set ↔ _
  rw [View.set_slice_whole, Rect.mem_set_unit]
  exact Iff.rfl

/-- Output window 9 of region 2: if every point that writes back leaves `G` on its 768 columns, the array ends holding `G`. -/
theorem arr2_9 (G : Fin 512 → Fin 6144 → EReal)
    (h : ∀ (t : Fin cfg2.N) (h7 : t.val % 8 = 7) (p : Fin 512) (q : Fin 768),
      (R2.dat V c).after 9 t (ix2 p q) = G p ⟨768 * (t.val / 8) + q.val, bnd2 (lt_N2 t) q.isLt⟩)
    (p : Fin 512) (n : Fin 6144) : (R2.dat V c).arrAt 9 cfg2.N (ix2 p n) = G p n := by
  have hG : ∀ t, (cfg2.win 9).flush t = true → (R2.dat V c).flushed 9 t = ((cfg2.win 9).blk t).view.read (Elt Ideal) (whole G) := fun t hf => by
    have h7 : t.val % 8 = 7 := (flush2_9 t).mp hf
    have h' : ∀ (y : S512x768.Idx), (R2.dat V c).after 9 t y = G (y 0) ⟨768 * (t.val / 8) + (y 1).val, bnd2 (lt_N2 t) (y 1).isLt⟩ :=
      fun y => (congrArg ((R2.dat V c).after 9 t) (eq_ix2 y)).trans (h t h7 (y 0) (y 1))
    funext j
    obtain ⟨e0, e1⟩ := idx2_9 t
    show (R2.dat V c).after 9 t ((cfg2.win 9).xinj (grid2.coords t) j) = _
    show _ = G (((cfg2.win 9).blk t).view.emb j 0) (((cfg2.win 9).blk t).view.emb j 1)
    refine (h' _).trans ?_
    congr 1
    · apply Fin.ext
      show (j 0).val = win2_9.index t (0 : Fin 2) * 512 + 1 * (j 0).val
      rw [e0, Nat.zero_mul, Nat.zero_add, Nat.one_mul]
    · apply Fin.ext
      show 768 * (t.val / 8) + (j 1).val = win2_9.index t (1 : Fin 2) * 768 + 1 * (j 1).val
      rw [e1, Nat.one_mul, Nat.mul_comm]
  have hcover : ∀ i : S512x6144.Idx, ∃ t : Fin cfg2.N, (cfg2.win 9).flush t = true ∧ i ∈ ((cfg2.win 9).blk t).view.set := fun i => by
    have hi0 : (i 0).val < 512 := (i 0).isLt
    have hi1 : (i 1).val < 6144 := (i 1).isLt
    have hk : 8 * ((i 1).val / 768) + 7 < 64 := by omega
    refine ⟨pt2 (8 * ((i 1).val / 768) + 7) hk, (flush2_9 _).mpr (by show (8 * ((i 1).val / 768) + 7) % 8 = 7; omega), ?_⟩
    rw [mem_blk2_9]
    have e0 : win2_9.index (pt2 (8 * ((i 1).val / 768) + 7) hk) (0 : Fin 2) = 0 := (idx2_9 _).1
    have e1 : win2_9.index (pt2 (8 * ((i 1).val / 768) + 7) hk) (1 : Fin 2) = (8 * ((i 1).val / 768) + 7) / 8 := (idx2_9 _).2
    intro a
    match a with
    | ⟨0, _⟩ =>
      show win2_9.index _ (0 : Fin 2) * 512 ≤ (i 0).val ∧ (i 0).val < win2_9.index _ (0 : Fin 2) * 512 + 512
      rw [e0]; omega
    | ⟨1, _⟩ =>
      show win2_9.index _ (1 : Fin 2) * 768 ≤ (i 1).val ∧ (i 1).val < win2_9.index _ (1 : Fin 2) * 768 + 768
      rw [e1]; omega
  exact congrFun ((R2.dat V c).arrAt_eq_of_cover 9 (whole G) hG hcover) (ix2 p n)

end Cert.KernelIdeal.Cover

end
-- ==== Proof.KI_V0_Values.lean ====
/- The first region's three output arrays after the run, at the ideal values, against the specification's first
   layer: every point's block is the layer's columns at that point, and the blocks cover the arrays. -/
import proofs.«130870_j71201967833887_2_alg».proof.Proof.KI_V0
import proofs.«130870_j71201967833887_2_alg».proof.Proof.KI_Cover

set_option maxRecDepth 16384

noncomputable section

namespace Cert.KernelIdeal.V0

open Cert.KernelIdeal Cert.KernelIdeal.Gen Cert.LibBnSpec
open Idealize.ShloMosaic Idealize.ShloMosaic.TcCoe Idealize.ShloMosaic.ValueIdx

theorem values (V : (c : Dev nD) → (b : Ref sig .tc) → Buf (Elt Ideal) ((c : Thread nD τ).loc b)) (c : Dev nD)
    (x : Fin 512 → Fin 784 → EReal) (w : Fin 6144 → Fin 784 → EReal) (b g be : Fin 6144 → EReal)
    (hx : ∀ (p : Fin 512) (k : Fin 896), (V c main_v0 : S512x896.Idx → EReal) (ix2 p k) = if h : k.val < 784 then x p ⟨k.val, h⟩ else 0)
    (hw : ∀ (n : Fin 6144) (k : Fin 896), (V c main_v1 : S6144x896.Idx → EReal) (ix2 n k) = if h : k.val < 784 then w n ⟨k.val, h⟩ else 0)
    (hb : ∀ n : Fin 6144, (V c main_arg4 : S6144.Idx → EReal) (ix1 n) = b n)
    (hg : ∀ n : Fin 6144, (V c main_arg11 : S6144.Idx → EReal) (ix1 n) = g n)
    (hbe : ∀ n : Fin 6144, (V c main_arg12 : S6144.Idx → EReal) (ix1 n) = be n)
    (fx : ∀ p k, ∃ r : ℝ, x p k = (r : EReal)) (fw : ∀ n k, ∃ r : ℝ, w n k = (r : EReal)) :
    (∀ (p : Fin 512) (n : Fin 6144), (R0.dat V c).arrAt 5 cfg0.N (ix2 p n) = NetSpec.layerB x w b g be p n)
    ∧ (∀ (p : Fin 512) (n : Fin 6144), (R0.dat V c).arrAt 6 cfg0.N (ix2 p n) = NetSpec.layerR x w b g be p n)
    ∧ (∀ (p : Fin 512) (n : Fin 6144), (R0.dat V c).arrAt 7 cfg0.N (ix2 p n) = Ideal.sign (NetSpec.layerB x w b g be p n)) :=
  ⟨Cover.arr0_5 V c (NetSpec.layerB x w b g be) (after5_spec V c x w b g be hx hw hb hg hbe fx),
   Cover.arr0_6 V c (NetSpec.layerR x w b g be) (after6_spec V c x w b g be hx hw hb hg hbe fx fw),
   Cover.arr0_7 V c (fun p n => Ideal.sign (NetSpec.layerB x w b g be p n)) (after7_spec V c x w b g be hx hw hb hg hbe fx)⟩

end Cert.KernelIdeal.V0

end
-- ==== Proof.KI_V1_Pay.lean ====
import proofs.«130870_j71201967833887_2_alg».proof.Proof.Gen.KernelIdeal.Skeleton
import proofs.«130870_j71201967833887_2_alg».proof.Proof.LibBnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.V1

open Cert.KernelIdeal Cert.KernelIdeal.Gen Cert.LibBnSpec
open Idealize.ShloMosaic Idealize.ShloMosaic.ValueIdx

/-! ## The layer's operations at the extended reals, read at coordinates -/

/-- The 512×768 by 768×768 product into the zero block, at `(p, q)`: the sum over the contracted coordinate. -/
theorem mm_apply {φ₁ φ₂ : FTy} (A : FVec Ideal S512x768 φ₁) (B : FVec Ideal S768x768 φ₂) (p : Fin 512) (q : Fin 768) :
    matmul dot_S512x768_S768x768_S512x768_1_0_0_1_n_n none A B (constant S512x768 .f32 0x00000000#32) (ix2 p q)
      = ∑ k : Fin 768, A (ix2 p k) * B (ix2 k q) := by
  show FloatOps.matmul _ none A B _ (ix2 p q) = _
  rw [Ideal.matmul_constant_zero_apply,
    ← Equiv.sum_comp (contrEquiv1 dot_S512x768_S768x768_S512x768_1_0_0_1_n_n 768 rfl rfl).symm]
  refine Finset.sum_congr rfl fun c _ => ?_
  have c2 := contrEquiv1_symm_val dot_S512x768_S768x768_S512x768_1_0_0_1_n_n 768 rfl rfl c
  have l2 : dot_S512x768_S768x768_S512x768_1_0_0_1_n_n.lhsIdx (ix2 p q) ((contrEquiv1 _ 768 rfl rfl).symm c) = ix2 p c := by
    funext ax; apply Fin.ext
    match ax with
    | ⟨0, _⟩ => simp [DotDims.lhsIdx, dot_S512x768_S768x768_S512x768_1_0_0_1_n_n]; rfl
    | ⟨1, _⟩ => simp [DotDims.lhsIdx, dot_S512x768_S768x768_S512x768_1_0_0_1_n_n]; exact c2
  have r2 : dot_S512x768_S768x768_S512x768_1_0_0_1_n_n.rhsIdx (ix2 p q) ((contrEquiv1 _ 768 rfl rfl).symm c) = ix2 c q := by
    funext ax; apply Fin.ext
    match ax with
    | ⟨0, _⟩ => simp [DotDims.rhsIdx, dot_S512x768_S768x768_S512x768_1_0_0_1_n_n]; exact c2
    | ⟨1, _⟩ => simp [DotDims.rhsIdx, dot_S512x768_S768x768_S512x768_1_0_0_1_n_n]; rfl
  rw [l2, r2]

/-- A 768-vector made a row and repeated down 512 rows, at `(p, q)`: its entry `q`. -/
theorem col_apply (v : FVec Ideal S768 .f32) (p : Fin 512) (q : Fin 768) :
    broadcastTo S512x768 (shapeCast S1x768 v shapeCasts_S768_S1x768) broadcasts_S1x768_S512x768 (ix2 p q) = v (ix1 q) := by
  rw [broadcastTo_1b_ab_apply, shapeCast_a_1a_apply]

/-- The column sums of a 512×768 block at `q`: the sum down column `q` (the evidence arguments typed as the printed
    payloads carry them). -/
theorem msum_apply (x : FVec Ideal S512x768 .f32) (hφ : FKind.Formats .f32) (hacc : (0x00000000#32 : BitVec 32) = 0x00000000#32)
    (q : Fin 768) :
    multiReduction .add [0] S768 x 0x00000000#32 reduces_S512x768_S768 hφ hacc (ix1 q) = ∑ p' : Fin 512, x (ix2 p' q) := by
  refine (Ideal.multiReduction_add_single x 0x00000000#32 reduces_S512x768_S768 hφ hacc (ix1 q)).trans ?_
  show ∑ p' : Fin 512, x (reduces_S512x768_S768.lift (ix1 q) p') = _
  refine Finset.sum_congr rfl fun p' _ => congrArg x ?_
  funext a; apply Fin.ext
  match a with
  | ⟨0, _⟩ => rfl
  | ⟨1, _⟩ => rfl

/-- The column means of a block as a row, repeated down the rows: at every index the mean of the index's column (the
    evidence arguments typed as the printed payloads carry them). -/
theorem mean_rows_eq (x : FVec Ideal S512x768 .f32) (hφ : FKind.Formats .f32) (hacc : (0x00000000#32 : BitVec 32) = 0x00000000#32)
    (d : Ideal .f32) :
    broadcastTo S512x768 (divf (shapeCast S1x768 (multiReduction .add [0] S768 x 0x00000000#32 reduces_S512x768_S768 hφ hacc) shapeCasts_S768_S1x768)
        (broadcast S1x768 d)) broadcasts_S1x768_S512x768
      = fun j => Ideal.div (∑ p' : Fin 512, x (ix2 p' (j 1))) d := by
  funext j
  obtain ⟨p, q, rfl⟩ : ∃ (p : Fin 512) (q : Fin 768), j = ix2 p q := ⟨j 0, j 1, eq_ix2 j⟩
  rw [broadcastTo_1b_ab_apply, divf_apply, shapeCast_a_1a_apply, msum_apply, broadcast_apply]

theorem rsqrt_apply {s : Shape} {φ : FTy} (v : FVec Ideal s φ) (i : s.Idx) : rsqrt v i = Ideal.rsqrt (v i) := rfl

/-- Accumulator 0's update at `(p, q)`: what it held plus the inner product of row `p` of the activations' slice with
    the signs of row `q` of the weight tile. -/
theorem pay12_apply (v8 : Vec Ideal S512x768 .bf16) (v13 : Vec Ideal S768x768 .f32) (v25 : Vec Ideal S512x768 .f32)
    (p : Fin 512) (q : Fin 768) :
    k1_pay12 v8 v13 v25 (ix2 p q) = v25 (ix2 p q) + ∑ k : Fin 768, v8 (ix2 p k) * Ideal.sign (v13 (ix2 q k)) := by
  unfold k1_pay12
  dsimp only
  rw [shapeCast_self, addf_apply, shapeCast_self, mm_apply]
  refine congrArg (v25 (ix2 p q) + ·) (Finset.sum_congr rfl fun k _ => ?_)
  rw [transpose_ix2_apply, truncf_apply]
  exact congrArg (v8 (ix2 p k) * ·) (Ideal.jnp_sign_eq_sign_f32 (v13 (ix2 q k)))

/-- Accumulator 1's update at `(p, q)` when the activations' slice and the weight tile hold real numbers: what it held
    plus the inner product of row `p` of the slice with row `q` of the tile (the two residue products vanish). -/
theorem pay1_apply (v32 : Vec Ideal S512x768 .f32) (v11 : Vec Ideal S512x768 .f32) (v13 : Vec Ideal S768x768 .f32)
    (h11 : ∀ (p : Fin 512) (k : Fin 768), ∃ r : ℝ, v11 (ix2 p k) = (r : EReal))
    (h13 : ∀ (q k : Fin 768), ∃ r : ℝ, v13 (ix2 q k) = (r : EReal))
    (p : Fin 512) (q : Fin 768) :
    k1_pay1 v32 (k1_pay13 v11) (k1_pay14 v11) (k1_pay15 v13) (k1_pay16 v13) (ix2 p q)
      = v32 (ix2 p q) + ∑ k : Fin 768, v11 (ix2 p k) * v13 (ix2 q k) := by
  unfold k1_pay1
  dsimp only
  rw [shapeCast_self, addf_apply, addf_apply, addf_apply, mm_apply, mm_apply, mm_apply]
  have e1 : ∀ k : Fin 768, k1_pay13 v11 (ix2 p k) = v11 (ix2 p k) := fun k => by
    unfold k1_pay13 k1_pay11; dsimp only; rw [truncf_apply, shapeCast_self]
  have e2 : ∀ k : Fin 768, k1_pay14 v11 (ix2 p k) = 0 := fun k => by
    unfold k1_pay14 k1_pay11; dsimp only; rw [truncf_apply, subf_apply, shapeCast_self]
    exact sub_self_real _ (h11 p k)
  have e3 : ∀ k : Fin 768, transpose S768x768 [1, 0] (k1_pay15 v13) transposes_S768x768_p1_0_S768x768 (ix2 k q) = v13 (ix2 q k) := fun k => by
    rw [transpose_ix2_apply]; unfold k1_pay15; (try dsimp only); rw [truncf_apply]
  have e4 : ∀ k : Fin 768, transpose S768x768 [1, 0] (k1_pay16 v13) transposes_S768x768_p1_0_S768x768 (ix2 k q) = 0 := fun k => by
    rw [transpose_ix2_apply]; unfold k1_pay16; (try dsimp only); rw [truncf_apply, subf_apply]
    exact sub_self_real _ (h13 q k)
  simp only [e1, e2, e3, e4, mul_zero, zero_mul, Finset.sum_const_zero, add_zero]

/-- The normalisation of an accumulated block at `(p, q)`: bias `v57`, scale `v60`, shift `v62` at column `q`, over the
    block's column `q` (the product-by-reciprocal-root spelling), clipped. -/
theorem pay6_apply (v57 v60 v62 : Vec Ideal S768 .f32) (v63 : Vec Ideal S512x768 .f32) (p : Fin 512) (q : Fin 768) :
    k1_pay6 v57 v60 v62 v63 (ix2 p q)
      = bnclipK (v60 (ix1 q)) (v62 (ix1 q)) (fun p' => v63 (ix2 p' q) + v57 (ix1 q)) p := by
  unfold k1_pay6 k1_pay4
  dsimp only
  rw [mean_rows_eq]
  simp only [minimumf_apply, maximumf_apply, addf_apply, mulf_apply, subf_apply, divf_apply, broadcast_apply, rsqrt_apply,
    broadcastTo_1b_ab_apply, shapeCast_a_1a_apply]
  rw [msum_apply]
  simp only [addf_apply, mulf_apply, subf_apply, broadcastTo_1b_ab_apply, shapeCast_a_1a_apply]
  rfl

/-- The same for the second path, whose payloads name the biased block, its column mean and its deviation. -/
theorem pay2_apply (v57 v60 v62 : Vec Ideal S768 .f32) (v66 : Vec Ideal S512x768 .f32) (p : Fin 512) (q : Fin 768) :
    k1_pay2 v60 v62 (k1_pay5 v57 v66) (k1_pay7 v57 v66) (k1_pay8 v57 v66) (ix2 p q)
      = bnclipK (v60 (ix1 q)) (v62 (ix1 q)) (fun p' => v66 (ix2 p' q) + v57 (ix1 q)) p := by
  unfold k1_pay2 k1_pay8 k1_pay7 k1_pay5 k1_pay4
  dsimp only
  rw [mean_rows_eq]
  simp only [minimumf_apply, maximumf_apply, addf_apply, mulf_apply, subf_apply, divf_apply, broadcast_apply, rsqrt_apply,
    broadcastTo_1b_ab_apply, shapeCast_a_1a_apply]
  rw [msum_apply]
  simp only [addf_apply, mulf_apply, subf_apply, broadcastTo_1b_ab_apply, shapeCast_a_1a_apply]
  rfl

/-- The third output at an index: the sign of the first output there. -/
theorem pay3_apply (v96 : FVec Ideal S512x768 .f32) (j : S512x768.Idx) : k1_pay3 v96 j = Ideal.sign (v96 j) := by
  unfold k1_pay3
  (try dsimp only)
  rw [truncf_apply]
  exact Ideal.jnp_sign_eq_sign_f32 (v96 j)

end Cert.KernelIdeal.V1

end
-- ==== Proof.KI_R1_Val.lean ====
import proofs.«130870_j71201967833887_2_alg».proof.Proof.KI_R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## One step of the reduction, as explicit terms over the payloads -/

/-- The column slice of the two activation arrays that grid point `i` contracts over (768 columns at `768 · i 1`). -/
abbrev rAct (i : grid1.Coords) : Rect S512x6144 := Rect.unit (s := S512x6144) (k1_off1 i) S512x768.size (k1_off1_inb i)
/-- The slice of the three per-column vectors that grid point `i` finalizes (768 entries at `768 · i 0`). -/
abbrev rVec (i : grid1.Coords) (h : cond1 i) : Rect S6144 := Rect.unit (s := S6144) (k1_off2 i) S768.size (k1_off2_inb i h)

/-- Accumulator 0 after a step: what it held plus the product of the 16-bit activations' slice `x0` with the signs of the weight tile `x2`. -/
def acc0Step (i : grid1.Coords) (x0 : Vec F S512x6144 .bf16) (x2 : Vec F S768x768 .f32) (a0 : Vec F S512x768 .f32) : Vec F S512x768 .f32 :=
  k1_pay12 (View.ld x0 (rAct i)) x2 a0
/-- Accumulator 1 after a step: what it held plus the three partial products of the real activations' slice `x1` with the weight tile `x2`. -/
def acc1Step (i : grid1.Coords) (x1 : Vec F S512x6144 .f32) (x2 : Vec F S768x768 .f32) (a1 : Vec F S512x768 .f32) : Vec F S512x768 .f32 :=
  k1_pay1 a1 (k1_pay13 (View.ld x1 (rAct i))) (k1_pay14 (View.ld x1 (rAct i))) (k1_pay15 x2) (k1_pay16 x2)
/-- Output 6 at a last step, from accumulator 0's final contents `a0` and the bias, scale and shift slices. -/
def fin6 (i : grid1.Coords) (h : cond1 i) (x3 x4 x5 : Vec F S6144 .f32) (a0 : Vec F S512x768 .f32) : Vec F S512x768 .f32 :=
  k1_pay6 (View.ld x3 (rVec i h)) (View.ld x4 (rVec i h)) (View.ld x5 (rVec i h)) a0
/-- Output 7 at a last step, from accumulator 1's final contents `a1`. -/
def fin7 (i : grid1.Coords) (h : cond1 i) (x3 x4 x5 : Vec F S6144 .f32) (a1 : Vec F S512x768 .f32) : Vec F S512x768 .f32 :=
  k1_pay2 (View.ld x4 (rVec i h)) (View.ld x5 (rVec i h)) (k1_pay5 (View.ld x3 (rVec i h)) a1) (k1_pay7 (View.ld x3 (rVec i h)) a1) (k1_pay8 (View.ld x3 (rVec i h)) a1)
/-- Output 8 at a last step: the sign term of output 6, narrowed to 16 bits. -/
def fin8 (i : grid1.Coords) (h : cond1 i) (x3 x4 x5 : Vec F S6144 .f32) (a0 : Vec F S512x768 .f32) : Vec F S512x768 .bf16 :=
  k1_pay3 (fin6 i h x3 x4 x5 a0)

/-! ## The pieces each case's run found, read as these terms -/

theorem soutA_0_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) :
    soutA_0 c i arg2 harg2 arg3 harg3 arg4 harg4 arg5 harg5 arg6 harg6 arg7 harg7 arg8 harg8 arg9 harg9 arg10 harg10 arg11 harg11 arg12 harg12 hc0 hc1 x0 x1 x2 x3 x4 x5 = acc0Step i x0 x2 k1_pay9 := by
  unfold soutA_0
  rw [View.read_writes_eq_canon _ _ _ (scoverA_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRunA
  dsimp only
  sl_unfold_words
  rw [View.canon_cons_unit_zero (S := S512x768) hz2, View.readCov_unit_zero (S := S512x768) _ hz2]
  unfold acc0Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem soutA_1_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) :
    soutA_1 c i arg2 harg2 arg3 harg3 arg4 harg4 arg5 harg5 arg6 harg6 arg7 harg7 arg8 harg8 arg9 harg9 arg10 harg10 arg11 harg11 arg12 harg12 hc0 hc1 x0 x1 x2 x3 x4 x5 = acc1Step i x1 x2 k1_pay10 := by
  unfold soutA_1
  rw [View.read_writes_eq_canon _ _ _ (scoverA_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRunA
  dsimp only
  sl_unfold_words
  rw [View.canon_cons_unit_zero (S := S512x768) hz2, View.readCov_unit_zero (S := S512x768) _ hz2]
  unfold acc1Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem soutB_0_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    soutB_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = acc0Step i x0 x2 xs0 := by
  unfold soutB_0
  rw [View.read_writes_eq_canon _ _ _ (scoverB_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunB
  dsimp only
  sl_unfold_words
  rw [View.canon_unit_zero (S := S512x768) hz2]
  unfold acc0Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem soutB_1_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    soutB_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = acc1Step i x1 x2 xs1 := by
  unfold soutB_1
  rw [View.read_writes_eq_canon _ _ _ (scoverB_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunB
  dsimp only
  sl_unfold_words
  rw [View.canon_unit_zero (S := S512x768) hz2]
  unfold acc1Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem soutC_0_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    soutC_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = acc0Step i x0 x2 xs0 := by
  unfold soutC_0
  rw [View.read_writes_eq_canon _ _ _ (scoverC_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunC
  dsimp only
  sl_unfold_words
  rw [View.canon_unit_zero (S := S512x768) hz2]
  unfold acc0Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem soutC_1_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    soutC_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = acc1Step i x1 x2 xs1 := by
  unfold soutC_1
  rw [View.read_writes_eq_canon _ _ _ (scoverC_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunC
  dsimp only
  sl_unfold_words
  rw [View.canon_unit_zero (S := S512x768) hz2]
  unfold acc1Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem outC_6_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    outC_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = fin6 i hc1 x3 x4 x5 (acc0Step i x0 x2 xs0) := by
  unfold outC_6
  rw [View.read_writes_eq_canon _ _ _ (coverC_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunC
  dsimp only
  sl_unfold_words
  rw [View.canon_unit_zero (S := S512x768) hz2, View.readCov_unit_zero (S := S512x768) _ hz2]
  unfold fin6 acc0Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem outC_7_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    outC_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = fin7 i hc1 x3 x4 x5 (acc1Step i x1 x2 xs1) := by
  unfold outC_7
  rw [View.read_writes_eq_canon _ _ _ (coverC_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunC
  dsimp only
  sl_unfold_words
  rw [View.canon_unit_zero (S := S512x768) hz2, View.readCov_unit_zero (S := S512x768) _ hz2]
  unfold fin7 acc1Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

theorem outC_8_eq (c : Dev nD) (i : grid1.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S512x768 .f32) (harg11 : arg11.IsWhole) (arg12 : Memref sig .tc .vmem S512x768 .f32) (harg12 : arg12.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (xs0 : Vec F S512x768 .f32) (xs1 : Vec F S512x768 .f32) :
    outC_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = fin8 i hc1 x3 x4 x5 (acc0Step i x0 x2 xs0) := by
  unfold outC_8
  rw [View.read_writes_eq_canon _ _ _ (coverC_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRunC
  dsimp only
  sl_unfold_words
  rw [View.canon_unit_zero (S := S512x768) hz2, View.readCov_unit_zero (S := S512x768) _ hz2]
  unfold fin8 fin6 acc0Step
  simp only [View.readAt_eq_ld, harg2.read_unread, harg3.read_unread, harg4.read_unread, harg5.read_unread, harg6.read_unread, harg7.read_unread, harg11.read_unread, harg12.read_unread, View.ld_unit_zero (S := S768x768) hz2, View.ld_unit_zero (S := S512x768) hz2]
  rfl

section Regions
variable (V : (c : Dev nD) → (b : Ref sig .tc) → Buf (Elt F) ((c : Thread nD τ).loc b))

/-! ## The accumulators after each point, in closed recursive form -/

/-- Both accumulators reset (the zero blocks a first step stores). -/
def zeroAcc : Vec F S512x768 .f32 × Vec F S512x768 .f32 := (k1_pay9, k1_pay10)

/-- One step at point `t` on the accumulators' contents `a`, over the point's blocks of windows 0, 1, 2. -/
def accStep (c : Dev nD) (t : Fin cfg1.N) (a : Vec F S512x768 .f32 × Vec F S512x768 .f32) : Vec F S512x768 .f32 × Vec F S512x768 .f32 :=
  (acc0Step (grid1.coords t) (iblk V c 0 t) (iblk V c 2 t) a.1, acc1Step (grid1.coords t) (iblk V c 1 t) (iblk V c 2 t) a.2)

/-- The accumulators after point `n`: a step from the reset contents where `n % 8 = 0`, from the point before's otherwise. -/
def accAt (c : Dev nD) : (n : ℕ) → n < cfg1.N → Vec F S512x768 .f32 × Vec F S512x768 .f32
  | 0, hn => accStep V c ⟨0, hn⟩ zeroAcc
  | n + 1, hn => accStep V c ⟨n + 1, hn⟩ (if (n + 1) % 8 = 0 then zeroAcc else accAt c n (Nat.lt_of_succ_lt hn))

theorem accAt_reset (c : Dev nD) (t : Fin cfg1.N) (h0 : t.val % 8 = 0) : accAt V c t.val t.isLt = accStep V c t zeroAcc := by
  obtain ⟨n, hn⟩ := t
  cases n with
  | zero => rfl
  | succ n => show accStep V c ⟨n + 1, hn⟩ (if (n + 1) % 8 = 0 then zeroAcc else _) = _; rw [if_pos h0]

theorem accAt_step (c : Dev nD) (t : Fin cfg1.N) (h0 : ¬t.val % 8 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h0
  | succ n => show accStep V c ⟨n + 1, hn⟩ (if (n + 1) % 8 = 0 then zeroAcc else _) = _; rw [if_neg h0]; rfl

theorem stepA_acc (c : Dev nD) (t : Fin cfg1.N) (h0 : t.val % 8 = 0) (h1 : ¬t.val % 8 = 7) :
    (stepA V c t h0 h1).2.2.2 = accStep V c t zeroAcc :=
  congrArg₂ Prod.mk
    (soutA_0_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t))
    (soutA_1_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk V c 0 t) (iblk V c 1 t) (iblk V c 2 t) (iblk V c 3 t) (iblk V c 4 t) (iblk V c 5 t))

theorem stepB_acc (c : Dev nD) (t : Fin cfg1.N) (h0 : ¬t.val % 8 = 0) (h1 : ¬t.val % 8 = 7) (xs0 xs1 : Vec F S512x768 .f32) :
    (stepB V c t h0 h1 xs0 xs1).2.2.2 = accStep V c t (xs0, xs1) :=
  congrArg₂ Prod.mk
    (soutB_0_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1)
    (soutB_1_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs0 xs1)

theorem stepC_acc (c : Dev nD) (t : Fin cfg1.N) (h0 : ¬t.val % 8 = 0) (h1 : t.val % 8 = 7) (xs0 xs1 : Vec F S512x768 .f32) :
    (stepC V c t h0 h1 xs0 xs1).2.2.2 = accStep V c t (xs0, xs1) :=
  congrArg₂ Prod.mk
    (soutC_0_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1)
    (soutC_1_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1)

theorem stepC_6 (c : Dev nD) (t : Fin cfg1.N) (h0 : ¬t.val % 8 = 0) (h1 : t.val % 8 = 7) (xs0 xs1 : Vec F S512x768 .f32) :
    (stepC V c t h0 h1 xs0 xs1).1 = fin6 (grid1.coords t) ((hcond1 t).mpr h1) (iblk V c 3 t) (iblk V c 4 t) (iblk V c 5 t) (accStep V c t (xs0, xs1)).1 := by
  unfold stepC accStep
  dsimp only
  exact outC_6_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1

theorem stepC_7 (c : Dev nD) (t : Fin cfg1.N) (h0 : ¬t.val % 8 = 0) (h1 : t.val % 8 = 7) (xs0 xs1 : Vec F S512x768 .f32) :
    (stepC V c t h0 h1 xs0 xs1).2.1 = fin7 (grid1.coords t) ((hcond1 t).mpr h1) (iblk V c 3 t) (iblk V c 4 t) (iblk V c 5 t) (accStep V c t (xs0, xs1)).2 := by
  unfold stepC accStep
  dsimp only
  exact outC_7_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1

theorem stepC_8 (c : Dev nD) (t : Fin cfg1.N) (h0 : ¬t.val % 8 = 0) (h1 : t.val % 8 = 7) (xs0 xs1 : Vec F S512x768 .f32) :
    (stepC V c t h0 h1 xs0 xs1).2.2.1 = fin8 (grid1.coords t) ((hcond1 t).mpr h1) (iblk V c 3 t) (iblk V c 4 t) (iblk V c 5 t) (accStep V c t (xs0, xs1)).1 := by
  unfold stepC accStep
  dsimp only
  exact outC_8_eq c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk V c 0 t) (iblk V c 1 t) (iblk V c 2 t) (iblk V c 3 t) (iblk V c 4 t) (iblk V c 5 t) xs0 xs1

/-- The accumulator components of `outsAt` ARE the closed recursion `accAt`: by induction on the point. -/
theorem outsAt_acc (c : Dev nD) : ∀ (n : ℕ) (hn : n < cfg1.N), (outsAt V c n hn).2.2.2 = accAt V c n hn
  | 0, hn => stepA_acc V c ⟨0, hn⟩ _ _
  | n + 1, hn => by
    have hN : n + 1 < 64 := lt_of_lt_of_eq hn (show cfg1.N = 64 from N_1)
    have ih := outsAt_acc c n (Nat.lt_of_succ_lt hn)
    by_cases h0 : (n + 1) % 8 = 0
    · have h1 : ¬(n + 1) % 8 = 7 := by omega
      rw [outsAt_A V c ⟨n + 1, hn⟩ h0 h1, stepA_acc]
      exact (accAt_reset V c ⟨n + 1, hn⟩ h0).symm
    · by_cases h1 : (n + 1) % 8 = 7
      · rw [outsAt_C V c ⟨n + 1, hn⟩ h0 h1, stepC_acc]
        refine Eq.trans ?_ (accAt_step V c ⟨n + 1, hn⟩ h0).symm
        exact congrArg (accStep V c ⟨n + 1, hn⟩) ih
      · rw [outsAt_B V c ⟨n + 1, hn⟩ h0 h1, stepB_acc]
        refine Eq.trans ?_ (accAt_step V c ⟨n + 1, hn⟩ h0).symm
        exact congrArg (accStep V c ⟨n + 1, hn⟩) ih

/-! ## The outputs at the points that write them back -/

/-- Output 6's staging buffer after a last step `t` (`t % 8 = 7`: the points that write it back). -/
theorem after6_eq (c : Dev nD) (t : Fin cfg1.N) (h1 : t.val % 8 = 7) :
    (dat V c).after 6 t = fin6 (grid1.coords t) ((hcond1 t).mpr h1) (iblk V c 3 t) (iblk V c 4 t) (iblk V c 5 t) (accAt V c t.val t.isLt).1 := by
  have h0 : ¬t.val % 8 = 0 := by omega
  rw [after6, ← outsAt_acc V c t.val t.isLt, outsAt_C V c t h0 h1, stepC_6, stepC_acc]

theorem after7_eq (c : Dev nD) (t : Fin cfg1.N) (h1 : t.val % 8 = 7) :
    (dat V c).after 7 t = fin7 (grid1.coords t) ((hcond1 t).mpr h1) (iblk V c 3 t) (iblk V c 4 t) (iblk V c 5 t) (accAt V c t.val t.isLt).2 := by
  have h0 : ¬t.val % 8 = 0 := by omega
  rw [after7, ← outsAt_acc V c t.val t.isLt, outsAt_C V c t h0 h1, stepC_7, stepC_acc]

theorem after8_eq (c : Dev nD) (t : Fin cfg1.N) (h1 : t.val % 8 = 7) :
    (dat V c).after 8 t = fin8 (grid1.coords t) ((hcond1 t).mpr h1) (iblk V c 3 t) (iblk V c 4 t) (iblk V c 5 t) (accAt V c t.val t.isLt).1 := by
  have h0 : ¬t.val % 8 = 0 := by omega
  rw [after8, ← outsAt_acc V c t.val t.isLt, outsAt_C V c t h0 h1, stepC_8, stepC_acc]

end Regions

end Cert.KernelIdeal.R1

end
-- ==== Proof.KI_V1_Step.lean ====
import proofs.«130870_j71201967833887_2_alg».proof.Proof.KI_V1_Pay
import proofs.«130870_j71201967833887_2_alg».proof.Proof.KI_R1_Val
import proofs.«130870_j71201967833887_2_alg».proof.Proof.NetSpec

set_option maxRecDepth 16384

noncomputable section

namespace Cert.KernelIdeal.V1

open Cert.KernelIdeal Cert.KernelIdeal.Gen Cert.KernelIdeal.R1 Cert.LibBnSpec Cert.NetSpec
open Idealize.ShloMosaic Idealize.ShloMosaic.TcCoe Idealize.ShloMosaic.ValueIdx Idealize.SL.Sem
open Idealize.ShloMosaic.Pipeline (Dat)

/-! ## Arrays read at natural-number coordinates (zero outside their extents) -/

def ext1 (f : Fin 6144 → EReal) (m : ℕ) : EReal := if h : m < 6144 then f ⟨m, h⟩ else 0
def ext2 (w : Fin 6144 → Fin 6144 → EReal) (a b : ℕ) : EReal := if h : a < 6144 ∧ b < 6144 then w ⟨a, h.1⟩ ⟨b, h.2⟩ else 0

theorem ext1_eq (f : Fin 6144 → EReal) (m : Fin 6144) (n : ℕ) (h : m.val = n) : ext1 f n = f m := by
  subst h; unfold ext1; rw [dif_pos m.isLt]
theorem ext2_eq (w : Fin 6144 → Fin 6144 → EReal) (A B : Fin 6144) (a b : ℕ) (hA : A.val = a) (hB : B.val = b) :
    ext2 w a b = w A B := by
  subst hA hB; unfold ext2; rw [dif_pos ⟨A.isLt, B.isLt⟩]

/-- One contraction tile's inner product on the binary path: row `p` of the activations against the signs of weight row
    `768 n' + q`, over the columns `768 k' …`. -/
def T0 (S : Fin 512 → Fin 6144 → EReal) (w : Fin 6144 → Fin 6144 → EReal) (n' k' : ℕ) (p : Fin 512) (q : Fin 768) : EReal :=
  ∑ k : Fin 768, ext1 (S p) (768 * k' + k.val) * Ideal.sign (ext2 w (768 * n' + q.val) (768 * k' + k.val))
/-- The same on the real path (the weights as they are). -/
def T1 (R : Fin 512 → Fin 6144 → EReal) (w : Fin 6144 → Fin 6144 → EReal) (n' k' : ℕ) (p : Fin 512) (q : Fin 768) : EReal :=
  ∑ k : Fin 768, ext1 (R p) (768 * k' + k.val) * ext2 w (768 * n' + q.val) (768 * k' + k.val)

/-- Eight tiles of 768 make the whole contraction. -/
theorem sum_tiles (F : ℕ → EReal) : ∑ j ∈ Finset.range 8, ∑ k : Fin 768, F (768 * j + k.val) = ∑ m : Fin 6144, F m.val := by
  have h := Equiv.sum_comp (finProdFinEquiv (m := 8) (n := 768)) (fun m : Fin (8 * 768) => F m.val)
  rw [Fintype.sum_prod_type] at h
  rw [Finset.sum_range]
  refine Eq.trans ?_ h
  refine Finset.sum_congr rfl fun j _ => Finset.sum_congr rfl fun k _ => congrArg F ?_
  show 768 * j.val + k.val = k.val + 768 * j.val
  omega

/-! ## The slices a grid point reads -/

theorem ld_act {Val : EltTy → Type} {e : EltTy} (i : grid1.Coords) (x : S512x6144.Idx → Val e) (p : Fin 512) (k : Fin 768) (m : Fin 6144)
    (hm : m.val = 768 * (i 1).val + k.val) : View.ld x (rAct i) (ix2 p k) = x (ix2 p m) := by
  show x ((rAct i).idx (ix2 p k)) = x (ix2 p m)
  refine congrArg x ?_
  funext a; apply Fin.ext
  match a with
  | ⟨0, _⟩ => show (k1_off1 i) 0 + 1 * p.val = p.val; rw [k1_off1_eq]; show 0 + 1 * p.val = p.val; omega
  | ⟨1, _⟩ => show (k1_off1 i) 1 + 1 * k.val = m.val; rw [k1_off1_eq, hm]; show 768 * (i 1).val + 1 * k.val = _; omega

theorem ld_vec {Val : EltTy → Type} {e : EltTy} (i : grid1.Coords) (h : cond1 i) (x : S6144.Idx → Val e) (q : Fin 768) (N : Fin 6144)
    (hN : N.val = 768 * (i 0).val + q.val) : View.ld x (rVec i h) (ix1 q) = x (ix1 N) := by
  show x ((rVec i h).idx (ix1 q)) = x (ix1 N)
  refine congrArg x ?_
  funext a; apply Fin.ext
  match a with
  | ⟨0, _⟩ => show (k1_off2 i) 0 + 1 * q.val = N.val; rw [k1_off2_eq, hN]; show 768 * (i 0).val + 1 * q.val = _; omega

/-! ## One step and the last step, at an index, over any blocks that read the arrays -/

theorem acc0_at (i : grid1.Coords) (n' k' : ℕ) (hi1 : (i 1).val = k') (hn : n' < 8) (hk : k' < 8)
    (x0 : Vec Ideal S512x6144 .bf16) (x2 : Vec Ideal S768x768 .f32) (a0 : Vec Ideal S512x768 .f32)
    (S : Fin 512 → Fin 6144 → EReal) (w : Fin 6144 → Fin 6144 → EReal)
    (hx0 : ∀ (p : Fin 512) (m : Fin 6144), x0 (ix2 p m) = S p m)
    (hx2 : ∀ (a b : Fin 768) (A B : Fin 6144), A.val = 768 * n' + a.val → B.val = 768 * k' + b.val → x2 (ix2 a b) = w A B)
    (p : Fin 512) (q : Fin 768) :
    acc0Step i x0 x2 a0 (ix2 p q) = a0 (ix2 p q) + T0 S w n' k' p q := by
  unfold acc0Step
  refine (pay12_apply (View.ld x0 (rAct i)) x2 a0 p q).trans ?_
  refine congrArg (a0 (ix2 p q) + ·) (Finset.sum_congr rfl fun k _ => ?_)
  have hm : 768 * k' + k.val < 6144 := by have := k.isLt; omega
  have hN : 768 * n' + q.val < 6144 := by have := q.isLt; omega
  have e1 : View.ld x0 (rAct i) (ix2 p k) = ext1 (S p) (768 * k' + k.val) :=
    (ld_act i x0 p k ⟨768 * k' + k.val, hm⟩ (by rw [hi1])).trans ((hx0 p _).trans (ext1_eq (S p) ⟨_, hm⟩ _ rfl).symm)
  have e2 : x2 (ix2 q k) = ext2 w (768 * n' + q.val) (768 * k' + k.val) :=
    (hx2 q k ⟨768 * n' + q.val, hN⟩ ⟨768 * k' + k.val, hm⟩ rfl rfl).trans (ext2_eq w ⟨_, hN⟩ ⟨_, hm⟩ _ _ rfl rfl).symm
  exact congrArg₂ (· * ·) e1 (congrArg Ideal.sign e2)

theorem acc1_at (i : grid1.Coords) (n' k' : ℕ) (hi1 : (i 1).val = k') (hn : n' < 8) (hk : k' < 8)
    (x1 : Vec Ideal S512x6144 .f32) (x2 : Vec Ideal S768x768 .f32) (a1 : Vec Ideal S512x768 .f32)
    (R : Fin 512 → Fin 6144 → EReal) (w : Fin 6144 → Fin 6144 → EReal)
    (hx1 : ∀ (p : Fin 512) (m : Fin 6144), x1 (ix2 p m) = R p m)
    (hx2 : ∀ (a b : Fin 768) (A B : Fin 6144), A.val = 768 * n' + a.val → B.val = 768 * k' + b.val → x2 (ix2 a b) = w A B)
    (fR : ∀ p k, ∃ r : ℝ, R p k = (r : EReal)) (fw : ∀ n k, ∃ r : ℝ, w n k = (r : EReal))
    (p : Fin 512) (q : Fin 768) :
    acc1Step i x1 x2 a1 (ix2 p q) = a1 (ix2 p q) + T1 R w n' k' p q := by
  unfold acc1Step
  have e1 : ∀ (p : Fin 512) (k : Fin 768), View.ld x1 (rAct i) (ix2 p k) = ext1 (R p) (768 * k' + k.val) := fun p k => by
    have hm : 768 * k' + k.val < 6144 := by have := k.isLt; omega
    exact (ld_act i x1 p k ⟨768 * k' + k.val, hm⟩ (by rw [hi1])).trans ((hx1 p _).trans (ext1_eq (R p) ⟨_, hm⟩ _ rfl).symm)
  have e2 : ∀ (q k : Fin 768), x2 (ix2 q k) = ext2 w (768 * n' + q.val) (768 * k' + k.val) := fun q k => by
    have hm : 768 * k' + k.val < 6144 := by have := k.isLt; omega
    have hN : 768 * n' + q.val < 6144 := by have := q.isLt; omega
    exact (hx2 q k ⟨768 * n' + q.val, hN⟩ ⟨768 * k' + k.val, hm⟩ rfl rfl).trans (ext2_eq w ⟨_, hN⟩ ⟨_, hm⟩ _ _ rfl rfl).symm
  have f1 : ∀ (p : Fin 512) (k : Fin 768), ∃ r : ℝ, View.ld x1 (rAct i) (ix2 p k) = (r : EReal) := fun p k => by
    have hm : 768 * k' + k.val < 6144 := by have := k.isLt; omega
    rw [e1 p k, ext1_eq (R p) ⟨_, hm⟩ _ rfl]; exact fR _ _
  have f2 : ∀ (q k : Fin 768), ∃ r : ℝ, x2 (ix2 q k) = (r : EReal) := fun q k => by
    have hm : 768 * k' + k.val < 6144 := by have := k.isLt; omega
    have hN : 768 * n' + q.val < 6144 := by have := q.isLt; omega
    rw [e2 q k, ext2_eq w ⟨_, hN⟩ ⟨_, hm⟩ _ _ rfl rfl]; exact fw _ _
  refine (pay1_apply a1 (View.ld x1 (rAct i)) x2 f1 f2 p q).trans ?_
  refine congrArg (a1 (ix2 p q) + ·) (Finset.sum_congr rfl fun k _ => ?_)
  exact congrArg₂ (· * ·) (e1 p k) (e2 q k)

theorem pay6_at (v57 v60 v62 : Vec Ideal S768 .f32) (v63 : Vec Ideal S512x768 .f32) (p : Fin 512) (q : Fin 768)
    (bN gN beN : EReal) (D : Fin 512 → EReal) (h57 : v57 (ix1 q) = bN) (h60 : v60 (ix1 q) = gN) (h62 : v62 (ix1 q) = beN)
    (h63 : ∀ p', v63 (ix2 p' q) = D p') :
    k1_pay6 v57 v60 v62 v63 (ix2 p q) = bnclip gN beN (fun p' => D p' + bN) p := by
  rw [pay6_apply, bnclipK_eq, h57, h60, h62]
  simp only [h63]

theorem pay2_at (v57 v60 v62 : Vec Ideal S768 .f32) (v66 : Vec Ideal S512x768 .f32) (p : Fin 512) (q : Fin 768)
    (bN gN beN : EReal) (D : Fin 512 → EReal) (h57 : v57 (ix1 q) = bN) (h60 : v60 (ix1 q) = gN) (h62 : v62 (ix1 q) = beN)
    (h66 : ∀ p', v66 (ix2 p' q) = D p') :
    k1_pay2 v60 v62 (k1_pay5 v57 v66) (k1_pay7 v57 v66) (k1_pay8 v57 v66) (ix2 p q) = bnclip gN beN (fun p' => D p' + bN) p := by
  rw [pay2_apply, bnclipK_eq, h57, h60, h62]
  simp only [h66]

theorem fin6_at (i : grid1.Coords) (h : cond1 i) (n' : ℕ) (hi0 : (i 0).val = n') (hn : n' < 8)
    (x3 x4 x5 : Vec Ideal S6144 .f32) (a0 : Vec Ideal S512x768 .f32) (b g be : Fin 6144 → EReal)
    (hx3 : ∀ n, x3 (ix1 n) = b n) (hx4 : ∀ n, x4 (ix1 n) = g n) (hx5 : ∀ n, x5 (ix1 n) = be n)
    (D : Fin 512 → EReal) (p : Fin 512) (q : Fin 768) (N : Fin 6144) (hN : N.val = 768 * n' + q.val)
    (ha0 : ∀ p', a0 (ix2 p' q) = D p') :
    fin6 i h x3 x4 x5 a0 (ix2 p q) = bnclip (g N) (be N) (fun p' => D p' + b N) p := by
  unfold fin6
  exact pay6_at _ _ _ a0 p q (b N) (g N) (be N) D
    ((ld_vec i h x3 q N (by rw [hi0]; exact hN)).trans (hx3 N))
    ((ld_vec i h x4 q N (by rw [hi0]; exact hN)).trans (hx4 N))
    ((ld_vec i h x5 q N (by rw [hi0]; exact hN)).trans (hx5 N)) ha0

theorem fin7_at (i : grid1.Coords) (h : cond1 i) (n' : ℕ) (hi0 : (i 0).val = n') (hn : n' < 8)
    (x3 x4 x5 : Vec Ideal S6144 .f32) (a1 : Vec Ideal S512x768 .f32) (b g be : Fin 6144 → EReal)
    (hx3 : ∀ n, x3 (ix1 n) = b n) (hx4 : ∀ n, x4 (ix1 n) = g n) (hx5 : ∀ n, x5 (ix1 n) = be n)
    (D : Fin 512 → EReal) (p : Fin 512) (q : Fin 768) (N : Fin 6144) (hN : N.val = 768 * n' + q.val)
    (ha1 : ∀ p', a1 (ix2 p' q) = D p') :
    fin7 i h x3 x4 x5 a1 (ix2 p q) = bnclip (g N) (be N) (fun p' => D p' + b N) p := by
  unfold fin7
  exact pay2_at _ _ _ a1 p q (b N) (g N) (be N) D
    ((ld_vec i h x3 q N (by rw [hi0]; exact hN)).trans (hx3 N))
    ((ld_vec i h x4 q N (by rw [hi0]; exact hN)).trans (hx4 N))
    ((ld_vec i h x5 q N (by rw [hi0]; exact hN)).trans (hx5 N)) ha1

end Cert.KernelIdeal.V1

end
-- ==== Proof.KI_V1.lean ====
import proofs.«130870_j71201967833887_2_alg».proof.Proof.KI_V1_Step

set_option maxRecDepth 16384

noncomputable section

namespace Cert.KernelIdeal.V1

open Cert.KernelIdeal Cert.KernelIdeal.Gen Cert.KernelIdeal.R1 Cert.LibBnSpec Cert.NetSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## Where each window's block sits at a grid point, decided over the grid -/

theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = t.val % 8
    ∧ win1_3.index t (0 : Fin 1) = 0 ∧ win1_4.index t (0 : Fin 1) = 0 ∧ win1_5.index t (0 : Fin 1) = 0
    ∧ (grid1.coords t 0).val = t.val / 8 ∧ (grid1.coords t 1).val = t.val % 8 :=
  (by decide +kernel : ∀ t : Fin grid1.N, _)

/-! ## The input blocks read the arrays -/

theorem blk0 (t : Fin cfg1.N) (p : Fin 512) (m : Fin 6144) :
    (iblk V c 0 t : Vec Ideal S512x6144 .bf16) (ix2 p m) = V c main_v2_2 (ix2 p m) := by
  obtain ⟨e0, e1, -⟩ := idx_facts t
  unfold iblk
  rw [View.read_apply]
  show V c main_v2_2 _ = V c main_v2_2 _
  refine congrArg (V c main_v2_2) ?_
  funext a; apply Fin.ext
  match a with
  | ⟨0, _⟩ => show win1_0.index t (0 : Fin 2) * 512 + 1 * p.val = p.val; rw [e0]; omega
  | ⟨1, _⟩ => show win1_0.index t (1 : Fin 2) * 6144 + 1 * m.val = m.val; rw [e1]; omega

theorem blk1 (t : Fin cfg1.N) (p : Fin 512) (m : Fin 6144) :
    (iblk V c 1 t : Vec Ideal S512x6144 .f32) (ix2 p m) = V c main_v2_1 (ix2 p m) := by
  obtain ⟨-, -, e0, e1, -⟩ := idx_facts t
  unfold iblk
  rw [View.read_apply]
  show V c main_v2_1 _ = V c main_v2_1 _
  refine congrArg (V c main_v2_1) ?_
  funext a; apply Fin.ext
  match a with
  | ⟨0, _⟩ => show win1_1.index t (0 : Fin 2) * 512 + 1 * p.val = p.val; rw [e0]; omega
  | ⟨1, _⟩ => show win1_1.index t (1 : Fin 2) * 6144 + 1 * m.val = m.val; rw [e1]; omega

theorem blk2 (t : Fin cfg1.N) (a b : Fin 768) (A B : Fin 6144) (hA : A.val = 768 * (t.val / 8) + a.val)
    (hB : B.val = 768 * (t.val % 8) + b.val) :
    (iblk V c 2 t : Vec Ideal S768x768 .f32) (ix2 a b) = V c main_arg5 (ix2 A B) := by
  obtain ⟨-, -, -, -, e0, e1, -⟩ := idx_facts t
  unfold iblk
  rw [View.read_apply]
  show V c main_arg5 _ = V c main_arg5 _
  refine congrArg (V c main_arg5) ?_
  funext x; apply Fin.ext
  match x with
  | ⟨0, _⟩ => show win1_2.index t (0 : Fin 2) * 768 + 1 * a.val = A.val; rw [e0, hA]; omega
  | ⟨1, _⟩ => show win1_2.index t (1 : Fin 2) * 768 + 1 * b.val = B.val; rw [e1, hB]; omega

theorem blk3 (t : Fin cfg1.N) (n : Fin 6144) : (iblk V c 3 t : Vec Ideal S6144 .f32) (ix1 n) = V c main_arg6 (ix1 n) := by
  obtain ⟨-, -, -, -, -, -, e0, -⟩ := idx_facts t
  unfold iblk
  rw [View.read_apply]
  show V c main_arg6 _ = V c main_arg6 _
  refine congrArg (V c main_arg6) ?_
  funext x; apply Fin.ext
  match x with
  | ⟨0, _⟩ => show win1_3.index t (0 : Fin 1) * 6144 + 1 * n.val = n.val; rw [e0]; omega

theorem blk4 (t : Fin cfg1.N) (n : Fin 6144) : (iblk V c 4 t : Vec Ideal S6144 .f32) (ix1 n) = V c main_arg13 (ix1 n) := by
  obtain ⟨-, -, -, -, -, -, -, e0, -⟩ := idx_facts t
  unfold iblk
  rw [View.read_apply]
  show V c main_arg13 _ = V c main_arg13 _
  refine congrArg (V c main_arg13) ?_
  funext x; apply Fin.ext
  match x with
  | ⟨0, _⟩ => show win1_4.index t (0 : Fin 1) * 6144 + 1 * n.val = n.val; rw [e0]; omega

theorem blk5 (t : Fin cfg1.N) (n : Fin 6144) : (iblk V c 5 t : Vec Ideal S6144 .f32) (ix1 n) = V c main_arg14 (ix1 n) := by
  obtain ⟨-, -, -, -, -, -, -, -, e0, -⟩ := idx_facts t
  unfold iblk
  rw [View.read_apply]
  show V c main_arg14 _ = V c main_arg14 _
  refine congrArg (V c main_arg14) ?_
  funext x; apply Fin.ext
  match x with
  | ⟨0, _⟩ => show win1_5.index t (0 : Fin 1) * 6144 + 1 * n.val = n.val; rw [e0]; omega

/-! ## The accumulators after each point: partial sums over the contraction tiles -/

theorem zero0 (j : S512x768.Idx) : (zeroAcc (F := Ideal)).1 j = 0 := by
  unfold zeroAcc k1_pay9
  (try dsimp only)
  rw [shapeCast_self, broadcast_apply]
  exact Ideal.ofBits_zero_f32

theorem zero1 (j : S512x768.Idx) : (zeroAcc (F := Ideal)).2 j = 0 := by
  unfold zeroAcc k1_pay10
  (try dsimp only)
  rw [shapeCast_self, broadcast_apply]
  exact Ideal.ofBits_zero_f32

theorem step_at (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal))
    (t : Fin cfg1.N) (a : Vec Ideal S512x768 .f32 × Vec Ideal S512x768 .f32) (p : Fin 512) (q : Fin 768) :
    (accStep V c t a).1 (ix2 p q) = a.1 (ix2 p q) + T0 S w (t.val / 8) (t.val % 8) p q
    ∧ (accStep V c t a).2 (ix2 p q) = a.2 (ix2 p q) + T1 R w (t.val / 8) (t.val % 8) p q := by
  obtain ⟨-, -, -, -, -, -, -, -, -, c0, c1⟩ := idx_facts t
  have hT : t.val < 64 := lt_of_lt_of_eq t.isLt (show cfg1.N = 64 from N_1)
  have hx2 : ∀ (a b : Fin 768) (A B : Fin 6144), A.val = 768 * (t.val / 8) + a.val → B.val = 768 * (t.val % 8) + b.val →
      (iblk V c 2 t : Vec Ideal S768x768 .f32) (ix2 a b) = w A B :=
    fun a b A B hA hB => (blk2 V c t a b A B hA hB).trans (hw A B)
  unfold accStep
  exact ⟨acc0_at (grid1.coords t) (t.val / 8) (t.val % 8) c1 (by omega) (by omega) (iblk V c 0 t) (iblk V c 2 t) a.1 S w
      (fun p m => (blk0 V c t p m).trans (hS p m)) hx2 p q,
    acc1_at (grid1.coords t) (t.val / 8) (t.val % 8) c1 (by omega) (by omega) (iblk V c 1 t) (iblk V c 2 t) a.2 R w
      (fun p m => (blk1 V c t p m).trans (hR p m)) hx2 fR fw p q⟩

theorem acc_inv (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal)) :
    ∀ (n : ℕ) (hn : n < cfg1.N) (p : Fin 512) (q : Fin 768),
      (accAt V c n hn).1 (ix2 p q) = ∑ j ∈ Finset.range (n % 8 + 1), T0 S w (n / 8) j p q
      ∧ (accAt V c n hn).2 (ix2 p q) = ∑ j ∈ Finset.range (n % 8 + 1), T1 R w (n / 8) j p q
  | 0, hn, p, q => by
    have h := step_at V c S R w hS hR hw fR fw ⟨0, hn⟩ zeroAcc p q
    show (accStep V c ⟨0, hn⟩ zeroAcc).1 (ix2 p q) = _ ∧ (accStep V c ⟨0, hn⟩ zeroAcc).2 (ix2 p q) = _
    rw [h.1, h.2, zero0, zero1]
    show 0 + T0 S w (0 / 8) (0 % 8) p q = ∑ j ∈ Finset.range (0 % 8 + 1), T0 S w (0 / 8) j p q
      ∧ 0 + T1 R w (0 / 8) (0 % 8) p q = ∑ j ∈ Finset.range (0 % 8 + 1), T1 R w (0 / 8) j p q
    simp only [Nat.zero_mod, Nat.zero_div, zero_add, Finset.sum_range_one, and_self]
  | n + 1, hn, p, q => by
    have hN : n + 1 < 64 := lt_of_lt_of_eq hn (show cfg1.N = 64 from N_1)
    have h := fun a => step_at V c S R w hS hR hw fR fw ⟨n + 1, hn⟩ a p q
    by_cases h0 : (n + 1) % 8 = 0
    · rw [accAt_reset V c ⟨n + 1, hn⟩ h0, (h zeroAcc).1, (h zeroAcc).2, zero0, zero1]
      show 0 + T0 S w ((n + 1) / 8) ((n + 1) % 8) p q = _ ∧ 0 + T1 R w ((n + 1) / 8) ((n + 1) % 8) p q = _
      rw [h0]
      simp only [zero_add, Finset.sum_range_one, and_self]
    · have ih := acc_inv S R w hS hR hw fR fw n (Nat.lt_of_succ_lt hn) p q
      rw [accAt_step V c ⟨n + 1, hn⟩ h0, (h _).1, (h _).2]
      show (accAt V c n (Nat.lt_of_succ_lt hn)).1 (ix2 p q) + T0 S w ((n + 1) / 8) ((n + 1) % 8) p q = _
        ∧ (accAt V c n (Nat.lt_of_succ_lt hn)).2 (ix2 p q) + T1 R w ((n + 1) / 8) ((n + 1) % 8) p q = _
      rw [ih.1, ih.2]
      have e1 : (n + 1) / 8 = n / 8 := by omega
      have e2 : (n + 1) % 8 = n % 8 + 1 := by omega
      rw [e1, e2]
      exact ⟨(Finset.sum_range_succ (fun j => T0 S w (n / 8) j p q) (n % 8 + 1)).symm,
        (Finset.sum_range_succ (fun j => T1 R w (n / 8) j p q) (n % 8 + 1)).symm⟩

/-- At a last step the accumulators hold the whole inner products. -/
theorem acc_last (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal))
    (t : Fin cfg1.N) (h7 : t.val % 8 = 7) (p' : Fin 512) (q : Fin 768) (N : Fin 6144) (hN : N.val = 768 * (t.val / 8) + q.val) :
    (accAt V c t.val t.isLt).1 (ix2 p' q) = ∑ m : Fin 6144, S p' m * Ideal.sign (w N m)
    ∧ (accAt V c t.val t.isLt).2 (ix2 p' q) = ∑ m : Fin 6144, R p' m * w N m := by
  obtain ⟨h1, h2⟩ := acc_inv V c S R w hS hR hw fR fw t.val t.isLt p' q
  rw [h1, h2, h7]
  constructor
  · show ∑ j ∈ Finset.range 8, T0 S w (t.val / 8) j p' q = _
    unfold T0
    refine Eq.trans (sum_tiles (fun m => ext1 (S p') m * Ideal.sign (ext2 w (768 * (t.val / 8) + q.val) m))) ?_
    refine Finset.sum_congr rfl fun m _ => ?_
    rw [ext1_eq (S p') m _ rfl, ext2_eq w N m _ _ hN rfl]
  · show ∑ j ∈ Finset.range 8, T1 R w (t.val / 8) j p' q = _
    unfold T1
    refine Eq.trans (sum_tiles (fun m => ext1 (R p') m * ext2 w (768 * (t.val / 8) + q.val) m)) ?_
    refine Finset.sum_congr rfl fun m _ => ?_
    rw [ext1_eq (R p') m _ rfl, ext2_eq w N m _ _ hN rfl]

/-! ## The outputs at the points that write them back -/

theorem after6_val (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal))
    (b g be : Fin 6144 → EReal)
    (hb : ∀ n : Fin 6144, V c main_arg6 (ix1 n) = b n) (hg : ∀ n : Fin 6144, V c main_arg13 (ix1 n) = g n)
    (hbe : ∀ n : Fin 6144, V c main_arg14 (ix1 n) = be n)
    (t : Fin cfg1.N) (h7 : t.val % 8 = 7) (p : Fin 512) (q : Fin 768) (N : Fin 6144) (hN : N.val = 768 * (t.val / 8) + q.val) :
    ((dat V c).after 6 t : Vec Ideal S512x768 .f32) (ix2 p q) = layerB S w b g be p N := by
  obtain ⟨-, -, -, -, -, -, -, -, -, c0, c1⟩ := idx_facts t
  have hT : t.val < 64 := lt_of_lt_of_eq t.isLt (show cfg1.N = 64 from N_1)
  rw [after6_eq V c t h7]
  refine (fin6_at (grid1.coords t) ((hcond1 t).mpr h7) (t.val / 8) c0 (by omega) (iblk V c 3 t) (iblk V c 4 t) (iblk V c 5 t)
    (accAt V c t.val t.isLt).1 b g be (fun n => (blk3 V c t n).trans (hb n)) (fun n => (blk4 V c t n).trans (hg n))
    (fun n => (blk5 V c t n).trans (hbe n)) (fun p' => ∑ m : Fin 6144, S p' m * Ideal.sign (w N m)) p q N hN
    (fun p' => (acc_last V c S R w hS hR hw fR fw t h7 p' q N hN).1)).trans ?_
  rfl

theorem after7_val (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal))
    (b g be : Fin 6144 → EReal)
    (hb : ∀ n : Fin 6144, V c main_arg6 (ix1 n) = b n) (hg : ∀ n : Fin 6144, V c main_arg13 (ix1 n) = g n)
    (hbe : ∀ n : Fin 6144, V c main_arg14 (ix1 n) = be n)
    (t : Fin cfg1.N) (h7 : t.val % 8 = 7) (p : Fin 512) (q : Fin 768) (N : Fin 6144) (hN : N.val = 768 * (t.val / 8) + q.val) :
    ((dat V c).after 7 t : Vec Ideal S512x768 .f32) (ix2 p q) = layerR R w b g be p N := by
  obtain ⟨-, -, -, -, -, -, -, -, -, c0, c1⟩ := idx_facts t
  have hT : t.val < 64 := lt_of_lt_of_eq t.isLt (show cfg1.N = 64 from N_1)
  rw [after7_eq V c t h7]
  refine (fin7_at (grid1.coords t) ((hcond1 t).mpr h7) (t.val / 8) c0 (by omega) (iblk V c 3 t) (iblk V c 4 t) (iblk V c 5 t)
    (accAt V c t.val t.isLt).2 b g be (fun n => (blk3 V c t n).trans (hb n)) (fun n => (blk4 V c t n).trans (hg n))
    (fun n => (blk5 V c t n).trans (hbe n)) (fun p' => ∑ m : Fin 6144, R p' m * w N m) p q N hN
    (fun p' => (acc_last V c S R w hS hR hw fR fw t h7 p' q N hN).2)).trans ?_
  rfl

theorem after8_val (S R : Fin 512 → Fin 6144 → EReal) (w : Fin 6144 → Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (fR : ∀ p k, ∃ r : ℝ, R p k = (r : EReal)) (fw : ∀ n k, ∃ r : ℝ, w n k = (r : EReal))
    (b g be : Fin 6144 → EReal)
    (hb : ∀ n : Fin 6144, V c main_arg6 (ix1 n) = b n) (hg : ∀ n : Fin 6144, V c main_arg13 (ix1 n) = g n)
    (hbe : ∀ n : Fin 6144, V c main_arg14 (ix1 n) = be n)
    (t : Fin cfg1.N) (h7 : t.val % 8 = 7) (p : Fin 512) (q : Fin 768) (N : Fin 6144) (hN : N.val = 768 * (t.val / 8) + q.val) :
    ((dat V c).after 8 t : Vec Ideal S512x768 .bf16) (ix2 p q) = Ideal.sign (layerB S w b g be p N) := by
  have h6 := after6_val V c S R w hS hR hw fR fw b g be hb hg hbe t h7 p q N hN
  rw [after6_eq V c t h7] at h6
  rw [after8_eq V c t h7]
  unfold fin8
  exact (pay3_apply _ (ix2 p q)).trans (congrArg Ideal.sign h6)

end Cert.KernelIdeal.V1

end
-- ==== Proof.KI_V1_Values.lean ====
import proofs.«130870_j71201967833887_2_alg».proof.Proof.KI_V1
import proofs.«130870_j71201967833887_2_alg».proof.Proof.KI_Cover

set_option maxRecDepth 16384

noncomputable section

namespace Cert.KernelIdeal.V1

open Cert.KernelIdeal Cert.KernelIdeal.Gen Cert.LibBnSpec Cert.NetSpec
open Idealize.ShloMosaic Idealize.ShloMosaic.TcCoe Idealize.ShloMosaic.ValueIdx Idealize.SL.Sem

/-- The second layer's three result arrays after the region, at the extended reals: the binary path's normalised
    activations, the real path's, and the signs of the former — as functions of the entry contents of the region's six
    argument arrays read at coordinates. -/
theorem values (V : (c : Dev nD) → (b : Ref sig .tc) → Buf (Elt Ideal) ((c : Thread nD τ).loc b)) (c : Dev nD)
    (S R : Fin 512 → Fin 6144 → EReal) (w : Fin 6144 → Fin 6144 → EReal) (b g be : Fin 6144 → EReal)
    (hS : ∀ (p : Fin 512) (k : Fin 6144), V c main_v2_2 (ix2 p k) = S p k)
    (hR : ∀ (p : Fin 512) (k : Fin 6144), V c main_v2_1 (ix2 p k) = R p k)
    (hw : ∀ (n k : Fin 6144), V c main_arg5 (ix2 n k) = w n k)
    (hb : ∀ n : Fin 6144, V c main_arg6 (ix1 n) = b n) (hg : ∀ n : Fin 6144, V c main_arg13 (ix1 n) = g n)
    (hbe : ∀ n : Fin 6144, V c main_arg14 (ix1 n) = be n)
    (fR : ∀ p k, ∃ r : ℝ, R p k = (r : EReal)) (fw : ∀ n k, ∃ r : ℝ, w n k = (r : EReal)) :
    (∀ (p : Fin 512) (n : Fin 6144), (R1.dat V c).arrAt 6 cfg1.N (ix2 p n) = NetSpec.layerB S w b g be p n)
    ∧ (∀ (p : Fin 512) (n : Fin 6144), (R1.dat V c).arrAt 7 cfg1.N (ix2 p n) = NetSpec.layerR R w b g be p n)
    ∧ (∀ (p : Fin 512) (n : Fin 6144), (R1.dat V c).arrAt 8 cfg1.N (ix2 p n) = Ideal.sign (NetSpec.layerB S w b g be p n)) :=
  ⟨Cover.arr1_6 V c (fun p n => NetSpec.layerB S w b g be p n)
      (fun t h7 p q => after6_val V c S R w hS hR hw fR fw b g be hb hg hbe t h7 p q _ rfl),
    Cover.arr1_7 V c (fun p n => NetSpec.layerR R w b g be p n)
      (fun t h7 p q => after7_val V c S R w hS hR hw fR fw b g be hb hg hbe t h7 p q _ rfl),
    Cover.arr1_8 V c (fun p n => Ideal.sign (NetSpec.layerB S w b g be p n))
      (fun t h7 p q => after8_val V c S R w hS hR hw fR fw b g be hb hg hbe t h7 p q _ rfl)⟩

end Cert.KernelIdeal.V1

end
-- ==== Proof.KI_V2_Pay.lean ====
/-
  The payloads of the third region's body read at an index, at the ideal values: one reduction step of each of the two
  accumulators (the binary path adds the product of the activations' slice with the signs of the weight tile, the real
  path the product with the weights as they are, its two residue products vanishing on reals), the zero blocks an
  accumulator is reset to, and the finalization: bias added, the dropout mask applied (kept and divided by one half
  where the mask is at least one half, zero elsewhere), then the per-column batch statistics over the 512 rows and the
  normalised, clipped activations in the product-by-reciprocal-square-root spelling.
-/
import proofs.«130870_j71201967833887_2_alg».proof.Proof.KI_V1_Pay
import proofs.«130870_j71201967833887_2_alg».proof.Proof.NetSpec

set_option maxRecDepth 16384

noncomputable section

namespace Cert.KernelIdeal.V2

open Cert.KernelIdeal Cert.KernelIdeal.Gen Cert.LibBnSpec Cert.NetSpec
open Idealize.ShloMosaic Idealize.ShloMosaic.ValueIdx
open Cert.KernelIdeal.V1 (mm_apply col_apply msum_apply mean_rows_eq rsqrt_apply)

/-! ## The two accumulators' steps -/

/-- The binary accumulator's update at `(p, q)`: what it held plus the inner product of row `p` of the activations'
    slice with the signs of row `q` of the weight tile. -/
theorem pay14_apply (v8 : Vec Ideal S512x768 .bf16) (v13 : Vec Ideal S768x768 .f32) (v25 : Vec Ideal S512x768 .f32)
    (p : Fin 512) (q : Fin 768) :
    k2_pay14 v8 v13 v25 (ix2 p q) = v25 (ix2 p q) + ∑ k : Fin 768, v8 (ix2 p k) * Ideal.sign (v13 (ix2 q k)) := by
  unfold k2_pay14
  dsimp only
  rw [shapeCast_self, addf_apply, shapeCast_self, mm_apply]
  refine congrArg (v25 (ix2 p q) + ·) (Finset.sum_congr rfl fun k _ => ?_)
  rw [transpose_ix2_apply, truncf_apply]
  exact congrArg (v8 (ix2 p k) * ·) (Ideal.jnp_sign_eq_sign_f32 (v13 (ix2 q k)))

/-- The real accumulator's update at `(p, q)` when the activations' slice and the weight tile hold real numbers: what
    it held plus the inner product of row `p` of the slice with row `q` of the tile (the two residue products vanish). -/
theorem pay1_apply (v32 : Vec Ideal S512x768 .f32) (v11 : Vec Ideal S512x768 .f32) (v13 : Vec Ideal S768x768 .f32)
    (h11 : ∀ (p : Fin 512) (k : Fin 768), ∃ r : ℝ, v11 (ix2 p k) = (r : EReal))
    (h13 : ∀ (q k : Fin 768), ∃ r : ℝ, v13 (ix2 q k) = (r : EReal))
    (p : Fin 512) (q : Fin 768) :
    k2_pay1 v32 (k2_pay15 v11) (k2_pay16 v11) (k2_pay17 v13) (k2_pay18 v13) (ix2 p q)
      = v32 (ix2 p q) + ∑ k : Fin 768, v11 (ix2 p k) * v13 (ix2 q k) := by
  unfold k2_pay1
  dsimp only
  rw [shapeCast_self, addf_apply, addf_apply, addf_apply, mm_apply, mm_apply, mm_apply]
  have e1 : ∀ k : Fin 768, k2_pay15 v11 (ix2 p k) = v11 (ix2 p k) := fun k => by
    unfold k2_pay15 k2_pay13; dsimp only; rw [truncf_apply, shapeCast_self]
  have e2 : ∀ k : Fin 768, k2_pay16 v11 (ix2 p k) = 0 := fun k => by
    unfold k2_pay16 k2_pay13; dsimp only; rw [truncf_apply, subf_apply, shapeCast_self]
    exact sub_self_real _ (h11 p k)
  have e3 : ∀ k : Fin 768, transpose S768x768 [1, 0] (k2_pay17 v13) transposes_S768x768_p1_0_S768x768 (ix2 k q) = v13 (ix2 q k) := fun k => by
    rw [transpose_ix2_apply]; unfold k2_pay17; (try dsimp only); rw [truncf_apply]
  have e4 : ∀ k : Fin 768, transpose S768x768 [1, 0] (k2_pay18 v13) transposes_S768x768_p1_0_S768x768 (ix2 k q) = 0 := fun k => by
    rw [transpose_ix2_apply]; unfold k2_pay18; (try dsimp only); rw [truncf_apply, subf_apply]
    exact sub_self_real _ (h13 q k)
  simp only [e1, e2, e3, e4, mul_zero, zero_mul, Finset.sum_const_zero, add_zero]

/-- The block an accumulator is reset to holds zero everywhere. -/
theorem pay11_apply (j : S512x768.Idx) : k2_pay11 (F := Ideal) j = 0 := by
  unfold k2_pay11
  (try dsimp only)
  rw [shapeCast_self, broadcast_apply]
  exact z32_eq
theorem pay12_apply (j : S512x768.Idx) : k2_pay12 (F := Ideal) j = 0 := by
  unfold k2_pay12
  (try dsimp only)
  rw [shapeCast_self, broadcast_apply]
  exact z32_eq

/-! ## The finalization -/

/-- A select on "the mask is at least one half" between the quotient by one half and zero is the dropout. -/
theorem select_drop (u x : EReal) : Scalar.select (Ideal.cmp .oge u half) (Ideal.div x half) z32 = drop u x := by
  unfold drop
  by_cases h : half ≤ u
  · have hc : Ideal.cmp .oge u half = 1#1 := by simp [Ideal.cmp, h]
    rw [if_pos h, hc, select_one]
  · have hc : Ideal.cmp .oge u half = 0#1 := by simp [Ideal.cmp, h]
    rw [if_neg h, hc, select_zero]

/-- The bias as a row, at `(0, q)`: its entry `q`. -/
theorem pay2_apply (v57 : Vec Ideal S768 .f32) (q : Fin 768) : k2_pay2 v57 (ix2 (0 : Fin 1) q) = v57 (ix1 q) := by
  unfold k2_pay2
  (try dsimp only)
  rw [shapeCast_a_1a_apply]

/-- The binary path's accumulated block with the bias added and the dropout mask `v66` applied, at `(p, q)`. -/
theorem pay3_apply (v57 : Vec Ideal S768 .f32) (v63 v66 : Vec Ideal S512x768 .f32) (p : Fin 512) (q : Fin 768) :
    k2_pay3 v57 v63 v66 (ix2 p q) = drop (v66 (ix2 p q)) (v63 (ix2 p q) + v57 (ix1 q)) := by
  unfold k2_pay3 k2_pay2
  dsimp only
  rw [select_apply, cmpf_apply, divf_apply, addf_apply, broadcastTo_1b_ab_apply, shapeCast_a_1a_apply]
  exact select_drop _ _

/-- The same for the real path (accumulated block `v73`, mask `v76`). -/
theorem pay4_apply (v57 : Vec Ideal S768 .f32) (v73 v76 : Vec Ideal S512x768 .f32) (p : Fin 512) (q : Fin 768) :
    k2_pay4 v57 v73 v76 (ix2 p q) = drop (v76 (ix2 p q)) (v73 (ix2 p q) + v57 (ix1 q)) := by
  unfold k2_pay4 k2_pay2
  dsimp only
  rw [select_apply, cmpf_apply, divf_apply, addf_apply, broadcastTo_1b_ab_apply, shapeCast_a_1a_apply]
  exact select_drop _ _

/-- The scale as a row repeated down the rows, at `(p, q)`: its entry `q`. -/
theorem pay8_apply (v60 : Vec Ideal S768 .f32) (p : Fin 512) (q : Fin 768) : k2_pay8 v60 (ix2 p q) = v60 (ix1 q) := by
  unfold k2_pay8
  (try dsimp only)
  rw [broadcastTo_1b_ab_apply, shapeCast_a_1a_apply]

/-- The binary path's column means as a row, at `(0, q)`: the mean of column `q` of the biased, masked block. -/
theorem pay5_apply (v57 : Vec Ideal S768 .f32) (v63 v66 : Vec Ideal S512x768 .f32) (q : Fin 768) :
    k2_pay5 v57 v63 v66 (ix2 (0 : Fin 1) q)
      = meanK (fun p' => drop (v66 (ix2 p' q)) (v63 (ix2 p' q) + v57 (ix1 q))) := by
  unfold k2_pay5
  dsimp only
  rw [divf_apply, shapeCast_a_1a_apply, msum_apply, broadcast_apply]
  simp only [pay3_apply]
  rfl

/-- The deviation from the column mean at `(p, q)`. -/
theorem pay7_apply (v57 : Vec Ideal S768 .f32) (v63 v66 : Vec Ideal S512x768 .f32) (p : Fin 512) (q : Fin 768) :
    k2_pay7 v57 v63 v66 (ix2 p q)
      = drop (v66 (ix2 p q)) (v63 (ix2 p q) + v57 (ix1 q))
        - meanK (fun p' => drop (v66 (ix2 p' q)) (v63 (ix2 p' q) + v57 (ix1 q))) := by
  unfold k2_pay7 k2_pay5
  dsimp only
  rw [mean_rows_eq, subf_apply]
  simp only [pay3_apply]
  rfl

/-- The column variances as a row, at `(0, q)`: the mean of the squared deviations of column `q`. -/
theorem pay6_apply (v57 : Vec Ideal S768 .f32) (v63 v66 : Vec Ideal S512x768 .f32) (q : Fin 768) :
    k2_pay6 v57 v63 v66 (ix2 (0 : Fin 1) q)
      = varK (fun p' => drop (v66 (ix2 p' q)) (v63 (ix2 p' q) + v57 (ix1 q))) := by
  unfold k2_pay6 k2_pay5
  dsimp only
  rw [mean_rows_eq, divf_apply, shapeCast_a_1a_apply, msum_apply, broadcast_apply]
  simp only [mulf_apply, subf_apply, pay3_apply]
  rfl

/-- The binary path's output at `(p, q)`: the normalisation of the biased, masked accumulated block (scale `v60`,
    shift `v62` at column `q`, the product-by-reciprocal-root spelling), clipped. -/
theorem pay9_apply (v57 v60 v62 : Vec Ideal S768 .f32) (v63 v66 : Vec Ideal S512x768 .f32) (p : Fin 512) (q : Fin 768) :
    k2_pay9 v62 (k2_pay6 v57 v63 v66) (k2_pay7 v57 v63 v66) (k2_pay8 v60) (ix2 p q)
      = bnclipK (v60 (ix1 q)) (v62 (ix1 q)) (fun p' => drop (v66 (ix2 p' q)) (v63 (ix2 p' q) + v57 (ix1 q))) p := by
  have h : k2_pay9 v62 (k2_pay6 v57 v63 v66) (k2_pay7 v57 v63 v66) (k2_pay8 v60) (ix2 p q)
      = bnclipK (v60 (ix1 q)) (v62 (ix1 q)) (fun p' => k2_pay3 v57 v63 v66 (ix2 p' q)) p := by
    unfold k2_pay9 k2_pay8 k2_pay7 k2_pay6 k2_pay5
    dsimp only
    generalize k2_pay3 v57 v63 v66 = y
    rw [mean_rows_eq]
    simp only [minimumf_apply, maximumf_apply, addf_apply, mulf_apply, subf_apply, divf_apply, broadcast_apply, rsqrt_apply,
    broadcastTo_1b_ab_apply, shapeCast_a_1a_apply]
    rw [msum_apply]
    simp only [addf_apply, mulf_apply, subf_apply, broadcastTo_1b_ab_apply, shapeCast_a_1a_apply]
    rfl
  rw [h]
  simp only [pay3_apply]

/-- The real path's output over ANY block `y` at `(p, q)`: scale `v60`, shift `v62` at column `q`, over the block's
    column `q` (the product-by-reciprocal-root spelling), clipped. -/
theorem pay10_col (v60 v62 : Vec Ideal S768 .f32) (y : FVec Ideal S512x768 .f32) (p : Fin 512) (q : Fin 768) :
    k2_pay10 v60 v62 y (ix2 p q) = bnclipK (v60 (ix1 q)) (v62 (ix1 q)) (fun p' => y (ix2 p' q)) p := by
  unfold k2_pay10
  dsimp only
  rw [mean_rows_eq]
  simp only [minimumf_apply, maximumf_apply, addf_apply, mulf_apply, subf_apply, divf_apply, broadcast_apply, rsqrt_apply,
    broadcastTo_1b_ab_apply, shapeCast_a_1a_apply]
  rw [msum_apply]
  simp only [addf_apply, mulf_apply, subf_apply, broadcastTo_1b_ab_apply, shapeCast_a_1a_apply]
  rfl

/-- The real path's output at `(p, q)`: the normalisation of the biased, masked accumulated block. -/
theorem pay10_apply (v57 v60 v62 : Vec Ideal S768 .f32) (v73 v76 : Vec Ideal S512x768 .f32) (p : Fin 512) (q : Fin 768) :
    k2_pay10 v60 v62 (k2_pay4 v57 v73 v76) (ix2 p q)
      = bnclipK (v60 (ix1 q)) (v62 (ix1 q)) (fun p' => drop (v76 (ix2 p' q)) (v73 (ix2 p' q) + v57 (ix1 q))) p := by
  rw [pay10_col]
  simp only [pay4_apply]

end Cert.KernelIdeal.V2

end
-- ==== Proof.KI_R2_Val.lean ====
/- Region 2 of the idealized program: the pieces the body's runs found, read as the body's arithmetic. One
   reduction step adds the point's tile product to an accumulator (acc0 on the sign path, acc1 on the real path, the
   latter with its three-term split); the finalization (fin8, fin9) turns an accumulator and a dropout mask block
   into an output block. -/
import proofs.«130870_j71201967833887_2_alg».proof.Proof.KI_R2
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The column slice [0, 512) x [768 k, 768 k + 768) of an activation block, k the reduction coordinate. -/
abbrev rAct (i : grid2.Coords) : Rect S512x6144 := Rect.unit (s := S512x6144) (k2_off1 i) S512x768.size (k2_off1_inb i)
/-- The slice [768 n, 768 n + 768) of a per-column vector, n the output-tile coordinate. -/
abbrev rVec (i : grid2.Coords) (h : k2_cond2 i = 1#1) : Rect S6144 := Rect.unit (s := S6144) (k2_off2 i) S768.size (k2_off2_inb i h)

/-- One reduction step on the sign path: the accumulator `s` plus the product of the activation slice with the
    signs of the weight tile. -/
def acc0 (i : grid2.Coords) (x0 : Vec F S512x6144 .bf16) (x2 : Vec F S768x768 .f32) (s : Vec F S512x768 .f32) : Vec F S512x768 .f32 :=
  k2_pay14 (View.ld x0 (rAct i)) x2 s
/-- One reduction step on the real path: the accumulator `s` plus the three-term split product of the activation
    slice with the weight tile. -/
def acc1 (i : grid2.Coords) (x1 : Vec F S512x6144 .f32) (x2 : Vec F S768x768 .f32) (s : Vec F S512x768 .f32) : Vec F S512x768 .f32 :=
  k2_pay1 s (k2_pay15 (View.ld x1 (rAct i))) (k2_pay16 (View.ld x1 (rAct i))) (k2_pay17 x2) (k2_pay18 x2)
/-- The finalization of the sign path: bias, dropout by the mask block `x6`, normalisation over the rows, clipping. -/
def fin8 (i : grid2.Coords) (h : k2_cond2 i = 1#1) (x3 x4 x5 : Vec F S6144 .f32) (x6 : Vec F S512x768 .f32) (s0 : Vec F S512x768 .f32) : Vec F S512x768 .f32 :=
  k2_pay9 (View.ld x5 (rVec i h)) (k2_pay6 (View.ld x3 (rVec i h)) s0 x6) (k2_pay7 (View.ld x3 (rVec i h)) s0 x6) (k2_pay8 (View.ld x4 (rVec i h)))
/-- The finalization of the real path, with the mask block `x7`. -/
def fin9 (i : grid2.Coords) (h : k2_cond2 i = 1#1) (x3 x4 x5 : Vec F S6144 .f32) (x7 : Vec F S512x768 .f32) (s1 : Vec F S512x768 .f32) : Vec F S512x768 .f32 :=
  k2_pay10 (View.ld x4 (rVec i h)) (View.ld x5 (rVec i h)) (k2_pay4 (View.ld x3 (rVec i h)) s1 x7)

/-! ## The found pieces, case by case -/

set_option maxHeartbeats 1000000 in
theorem sout_A_0_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) :
    sout_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = acc0 i x0 x2 (k2_pay11 (F := F)) := by
  unfold sout_A_0
  rw [View.read_writes_eq_canon _ _ _ (scover_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun_A
  dsimp only
  sl_unfold_words
  rw [View.canon_cons_unit_zero (S := S512x768) hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem sout_A_1_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) :
    sout_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = acc1 i x1 x2 (k2_pay12 (F := F)) := by
  unfold sout_A_1
  rw [View.read_writes_eq_canon _ _ _ (scover_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun_A
  dsimp only
  sl_unfold_words
  rw [View.canon_cons_unit_zero (S := S512x768) hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem sout_B_0_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    sout_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = acc0 i x0 x2 xs0 := by
  unfold sout_B_0
  rw [View.read_writes_eq_canon _ _ _ (scover_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_B
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem sout_B_1_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : ¬cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    sout_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = acc1 i x1 x2 xs1 := by
  unfold sout_B_1
  rw [View.read_writes_eq_canon _ _ _ (scover_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_B
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem sout_C_0_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    sout_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = acc0 i x0 x2 xs0 := by
  unfold sout_C_0
  rw [View.read_writes_eq_canon _ _ _ (scover_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_C
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem sout_C_1_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    sout_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = acc1 i x1 x2 xs1 := by
  unfold sout_C_1
  rw [View.read_writes_eq_canon _ _ _ (scover_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_C
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem out_C_8_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    out_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = fin8 i hc1 x3 x4 x5 x6 (acc0 i x0 x2 xs0) := by
  unfold out_C_8
  rw [View.read_writes_eq_canon _ _ _ (cover_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_C
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

set_option maxHeartbeats 1000000 in
theorem out_C_9_eq (c : Dev nD) (i : grid2.Coords) (arg2 : Memref sig .tc .vmem S512x6144 .bf16) (harg2 : arg2.IsWhole) (arg3 : Memref sig .tc .vmem S512x6144 .f32) (harg3 : arg3.IsWhole) (arg4 : Memref sig .tc .vmem S768x768 .f32) (harg4 : arg4.IsWhole) (arg5 : Memref sig .tc .vmem S6144 .f32) (harg5 : arg5.IsWhole) (arg6 : Memref sig .tc .vmem S6144 .f32) (harg6 : arg6.IsWhole) (arg7 : Memref sig .tc .vmem S6144 .f32) (harg7 : arg7.IsWhole) (arg8 : Memref sig .tc .vmem S512x768 .f32) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole) (arg13 : Memref sig .tc .vmem S512x768 .f32) (harg13 : arg13.IsWhole) (hc0 : ¬cond0 i) (hc1 : cond1 i)
    (x0 : Vec F S512x6144 .bf16) (x1 : Vec F S512x6144 .f32) (x2 : Vec F S768x768 .f32) (x3 : Vec F S6144 .f32) (x4 : Vec F S6144 .f32) (x5 : Vec F S6144 .f32) (x6 : Vec F S512x768 .f32) (x7 : Vec F S512x768 .f32) (xs0 : Vec F S512x768 .f32) (xs1 : Vec F S512x768 .f32) :
    out_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = fin9 i hc1 x3 x4 x5 x7 (acc1 i x1 x2 xs1) := by
  unfold out_C_9
  rw [View.read_writes_eq_canon _ _ _ (cover_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun_C
  dsimp only
  sl_unfold_words
  rw [View.canon_unit_zero hz2]
  simp only [View.readCov_unit_zero (S := S512x768) _ hz2, View.readAt_eq_ld, harg2.read_unread, harg3.read_unread, harg4.read_unread, harg5.read_unread, harg6.read_unread, harg7.read_unread, harg8.read_unread, harg9.read_unread, harg12.read_unread, harg13.read_unread, View.ld_unit_zero (S := S512x768) hz2, View.ld_unit_zero (S := S768x768) hz2]
  rfl

/-! ## Point by point -/

set_option maxHeartbeats 4000000 in
/-- At a point with k = 0 the accumulators hold one reduction step from the zero block. -/
theorem acc0_first (c : Dev nD) (t : Fin cfg2.N) (h0 : t.val % 8 = 0) :
    (outsAt V c t.val t.isLt).2.2.1 = acc0 (grid2.coords t) (iblk V c 0 t) (iblk V c 2 t) (k2_pay11 (F := F)) := by
  have h1 : ¬t.val % 8 = 7 := by omega
  rw [outsAt_A V c t h0 h1]
  exact sout_A_0_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)

set_option maxHeartbeats 4000000 in
theorem acc1_first (c : Dev nD) (t : Fin cfg2.N) (h0 : t.val % 8 = 0) :
    (outsAt V c t.val t.isLt).2.2.2 = acc1 (grid2.coords t) (iblk V c 1 t) (iblk V c 2 t) (k2_pay12 (F := F)) := by
  have h1 : ¬t.val % 8 = 7 := by omega
  rw [outsAt_A V c t h0 h1]
  exact sout_A_1_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)

set_option maxHeartbeats 4000000 in
/-- At a point with k > 0 the accumulators hold one reduction step from what the point before left. -/
theorem acc0_step (c : Dev nD) (t : Fin cfg2.N) (h0 : ¬t.val % 8 = 0) :
    (outsAt V c t.val t.isLt).2.2.1 = acc0 (grid2.coords t) (iblk V c 0 t) (iblk V c 2 t) (outsAt V c (t.val - 1) (Nat.lt_of_le_of_lt (Nat.sub_le _ _) t.isLt)).2.2.1 := by
  by_cases h1 : t.val % 8 = 7
  · rw [outsAt_C V c t h0 h1]
    exact sout_C_0_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_B V c t h0 h1]
    exact sout_B_0_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2

set_option maxHeartbeats 4000000 in
theorem acc1_step (c : Dev nD) (t : Fin cfg2.N) (h0 : ¬t.val % 8 = 0) :
    (outsAt V c t.val t.isLt).2.2.2 = acc1 (grid2.coords t) (iblk V c 1 t) (iblk V c 2 t) (outsAt V c (t.val - 1) (Nat.lt_of_le_of_lt (Nat.sub_le _ _) t.isLt)).2.2.2 := by
  by_cases h1 : t.val % 8 = 7
  · rw [outsAt_C V c t h0 h1]
    exact sout_C_1_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_B V c t h0 h1]
    exact sout_B_1_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2

set_option maxHeartbeats 4000000 in
/-- At a point with k = 7, where the outputs are written back, output 8's buffer is the finalization of accumulator 0
    as this point leaves it, -/
theorem after_8_last (c : Dev nD) (t : Fin cfg2.N) (h1 : t.val % 8 = 7) :
    (dat V c).after 8 t = fin8 (grid2.coords t) ((hcond1 t).mpr h1) (iblk V c 3 t) (iblk V c 4 t) (iblk V c 5 t) (iblk V c 6 t) (outsAt V c t.val t.isLt).2.2.1 := by
  have h0 : ¬t.val % 8 = 0 := by omega
  rw [after_8, outsAt_C V c t h0 h1]
  exact (out_C_8_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2).trans
    (congrArg (fin8 (grid2.coords t) ((hcond1 t).mpr h1) (iblk V c 3 t) (iblk V c 4 t) (iblk V c 5 t) (iblk V c 6 t))
      (sout_C_0_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2).symm)

set_option maxHeartbeats 4000000 in
/-- and output 9's the finalization of accumulator 1. -/
theorem after_9_last (c : Dev nD) (t : Fin cfg2.N) (h1 : t.val % 8 = 7) :
    (dat V c).after 9 t = fin9 (grid2.coords t) ((hcond1 t).mpr h1) (iblk V c 3 t) (iblk V c 4 t) (iblk V c 5 t) (iblk V c 7 t) (outsAt V c t.val t.isLt).2.2.2 := by
  have h0 : ¬t.val % 8 = 0 := by omega
  rw [after_9, outsAt_C V c t h0 h1]
  exact (out_C_9_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2).trans
    (congrArg (fin9 (grid2.coords t) ((hcond1 t).mpr h1) (iblk V c 3 t) (iblk V c 4 t) (iblk V c 5 t) (iblk V c 7 t))
      (sout_C_1_eq (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.2.1 (outsAt V c (t.val - 1) (Nat.lt_of_le_of_lt (Nat.sub_le _ _) t.isLt)).2.2.2).symm)

end Cert.KernelIdeal.R2

end
-- ==== Proof.KI_V2_Blk.lean ====
/- Region 2 at the ideal values: where each window's block sits in its array at a grid point, the slices a point
   reads, and the contraction cut into eight tiles of 768 columns. -/
import proofs.«130870_j71201967833887_2_alg».proof.Proof.KI_R2_Val
import proofs.«130870_j71201967833887_2_alg».proof.Proof.NetSpec
import Idealize.ShloMosaic.Lib.ValueIdx
import Idealize.ShloMosaic.Lib.Pipeline.Value

set_option maxRecDepth 16384

noncomputable section

namespace Cert.KernelIdeal.V2

open Cert.KernelIdeal Cert.KernelIdeal.Gen Cert.KernelIdeal.R2 Cert.LibBnSpec Cert.NetSpec
open Idealize.ShloMosaic Idealize.ShloMosaic.TcCoe Idealize.ShloMosaic.ValueIdx Idealize.SL.Sem
open Idealize.ShloMosaic.Pipeline (Dat)

/-! ## Arrays read at natural-number coordinates (zero outside their extents) -/

def ext1 (f : Fin 6144 → EReal) (m : ℕ) : EReal := if h : m < 6144 then f ⟨m, h⟩ else 0
def ext2 (w : Fin 6144 → Fin 6144 → EReal) (a b : ℕ) : EReal := if h : a < 6144 ∧ b < 6144 then w ⟨a, h.1⟩ ⟨b, h.2⟩ else 0

theorem ext1_eq (f : Fin 6144 → EReal) (m : Fin 6144) (n : ℕ) (h : m.val = n) : ext1 f n = f m := by
  subst h; unfold ext1; rw [dif_pos m.isLt]
theorem ext2_eq (w : Fin 6144 → Fin 6144 → EReal) (A B : Fin 6144) (a b : ℕ) (hA : A.val = a) (hB : B.val = b) :
    ext2 w a b = w A B := by
  subst hA hB; unfold ext2; rw [dif_pos ⟨A.isLt, B.isLt⟩]

/-- One contraction tile's inner product on the sign path: row `p` of the activations against the signs of weight row
    `768 n' + q`, over the columns `768 k' …`. -/
def T0 (S : Fin 512 → Fin 6144 → EReal) (w : Fin 6144 → Fin 6144 → EReal) (n' k' : ℕ) (p : Fin 512) (q : Fin 768) : EReal :=
  ∑ k : Fin 768, ext1 (S p) (768 * k' + k.val) * Ideal.sign (ext2 w (768 * n' + q.val) (768 * k' + k.val))
/-- The same on the real path (the weights as they are). -/
def T1 (R : Fin 512 → Fin 6144 → EReal) (w : Fin 6144 → Fin 6144 → EReal) (n' k' : ℕ) (p : Fin 512) (q : Fin 768) : EReal :=
  ∑ k : Fin 768, ext1 (R p) (768 * k' + k.val) * ext2 w (768 * n' + q.val) (768 * k' + k.val)

/-- Eight tiles of 768 make the whole contraction. -/
theorem sum_tiles (G : ℕ → EReal) : ∑ j ∈ Finset.range 8, ∑ k : Fin 768, G (768 * j + k.val) = ∑ m : Fin 6144, G m.val := by
  have h := Equiv.sum_comp (finProdFinEquiv (m := 8) (n := 768)) (fun m : Fin (8 * 768) => G m.val)
  rw [Fintype.sum_prod_type] at h
  rw [Finset.sum_range]
  refine Eq.trans ?_ h
  refine Finset.sum_congr rfl fun j _ => Finset.sum_congr rfl fun k _ => congrArg G ?_
  show 768 * j.val + k.val = k.val + 768 * j.val
  omega

/-! ## The slices a grid point reads -/

theorem ld_act {Val : EltTy → Type} {e : EltTy} (i : grid2.Coords) (x : S512x6144.Idx → Val e) (p : Fin 512) (k : Fin 768) (m : Fin 6144)
    (hm : m.val = 768 * (i 1).val + k.val) : View.ld x (rAct i) (ix2 p k) = x (ix2 p m) := by
  show x ((rAct i).idx (ix2 p k)) = x (ix2 p m)
  refine congrArg x ?_
  funext a; apply Fin.ext
  match a with
  | ⟨0, _⟩ => show (k2_off1 i) 0 + 1 * p.val = p.val; rw [k2_off1_eq]; show 0 + 1 * p.val = p.val; omega
  | ⟨1, _⟩ => show (k2_off1 i) 1 + 1 * k.val = m.val; rw [k2_off1_eq, hm]; show 768 * (i 1).val + 1 * k.val = _; omega

theorem ld_vec {Val : EltTy → Type} {e : EltTy} (i : grid2.Coords) (h : k2_cond2 i = 1#1) (x : S6144.Idx → Val e) (q : Fin 768) (N : Fin 6144)
    (hN : N.val = 768 * (i 0).val + q.val) : View.ld x (rVec i h) (ix1 q) = x (ix1 N) := by
  show x ((rVec i h).idx (ix1 q)) = x (ix1 N)
  refine congrArg x ?_
  funext a; apply Fin.ext
  match a with
  | ⟨0, _⟩ => show (k2_off2 i) 0 + 1 * q.val = N.val; rw [k2_off2_eq, hN]; show 768 * (i 0).val + 1 * q.val = _; omega

variable (V : (c : Dev nD) → (b : Ref sig .tc) → Buf (Elt Ideal) ((c : Thread nD τ).loc b)) (c : Dev nD)

/-! ## Where each window's block sits at a grid point, decided over the grid -/

theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val / 8 ∧ win2_2.index t (1 : Fin 2) = t.val % 8
    ∧ win2_3.index t (0 : Fin 1) = 0 ∧ win2_4.index t (0 : Fin 1) = 0 ∧ win2_5.index t (0 : Fin 1) = 0
    ∧ win2_6.index t (0 : Fin 2) = 0 ∧ win2_6.index t (1 : Fin 2) = t.val / 8
    ∧ win2_7.index t (0 : Fin 2) = 0 ∧ win2_7.index t (1 : Fin 2) = t.val / 8
    ∧ (grid2.coords t 0).val = t.val / 8 ∧ (grid2.coords t 1).val = t.val % 8 :=
  (by decide +kernel : ∀ t : Fin grid2.N, _)

/-! ## The input blocks read the arrays -/

theorem blk0 (t : Fin cfg2.N) (p : Fin 512) (m : Fin 6144) :
    (iblk V c 0 t : Vec Ideal S512x6144 .bf16) (ix2 p m) = V c main_v3_2 (ix2 p m) := by
  obtain ⟨e0, e1, -⟩ := idx_facts t
  unfold iblk
  rw [View.read_apply]
  show V c main_v3_2 _ = V c main_v3_2 _
  refine congrArg (V c main_v3_2) ?_
  funext a; apply Fin.ext
  match a with
  | ⟨0, _⟩ => show win2_0.index t (0 : Fin 2) * 512 + 1 * p.val = p.val; rw [e0]; omega
  | ⟨1, _⟩ => show win2_0.index t (1 : Fin 2) * 6144 + 1 * m.val = m.val; rw [e1]; omega

theorem blk1 (t : Fin cfg2.N) (p : Fin 512) (m : Fin 6144) :
    (iblk V c 1 t : Vec Ideal S512x6144 .f32) (ix2 p m) = V c main_v3_1 (ix2 p m) := by
  obtain ⟨-, -, e0, e1, -⟩ := idx_facts t
  unfold iblk
  rw [View.read_apply]
  show V c main_v3_1 _ = V c main_v3_1 _
  refine congrArg (V c main_v3_1) ?_
  funext a; apply Fin.ext
  match a with
  | ⟨0, _⟩ => show win2_1.index t (0 : Fin 2) * 512 + 1 * p.val = p.val; rw [e0]; omega
  | ⟨1, _⟩ => show win2_1.index t (1 : Fin 2) * 6144 + 1 * m.val = m.val; rw [e1]; omega

theorem blk2 (t : Fin cfg2.N) (a b : Fin 768) (A B : Fin 6144) (hA : A.val = 768 * (t.val / 8) + a.val)
    (hB : B.val = 768 * (t.val % 8) + b.val) :
    (iblk V c 2 t : Vec Ideal S768x768 .f32) (ix2 a b) = V c main_arg7 (ix2 A B) := by
  obtain ⟨-, -, -, -, e0, e1, -⟩ := idx_facts t
  unfold iblk
  rw [View.read_apply]
  show V c main_arg7 _ = V c main_arg7 _
  refine congrArg (V c main_arg7) ?_
  funext x; apply Fin.ext
  match x with
  | ⟨0, _⟩ => show win2_2.index t (0 : Fin 2) * 768 + 1 * a.val = A.val; rw [e0, hA]; omega
  | ⟨1, _⟩ => show win2_2.index t (1 : Fin 2) * 768 + 1 * b.val = B.val; rw [e1, hB]; omega

theorem blk3 (t : Fin cfg2.N) (n : Fin 6144) : (iblk V c 3 t : Vec Ideal S6144 .f32) (ix1 n) = V c main_arg8 (ix1 n) := by
  obtain ⟨-, -, -, -, -, -, e0, -⟩ := idx_facts t
  unfold iblk
  rw [View.read_apply]
  show V c main_arg8 _ = V c main_arg8 _
  refine congrArg (V c main_arg8) ?_
  funext x; apply Fin.ext
  match x with
  | ⟨0, _⟩ => show win2_3.index t (0 : Fin 1) * 6144 + 1 * n.val = n.val; rw [e0]; omega

theorem blk4 (t : Fin cfg2.N) (n : Fin 6144) : (iblk V c 4 t : Vec Ideal S6144 .f32) (ix1 n) = V c main_arg15 (ix1 n) := by
  obtain ⟨-, -, -, -, -, -, -, e0, -⟩ := idx_facts t
  unfold iblk
  rw [View.read_apply]
  show V c main_arg15 _ = V c main_arg15 _
  refine congrArg (V c main_arg15) ?_
  funext x; apply Fin.ext
  match x with
  | ⟨0, _⟩ => show win2_4.index t (0 : Fin 1) * 6144 + 1 * n.val = n.val; rw [e0]; omega

theorem blk5 (t : Fin cfg2.N) (n : Fin 6144) : (iblk V c 5 t : Vec Ideal S6144 .f32) (ix1 n) = V c main_arg16 (ix1 n) := by
  obtain ⟨-, -, -, -, -, -, -, -, e0, -⟩ := idx_facts t
  unfold iblk
  rw [View.read_apply]
  show V c main_arg16 _ = V c main_arg16 _
  refine congrArg (V c main_arg16) ?_
  funext x; apply Fin.ext
  match x with
  | ⟨0, _⟩ => show win2_5.index t (0 : Fin 1) * 6144 + 1 * n.val = n.val; rw [e0]; omega

theorem blk6 (t : Fin cfg2.N) (p : Fin 512) (q : Fin 768) (N : Fin 6144) (hN : N.val = 768 * (t.val / 8) + q.val) :
    (iblk V c 6 t : Vec Ideal S512x768 .f32) (ix2 p q) = V c main_arg1 (ix2 p N) := by
  obtain ⟨-, -, -, -, -, -, -, -, -, e0, e1, -⟩ := idx_facts t
  unfold iblk
  rw [View.read_apply]
  show V c main_arg1 _ = V c main_arg1 _
  refine congrArg (V c main_arg1) ?_
  funext x; apply Fin.ext
  match x with
  | ⟨0, _⟩ => show win2_6.index t (0 : Fin 2) * 512 + 1 * p.val = p.val; rw [e0]; omega
  | ⟨1, _⟩ => show win2_6.index t (1 : Fin 2) * 768 + 1 * q.val = N.val; rw [e1, hN]; omega

theorem blk7 (t : Fin cfg2.N) (p : Fin 512) (q : Fin 768) (N : Fin 6144) (hN : N.val = 768 * (t.val / 8) + q.val) :
    (iblk V c 7 t : Vec Ideal S512x768 .f32) (ix2 p q) = V c main_arg2 (ix2 p N) := by
  obtain ⟨-, -, -, -, -, -, -, -, -, -, -, e0, e1, -⟩ := idx_facts t
  unfold iblk
  rw [View.read_apply]
  show V c main_arg2 _ = V c main_arg2 _
  refine congrArg (V c main_arg2) ?_
  funext x; apply Fin.ext
  match x with
  | ⟨0, _⟩ => show win2_7.index t (0 : Fin 2) * 512 + 1 * p.val = p.val; rw [e0]; omega
  | ⟨1, _⟩ => show win2_7.index t (1 : Fin 2) * 768 + 1 * q.val = N.val; rw [e1, hN]; omega

end Cert.KernelIdeal.V2

end
-- ==== Proof.KI_V2_Step.lean ====
/- Region 2 at the ideal values: one reduction step of each accumulator and the finalization of each output, at an
   index, over any blocks that read the arrays. -/
import proofs.«130870_j71201967833887_2_alg».proof.Proof.KI_V2_Pay
import proofs.«130870_j71201967833887_2_alg».proof.Proof.KI_V2_Blk

set_option maxRecDepth 16384

noncomputable section

namespace Cert.KernelIdeal.V2

open Cert.KernelIdeal Cert.KernelIdeal.Gen Cert.KernelIdeal.R2 Cert.LibBnSpec Cert.NetSpec
open Idealize.ShloMosaic Idealize.ShloMosaic.TcCoe Idealize.ShloMosaic.ValueIdx Idealize.SL.Sem
open Idealize.ShloMosaic.Pipeline (Dat)

/-! ## One step, at an index -/

theorem acc0_at (i : grid2.Coords) (n' k' : ℕ) (hi1 : (i 1).val = k') (hn : n' < 8) (hk : k' < 8)
    (x0 : Vec Ideal S512x6144 .bf16) (x2 : Vec Ideal S768x768 .f32) (a0 : Vec Ideal S512x768 .f32)
    (S : Fin 512 → Fin 6144 → EReal) (w : Fin 6144 → Fin 6144 → EReal)
    (hx0 : ∀ (p : Fin 512) (m : Fin 6144), x0 (ix2 p m) = S p m)
    (hx2 : ∀ (a b : Fin 768) (A B : Fin 6144), A.val = 768 * n' + a.val → B.val = 768 * k' + b.val → x2 (ix2 a b) = w A B)
    (p : Fin 512) (q : Fin 768) :
    acc0 i x0 x2 a0 (ix2 p q) = a0 (ix2 p q) + T0 S w n' k' p q := by
  unfold acc0
  refine (pay14_apply (View.ld x0 (rAct i)) x2 a0 p q).trans ?_
  refine congrArg (a0 (ix2 p q) + ·) (Finset.sum_congr rfl fun k _ => ?_)
  have hm : 768 * k' + k.val < 6144 := by have := k.isLt; omega
  have hN : 768 * n' + q.val < 6144 := by have := q.isLt; omega
  have e1 : View.ld x0 (rAct i) (ix2 p k) = ext1 (S p) (768 * k' + k.val) :=
    (ld_act i x0 p k ⟨768 * k' + k.val, hm⟩ (by rw [hi1])).trans ((hx0 p _).trans (ext1_eq (S p) ⟨_, hm⟩ _ rfl).symm)
  have e2 : x2 (ix2 q k) = ext2 w (768 * n' + q.val) (768 * k' + k.val) :=
    (hx2 q k ⟨768 * n' + q.val, hN⟩ ⟨768 * k' + k.val, hm⟩ rfl rfl).trans (ext2_eq w ⟨_, hN⟩ ⟨_, hm⟩ _ _ rfl rfl).symm
  exact congrArg₂ (· * ·) e1 (congrArg Ideal.sign e2)

theorem acc1_at (i : grid2.Coords) (n' k' : ℕ) (hi1 : (i 1).val = k') (hn : n' < 8) (hk : k' < 8)
    (x1 : Vec Ideal S512x6144 .f32) (x2 : Vec Ideal S768x768 .f32) (a1 : Vec Ideal S512x768 .f32)
    (R : Fin 512 → Fin 6144 → EReal) (w : Fin 6144 → Fin 6144 → EReal)
    (hx1 : ∀ (p : Fin 512) (m : Fin 6144), x1 (ix2 p m) = R p m)
    (hx2 : ∀ (a b : Fin 768) (A B : Fin 6144), A.val = 768 * n' + a.val → B.val = 768 * k' + b.val → x2 (ix2 a b) = w A B)
    (fR : ∀ p k, ∃ r : ℝ, R p k = (r : EReal)) (fw : ∀ n k, ∃ r : ℝ, w n k = (r : EReal))
    (p : Fin 512) (q : Fin 768) :
    acc1 i x1 x2 a1 (ix2 p q) = a1 (ix2 p q) + T1 R w n' k' p q := by
  unfold acc1
  have e1 : ∀ (p : Fin 512) (k : Fin 768), View.ld x1 (rAct i) (ix2 p k) = ext1 (R p) (768 * k' + k.val) := fun p k => by
    have hm : 768 * k' + k.val < 6144 := by have := k.isLt; omega
    exact (ld_act i x1 p k ⟨768 * k' + k.val, hm⟩ (by rw [hi1])).trans ((hx1 p _).trans (ext1_eq (R p) ⟨_, hm⟩ _ rfl).symm)
  have e2 : ∀ (q k : Fin 768), x2 (ix2 q k) = ext2 w (768 * n' + q.val) (768 * k' + k.val) := fun q k => by
    have hm : 768 * k' + k.val < 6144 := by have := k.isLt; omega
    have hN : 768 * n' + q.val < 6144 := by have := q.isLt; omega
    exact (hx2 q k ⟨768 * n' + q.val, hN⟩ ⟨768 * k' + k.val, hm⟩ rfl rfl).trans (ext2_eq w ⟨_, hN⟩ ⟨_, hm⟩ _ _ rfl rfl).symm
  have f1 : ∀ (p : Fin 512) (k : Fin 768), ∃ r : ℝ, View.ld x1 (rAct i) (ix2 p k) = (r : EReal) := fun p k => by
    have hm : 768 * k' + k.val < 6144 := by have := k.isLt; omega
    rw [e1 p k, ext1_eq (R p) ⟨_, hm⟩ _ rfl]; exact fR _ _
  have f2 : ∀ (q k : Fin 768), ∃ r : ℝ, x2 (ix2 q k) = (r : EReal) := fun q k => by
    have hm : 768 * k' + k.val < 6144 := by have := k.isLt; omega
    have hN : 768 * n' + q.val < 6144 := by have := q.isLt; omega
    rw [e2 q k, ext2_eq w ⟨_, hN⟩ ⟨_, hm⟩ _ _ rfl rfl]; exact fw _ _
  refine (pay1_apply a1 (View.ld x1 (rAct i)) x2 f1 f2 p q).trans ?_
  refine congrArg (a1 (ix2 p q) + ·) (Finset.sum_congr rfl fun k _ => ?_)
  exact congrArg₂ (· * ·) (e1 p k) (e2 q k)

/-! ## The finalization, at an index -/

theorem pay9_at (v57 v60 v62 : Vec Ideal S768 .f32) (v63 v66 : Vec Ideal S512x768 .f32) (p : Fin 512) (q : Fin 768)
    (bN gN beN : EReal) (D u : Fin 512 → EReal) (h57 : v57 (ix1 q) = bN) (h60 : v60 (ix1 q) = gN) (h62 : v62 (ix1 q) = beN)
    (h63 : ∀ p', v63 (ix2 p' q) = D p') (h66 : ∀ p', v66 (ix2 p' q) = u p') :
    k2_pay9 v62 (k2_pay6 v57 v63 v66) (k2_pay7 v57 v63 v66) (k2_pay8 v60) (ix2 p q)
      = bnclip gN beN (fun p' => drop (u p') (D p' + bN)) p := by
  rw [pay9_apply, bnclipK_eq, h57, h60, h62]
  simp only [h63, h66]

theorem pay10_at (v57 v60 v62 : Vec Ideal S768 .f32) (v73 v76 : Vec Ideal S512x768 .f32) (p : Fin 512) (q : Fin 768)
    (bN gN beN : EReal) (D u : Fin 512 → EReal) (h57 : v57 (ix1 q) = bN) (h60 : v60 (ix1 q) = gN) (h62 : v62 (ix1 q) = beN)
    (h73 : ∀ p', v73 (ix2 p' q) = D p') (h76 : ∀ p', v76 (ix2 p' q) = u p') :
    k2_pay10 v60 v62 (k2_pay4 v57 v73 v76) (ix2 p q)
      = bnclip gN beN (fun p' => drop (u p') (D p' + bN)) p := by
  rw [pay10_apply, bnclipK_eq, h57, h60, h62]
  simp only [h73, h76]

theorem fin8_at (i : grid2.Coords) (h : k2_cond2 i = 1#1) (n' : ℕ) (hi0 : (i 0).val = n') (hn : n' < 8)
    (x3 x4 x5 : Vec Ideal S6144 .f32) (x6 a0 : Vec Ideal S512x768 .f32) (b g be : Fin 6144 → EReal)
    (hx3 : ∀ n, x3 (ix1 n) = b n) (hx4 : ∀ n, x4 (ix1 n) = g n) (hx5 : ∀ n, x5 (ix1 n) = be n)
    (D u : Fin 512 → EReal) (p : Fin 512) (q : Fin 768) (N : Fin 6144) (hN : N.val = 768 * n' + q.val)
    (ha0 : ∀ p', a0 (ix2 p' q) = D p') (hx6 : ∀ p', x6 (ix2 p' q) = u p') :
    fin8 i h x3 x4 x5 x6 a0 (ix2 p q) = bnclip (g N) (be N) (fun p' => drop (u p') (D p' + b N)) p := by
  unfold fin8
  exact pay9_at _ _ _ a0 x6 p q (b N) (g N) (be N) D u
    ((ld_vec i h x3 q N (by rw [hi0]; exact hN)).trans (hx3 N))
    ((ld_vec i h x4 q N (by rw [hi0]; exact hN)).trans (hx4 N))
    ((ld_vec i h x5 q N (by rw [hi0]; exact hN)).trans (hx5 N)) ha0 hx6

theorem fin9_at (i : grid2.Coords) (h : k2_cond2 i = 1#1) (n' : ℕ) (hi0 : (i 0).val = n') (hn : n' < 8)
    (x3 x4 x5 : Vec Ideal S6144 .f32) (x7 a1 : Vec Ideal S512x768 .f32) (b g be : Fin 6144 → EReal)
    (hx3 : ∀ n, x3 (ix1 n) = b n) (hx4 : ∀ n, x4 (ix1 n) = g n) (hx5 : ∀ n, x5 (ix1 n) = be n)
    (D u : Fin 512 → EReal) (p : Fin 512) (q : Fin 768) (N : Fin 6144) (hN : N.val = 768 * n' + q.val)
    (ha1 : ∀ p', a1 (ix2 p' q) = D p') (hx7 : ∀ p', x7 (ix2 p' q) = u p') :
    fin9 i h x3 x4 x5 x7 a1 (ix2 p q) = bnclip (g N) (be N) (fun p' => drop (u p') (D p' + b N)) p := by
  unfold fin9
  exact pay10_at _ _ _ a1 x7 p q (b N) (g N) (be N) D u
    ((ld_vec i h x3 q N (by rw [hi0]; exact hN)).trans (hx3 N))
    ((ld_vec i h x4 q N (by rw [hi0]; exact hN)).trans (hx4 N))
    ((ld_vec i h x5 q N (by rw [hi0]; exact hN)).trans (hx5 N)) ha1 hx7

end Cert.KernelIdeal.V2

end
-- ==== Proof.KI_V2.lean ====
/- Region 2 at the ideal values: by induction on the reduction coordinate the two accumulators hold partial sums over the
   contraction tiles; at the last step they hold the whole inner products, and the two output blocks are the third
   layer's two paths at the block's columns. -/
import proofs.«130870_j71201967833887_2_alg».proof.Proof.KI_V2_Step

set_option maxRecDepth 16384

noncomputable section

namespace Cert.KernelIdeal.V2

open Cert.KernelIdeal Cert.KernelIdeal.Gen Cert.KernelIdeal.R2 Cert.LibBnSpec Cert.NetSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## One step at a grid point -/

theorem step0_at (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal))
    (t : Fin cfg2.N) (a0 : Vec Ideal S512x768 .f32) (p : Fin 512) (q : Fin 768) :
    acc0 (grid2.coords t) (iblk V c 0 t) (iblk V c 2 t) a0 (ix2 p q) = a0 (ix2 p q) + T0 S w (t.val / 8) (t.val % 8) p q := by
  obtain ⟨-, -, -, -, -, -, -, -, -, -, -, -, -, c0, c1⟩ := idx_facts t
  have hT : t.val < 64 := lt_of_lt_of_eq t.isLt (show cfg2.N = 64 from N_2)
  have hx2 : ∀ (a b : Fin 768) (A B : Fin 6144), A.val = 768 * (t.val / 8) + a.val → B.val = 768 * (t.val % 8) + b.val →
      (iblk V c 2 t : Vec Ideal S768x768 .f32) (ix2 a b) = w A B :=
    fun a b A B hA hB => (blk2 V c t a b A B hA hB).trans (hw A B)
  exact acc0_at (grid2.coords t) (t.val / 8) (t.val % 8) c1 (by omega) (by omega) (iblk V c 0 t) (iblk V c 2 t) a0 S w
      (fun p m => (blk0 V c t p m).trans (hS p m)) hx2 p q

theorem step1_at (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal))
    (t : Fin cfg2.N) (a1 : Vec Ideal S512x768 .f32) (p : Fin 512) (q : Fin 768) :
    acc1 (grid2.coords t) (iblk V c 1 t) (iblk V c 2 t) a1 (ix2 p q) = a1 (ix2 p q) + T1 R w (t.val / 8) (t.val % 8) p q := by
  obtain ⟨-, -, -, -, -, -, -, -, -, -, -, -, -, c0, c1⟩ := idx_facts t
  have hT : t.val < 64 := lt_of_lt_of_eq t.isLt (show cfg2.N = 64 from N_2)
  have hx2 : ∀ (a b : Fin 768) (A B : Fin 6144), A.val = 768 * (t.val / 8) + a.val → B.val = 768 * (t.val % 8) + b.val →
      (iblk V c 2 t : Vec Ideal S768x768 .f32) (ix2 a b) = w A B :=
    fun a b A B hA hB => (blk2 V c t a b A B hA hB).trans (hw A B)
  exact acc1_at (grid2.coords t) (t.val / 8) (t.val % 8) c1 (by omega) (by omega) (iblk V c 1 t) (iblk V c 2 t) a1 R w
      (fun p m => (blk1 V c t p m).trans (hR p m)) hx2 fR fw p q

/-! ## The accumulators after each point: partial sums over the contraction tiles -/

theorem acc_inv (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal)) :
    ∀ (n : ℕ) (hn : n < cfg2.N) (p : Fin 512) (q : Fin 768),
      (outsAt V c n hn).2.2.1 (ix2 p q) = ∑ j ∈ Finset.range (n % 8 + 1), T0 S w (n / 8) j p q
      ∧ (outsAt V c n hn).2.2.2 (ix2 p q) = ∑ j ∈ Finset.range (n % 8 + 1), T1 R w (n / 8) j p q
  | 0, hn, p, q => by
    have h0 := step0_at V c S R w hS hR hw fR fw ⟨0, hn⟩ (k2_pay11 (F := Ideal)) p q
    have h1 := step1_at V c S R w hS hR hw fR fw ⟨0, hn⟩ (k2_pay12 (F := Ideal)) p q
    rw [acc0_first V c ⟨0, hn⟩ (Nat.zero_mod 8), acc1_first V c ⟨0, hn⟩ (Nat.zero_mod 8), h0, h1, pay11_apply, pay12_apply]
    show 0 + T0 S w (0 / 8) (0 % 8) p q = ∑ j ∈ Finset.range (0 % 8 + 1), T0 S w (0 / 8) j p q
      ∧ 0 + T1 R w (0 / 8) (0 % 8) p q = ∑ j ∈ Finset.range (0 % 8 + 1), T1 R w (0 / 8) j p q
    simp only [Nat.zero_mod, Nat.zero_div, zero_add, Finset.sum_range_one, and_self]
  | n + 1, hn, p, q => by
    have hN : n + 1 < 64 := lt_of_lt_of_eq hn (show cfg2.N = 64 from N_2)
    by_cases h0 : (n + 1) % 8 = 0
    · have s0 := step0_at V c S R w hS hR hw fR fw ⟨n + 1, hn⟩ (k2_pay11 (F := Ideal)) p q
      have s1 := step1_at V c S R w hS hR hw fR fw ⟨n + 1, hn⟩ (k2_pay12 (F := Ideal)) p q
      rw [acc0_first V c ⟨n + 1, hn⟩ h0, acc1_first V c ⟨n + 1, hn⟩ h0, s0, s1, pay11_apply, pay12_apply]
      show 0 + T0 S w ((n + 1) / 8) ((n + 1) % 8) p q = _ ∧ 0 + T1 R w ((n + 1) / 8) ((n + 1) % 8) p q = _
      rw [h0]
      simp only [zero_add, Finset.sum_range_one, and_self]
    · have ih := acc_inv S R w hS hR hw fR fw n (Nat.lt_of_succ_lt hn) p q
      have s0 := step0_at V c S R w hS hR hw fR fw ⟨n + 1, hn⟩ (outsAt V c n (Nat.lt_of_succ_lt hn)).2.2.1 p q
      have s1 := step1_at V c S R w hS hR hw fR fw ⟨n + 1, hn⟩ (outsAt V c n (Nat.lt_of_succ_lt hn)).2.2.2 p q
      rw [acc0_step V c ⟨n + 1, hn⟩ h0, acc1_step V c ⟨n + 1, hn⟩ h0]
      refine ⟨s0.trans ?_, s1.trans ?_⟩
      · show (outsAt V c n (Nat.lt_of_succ_lt hn)).2.2.1 (ix2 p q) + T0 S w ((n + 1) / 8) ((n + 1) % 8) p q = _
        rw [ih.1]
        have e1 : (n + 1) / 8 = n / 8 := by omega
        have e2 : (n + 1) % 8 = n % 8 + 1 := by omega
        rw [e1, e2]
        exact (Finset.sum_range_succ (fun j => T0 S w (n / 8) j p q) (n % 8 + 1)).symm
      · show (outsAt V c n (Nat.lt_of_succ_lt hn)).2.2.2 (ix2 p q) + T1 R w ((n + 1) / 8) ((n + 1) % 8) p q = _
        rw [ih.2]
        have e1 : (n + 1) / 8 = n / 8 := by omega
        have e2 : (n + 1) % 8 = n % 8 + 1 := by omega
        rw [e1, e2]
        exact (Finset.sum_range_succ (fun j => T1 R w (n / 8) j p q) (n % 8 + 1)).symm

/-- At a last step the accumulators hold the whole inner products. -/
theorem acc_last (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal))
    (t : Fin cfg2.N) (h7 : t.val % 8 = 7) (p' : Fin 512) (q : Fin 768) (N : Fin 6144) (hN : N.val = 768 * (t.val / 8) + q.val) :
    (outsAt V c t.val t.isLt).2.2.1 (ix2 p' q) = ∑ m : Fin 6144, S p' m * Ideal.sign (w N m)
    ∧ (outsAt V c t.val t.isLt).2.2.2 (ix2 p' q) = ∑ m : Fin 6144, R p' m * w N m := by
  obtain ⟨h1, h2⟩ := acc_inv V c S R w hS hR hw fR fw t.val t.isLt p' q
  rw [h1, h2, h7]
  constructor
  · show ∑ j ∈ Finset.range 8, T0 S w (t.val / 8) j p' q = _
    unfold T0
    refine Eq.trans (sum_tiles (fun m => ext1 (S p') m * Ideal.sign (ext2 w (768 * (t.val / 8) + q.val) m))) ?_
    refine Finset.sum_congr rfl fun m _ => ?_
    rw [ext1_eq (S p') m _ rfl, ext2_eq w N m _ _ hN rfl]
  · show ∑ j ∈ Finset.range 8, T1 R w (t.val / 8) j p' q = _
    unfold T1
    refine Eq.trans (sum_tiles (fun m => ext1 (R p') m * ext2 w (768 * (t.val / 8) + q.val) m)) ?_
    refine Finset.sum_congr rfl fun m _ => ?_
    rw [ext1_eq (R p') m _ rfl, ext2_eq w N m _ _ hN rfl]

/-! ## The outputs at the points that write them back -/

theorem after8_val (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal))
    (b g be : Fin 6144 → EReal)
    (hb : ∀ n : Fin 6144, V c main_arg8 (ix1 n) = b n) (hg : ∀ n : Fin 6144, V c main_arg15 (ix1 n) = g n)
    (hbe : ∀ n : Fin 6144, V c main_arg16 (ix1 n) = be n)
    (u1 : Fin 512 → Fin 6144 → EReal) (hu1 : ∀ (p : Fin 512) (n : Fin 6144), V c main_arg1 (ix2 p n) = u1 p n)
    (t : Fin cfg2.N) (h7 : t.val % 8 = 7) (p : Fin 512) (q : Fin 768) (N : Fin 6144) (hN : N.val = 768 * (t.val / 8) + q.val) :
    ((dat V c).after 8 t : Vec Ideal S512x768 .f32) (ix2 p q) = layerBD u1 S w b g be p N := by
  obtain ⟨-, -, -, -, -, -, -, -, -, -, -, -, -, c0, c1⟩ := idx_facts t
  have hT : t.val < 64 := lt_of_lt_of_eq t.isLt (show cfg2.N = 64 from N_2)
  rw [after_8_last V c t h7]
  refine (fin8_at (grid2.coords t) ((hcond1 t).mpr h7) (t.val / 8) c0 (by omega) (iblk V c 3 t) (iblk V c 4 t) (iblk V c 5 t)
    (iblk V c 6 t) (outsAt V c t.val t.isLt).2.2.1 b g be (fun n => (blk3 V c t n).trans (hb n)) (fun n => (blk4 V c t n).trans (hg n))
    (fun n => (blk5 V c t n).trans (hbe n)) (fun p' => ∑ m : Fin 6144, S p' m * Ideal.sign (w N m)) (fun p' => u1 p' N) p q N hN
    (fun p' => (acc_last V c S R w hS hR hw fR fw t h7 p' q N hN).1)
    (fun p' => (blk6 V c t p' q N hN).trans (hu1 p' N))).trans ?_
  rfl

theorem after9_val (S R : Fin 512 → Fin 6144 → EReal) (w : Fin 6144 → Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (fR : ∀ p k, ∃ r : ℝ, R p k = (r : EReal)) (fw : ∀ n k, ∃ r : ℝ, w n k = (r : EReal))
    (b g be : Fin 6144 → EReal)
    (hb : ∀ n : Fin 6144, V c main_arg8 (ix1 n) = b n) (hg : ∀ n : Fin 6144, V c main_arg15 (ix1 n) = g n)
    (hbe : ∀ n : Fin 6144, V c main_arg16 (ix1 n) = be n)
    (u2 : Fin 512 → Fin 6144 → EReal) (hu2 : ∀ (p : Fin 512) (n : Fin 6144), V c main_arg2 (ix2 p n) = u2 p n)
    (t : Fin cfg2.N) (h7 : t.val % 8 = 7) (p : Fin 512) (q : Fin 768) (N : Fin 6144) (hN : N.val = 768 * (t.val / 8) + q.val) :
    ((dat V c).after 9 t : Vec Ideal S512x768 .f32) (ix2 p q) = layerRD u2 R w b g be p N := by
  obtain ⟨-, -, -, -, -, -, -, -, -, -, -, -, -, c0, c1⟩ := idx_facts t
  have hT : t.val < 64 := lt_of_lt_of_eq t.isLt (show cfg2.N = 64 from N_2)
  rw [after_9_last V c t h7]
  refine (fin9_at (grid2.coords t) ((hcond1 t).mpr h7) (t.val / 8) c0 (by omega) (iblk V c 3 t) (iblk V c 4 t) (iblk V c 5 t)
    (iblk V c 7 t) (outsAt V c t.val t.isLt).2.2.2 b g be (fun n => (blk3 V c t n).trans (hb n)) (fun n => (blk4 V c t n).trans (hg n))
    (fun n => (blk5 V c t n).trans (hbe n)) (fun p' => ∑ m : Fin 6144, R p' m * w N m) (fun p' => u2 p' N) p q N hN
    (fun p' => (acc_last V c S R w hS hR hw fR fw t h7 p' q N hN).2)
    (fun p' => (blk7 V c t p' q N hN).trans (hu2 p' N))).trans ?_
  rfl

end Cert.KernelIdeal.V2

end
-- ==== Proof.KI_V2_Values.lean ====
/- Region 2 at the ideal values: the two output arrays the region leaves are the third layer's two paths, as
   functions of the arrays the region finds. -/
import proofs.«130870_j71201967833887_2_alg».proof.Proof.KI_V2
import proofs.«130870_j71201967833887_2_alg».proof.Proof.KI_Cover

set_option maxRecDepth 16384

noncomputable section

namespace Cert.KernelIdeal.V2

open Cert.KernelIdeal Cert.KernelIdeal.Gen Cert.KernelIdeal.R2 Cert.LibBnSpec Cert.NetSpec
open Idealize.ShloMosaic Idealize.ShloMosaic.TcCoe Idealize.ShloMosaic.ValueIdx Idealize.SL.Sem
open Idealize.ShloMosaic.Pipeline (Dat)

theorem values (V : (c : Dev nD) → (b : Ref sig .tc) → Buf (Elt Ideal) ((c : Thread nD τ).loc b)) (c : Dev nD)
    (u1 u2 S R : Fin 512 → Fin 6144 → EReal) (w : Fin 6144 → Fin 6144 → EReal) (b g be : Fin 6144 → EReal)
    (hS : ∀ (p : Fin 512) (k : Fin 6144), V c main_v3_2 (ix2 p k) = S p k)
    (hR : ∀ (p : Fin 512) (k : Fin 6144), V c main_v3_1 (ix2 p k) = R p k)
    (hw : ∀ (n k : Fin 6144), V c main_arg7 (ix2 n k) = w n k)
    (hu1 : ∀ (p : Fin 512) (n : Fin 6144), V c main_arg1 (ix2 p n) = u1 p n)
    (hu2 : ∀ (p : Fin 512) (n : Fin 6144), V c main_arg2 (ix2 p n) = u2 p n)
    (hb : ∀ n : Fin 6144, V c main_arg8 (ix1 n) = b n) (hg : ∀ n : Fin 6144, V c main_arg15 (ix1 n) = g n)
    (hbe : ∀ n : Fin 6144, V c main_arg16 (ix1 n) = be n)
    (fR : ∀ p k, ∃ r : ℝ, R p k = (r : EReal)) (fw : ∀ n k, ∃ r : ℝ, w n k = (r : EReal)) :
    (∀ (p : Fin 512) (n : Fin 6144), (R2.dat V c).arrAt 8 cfg2.N (ix2 p n) = NetSpec.layerBD u1 S w b g be p n)
    ∧ (∀ (p : Fin 512) (n : Fin 6144), (R2.dat V c).arrAt 9 cfg2.N (ix2 p n) = NetSpec.layerRD u2 R w b g be p n) :=
  ⟨Cover.arr2_8 V c (NetSpec.layerBD u1 S w b g be) (fun t h7 p q =>
      after8_val V c S R w hS hR hw fR fw b g be hb hg hbe u1 hu1 t h7 p q _ rfl),
    Cover.arr2_9 V c (NetSpec.layerRD u2 R w b g be) (fun t h7 p q =>
      after9_val V c S R w hS hR hw fR fw b g be hb hg hbe u2 hu2 t h7 p q _ rfl)⟩

end Cert.KernelIdeal.V2

end
-- ==== Proof.KI_Host.lean ====
/-
  The host stretches of @main, read at the extended reals.

  Before the regions: the two zero paddings of the contraction axis from 784 to 896 columns, read at a coordinate
  (the operand inside the first 784 columns, zero beyond), and the argument arrays, which no host stretch writes.
  After the regions: the ten-column classifier as one function `tailOut` of the last activations, the weight matrix
  and the bias, read at a coordinate as a dense unit; and the row-wise log-softmax as one function `lsm` of the
  classifier's output.
-/
import proofs.«130870_j71201967833887_2_alg».proof.Proof.KI_Run
import proofs.«130870_j71201967833887_2_alg».proof.Proof.NetSpec
import Idealize.ShloMosaic.Lib.StableHlo.Run
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Host

open Cert.KernelIdeal Cert.KernelIdeal.Gen Cert.KernelIdeal.Run
open Idealize.ShloMosaic Idealize.ShloMosaic.TcCoe Idealize.ShloMosaic.StableHlo ValueIdx
open Idealize.SL.Sem

/-! ## The two functions after the regions -/

/-- The classifier: the last activations against the transposed ten-row weight matrix, plus the bias row. -/
def tailOut (y : FVec Ideal S512x6144 .f32) (w4 : FVec Ideal S10x6144 .f32) (b4 : FVec Ideal S10 .f32) :
    FVec Ideal S512x10 .f32 :=
  addf (F := Ideal)
    (Host.dotGeneral (F := Ideal) dot_S512x6144_S6144x10_S512x10_1_0_0_1_n_n (some .fp32) y
      (transpose S6144x10 [1, 0] w4 transposes_S10x6144_S6144x10_1_0))
    (broadcastInDim S512x10 ![0, 1] bcast_S1x10_S512x10_0_1 (broadcastInDim S1x10 ![1] bcast_S10_S1x10_1 b4))

/-- The row-wise log-softmax as the program spells it: subtract the row maximum (taken from `-∞`), then subtract the
    logarithm of the row's sum of exponentials. -/
def lsm (y : FVec Ideal S512x10 .f32) : FVec Ideal S512x10 .f32 :=
  let v5 : FVec Ideal S512x10 .f32 := subf (F := Ideal) y
    (broadcastInDim S512x10 ![0, 1] bcast_S512x1_S512x10_0_1 (broadcastInDim S512x1 ![0] bcast_S512_S512x1_0
      (maximumf (F := Ideal) (broadcastInDim S512 ![] bcast_S_S512 (constant (F := Ideal) S_ .f32 0xFF800000#32))
        (Host.reduce (FloatOps.maximumf (F := Ideal)) y (constant (F := Ideal) S_ .f32 0xFF800000#32) reducesTo_S512x10_S512_d1 h_S_))))
  subf (F := Ideal) v5
    (broadcastInDim S512x10 ![0, 1] bcast_S512x1_S512x10_0_1 (Host.log (F := Ideal) (broadcastInDim S512x1 ![0] bcast_S512_S512x1_0
      (Host.reduceAdd (F := Ideal) (Host.exp (F := Ideal) v5) (constant (F := Ideal) S_ .f32 0x00000000#32) reducesTo_S512x10_S512_d1 h_S_))))

variable (m : (ℓ : Loc nD τ sig) → Buf (Elt Ideal) ℓ)
variable (H0 : Half0 Ideal) (H1 : Half1 Ideal) (H2 : Half2 Ideal)

/-- The classifier's output buffer after its stretch is `tailOut` of the three buffers it reads. -/
theorem W8_v9 (c : Dev nD) :
    W8 H0 H1 H2 m c main_v9 = tailOut (W7 H0 H1 H2 m c main_v4_0) (W7 H0 H1 H2 m c main_arg9) (W7 H0 H1 H2 m c main_arg10) := by
  dsimp only [W8, hostOps3]
  generalize W7 H0 H1 H2 m c = W
  after_results
  rfl

/-- The program's result buffer after the last stretch is `lsm` of the classifier's output. -/
theorem W9_v10 (c : Dev nD) : W9 H0 H1 H2 m c main_v10 = lsm (W8 H0 H1 H2 m c main_v9) := by
  dsimp only [W9, hostOps3_1]
  generalize W8 H0 H1 H2 m c = W
  after_results
  rfl

/-! ## The classifier at a coordinate -/

private abbrev D4 := dot_S512x6144_S6144x10_S512x10_1_0_0_1_n_n

theorem D4_lhs0 (i : S512x10.Idx) (q : D4.contr.Idx) : (D4.lhsIdx i q 0).val = (i 0).val := by
  unfold DotDims.lhsIdx
  rw [dif_neg (show ¬(0 : Fin S512x6144.rank) ∈ D4.lhsBatch by decide), dif_pos (show (0 : Fin S512x6144.rank) ∈ D4.lhsNonContracting by decide)]
  rfl
theorem D4_lhs1 (i : S512x10.Idx) (q : D4.contr.Idx) : (D4.lhsIdx i q 1).val = (q ⟨0, by decide⟩).val :=
  D4.lhsIdx_val_of_single rfl i q
theorem D4_rhs0 (i : S512x10.Idx) (q : D4.contr.Idx) : (D4.rhsIdx i q 0).val = (q ⟨0, by decide⟩).val :=
  D4.rhsIdx_val_of_single rfl i q
theorem D4_rhs1 (i : S512x10.Idx) (q : D4.contr.Idx) : (D4.rhsIdx i q 1).val = (i 1).val := by
  unfold DotDims.rhsIdx
  rw [dif_neg (show ¬(1 : Fin S6144x10.rank) ∈ D4.rhsBatch by decide), dif_pos (show (1 : Fin S6144x10.rank) ∈ D4.rhsNonContracting by decide)]
  rfl

/-- The classifier at row `p`, column `j`: the dense unit of the row of activations, the `j`-th weight row and the
    `j`-th bias (the contraction runs over the transposed weight matrix's first axis). -/
theorem tailOut_apply (y : FVec Ideal S512x6144 .f32) (w4 : FVec Ideal S10x6144 .f32) (b4 : FVec Ideal S10 .f32)
    (p : Fin 512) (j : Fin 10) :
    tailOut y w4 b4 (ix2 p j) = NetSpec.dense (fun k : Fin 6144 => y (ix2 p k)) (fun k => w4 (ix2 j k)) (b4 (ix1 j)) := by
  unfold tailOut NetSpec.dense
  show (Host.dotGeneral (F := Ideal) D4 (some .fp32) y (transpose S6144x10 [1, 0] w4 transposes_S10x6144_S6144x10_1_0)) (ix2 p j)
      + (broadcastInDim S512x10 ![0, 1] bcast_S1x10_S512x10_0_1 (broadcastInDim S1x10 ![1] bcast_S10_S1x10_1 b4)) (ix2 p j) = _
  congr 1
  · simp only [Host.dotGeneral]
    rw [Ideal.dotGeneral_apply, ← Equiv.sum_comp (contrEquiv1 D4 6144 rfl rfl).symm]
    refine Finset.sum_congr rfl fun k _ => ?_
    have hk := contrEquiv1_symm_val D4 6144 rfl rfl k
    have el : D4.lhsIdx (ix2 p j) ((contrEquiv1 D4 6144 rfl rfl).symm k) = ix2 p k := funext fun a => Fin.ext (by
      match a with
      | ⟨0, _⟩ => exact D4_lhs0 _ _
      | ⟨1, _⟩ => exact (D4_lhs1 _ _).trans hk)
    have er : transpose S6144x10 [1, 0] w4 transposes_S10x6144_S6144x10_1_0 (D4.rhsIdx (ix2 p j) ((contrEquiv1 D4 6144 rfl rfl).symm k))
        = w4 (ix2 j k) :=
      transpose_apply _ w4 transposes_S10x6144_S6144x10_1_0 _ (ix2 j k) (fun b => by
        match b with
        | ⟨0, _⟩ => show k.val = _; exact ((D4_rhs0 (ix2 p j) _).trans hk).symm
        | ⟨1, _⟩ => show j.val = _; exact (D4_rhs1 (ix2 p j) _).symm)
    rw [el, er]
  · refine (broadcastInDim_apply _ bcast_S1x10_S512x10_0_1 _ (ix2 p j) (ix2 (0 : Fin 1) j) (fun a => by
      match a with
      | ⟨0, _⟩ => show 0 = if (1 : Nat) = 1 then 0 else p.val; rw [if_pos rfl]
      | ⟨1, _⟩ => show j.val = if (10 : Nat) = 1 then 0 else j.val; rw [if_neg (by decide)])).trans ?_
    exact broadcastInDim_apply _ bcast_S10_S1x10_1 b4 (ix2 (0 : Fin 1) j) (ix1 j) (fun a => by
      match a with
      | ⟨0, _⟩ => show j.val = if (10 : Nat) = 1 then 0 else j.val; rw [if_neg (by decide)])

/-! ## Before the regions -/

/-- The integer zero converted to a float is zero. -/
theorem sitofp_zero : (sitofp (F := Ideal) .f32 (constantI S_ 32 0#32)) (Shape.Idx.first h_S_) = (0 : EReal) := by
  show (((0#32 : BitVec 32).toInt : ℝ) : EReal) = 0
  simp

/-- The padded activations as the second stretch leaves them. -/
theorem W2_v0 (c : Dev nD) : (W2 m c main_v0 : S512x896.Idx → EReal)
    = pad S512x896 ![0, 0] ![0, 112] ![0, 0] (m ((c : Thread nD τ).loc main_arg0) : S512x784.Idx → EReal)
        (sitofp (F := Ideal) .f32 (constantI S_ 32 0#32)) pads_S512x784_S512x896_000_01120 h_S_ := by
  dsimp only [W2, W1, W0, hostOps0_1, hostOps0]
  after_results
  rfl

/-- The last two stretches before the regions leave the padded activations alone. -/
theorem W4_v0 (c : Dev nD) : W4 m c main_v0 = W2 m c main_v0 :=
  (after_of_writes_sub hostOps0_3 _ hostOps0_3_writes (by decide)).trans
    (after_of_writes_sub hostOps0_2 _ hostOps0_2_writes (by decide))

/-- The first three stretches leave the first layer's weights as launched. -/
theorem W2_arg3 (c : Dev nD) : W2 m c main_arg3 = m ((c : Thread nD τ).loc main_arg3) :=
  (after_of_writes_sub hostOps0_1 _ hostOps0_1_writes (by decide)).trans
    ((after_of_writes_sub hostOps0 _ hostOps0_writes (by decide)).trans rfl)

/-- The padded weights as the fourth stretch leaves them. -/
theorem W4_v1 (c : Dev nD) : (W4 m c main_v1 : S6144x896.Idx → EReal)
    = pad S6144x896 ![0, 0] ![0, 112] ![0, 0] (m ((c : Thread nD τ).loc main_arg3) : S6144x784.Idx → EReal)
        (sitofp (F := Ideal) .f32 (constantI S_ 32 0#32)) pads_S6144x784_S6144x896_000_01120 h_S_ := by
  rw [← W2_arg3 m c]
  dsimp only [W4, W3, hostOps0_3, hostOps0_2]
  generalize W2 m c = W
  after_results
  rfl

/-- The activations padded to 896 columns: the argument inside the first 784 columns, zero beyond. -/
theorem padX (c : Dev nD) (p : Fin 512) (k : Fin 896) :
    ((W4 m c main_v0 : S512x896.Idx → EReal) (ix2 p k) : EReal)
      = if h : k.val < 784 then ((m ((c : Thread nD τ).loc main_arg0) : S512x784.Idx → EReal) (ix2 p ⟨k.val, h⟩) : EReal) else (0 : EReal) := by
  rw [W4_v0, W2_v0]
  by_cases h : k.val < 784
  · rw [dif_pos h]
    exact pad_apply_of_inside _ _ _ _ _ pads_S512x784_S512x896_000_01120 h_S_ _ (ix2 p ⟨k.val, h⟩) (by
      intro a
      match a with
      | ⟨0, _⟩ => show p.val = 0 + p.val * (0 + 1); omega
      | ⟨1, _⟩ => show k.val = 0 + k.val * (0 + 1); omega)
  · rw [dif_neg h]
    refine (pad_apply_of_not_inside _ _ _ _ _ pads_S512x784_S512x896_000_01120 h_S_ _ (1 : Fin 2) (by
      intro hin
      have e : k.val / 1 < 784 := hin.2.2
      rw [Nat.div_one] at e
      exact h e)).trans sitofp_zero

/-- The first layer's weights padded to 896 columns: the argument inside the first 784 columns, zero beyond. -/
theorem padW (c : Dev nD) (n : Fin 6144) (k : Fin 896) :
    ((W4 m c main_v1 : S6144x896.Idx → EReal) (ix2 n k) : EReal)
      = if h : k.val < 784 then ((m ((c : Thread nD τ).loc main_arg3) : S6144x784.Idx → EReal) (ix2 n ⟨k.val, h⟩) : EReal) else (0 : EReal) := by
  rw [W4_v1]
  by_cases h : k.val < 784
  · rw [dif_pos h]
    exact pad_apply_of_inside _ _ _ _ _ pads_S6144x784_S6144x896_000_01120 h_S_ _ (ix2 n ⟨k.val, h⟩) (by
      intro a
      match a with
      | ⟨0, _⟩ => show n.val = 0 + n.val * (0 + 1); omega
      | ⟨1, _⟩ => show k.val = 0 + k.val * (0 + 1); omega)
  · rw [dif_neg h]
    refine (pad_apply_of_not_inside _ _ _ _ _ pads_S6144x784_S6144x896_000_01120 h_S_ _ (1 : Fin 2) (by
      intro hin
      have e : k.val / 1 < 784 := hin.2.2
      rw [Nat.div_one] at e
      exact h e)).trans sitofp_zero

/-- No stretch before the regions writes an argument array. -/
theorem W4_launch (c : Dev nD) (b : Ref sig .tc)
    (h0 : b ∉ hostOps0_W) (h1 : b ∉ hostOps0_1_W) (h2 : b ∉ hostOps0_2_W) (h3 : b ∉ hostOps0_3_W) :
    W4 m c (Proc.devRef .tc b) = m ((c : Thread nD τ).loc b) :=
  (after_of_writes_sub hostOps0_3 _ hostOps0_3_writes h3).trans <|
  (after_of_writes_sub hostOps0_2 _ hostOps0_2_writes h2).trans <|
  (after_of_writes_sub hostOps0_1 _ hostOps0_1_writes h1).trans <|
  (after_of_writes_sub hostOps0 _ hostOps0_writes h0).trans rfl

theorem W4_arg4 (c : Dev nD) : W4 m c main_arg4 = m ((c : Thread nD τ).loc main_arg4) :=
  W4_launch m c main_arg4 (by decide) (by decide) (by decide) (by decide)
theorem W4_arg11 (c : Dev nD) : W4 m c main_arg11 = m ((c : Thread nD τ).loc main_arg11) :=
  W4_launch m c main_arg11 (by decide) (by decide) (by decide) (by decide)
theorem W4_arg12 (c : Dev nD) : W4 m c main_arg12 = m ((c : Thread nD τ).loc main_arg12) :=
  W4_launch m c main_arg12 (by decide) (by decide) (by decide) (by decide)

end Cert.KernelIdeal.Host

end
-- ==== Proof.RefSpec0.lean ====
/-
  The two array functions every layer of the network is built from, and what each is at a coordinate.

  `bn y g be`: for a 512 x 6144 array `y` and two 6144-vectors, normalise each column of `y` by its mean and (biased)
  variance over the 512 rows, scale by `g`, shift by `be`, clip to [-1, 1].  At (p, n) it is
  `bnclip (g n) (be n) (column n of y) p`.
  `dns a w b`: for a 512 x 6144 array `a`, a 6144 x 6144 array `w` and a 6144-vector `b`, the product of `a` with the
  transpose of `w`, plus `b` along the rows.  At (p, n) it is `dense (row p of a) (row n of w) (b n)`.
  `drp u y`: keep `y / (1/2)` where the mask `u` is at least 1/2, else zero.  At an index it is `drop (u i) (y i)`.
-/
import proofs.«130870_j71201967833887_2_alg».proof.Proof.RefRead
import proofs.«130870_j71201967833887_2_alg».proof.Proof.NetSpec

noncomputable section

namespace Cert.ReferenceIdeal.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.NetSpec Cert.LibBnSpec

section generic
variable {F : FTy → Type} [FloatOps F]

/-- The column means: the column sums (started from the zero word) over 512. -/
def bnMean (y : (⟨S512x6144, .f32⟩ : BufTy).Contents (Elt F)) : (⟨S6144, .f32⟩ : BufTy).Contents (Elt F) :=
  Host.divf (Host.reduceAdd y (val_main_cst (F := F)) reducesTo_S512x6144_S6144_d0 h_S_) (val_main_v14 (F := F))
/-- The deviations from the column means. -/
def bnDev (y : (⟨S512x6144, .f32⟩ : BufTy).Contents (Elt F)) : (⟨S512x6144, .f32⟩ : BufTy).Contents (Elt F) :=
  subf y (val_main_v6 (F := F) (bnMean y))
/-- The column variances: the column means of the squared deviations. -/
def bnVar (y : (⟨S512x6144, .f32⟩ : BufTy).Contents (Elt F)) : (⟨S6144, .f32⟩ : BufTy).Contents (Elt F) :=
  Host.divf (Host.reduceAdd (mulf (bnDev y) (bnDev y)) (val_main_cst (F := F)) reducesTo_S512x6144_S6144_d0 h_S_) (val_main_v14 (F := F))
/-- Normalise, scale, shift, clip. -/
def bn (y : (⟨S512x6144, .f32⟩ : BufTy).Contents (Elt F)) (g be : (⟨S6144, .f32⟩ : BufTy).Contents (Elt F)) : (⟨S512x6144, .f32⟩ : BufTy).Contents (Elt F) :=
  minimumf (val_main_call0_v4 (F := F)) (maximumf (val_main_call0_v1 (F := F))
    (addf (Host.divf (mulf (val_main_v6 (F := F) g) (bnDev y))
      (val_main_v6 (F := F) (Host.sqrt (addf (bnVar y) (val_main_v29 (F := F)))))) (val_main_v6 (F := F) be)))

/-- A 6144-vector spread along the rows reads the vector at the column. -/
theorem col_apply (y : (⟨S6144, .f32⟩ : BufTy).Contents (Elt F)) (p : Fin 512) (n : Fin 6144) : val_main_v6 (F := F) y (ix2 p n) = y (ix1 n) := by
  rw [val_main_v6_apply, val_main_v5_apply]
  exact congrArg y (funext fun a => Fin.ext (by match a with | ⟨0, _⟩ => rfl))

/-- A dense layer with 6144 inputs: the product with the transposed weights, plus the bias along the rows. -/
def dns (a : (⟨S512x6144, .f32⟩ : BufTy).Contents (Elt F)) (w : (⟨S6144x6144, .f32⟩ : BufTy).Contents (Elt F)) (b : (⟨S6144, .f32⟩ : BufTy).Contents (Elt F)) : (⟨S512x6144, .f32⟩ : BufTy).Contents (Elt F) :=
  addf (Host.dotGeneral dot_S512x6144_S6144x6144_S512x6144_1_0_0_1_n_n none a (val_main_v76 (F := F) w)) (val_main_v6 (F := F) b)
/-- The straight-through sign of a 512 x 6144 array: `y + (sign y - y)`. -/
def ste (y : (⟨S512x6144, .f32⟩ : BufTy).Contents (Elt F)) : (⟨S512x6144, .f32⟩ : BufTy).Contents (Elt F) := addf y (subf (Host.sign y) y)
/-- Dropout by the mask `u`: `y / (1/2)` where `u ≥ 1/2`, else zero. -/
def drp (u y : (⟨S512x6144, .f32⟩ : BufTy).Contents (Elt F)) : (⟨S512x6144, .f32⟩ : BufTy).Contents (Elt F) :=
  select (val_main_v150 (F := F) u) (Host.divf y (val_main_v151 (F := F))) (val_main_call4_v1 (F := F))

end generic

/-- A column sum started from the zero word. -/
theorem red_apply (y : (⟨S512x6144, .f32⟩ : BufTy).Contents (Elt Ideal)) (n : Fin 6144) :
    Host.reduceAdd (F := Ideal) (φ := .f32) y (val_main_cst (F := Ideal)) reducesTo_S512x6144_S6144_d0 h_S_ (ix1 n) = z32 + ∑ p : Fin 512, y (ix2 p n) := by
  simp only [Host.reduceAdd, Ideal.hostReduceAdd_def]
  rw [Ideal.hostReduceAdd_single reducesTo_S512x6144_S6144_d0 (by decide)]
  refine congrArg (_ + ·) (Finset.sum_congr rfl fun k _ => ?_)
  exact congrArg y (funext fun a => Fin.ext (by match a with | ⟨0, _⟩ => rfl | ⟨1, _⟩ => rfl))

theorem bnMean_apply (y : (⟨S512x6144, .f32⟩ : BufTy).Contents (Elt Ideal)) (n : Fin 6144) :
    bnMean (F := Ideal) y (ix1 n) = mean (fun p' => y (ix2 p' n)) := by
  show Ideal.div (Host.reduceAdd (F := Ideal) (φ := .f32) y (val_main_cst (F := Ideal)) reducesTo_S512x6144_S6144_d0 h_S_ (ix1 n)) (val_main_v14 (F := Ideal) (ix1 n)) = _
  rw [red_apply, val_main_v14_apply]; rfl

theorem bnDev_apply (y : (⟨S512x6144, .f32⟩ : BufTy).Contents (Elt Ideal)) (p : Fin 512) (n : Fin 6144) :
    bnDev (F := Ideal) y (ix2 p n) = y (ix2 p n) - mean (fun p' => y (ix2 p' n)) := by
  show y (ix2 p n) - val_main_v6 (F := Ideal) (bnMean y) (ix2 p n) = _
  rw [col_apply, bnMean_apply]

theorem bnVar_apply (y : (⟨S512x6144, .f32⟩ : BufTy).Contents (Elt Ideal)) (n : Fin 6144) :
    bnVar (F := Ideal) y (ix1 n) = var (fun p' => y (ix2 p' n)) := by
  show Ideal.div (Host.reduceAdd (F := Ideal) (φ := .f32) (mulf (bnDev y) (bnDev y)) (val_main_cst (F := Ideal)) reducesTo_S512x6144_S6144_d0 h_S_ (ix1 n)) (val_main_v14 (F := Ideal) (ix1 n)) = _
  rw [red_apply, val_main_v14_apply]
  simp only [mulf_apply, bnDev_apply]
  rfl

theorem bn_apply (y : (⟨S512x6144, .f32⟩ : BufTy).Contents (Elt Ideal)) (g be : (⟨S6144, .f32⟩ : BufTy).Contents (Elt Ideal)) (p : Fin 512) (n : Fin 6144) :
    bn (F := Ideal) y g be (ix2 p n) = bnclip (g (ix1 n)) (be (ix1 n)) (fun p' => y (ix2 p' n)) p := by
  show min (val_main_call0_v4 (F := Ideal) (ix2 p n)) (max (val_main_call0_v1 (F := Ideal) (ix2 p n))
    (Ideal.div (val_main_v6 (F := Ideal) g (ix2 p n) * bnDev y (ix2 p n))
      (val_main_v6 (F := Ideal) (Host.sqrt (addf (bnVar y) (val_main_v29 (F := Ideal)))) (ix2 p n)) + val_main_v6 (F := Ideal) be (ix2 p n))) = _
  rw [col_apply, col_apply, col_apply, bnDev_apply, val_main_call0_v4_apply, val_main_call0_v1_apply]
  show min one (max mone (Ideal.div (g (ix1 n) * (y (ix2 p n) - mean fun p' => y (ix2 p' n)))
    (Ideal.sqrt (bnVar y (ix1 n) + val_main_v29 (F := Ideal) (ix1 n))) + be (ix1 n))) = _
  rw [bnVar_apply, val_main_v29_apply]; rfl

/-- The seventeen argument arrays, read at coordinates. -/
def argsOf (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) : NetSpec.Args :=
  { x := fun p k => x0 (ix2 p k), u1 := fun p n => x1 (ix2 p n), u2 := fun p n => x2 (ix2 p n),
    w1 := fun n k => x3 (ix2 n k), b1 := fun n => x4 (ix1 n), w2 := fun n k => x5 (ix2 n k), b2 := fun n => x6 (ix1 n),
    w3 := fun n k => x7 (ix2 n k), b3 := fun n => x8 (ix1 n), w4 := fun j k => x9 (ix2 j k), b4 := fun j => x10 (ix1 j),
    g1 := fun n => x11 (ix1 n), be1 := fun n => x12 (ix1 n), g2 := fun n => x13 (ix1 n), be2 := fun n => x14 (ix1 n),
    g3 := fun n => x15 (ix1 n), be3 := fun n => x16 (ix1 n) }

/-- The first layer's dense unit (784 inputs) at a coordinate: the product with the transposed weights plus the bias. -/
theorem dense784_apply (a : (⟨S512x784, .f32⟩ : BufTy).Contents (Elt Ideal)) (w : (⟨S6144x784, .f32⟩ : BufTy).Contents (Elt Ideal)) (b : (⟨S6144, .f32⟩ : BufTy).Contents (Elt Ideal)) (p : Fin 512) (n : Fin 6144) :
    val_main_v12 (F := Ideal) a w b (ix2 p n) = dense (fun k => a (ix2 p k)) (fun k => w (ix2 n k)) (b (ix1 n)) := by
  rw [val_main_v12_apply, val_main_v9_apply, val_main_v11_apply, val_main_v10_apply, Ideal.addf_def]
  unfold dense
  congr 1
  · refine Finset.sum_congr rfl fun k _ => ?_
    rw [val_main_v8_apply]
    congr 1
    · exact congrArg a (funext fun d => Fin.ext (by match d with | ⟨0, _⟩ => rfl | ⟨1, _⟩ => rfl))
    · exact congrArg w (funext fun d => Fin.ext (by match d with | ⟨0, _⟩ => rfl | ⟨1, _⟩ => rfl))
  · exact congrArg b (funext fun d => Fin.ext (by match d with | ⟨0, _⟩ => rfl))

/-- The 512 x 6144 by 6144 x 6144 product at an index: the sum over the contracted coordinate. -/
theorem dot6144_apply (y0 : (⟨S512x6144, .f32⟩ : BufTy).Contents (Elt Ideal)) (y1 : (⟨S6144x6144, .f32⟩ : BufTy).Contents (Elt Ideal)) (i : S512x6144.Idx) :
    Host.dotGeneral (F := Ideal) (φ₁ := .f32) (φ₂ := .f32) dot_S512x6144_S6144x6144_S512x6144_1_0_0_1_n_n none y0 y1 i = ∑ k : Fin 6144, y0 (lidx_main_v77 i k) * y1 (ridx_main_v77 i k) := by
  simp only [Host.dotGeneral]
  rw [Ideal.dotGeneral_apply, ← Equiv.sum_comp (ValueIdx.contrEquiv1 dot_S512x6144_S6144x6144_S512x6144_1_0_0_1_n_n 6144 rfl rfl).symm]
  refine Finset.sum_congr rfl fun k _ => ?_
  have hk := ValueIdx.contrEquiv1_symm_val dot_S512x6144_S6144x6144_S512x6144_1_0_0_1_n_n 6144 rfl rfl k
  have el : dot_S512x6144_S6144x6144_S512x6144_1_0_0_1_n_n.lhsIdx i ((ValueIdx.contrEquiv1 dot_S512x6144_S6144x6144_S512x6144_1_0_0_1_n_n 6144 rfl rfl).symm k) = lidx_main_v77 i k := funext fun a => Fin.ext (by
    match a with
    | ⟨0, _⟩ => exact lhs_main_v77_0 _ _
    | ⟨1, _⟩ => exact (lhs_main_v77_1 _ _).trans hk)
  have er : dot_S512x6144_S6144x6144_S512x6144_1_0_0_1_n_n.rhsIdx i ((ValueIdx.contrEquiv1 dot_S512x6144_S6144x6144_S512x6144_1_0_0_1_n_n 6144 rfl rfl).symm k) = ridx_main_v77 i k := funext fun a => Fin.ext (by
    match a with
    | ⟨0, _⟩ => exact (rhs_main_v77_0 _ _).trans hk
    | ⟨1, _⟩ => exact rhs_main_v77_1 _ _)
  rw [el, er]

theorem dns_apply (a : (⟨S512x6144, .f32⟩ : BufTy).Contents (Elt Ideal)) (w : (⟨S6144x6144, .f32⟩ : BufTy).Contents (Elt Ideal)) (b : (⟨S6144, .f32⟩ : BufTy).Contents (Elt Ideal)) (p : Fin 512) (n : Fin 6144) :
    dns (F := Ideal) a w b (ix2 p n) = dense (fun k => a (ix2 p k)) (fun k => w (ix2 n k)) (b (ix1 n)) := by
  show Host.dotGeneral (F := Ideal) (φ₁ := .f32) (φ₂ := .f32) dot_S512x6144_S6144x6144_S512x6144_1_0_0_1_n_n none a (val_main_v76 (F := Ideal) w) (ix2 p n) + val_main_v6 (F := Ideal) b (ix2 p n) = _
  rw [dot6144_apply, col_apply]
  unfold dense
  congr 1
  refine Finset.sum_congr rfl fun k _ => ?_
  rw [val_main_v76_apply]
  congr 1
  · exact congrArg a (funext fun d => Fin.ext (by match d with | ⟨0, _⟩ => rfl | ⟨1, _⟩ => rfl))
  · exact congrArg w (funext fun d => Fin.ext (by match d with | ⟨0, _⟩ => rfl | ⟨1, _⟩ => rfl))

/-- On a real the straight-through sign is the sign. -/
theorem ste_apply (y : (⟨S512x6144, .f32⟩ : BufTy).Contents (Elt Ideal)) (i : S512x6144.Idx) (h : ∃ r : ℝ, y i = r) :
    ste (F := Ideal) y i = Ideal.sign (y i) := sign_ste _ h

theorem drp_apply (u y : (⟨S512x6144, .f32⟩ : BufTy).Contents (Elt Ideal)) (i : S512x6144.Idx) :
    drp (F := Ideal) u y i = drop (u i) (y i) := by
  show Scalar.select (Ideal.cmp .oge (u i) (val_main_v149 (F := Ideal) i)) (Ideal.div (y i) (val_main_v151 (F := Ideal) i)) (val_main_call4_v1 (F := Ideal) i) = _
  rw [val_main_v149_apply, val_main_v151_apply, val_main_call4_v1_apply]
  show Scalar.select (Ideal.cmp .oge (u i) half) (Ideal.div (y i) half) z32 = _
  unfold drop
  by_cases h : half ≤ u i
  · have hc : Ideal.cmp .oge (u i) half = 1#1 := by simp [Ideal.cmp, h]
    rw [if_pos h, hc, select_one]
  · have hc : Ideal.cmp .oge (u i) half = 0#1 := by simp [Ideal.cmp, h]
    rw [if_neg h, hc, select_zero]

end Cert.ReferenceIdeal.RefSpec

end
-- ==== Proof.RefSpec1.lean ====
/-
  Layer 1: the reference's two first-layer results are the specification's, coordinate by coordinate.
-/
import proofs.«130870_j71201967833887_2_alg».proof.Proof.RefRead
import proofs.«130870_j71201967833887_2_alg».proof.Proof.NetSpec
import proofs.«130870_j71201967833887_2_alg».proof.Proof.RefSpec0

noncomputable section

namespace Cert.ReferenceIdeal.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.NetSpec Cert.LibBnSpec

section generic
variable {F : FTy → Type} [FloatOps F]

/-- The real path's first layer is the normalisation of the dense unit on the weights as they are. -/
theorem v64_eq (x0 : (⟨S512x784, .f32⟩ : BufTy).Contents (Elt F)) (x3 : (⟨S6144x784, .f32⟩ : BufTy).Contents (Elt F)) (x4 : (⟨S6144, .f32⟩ : BufTy).Contents (Elt F)) (x11 : (⟨S6144, .f32⟩ : BufTy).Contents (Elt F)) (x12 : (⟨S6144, .f32⟩ : BufTy).Contents (Elt F)) :
    val_main_v64 (F := F) x0 x3 x4 x11 x12 = bn (val_main_v12 (F := F) x0 x3 x4) x11 x12 := rfl

/-- The binary path's is the normalisation of the dense unit on the straight-through signs of the weights. -/
theorem v38_eq (x0 : (⟨S512x784, .f32⟩ : BufTy).Contents (Elt F)) (x3 : (⟨S6144x784, .f32⟩ : BufTy).Contents (Elt F)) (x4 : (⟨S6144, .f32⟩ : BufTy).Contents (Elt F)) (x11 : (⟨S6144, .f32⟩ : BufTy).Contents (Elt F)) (x12 : (⟨S6144, .f32⟩ : BufTy).Contents (Elt F)) :
    val_main_v38 (F := F) x0 x3 x4 x11 x12 = bn (val_main_v12 (F := F) x0 (val_main_v2 (F := F) x3) x4) x11 x12 := rfl

end generic

theorem v64 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144) :
    val_main_v64 (F := Ideal) x0 x3 x4 x11 x12 (ix2 p n) = R1 (argsOf x0 x1 x2 x3 x4 x5 x6 x7 x8 x9 x10 x11 x12 x13 x14 x15 x16) p n := by
  rw [v64_eq, bn_apply]
  simp only [dense784_apply]
  rfl

/-- The straight-through sign of a real weight is its sign. -/
theorem ste784_apply (x3 : (⟨S6144x784, .f32⟩ : BufTy).Contents (Elt Ideal)) (h3 : ∀ i, ∃ r : ℝ, x3 i = r) (i : S6144x784.Idx) :
    val_main_v2 (F := Ideal) x3 i = Ideal.sign (x3 i) := by
  rw [val_main_v2_apply, val_main_v1_apply, val_main_v0_apply]
  exact sign_ste _ (h3 i)

theorem v38 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144) (h3 : ∀ i, ∃ r : ℝ, x3 i = r) :
    val_main_v38 (F := Ideal) x0 x3 x4 x11 x12 (ix2 p n) = B1 (argsOf x0 x1 x2 x3 x4 x5 x6 x7 x8 x9 x10 x11 x12 x13 x14 x15 x16) p n := by
  rw [v38_eq, bn_apply]
  simp only [dense784_apply, ste784_apply x3 h3]
  rfl

end Cert.ReferenceIdeal.RefSpec

end
-- ==== Proof.RefSpec2.lean ====
/-
  Layer 2: the reference's two second-layer results are the specification's, coordinate by coordinate.
-/
import proofs.«130870_j71201967833887_2_alg».proof.Proof.RefRead
import proofs.«130870_j71201967833887_2_alg».proof.Proof.NetSpec
import proofs.«130870_j71201967833887_2_alg».proof.Proof.RefSpec1

noncomputable section

namespace Cert.ReferenceIdeal.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.NetSpec Cert.LibBnSpec

section generic
variable {F : FTy → Type} [FloatOps F]

/-- The binary path enters the layer through the straight-through sign of its first-layer result, -/
theorem v67_eq (x0 : (⟨S512x784, .f32⟩ : BufTy).Contents (Elt F)) (x3 : (⟨S6144x784, .f32⟩ : BufTy).Contents (Elt F)) (x4 : (⟨S6144, .f32⟩ : BufTy).Contents (Elt F)) (x11 : (⟨S6144, .f32⟩ : BufTy).Contents (Elt F)) (x12 : (⟨S6144, .f32⟩ : BufTy).Contents (Elt F)) :
    val_main_v67 (F := F) x0 x3 x4 x11 x12 = ste (val_main_v38 (F := F) x0 x3 x4 x11 x12) := rfl
/-- and its dense unit uses the straight-through signs of the weights; -/
theorem v75_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) :
    val_main_v75 (F := F) x0 x3 x4 x5 x6 x11 x12 = dns (val_main_v67 (F := F) x0 x3 x4 x11 x12) (val_main_v70 (F := F) x5) x6 := rfl
/-- the real path's dense unit uses its first-layer result and the weights as they are. -/
theorem v80_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) :
    val_main_v80 (F := F) x0 x3 x4 x5 x6 x11 x12 = dns (val_main_v64 (F := F) x0 x3 x4 x11 x12) x5 x6 := rfl
/-- Both are then normalised with the second layer's scale and shift. -/
theorem v106_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v106 (F := F) x0 x3 x4 x5 x6 x11 x12 x13 x14 = bn (val_main_v75 (F := F) x0 x3 x4 x5 x6 x11 x12) x13 x14 := rfl
theorem v132_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v132 (F := F) x0 x3 x4 x5 x6 x11 x12 x13 x14 = bn (val_main_v80 (F := F) x0 x3 x4 x5 x6 x11 x12) x13 x14 := rfl

end generic

/-- The straight-through sign of a real 6144 x 6144 weight is its sign. -/
theorem ste6144_apply (x5 : (⟨S6144x6144, .f32⟩ : BufTy).Contents (Elt Ideal)) (h5 : ∀ i, ∃ r : ℝ, x5 i = r) (i : S6144x6144.Idx) :
    val_main_v70 (F := Ideal) x5 i = Ideal.sign (x5 i) := by
  rw [val_main_v70_apply, val_main_v69_apply, val_main_v68_apply]
  exact sign_ste _ (h5 i)

theorem v132 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144) :
    val_main_v132 (F := Ideal) x0 x3 x4 x5 x6 x11 x12 x13 x14 (ix2 p n) = R2 (argsOf x0 x1 x2 x3 x4 x5 x6 x7 x8 x9 x10 x11 x12 x13 x14 x15 x16) p n := by
  rw [v132_eq, bn_apply]
  simp only [v80_eq, dns_apply, v64 x0 x1 x2 x3 x4 x5 x6 x7 x8 x9 x10 x11 x12 x13 x14 x15 x16]
  rfl

theorem v106 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144)
    (h3 : ∀ i, ∃ r : ℝ, x3 i = r) (h5 : ∀ i, ∃ r : ℝ, x5 i = r) :
    val_main_v106 (F := Ideal) x0 x3 x4 x5 x6 x11 x12 x13 x14 (ix2 p n) = B2 (argsOf x0 x1 x2 x3 x4 x5 x6 x7 x8 x9 x10 x11 x12 x13 x14 x15 x16) p n := by
  have hs : ∀ (p' : Fin 512) (k : Fin 6144), ste (val_main_v38 (F := Ideal) x0 x3 x4 x11 x12) (ix2 p' k)
      = Ideal.sign (B1 (argsOf x0 x1 x2 x3 x4 x5 x6 x7 x8 x9 x10 x11 x12 x13 x14 x15 x16) p' k) := fun p' k => by
    rw [ste_apply _ _ (by rw [v38 x0 x1 x2 x3 x4 x5 x6 x7 x8 x9 x10 x11 x12 x13 x14 x15 x16 p' k h3]; exact layerB_real _ _ _ _ _ _ _), v38 x0 x1 x2 x3 x4 x5 x6 x7 x8 x9 x10 x11 x12 x13 x14 x15 x16 p' k h3]
  rw [v106_eq, bn_apply]
  simp only [v75_eq, dns_apply, v67_eq, hs, ste6144_apply x5 h5]
  rfl

end Cert.ReferenceIdeal.RefSpec

end
-- ==== Proof.RefSpec3.lean ====
/-
  Layer 3 (with the dropout masks between the dense unit and the normalisation): the reference's two third-layer
  results are the specification's, coordinate by coordinate.
-/
import proofs.«130870_j71201967833887_2_alg».proof.Proof.RefRead
import proofs.«130870_j71201967833887_2_alg».proof.Proof.NetSpec
import proofs.«130870_j71201967833887_2_alg».proof.Proof.RefSpec2

noncomputable section

namespace Cert.ReferenceIdeal.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.NetSpec Cert.LibBnSpec

section generic
variable {F : FTy → Type} [FloatOps F]

/-- The binary path enters through the straight-through sign of its second-layer result and of the weights, -/
theorem v135_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v135 (F := F) x0 x3 x4 x5 x6 x11 x12 x13 x14 = ste (val_main_v106 (F := F) x0 x3 x4 x5 x6 x11 x12 x13 x14) := rfl
theorem v138_eq (x7 : (⟨S6144x6144, .f32⟩ : BufTy).Contents (Elt F)) : val_main_v138 (F := F) x7 = val_main_v70 (F := F) x7 := rfl
theorem v143_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v143 (F := F) x0 x3 x4 x5 x6 x7 x8 x11 x12 x13 x14 = dns (val_main_v135 (F := F) x0 x3 x4 x5 x6 x11 x12 x13 x14) (val_main_v138 (F := F) x7) x8 := rfl
/-- the real path through its second-layer result and the weights as they are. -/
theorem v148_eq (x0 : (⟨S512x784, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v148 (F := F) x0 x3 x4 x5 x6 x7 x8 x11 x12 x13 x14 = dns (val_main_v132 (F := F) x0 x3 x4 x5 x6 x11 x12 x13 x14) x7 x8 := rfl
/-- Each passes its dropout mask, -/
theorem v153_eq (x0 : (⟨S512x784, .f32⟩ : BufTy).Contents (Elt F)) (x1 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v153 (F := F) x0 x1 x3 x4 x5 x6 x7 x8 x11 x12 x13 x14 = drp x1 (val_main_v143 (F := F) x0 x3 x4 x5 x6 x7 x8 x11 x12 x13 x14) := rfl
theorem v184_eq (x0 : (⟨S512x784, .f32⟩ : BufTy).Contents (Elt F)) (x2 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) :
    val_main_v184 (F := F) x0 x2 x3 x4 x5 x6 x7 x8 x11 x12 x13 x14 = drp x2 (val_main_v148 (F := F) x0 x3 x4 x5 x6 x7 x8 x11 x12 x13 x14) := rfl
/-- and is normalised with the third layer's scale and shift. -/
theorem v179_eq (x0 : (⟨S512x784, .f32⟩ : BufTy).Contents (Elt F)) (x1 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F)) :
    val_main_v179 (F := F) x0 x1 x3 x4 x5 x6 x7 x8 x11 x12 x13 x14 x15 x16 = bn (val_main_v153 (F := F) x0 x1 x3 x4 x5 x6 x7 x8 x11 x12 x13 x14) x15 x16 := rfl
theorem v210_eq (x0 : (⟨S512x784, .f32⟩ : BufTy).Contents (Elt F)) (x2 : (⟨S512x6144, .f32⟩ : BufTy).Contents (Elt F)) (x3 : (⟨S6144x784, .f32⟩ : BufTy).Contents (Elt F)) (x4 : (⟨S6144, .f32⟩ : BufTy).Contents (Elt F)) (x5 : (⟨S6144x6144, .f32⟩ : BufTy).Contents (Elt F)) (x6 : (⟨S6144, .f32⟩ : BufTy).Contents (Elt F)) (x7 : (⟨S6144x6144, .f32⟩ : BufTy).Contents (Elt F)) (x8 : (⟨S6144, .f32⟩ : BufTy).Contents (Elt F)) (x11 : (⟨S6144, .f32⟩ : BufTy).Contents (Elt F)) (x12 : (⟨S6144, .f32⟩ : BufTy).Contents (Elt F)) (x13 : (⟨S6144, .f32⟩ : BufTy).Contents (Elt F)) (x14 : (⟨S6144, .f32⟩ : BufTy).Contents (Elt F)) (x15 : (⟨S6144, .f32⟩ : BufTy).Contents (Elt F)) (x16 : (⟨S6144, .f32⟩ : BufTy).Contents (Elt F)) :
    val_main_v210 (F := F) x0 x2 x3 x4 x5 x6 x7 x8 x11 x12 x13 x14 x15 x16 = bn (val_main_v184 (F := F) x0 x2 x3 x4 x5 x6 x7 x8 x11 x12 x13 x14) x15 x16 := rfl

end generic

theorem v210 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144) :
    val_main_v210 (F := Ideal) x0 x2 x3 x4 x5 x6 x7 x8 x11 x12 x13 x14 x15 x16 (ix2 p n) = R3 (argsOf x0 x1 x2 x3 x4 x5 x6 x7 x8 x9 x10 x11 x12 x13 x14 x15 x16) p n := by
  rw [v210_eq, bn_apply]
  simp only [v184_eq, drp_apply, v148_eq, dns_apply, v132 x0 x1 x2 x3 x4 x5 x6 x7 x8 x9 x10 x11 x12 x13 x14 x15 x16]
  rfl

theorem v179 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (n : Fin 6144)
    (h3 : ∀ i, ∃ r : ℝ, x3 i = r) (h5 : ∀ i, ∃ r : ℝ, x5 i = r) (h7 : ∀ i, ∃ r : ℝ, x7 i = r) :
    val_main_v179 (F := Ideal) x0 x1 x3 x4 x5 x6 x7 x8 x11 x12 x13 x14 x15 x16 (ix2 p n) = B3 (argsOf x0 x1 x2 x3 x4 x5 x6 x7 x8 x9 x10 x11 x12 x13 x14 x15 x16) p n := by
  have hs : ∀ (p' : Fin 512) (k : Fin 6144), ste (val_main_v106 (F := Ideal) x0 x3 x4 x5 x6 x11 x12 x13 x14) (ix2 p' k)
      = Ideal.sign (B2 (argsOf x0 x1 x2 x3 x4 x5 x6 x7 x8 x9 x10 x11 x12 x13 x14 x15 x16) p' k) := fun p' k => by
    rw [ste_apply _ _ (by rw [v106 x0 x1 x2 x3 x4 x5 x6 x7 x8 x9 x10 x11 x12 x13 x14 x15 x16 p' k h3 h5]; exact layerB_real _ _ _ _ _ _ _), v106 x0 x1 x2 x3 x4 x5 x6 x7 x8 x9 x10 x11 x12 x13 x14 x15 x16 p' k h3 h5]
  rw [v179_eq, bn_apply]
  simp only [v153_eq, drp_apply, v143_eq, dns_apply, v135_eq, hs, v138_eq, ste6144_apply x7 h7]
  rfl

end Cert.ReferenceIdeal.RefSpec

end
-- ==== Proof.RefSpec4.lean ====
/-
  The classifier: the reference's ten-column result is the specification's dense unit on the binary path's third-layer
  activations, coordinate by coordinate.
-/
import proofs.«130870_j71201967833887_2_alg».proof.Proof.RefRead
import proofs.«130870_j71201967833887_2_alg».proof.Proof.NetSpec
import proofs.«130870_j71201967833887_2_alg».proof.Proof.RefSpec3

noncomputable section

namespace Cert.ReferenceIdeal.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.NetSpec Cert.LibBnSpec

theorem v215 (x0 : (⟨S512x784, .f32⟩ : BufTy).Contents (Elt Ideal)) (x1 : (⟨S512x6144, .f32⟩ : BufTy).Contents (Elt Ideal)) (x2 : (⟨S512x6144, .f32⟩ : BufTy).Contents (Elt Ideal)) (x3 : (⟨S6144x784, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S10x6144, .f32⟩ : BufTy).Contents (Elt Ideal)) (x10 : (⟨S10, .f32⟩ : BufTy).Contents (Elt Ideal)) (x11 : (⟨S6144, .f32⟩ : BufTy).Contents (Elt Ideal)) (x12 : (⟨S6144, .f32⟩ : BufTy).Contents (Elt Ideal)) (x13 : (⟨S6144, .f32⟩ : BufTy).Contents (Elt Ideal)) (x14 : (⟨S6144, .f32⟩ : BufTy).Contents (Elt Ideal)) (x15 : (⟨S6144, .f32⟩ : BufTy).Contents (Elt Ideal)) (x16 : (⟨S6144, .f32⟩ : BufTy).Contents (Elt Ideal)) (p : Fin 512) (j : Fin 10)
    (h3 : ∀ i, ∃ r : ℝ, x3 i = r) (h5 : ∀ i, ∃ r : ℝ, x5 i = r) (h7 : ∀ i, ∃ r : ℝ, x7 i = r) :
    val_main_v215 (F := Ideal) x0 x1 x3 x4 x5 x6 x7 x8 x9 x10 x11 x12 x13 x14 x15 x16 (ix2 p j) = out (argsOf x0 x1 x2 x3 x4 x5 x6 x7 x8 x9 x10 x11 x12 x13 x14 x15 x16) p j := by
  rw [val_main_v215_apply, val_main_v212_apply, val_main_v214_apply, val_main_v213_apply, Ideal.addf_def]
  show _ = (∑ k, B3 (argsOf x0 x1 x2 x3 x4 x5 x6 x7 x8 x9 x10 x11 x12 x13 x14 x15 x16) p k * x9 (ix2 j k)) + x10 (ix1 j)
  congr 1
  · refine Finset.sum_congr rfl fun k _ => ?_
    rw [val_main_v211_apply]
    congr 1
    · have hi : lidx_main_v212 (ix2 p j) k = ix2 p k := (funext fun d => Fin.ext (by match d with | ⟨0, _⟩ => rfl | ⟨1, _⟩ => rfl))
      rw [hi, v179 x0 x1 x2 x3 x4 x5 x6 x7 x8 x9 x10 x11 x12 x13 x14 x15 x16 p k h3 h5 h7]
    · exact congrArg x9 (funext fun d => Fin.ext (by match d with | ⟨0, _⟩ => rfl | ⟨1, _⟩ => rfl))
  · exact congrArg x10 (funext fun d => Fin.ext (by match d with | ⟨0, _⟩ => rfl))

end Cert.ReferenceIdeal.RefSpec

end
-- ==== Proof.RefSpec.lean ====
/-
  The reference's eight array results as the specification's functions: the four layers' statements together.
-/
import proofs.«130870_j71201967833887_2_alg».proof.Proof.RefSpec4
-- ==== Proof.RefTail.lean ====
/-
  The reference's last stretch, the row-wise log-softmax, as one function of the classifier's output.
-/
import proofs.«130870_j71201967833887_2_alg».proof.Proof.RefRead

noncomputable section

namespace Cert.ReferenceIdeal.RefTail

open Cert.ReferenceIdeal Cert.ReferenceIdeal.Gen Cert.ReferenceIdeal.ReadP Idealize.ShloMosaic

/-- The row-wise log-softmax as the reference spells it: subtract the row maximum (taken from `-∞`), then subtract
    the logarithm of the row's sum of exponentials. -/
def lsmR (y : FVec Ideal S512x10 .f32) : FVec Ideal S512x10 .f32 :=
  let v5 : FVec Ideal S512x10 .f32 := subf (F := Ideal) y
    (broadcastInDim S512x10 ![0, 1] bcast_S512x1_S512x10_0_1 (broadcastInDim S512x1 ![0] bcast_S512_S512x1_0
      (maximumf (F := Ideal) (broadcastInDim S512 ![] bcast_S_S512 (constant (F := Ideal) S_ .f32 0xFF800000#32))
        (Host.reduce (FloatOps.maximumf (F := Ideal)) y (constant (F := Ideal) S_ .f32 0xFF800000#32) reducesTo_S512x10_S512_d1 h_S_))))
  subf (F := Ideal) v5
    (broadcastInDim S512x10 ![0, 1] bcast_S512x1_S512x10_0_1 (Host.log (F := Ideal) (broadcastInDim S512x1 ![0] bcast_S512_S512x1_0
      (Host.reduceAdd (F := Ideal) (Host.exp (F := Ideal) v5) (constant (F := Ideal) S_ .f32 0x00000000#32) reducesTo_S512x10_S512_d1 h_S_))))

/-- The reference's result is `lsmR` of its classifier's output. -/
theorem v216_eq (x0 : FVec Ideal S512x784 .f32) (x1 : FVec Ideal S512x6144 .f32) (x3 : FVec Ideal S6144x784 .f32) (x4 : FVec Ideal S6144 .f32) (x5 : FVec Ideal S6144x6144 .f32) (x6 : FVec Ideal S6144 .f32) (x7 : FVec Ideal S6144x6144 .f32) (x8 : FVec Ideal S6144 .f32) (x9 : FVec Ideal S10x6144 .f32) (x10 : FVec Ideal S10 .f32) (x11 x12 x13 x14 x15 x16 : FVec Ideal S6144 .f32) :
    val_main_v216 (F := Ideal) x0 x1 x3 x4 x5 x6 x7 x8 x9 x10 x11 x12 x13 x14 x15 x16 = lsmR (val_main_v215 (F := Ideal) x0 x1 x3 x4 x5 x6 x7 x8 x9 x10 x11 x12 x13 x14 x15 x16) := by
  unfold val_main_v216 val_main_call8_v10 val_main_call8_v9 val_main_call8_v8 val_main_call8_v7 val_main_call8_cst_1
    val_main_call8_v6 val_main_call8_v5 val_main_call8_v4 val_main_call8_v3 val_main_call8_v2 val_main_call8_v1
    val_main_call8_cst_0 val_main_call8_v0 val_main_call8_cst lsmR
  generalize val_main_v215 (F := Ideal) x0 x1 x3 x4 x5 x6 x7 x8 x9 x10 x11 x12 x13 x14 x15 x16 = y
  rfl

end Cert.ReferenceIdeal.RefTail

end
-- ==== Proof.TailEq.lean ====
/-
  The two programs' log-softmax stretches are the same function: their shape abbreviations unfold to the same
  shapes and their side conditions are propositions, so the two spellings agree term by term.
-/
import proofs.«130870_j71201967833887_2_alg».proof.Proof.KI_Host
import proofs.«130870_j71201967833887_2_alg».proof.Proof.RefTail

noncomputable section

namespace Cert.TailEq

open Idealize.ShloMosaic

/-- The kernel's and the reference's log-softmax agree on every array. -/
theorem lsm_eq (y : FVec Ideal Cert.KernelIdeal.S512x10 .f32) :
    Cert.KernelIdeal.Host.lsm y = Cert.ReferenceIdeal.RefTail.lsmR y := rfl

end Cert.TailEq

end
-- ==== Proof.Bridge.lean ====
/-
  The idealised kernel's eight results are the reference's eight stage values, as arrays, given what the three
  regions leave: both sides are read at a coordinate as the same function of the launch arrays (a layer of the
  network for the six region outputs, the dense classifier for the ninth buffer), and the last result is the same
  row-wise log-softmax of the classifier's output on both sides.
-/
import proofs.«130870_j71201967833887_2_alg».proof.Proof.KI_Chain
import proofs.«130870_j71201967833887_2_alg».proof.Proof.KI_Host
import proofs.«130870_j71201967833887_2_alg».proof.Proof.RefSpec
import proofs.«130870_j71201967833887_2_alg».proof.Proof.RefTail
import proofs.«130870_j71201967833887_2_alg».proof.Proof.TailEq

noncomputable section

namespace Cert.Bridge

open Cert.KernelIdeal Cert.KernelIdeal.Gen Cert.KernelIdeal.Run Cert.KernelIdeal.Halves Cert.KernelIdeal.Results Cert.KernelIdeal.Chain
open Idealize.ShloMosaic Idealize.ShloMosaic.TcCoe Idealize.SL.Sem ValueIdx
open Cert.ReferenceIdeal (ReadP.val_main_v216 ReadP.val_main_v215 ReadP.val_main_v38 ReadP.val_main_v64 ReadP.val_main_v106
  ReadP.val_main_v132 ReadP.val_main_v179 ReadP.val_main_v210)

variable (m : (ℓ : Loc nD τ sig) → Buf (Elt Ideal) ℓ) (c : Dev nD)

/-- The launch array of argument 0 on core `c`. -/
abbrev a0 : FVec Ideal S512x784 .f32 := m ((c : Thread nD τ).loc main_arg0)
/-- The launch array of argument 1 on core `c`. -/
abbrev a1 : FVec Ideal S512x6144 .f32 := m ((c : Thread nD τ).loc main_arg1)
/-- The launch array of argument 2 on core `c`. -/
abbrev a2 : FVec Ideal S512x6144 .f32 := m ((c : Thread nD τ).loc main_arg2)
/-- The launch array of argument 3 on core `c`. -/
abbrev a3 : FVec Ideal S6144x784 .f32 := m ((c : Thread nD τ).loc main_arg3)
/-- The launch array of argument 4 on core `c`. -/
abbrev a4 : FVec Ideal S6144 .f32 := m ((c : Thread nD τ).loc main_arg4)
/-- The launch array of argument 5 on core `c`. -/
abbrev a5 : FVec Ideal S6144x6144 .f32 := m ((c : Thread nD τ).loc main_arg5)
/-- The launch array of argument 6 on core `c`. -/
abbrev a6 : FVec Ideal S6144 .f32 := m ((c : Thread nD τ).loc main_arg6)
/-- The launch array of argument 7 on core `c`. -/
abbrev a7 : FVec Ideal S6144x6144 .f32 := m ((c : Thread nD τ).loc main_arg7)
/-- The launch array of argument 8 on core `c`. -/
abbrev a8 : FVec Ideal S6144 .f32 := m ((c : Thread nD τ).loc main_arg8)
/-- The launch array of argument 9 on core `c`. -/
abbrev a9 : FVec Ideal S10x6144 .f32 := m ((c : Thread nD τ).loc main_arg9)
/-- The launch array of argument 10 on core `c`. -/
abbrev a10 : FVec Ideal S10 .f32 := m ((c : Thread nD τ).loc main_arg10)
/-- The launch array of argument 11 on core `c`. -/
abbrev a11 : FVec Ideal S6144 .f32 := m ((c : Thread nD τ).loc main_arg11)
/-- The launch array of argument 12 on core `c`. -/
abbrev a12 : FVec Ideal S6144 .f32 := m ((c : Thread nD τ).loc main_arg12)
/-- The launch array of argument 13 on core `c`. -/
abbrev a13 : FVec Ideal S6144 .f32 := m ((c : Thread nD τ).loc main_arg13)
/-- The launch array of argument 14 on core `c`. -/
abbrev a14 : FVec Ideal S6144 .f32 := m ((c : Thread nD τ).loc main_arg14)
/-- The launch array of argument 15 on core `c`. -/
abbrev a15 : FVec Ideal S6144 .f32 := m ((c : Thread nD τ).loc main_arg15)
/-- The launch array of argument 16 on core `c`. -/
abbrev a16 : FVec Ideal S6144 .f32 := m ((c : Thread nD τ).loc main_arg16)

/-- The launch arrays of core `c` at coordinates. -/
def args : NetSpec.Args := Cert.ReferenceIdeal.RefSpec.argsOf (a0 m c) (a1 m c) (a2 m c) (a3 m c) (a4 m c) (a5 m c) (a6 m c) (a7 m c) (a8 m c) (a9 m c) (a10 m c) (a11 m c) (a12 m c) (a13 m c) (a14 m c) (a15 m c) (a16 m c)

/-- Two rank-2 arrays that agree at every pair of coordinates are equal. -/
theorem ext2 {n0 n1 : Nat} {f g : (⟨2, ![n0, n1]⟩ : Shape).Idx → EReal} (h : ∀ p n, f (ix2 p n) = g (ix2 p n)) : f = g := by
  funext j
  rw [eq_ix2 j]
  exact h _ _

/-- The ninth buffer: the classifier on what region 2 leaves is the reference's classifier stage. -/
theorem v9_eq
    (L3 : (∀ p n, (X7 m c main_v4_0 : S512x6144.Idx → EReal) (ix2 p n) = NetSpec.B3 (args m c) p n)
      ∧ (∀ p n, (X7 m c main_v4_1 : S512x6144.Idx → EReal) (ix2 p n) = NetSpec.R3 (args m c) p n))
    (h3 : ∀ i, ∃ r : ℝ, a3 m c i = (r : EReal)) (h5 : ∀ i, ∃ r : ℝ, a5 m c i = (r : EReal)) (h7 : ∀ i, ∃ r : ℝ, a7 m c i = (r : EReal)) :
    (V9 m c main_v9 : S512x10.Idx → EReal) = ReadP.val_main_v215 (F := Ideal) (a0 m c) (a1 m c) (a3 m c) (a4 m c) (a5 m c) (a6 m c) (a7 m c) (a8 m c) (a9 m c) (a10 m c) (a11 m c) (a12 m c) (a13 m c) (a14 m c) (a15 m c) (a16 m c) :=
  ext2 fun p j => by
    refine ((congrFun (V9_v9 m c) _).trans ((congrFun (Host.W8_v9 m h0 h1 h2 c) _).trans (Host.tailOut_apply _ _ _ p j))).trans ?_
    refine Eq.trans ?_ (Cert.ReferenceIdeal.RefSpec.v215 (a0 m c) (a1 m c) (a2 m c) (a3 m c) (a4 m c) (a5 m c) (a6 m c) (a7 m c) (a8 m c) (a9 m c) (a10 m c) (a11 m c) (a12 m c) (a13 m c) (a14 m c) (a15 m c) (a16 m c) p j h3 h5 h7).symm
    exact congr (congr (congrArg NetSpec.dense (funext fun k => L3.1 p k)) (funext fun k => congrFun (X7_arg9 m c) (ix2 j k)))
      (congrFun (X7_arg10 m c) (ix1 j))

/-- THE BRIDGE. Given what the three regions leave (each region output, at a coordinate, the layer of the network it
    stands for) and that the three weight matrices hold real numbers, each of the kernel's eight result buffers at the
    end of the run is the reference's stage value on the same launch arrays. -/
theorem results
    (L1 : (∀ p n, (X5 m c main_v2_0 : S512x6144.Idx → EReal) (ix2 p n) = NetSpec.B1 (args m c) p n)
      ∧ (∀ p n, (X5 m c main_v2_1 : S512x6144.Idx → EReal) (ix2 p n) = NetSpec.R1 (args m c) p n)
      ∧ (∀ p n, (X5 m c main_v2_2 : S512x6144.Idx → EReal) (ix2 p n) = Ideal.sign (NetSpec.B1 (args m c) p n)))
    (L2 : (∀ p n, (X6 m c main_v3_0 : S512x6144.Idx → EReal) (ix2 p n) = NetSpec.B2 (args m c) p n)
      ∧ (∀ p n, (X6 m c main_v3_1 : S512x6144.Idx → EReal) (ix2 p n) = NetSpec.R2 (args m c) p n)
      ∧ (∀ p n, (X6 m c main_v3_2 : S512x6144.Idx → EReal) (ix2 p n) = Ideal.sign (NetSpec.B2 (args m c) p n)))
    (L3 : (∀ p n, (X7 m c main_v4_0 : S512x6144.Idx → EReal) (ix2 p n) = NetSpec.B3 (args m c) p n)
      ∧ (∀ p n, (X7 m c main_v4_1 : S512x6144.Idx → EReal) (ix2 p n) = NetSpec.R3 (args m c) p n))
    (h3 : ∀ i, ∃ r : ℝ, a3 m c i = (r : EReal)) (h5 : ∀ i, ∃ r : ℝ, a5 m c i = (r : EReal)) (h7 : ∀ i, ∃ r : ℝ, a7 m c i = (r : EReal)) :
    (V9 m c main_v10 : S512x10.Idx → EReal) = ReadP.val_main_v216 (F := Ideal) (a0 m c) (a1 m c) (a3 m c) (a4 m c) (a5 m c) (a6 m c) (a7 m c) (a8 m c) (a9 m c) (a10 m c) (a11 m c) (a12 m c) (a13 m c) (a14 m c) (a15 m c) (a16 m c)
    ∧ (V9 m c main_v9 : S512x10.Idx → EReal) = ReadP.val_main_v215 (F := Ideal) (a0 m c) (a1 m c) (a3 m c) (a4 m c) (a5 m c) (a6 m c) (a7 m c) (a8 m c) (a9 m c) (a10 m c) (a11 m c) (a12 m c) (a13 m c) (a14 m c) (a15 m c) (a16 m c)
    ∧ (V9 m c main_v2_0 : S512x6144.Idx → EReal) = ReadP.val_main_v38 (F := Ideal) (a0 m c) (a3 m c) (a4 m c) (a11 m c) (a12 m c)
    ∧ (V9 m c main_v2_1 : S512x6144.Idx → EReal) = ReadP.val_main_v64 (F := Ideal) (a0 m c) (a3 m c) (a4 m c) (a11 m c) (a12 m c)
    ∧ (V9 m c main_v3_0 : S512x6144.Idx → EReal) = ReadP.val_main_v106 (F := Ideal) (a0 m c) (a3 m c) (a4 m c) (a5 m c) (a6 m c) (a11 m c) (a12 m c) (a13 m c) (a14 m c)
    ∧ (V9 m c main_v3_1 : S512x6144.Idx → EReal) = ReadP.val_main_v132 (F := Ideal) (a0 m c) (a3 m c) (a4 m c) (a5 m c) (a6 m c) (a11 m c) (a12 m c) (a13 m c) (a14 m c)
    ∧ (V9 m c main_v4_0 : S512x6144.Idx → EReal) = ReadP.val_main_v179 (F := Ideal) (a0 m c) (a1 m c) (a3 m c) (a4 m c) (a5 m c) (a6 m c) (a7 m c) (a8 m c) (a11 m c) (a12 m c) (a13 m c) (a14 m c) (a15 m c) (a16 m c)
    ∧ (V9 m c main_v4_1 : S512x6144.Idx → EReal) = ReadP.val_main_v210 (F := Ideal) (a0 m c) (a2 m c) (a3 m c) (a4 m c) (a5 m c) (a6 m c) (a7 m c) (a8 m c) (a11 m c) (a12 m c) (a13 m c) (a14 m c) (a15 m c) (a16 m c) := by
  have e9 := v9_eq m c L3 h3 h5 h7
  refine ⟨?_, e9, ?_, ?_, ?_, ?_, ?_, ?_⟩
  · exact (Host.W9_v10 m h0 h1 h2 c).trans ((congrArg Host.lsm ((V9_v9 m c).symm.trans e9)).trans
      ((Cert.TailEq.lsm_eq _).trans (Cert.ReferenceIdeal.RefTail.v216_eq (a0 m c) (a1 m c) (a3 m c) (a4 m c) (a5 m c) (a6 m c) (a7 m c) (a8 m c) (a9 m c) (a10 m c) (a11 m c) (a12 m c) (a13 m c) (a14 m c) (a15 m c) (a16 m c)).symm))
  · exact ext2 fun p n => (congrFun (V9_v2_0 m c) _).trans ((L1.1 p n).trans (Cert.ReferenceIdeal.RefSpec.v38 (a0 m c) (a1 m c) (a2 m c) (a3 m c) (a4 m c) (a5 m c) (a6 m c) (a7 m c) (a8 m c) (a9 m c) (a10 m c) (a11 m c) (a12 m c) (a13 m c) (a14 m c) (a15 m c) (a16 m c) p n h3).symm)
  · exact ext2 fun p n => (congrFun (V9_v2_1 m c) _).trans ((L1.2.1 p n).trans (Cert.ReferenceIdeal.RefSpec.v64 (a0 m c) (a1 m c) (a2 m c) (a3 m c) (a4 m c) (a5 m c) (a6 m c) (a7 m c) (a8 m c) (a9 m c) (a10 m c) (a11 m c) (a12 m c) (a13 m c) (a14 m c) (a15 m c) (a16 m c) p n).symm)
  · exact ext2 fun p n => (congrFun (V9_v3_0 m c) _).trans ((L2.1 p n).trans (Cert.ReferenceIdeal.RefSpec.v106 (a0 m c) (a1 m c) (a2 m c) (a3 m c) (a4 m c) (a5 m c) (a6 m c) (a7 m c) (a8 m c) (a9 m c) (a10 m c) (a11 m c) (a12 m c) (a13 m c) (a14 m c) (a15 m c) (a16 m c) p n h3 h5).symm)
  · exact ext2 fun p n => (congrFun (V9_v3_1 m c) _).trans ((L2.2.1 p n).trans (Cert.ReferenceIdeal.RefSpec.v132 (a0 m c) (a1 m c) (a2 m c) (a3 m c) (a4 m c) (a5 m c) (a6 m c) (a7 m c) (a8 m c) (a9 m c) (a10 m c) (a11 m c) (a12 m c) (a13 m c) (a14 m c) (a15 m c) (a16 m c) p n).symm)
  · exact ext2 fun p n => (congrFun (V9_v4_0 m c) _).trans ((L3.1 p n).trans (Cert.ReferenceIdeal.RefSpec.v179 (a0 m c) (a1 m c) (a2 m c) (a3 m c) (a4 m c) (a5 m c) (a6 m c) (a7 m c) (a8 m c) (a9 m c) (a10 m c) (a11 m c) (a12 m c) (a13 m c) (a14 m c) (a15 m c) (a16 m c) p n h3 h5 h7).symm)
  · exact ext2 fun p n => (congrFun (V9_v4_1 m c) _).trans ((L3.2 p n).trans (Cert.ReferenceIdeal.RefSpec.v210 (a0 m c) (a1 m c) (a2 m c) (a3 m c) (a4 m c) (a5 m c) (a6 m c) (a7 m c) (a8 m c) (a9 m c) (a10 m c) (a11 m c) (a12 m c) (a13 m c) (a14 m c) (a15 m c) (a16 m c) p n).symm)

end Cert.Bridge

end
-- ==== Proof.KI_Net.lean ====
/-
  The idealised kernel's eight results are the network's functions of the launch arrays.

  Region 0 finds the two zero-padded operands and the bias and normalisation vectors, and leaves the first layer's two
  paths and the binary path's signs; region 1 finds those and leaves the second layer's; region 2 the third's, through
  the dropout masks; the host tail applies the classifier and the row-wise log-softmax. Each step is the region's value
  theorem at the stage's entry contents, read through the chain of valuations.
-/
import proofs.«130870_j71201967833887_2_alg».proof.Proof.KI_Chain
import proofs.«130870_j71201967833887_2_alg».proof.Proof.KI_V0_Values
import proofs.«130870_j71201967833887_2_alg».proof.Proof.KI_V1_Values
import proofs.«130870_j71201967833887_2_alg».proof.Proof.KI_V2_Values
import proofs.«130870_j71201967833887_2_alg».proof.Proof.KI_Host
import proofs.«130870_j71201967833887_2_alg».proof.Proof.Bridge

noncomputable section

namespace Cert.KernelIdeal.Net

open Cert.KernelIdeal Cert.KernelIdeal.Gen Cert.KernelIdeal.Run Cert.KernelIdeal.Halves Cert.KernelIdeal.Results Cert.KernelIdeal.Chain
open Idealize.ShloMosaic Idealize.ShloMosaic.TcCoe Idealize.SL.Sem ValueIdx Cert.NetSpec Cert.LibBnSpec Cert.Bridge

variable (m : (ℓ : Loc nD τ sig) → Buf (Elt Ideal) ℓ) (c : Dev nD)

variable (fx : ∀ p k, ∃ r : ℝ, (args m c).x p k = (r : EReal)) (fw1 : ∀ n k, ∃ r : ℝ, (args m c).w1 n k = (r : EReal))
  (fw2 : ∀ n k, ∃ r : ℝ, (args m c).w2 n k = (r : EReal)) (fw3 : ∀ n k, ∃ r : ℝ, (args m c).w3 n k = (r : EReal))

include fx fw1 in
/-- After region 0: the first layer's two paths, and the binary path's signs. -/
theorem layer1 :
    (∀ p n, (X5 m c main_v2_0 : S512x6144.Idx → EReal) (ix2 p n) = B1 (args m c) p n) ∧ (∀ p n, (X5 m c main_v2_1 : S512x6144.Idx → EReal) (ix2 p n) = R1 (args m c) p n)
    ∧ (∀ p n, (X5 m c main_v2_2 : S512x6144.Idx → EReal) (ix2 p n) = Ideal.sign (B1 (args m c) p n)) := by
  have h := Cert.KernelIdeal.V0.values (E0 m) c (args m c).x (args m c).w1 (args m c).b1 (args m c).g1 (args m c).be1
    (Cert.KernelIdeal.Host.padX m c) (Cert.KernelIdeal.Host.padW m c)
    (fun n => congrFun (X4_arg4 m c) (ix1 n)) (fun n => congrFun (X4_arg11 m c) (ix1 n)) (fun n => congrFun (X4_arg12 m c) (ix1 n)) fx fw1
  rw [X5_v2_0, X5_v2_1, X5_v2_2]
  exact h

include fx fw1 fw2 in
/-- After region 1: the second layer's. -/
theorem layer2 :
    (∀ p n, (X6 m c main_v3_0 : S512x6144.Idx → EReal) (ix2 p n) = B2 (args m c) p n) ∧ (∀ p n, (X6 m c main_v3_1 : S512x6144.Idx → EReal) (ix2 p n) = R2 (args m c) p n)
    ∧ (∀ p n, (X6 m c main_v3_2 : S512x6144.Idx → EReal) (ix2 p n) = Ideal.sign (B2 (args m c) p n)) := by
  obtain ⟨-, hR, hS⟩ := layer1 m c fx fw1
  have h := Cert.KernelIdeal.V1.values (E1 h0 m) c (fun p k => Ideal.sign (B1 (args m c) p k)) (R1 (args m c)) (args m c).w2 (args m c).b2 (args m c).g2 (args m c).be2
    hS hR (fun n k => congrFun (X5_arg5 m c) (ix2 n k))
    (fun n => congrFun (X5_arg6 m c) (ix1 n)) (fun n => congrFun (X5_arg13 m c) (ix1 n)) (fun n => congrFun (X5_arg14 m c) (ix1 n))
    (fun p k => layerR_real _ _ _ _ _ p k) fw2
  rw [X6_v3_0, X6_v3_1, X6_v3_2]
  exact h

include fx fw1 fw2 fw3 in
/-- After region 2: the third layer's, through the dropout masks. -/
theorem layer3 :
    (∀ p n, (X7 m c main_v4_0 : S512x6144.Idx → EReal) (ix2 p n) = B3 (args m c) p n) ∧ (∀ p n, (X7 m c main_v4_1 : S512x6144.Idx → EReal) (ix2 p n) = R3 (args m c) p n) := by
  obtain ⟨-, hR, hS⟩ := layer2 m c fx fw1 fw2
  have h := Cert.KernelIdeal.V2.values (E2 h0 h1 m) c (args m c).u1 (args m c).u2 (fun p k => Ideal.sign (B2 (args m c) p k)) (R2 (args m c)) (args m c).w3 (args m c).b3 (args m c).g3 (args m c).be3
    hS hR (fun n k => congrFun (X6_arg7 m c) (ix2 n k))
    (fun p n => congrFun (X6_arg1 m c) (ix2 p n)) (fun p n => congrFun (X6_arg2 m c) (ix2 p n))
    (fun n => congrFun (X6_arg8 m c) (ix1 n)) (fun n => congrFun (X6_arg15 m c) (ix1 n)) (fun n => congrFun (X6_arg16 m c) (ix1 n))
    (fun p k => layerR_real _ _ _ _ _ p k) fw3
  rw [X7_v4_0, X7_v4_1]
  exact h

end Cert.KernelIdeal.Net

end
-- ==== Proof.FinitePre.lean ====
/-
  The precondition "every input array is finite", read back at the extended reals.

  The printed predicate is a conjunction, one conjunct per argument array `a`: the conjunction over all
  indices `i` of the test `|a i| < +∞`.  Over the extended reals `|x| = max x (-x)`, and `max x (-x) < ⊤`
  excludes both `x = ⊤` and `x = ⊥`, so each entry is (the coercion of) a real number.
-/
import proofs.«130870_j71201967833887_2_alg».proof.Pre_finite_inputs
import Idealize.ShloMosaic.Lib.ReduceAll
import Idealize.ShloMosaic.Lib.ValueIdx
import Idealize.ShloMosaic.PureOps.Ideal

noncomputable section

namespace Cert.FinitePre

open Idealize.ShloMosaic Cert.Pre_finite_inputs

/-- The rank-0 shape has exactly one index. -/
instance : Subsingleton S_.Idx := ⟨fun a b => funext fun d => d.elim0⟩

/-- The word `0x7F800000` is `+∞`. -/
theorem inf_eq_top : Ideal.ofBits .f32 0x7F800000#32 = (⊤ : EReal) := by
  simp [Ideal.ofBits, Ideal.ieee]

/-- An extended real `x` with `max x (-x) < +∞` is a real number: the test fails at `⊤` (where `x = ⊤`)
    and at `⊥` (where `-x = ⊤`). -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_eq_top] at h
  unfold Ideal.cmp at h
  induction x using EReal.rec with
  | bot => simp at h
  | coe r => exact ⟨r, rfl⟩
  | top => simp at h

/-- One conjunct of the predicate: if the conjunction over all indices of `|a i| < +∞` holds, every entry
    of `a` is a real number. -/
theorem all_real {T : Shape} {axes : List (Fin T.rank)} (a : FVec Ideal T .f32)
    (hb : S_.BroadcastsInDim T (![] : Fin 0 → Fin T.rank)) (hr : T.ReducesTo axes S_) (hu : 0 < S_.numel)
    (e : Host.reduce IntOp.andi
          (cmpf .olt (Host.absf a) (broadcastInDim T ![] hb (constant (F := Ideal) S_ .f32 0x7F800000#32)))
          (constantI S_ 1 1#1) hr hu ValueIdx.ix0 = 1#1)
    (i : T.Idx) : ∃ r : ℝ, a i = (r : EReal) :=
  real_of_abs_lt_inf (a i) (Host.reduce_andi_all _ _ hr hu _ e i)

/-- A conjunction of two truth values that holds at an index: both hold there. -/
theorem andi_split {x y : IVec S_ 1} {j : S_.Idx} (h : andi x y j = 1#1) : x j = 1#1 ∧ y j = 1#1 :=
  IntOp.andi_eq_one.1 h

/-- From the predicate: the arrays `a0`, `a3`, `a5`, `a7` hold real numbers only.  The seventeen conjuncts
    are joined left to right, so the conjunct of the `k`-th array is reached by taking the left factor
    `16 - k` times (for `k ≥ 1`) and then the right factor. -/
theorem finite_of_fn [Facts] (a0 : FVec Ideal S512x784 .f32) (a1 : FVec Ideal S512x6144 .f32) (a2 : FVec Ideal S512x6144 .f32) (a3 : FVec Ideal S6144x784 .f32) (a4 : FVec Ideal S6144 .f32) (a5 : FVec Ideal S6144x6144 .f32) (a6 : FVec Ideal S6144 .f32) (a7 : FVec Ideal S6144x6144 .f32) (a8 : FVec Ideal S6144 .f32) (a9 : FVec Ideal S10x6144 .f32) (a10 : FVec Ideal S10 .f32) (a11 : FVec Ideal S6144 .f32) (a12 : FVec Ideal S6144 .f32) (a13 : FVec Ideal S6144 .f32) (a14 : FVec Ideal S6144 .f32) (a15 : FVec Ideal S6144 .f32) (a16 : FVec Ideal S6144 .f32)
    (h : Cert.Pre_finite_inputs.fn (F := Ideal) a0 a1 a2 a3 a4 a5 a6 a7 a8 a9 a10 a11 a12 a13 a14 a15 a16 = (fun _ => 1#1)) :
    (∀ i, ∃ r : ℝ, a0 i = (r : EReal)) ∧ (∀ i, ∃ r : ℝ, a3 i = (r : EReal))
      ∧ (∀ i, ∃ r : ℝ, a5 i = (r : EReal)) ∧ (∀ i, ∃ r : ℝ, a7 i = (r : EReal)) := by
  have h16 := congrFun h ValueIdx.ix0
  dsimp only [fn, fn_part1, fn_part2, fn_part3, fn_part4] at h16
  have h15 := (andi_split h16).1
  have h14 := (andi_split h15).1
  have h13 := (andi_split h14).1
  have h12 := (andi_split h13).1
  have h11 := (andi_split h12).1
  have h10 := (andi_split h11).1
  have h9 := (andi_split h10).1
  have h8 := (andi_split h9).1
  have h7 := (andi_split h8).1
  have h6 := (andi_split h7).1
  have h5 := (andi_split h6).1
  have h4 := (andi_split h5).1
  have h3 := (andi_split h4).1
  have h2 := (andi_split h3).1
  have h1 := (andi_split h2).1
  exact ⟨all_real a0 _ _ _ (andi_split h1).1, all_real a3 _ _ _ (andi_split h3).2,
    all_real a5 _ _ _ (andi_split h5).2, all_real a7 _ _ _ (andi_split h7).2⟩

end Cert.FinitePre

end
-- ==== Proof.Algebraic.lean ====
/-
  The value claim. Run from memories that agree on the seventeen argument arrays, the idealised kernel and the
  idealised reference both terminate; the kernel's eight result buffers end at the last valuation of its run, the
  reference's at its eight result stages; and under the precondition (the first input and the three weight matrices
  hold real numbers) the two are the same arrays: both are the network's functions of the launch arrays, index by index.
-/
import proofs.«130870_j71201967833887_2_alg».proof.Defs
import proofs.«130870_j71201967833887_2_alg».proof.Proof.KI_Net
import proofs.«130870_j71201967833887_2_alg».proof.Proof.Bridge
import proofs.«130870_j71201967833887_2_alg».proof.Proof.RefRun
import proofs.«130870_j71201967833887_2_alg».proof.Proof.FinitePre

noncomputable section

namespace Cert.Proof.Parts

open Idealize.ShloMosaic Idealize.ShloMosaic.TcCoe Idealize.SL.Sem ValueIdx

theorem algebraic : Cert.algebraic_KernelIdeal_ReferenceIdeal := by
  intro m ρ m' ρ' hpre hagree
  refine ⟨fun c => Cert.KernelIdeal.Results.V9 m c Cert.KernelIdeal.main_v10, fun c => Cert.KernelIdeal.Results.V9 m c Cert.KernelIdeal.main_v9,
    fun c => Cert.KernelIdeal.Results.V9 m c Cert.KernelIdeal.main_v2_0, fun c => Cert.KernelIdeal.Results.V9 m c Cert.KernelIdeal.main_v2_1,
    fun c => Cert.KernelIdeal.Results.V9 m c Cert.KernelIdeal.main_v3_0, fun c => Cert.KernelIdeal.Results.V9 m c Cert.KernelIdeal.main_v3_1,
    fun c => Cert.KernelIdeal.Results.V9 m c Cert.KernelIdeal.main_v4_0, fun c => Cert.KernelIdeal.Results.V9 m c Cert.KernelIdeal.main_v4_1,
    Cert.KernelIdeal.Results.run m ρ, ?_⟩
  refine (θ_run Cert.ReferenceIdeal.defs _ _).mono (fun r h c => ?_) (Cert.ReferenceIdeal.RefValue.run (F := Ideal) m' ρ')
  obtain ⟨f0, f3, f5, f7⟩ := Cert.FinitePre.finite_of_fn _ _ _ _ _ _ _ _ _ _ _ _ _ _ _ _ _ (hpre c)
  obtain ⟨e0, e1, e2, e3, e4, e5, e6, e7, e8, e9, e10, e11, e12, e13, e14, e15, e16⟩ := hagree c
  have L1 := Cert.KernelIdeal.Net.layer1 m c (fun p k => f0 (ix2 p k)) (fun n k => f3 (ix2 n k))
  have L2 := Cert.KernelIdeal.Net.layer2 m c (fun p k => f0 (ix2 p k)) (fun n k => f3 (ix2 n k)) (fun n k => f5 (ix2 n k))
  have L3 := Cert.KernelIdeal.Net.layer3 m c (fun p k => f0 (ix2 p k)) (fun n k => f3 (ix2 n k)) (fun n k => f5 (ix2 n k)) (fun n k => f7 (ix2 n k))
  obtain ⟨k216, k215, k38, k64, k106, k132, k179, k210⟩ := Cert.Bridge.results m c L1 L2 L3 f3 f5 f7
  obtain ⟨h216, h215, h38, h64, h106, h132, h179, h210, hargs⟩ := h c
  rw [e0, e1, e3, e4, e5, e6, e7, e8, e9, e10, e11, e12, e13, e14, e15, e16] at h216 h215
  rw [e0, e3, e4, e11, e12] at h38 h64
  rw [e0, e3, e4, e5, e6, e11, e12, e13, e14] at h106 h132
  rw [e0, e1, e3, e4, e5, e6, e7, e8, e11, e12, e13, e14, e15, e16] at h179
  rw [e0, e2, e3, e4, e5, e6, e7, e8, e11, e12, e13, e14, e15, e16] at h210
  exact ⟨h216.trans k216.symm, h215.trans k215.symm, h38.trans k38.symm, h64.trans k64.symm, h106.trans k106.symm,
    h132.trans k132.symm, h179.trans k179.symm, h210.trans k210.symm, hargs⟩

end Cert.Proof.Parts

end
-- ==== Proof.lean ====
/-
  The certificate: the three frames, the idealisation ledger and the value claim, under the generated witnesses of the
  programs' stated side conditions.
-/
import proofs.«130870_j71201967833887_2_alg».proof.Defs
import proofs.«130870_j71201967833887_2_alg».proof.Proof.Gen.Kernel
import proofs.«130870_j71201967833887_2_alg».proof.Proof.Gen.KernelIdeal
import proofs.«130870_j71201967833887_2_alg».proof.Proof.Gen.ReferenceIdeal
import proofs.«130870_j71201967833887_2_alg».proof.Proof.Gen.Pre_finite_inputs
import proofs.«130870_j71201967833887_2_alg».proof.Proof.Frames
import proofs.«130870_j71201967833887_2_alg».proof.Proof.Preserves
import proofs.«130870_j71201967833887_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_K, Cert.Proof.Parts.frame_KI, Cert.Proof.Parts.frame_RI, Cert.Proof.Parts.preserves, Cert.Proof.Parts.algebraic⟩

end Cert.Proof

end
